-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x128 : Shape := ⟨2, ![16384, 128]⟩
abbrev S16384 : Shape := ⟨1, ![16384]⟩
abbrev S100 : Shape := ⟨1, ![100]⟩
abbrev S100x128 : Shape := ⟨2, ![100, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S16384 : S_.BroadcastsInDim S16384 (![] : Fin 0 → Fin S16384.rank)
  reducesTo_S16384_S_d0 : S16384.ReducesTo [0] S_
  bcast_S_S100 : S_.BroadcastsInDim S100 (![] : Fin 0 → Fin S100.rank)
  reducesTo_S100_S_d0 : S100.ReducesTo [0] S_

variable [Facts]

def fn_part1 {F : FTy → Type} [FloatOps F] (main_arg2 : IVec S100 32) (main_v15 : IVec S_ 1) (main_c_5 : IVec S_ 32) : IVec S_ 1 :=
  let main_v16 : IVec S100 32 := broadcastInDim S100 ![] bcast_S_S100 main_c_5
  let main_v17 : IVec S100 1 := cmpi .sge main_arg2 main_v16
  let main_c_6 : IVec S_ 32 := constantI S_ 32 99#32
  let main_v18 : IVec S100 32 := broadcastInDim S100 ![] bcast_S_S100 main_c_6
  let main_v19 : IVec S100 1 := cmpi .sle main_arg2 main_v18
  let main_v20 : IVec S100 1 := andi main_v17 main_v19
  let main_c_7 : IVec S_ 1 := constantI S_ 1 1#1
  let main_v21 : IVec S_ 1 := (fun x v => Host.reduce IntOp.andi x v reducesTo_S100_S_d0 h_S_) main_v20 main_c_7
  let main_v22 : IVec S_ 1 := andi main_v15 main_v21
  main_v22

def fn {F : FTy → Type} [FloatOps F] (main_arg0 : FVec F S16384x128 .f32) (main_arg1 : IVec S16384 32) (main_arg2 : IVec S100 32) (main_arg3 : FVec F S100x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 99#32
  let main_v11 : IVec S16384 32 := broadcastInDim S16384 ![] bcast_S_S16384 main_c_3
  let main_v12 : IVec S16384 1 := cmpi .sle main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S16384x128 : Shape := ⟨2, ![16384, 128]⟩
abbrev S16384 : Shape := ⟨1, ![16384]⟩
abbrev S100 : Shape := ⟨1, ![100]⟩
abbrev S100x128 : Shape := ⟨2, ![100, 128]⟩
abbrev S512 : Shape := ⟨1, ![512]⟩
abbrev S256x128 : Shape := ⟨2, ![256, 128]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 6
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S100, .i32⟩
  | .hbm, ⟨3, _⟩ => ⟨S100x128, .f32⟩
  | .hbm, ⟨4, _⟩ => ⟨S16384x128, .f32⟩
  | .local .scVector .vmem, ⟨0, _⟩ => ⟨S512, .i32⟩
  | .local .scVector .vmem, ⟨1, _⟩ => ⟨S512, .i32⟩
  | .local .scVector .vmem, ⟨2, _⟩ => ⟨S100, .i32⟩
  | .local .scVector .vmem, ⟨3, _⟩ => ⟨S100x128, .f32⟩
  | .local .scVector .vmem, ⟨4, _⟩ => ⟨S256x128, .f32⟩
  | .local .scVector .vmem, ⟨5, _⟩ => ⟨S256x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v5 : BitVec 32 := Scalar.addi v2 c0_i32
  let c0_i32_0 : BitVec 32 := 0#32
  ![v5.toNat, 0]
@[reducible] def k0_t1_loop : Scf.Loop 32 :=
  let c0_i32_5 : BitVec 32 := 0#32
  let c32_i32 : BitVec 32 := 32#32
  let v13 : BitVec 32 := Scalar.addi c0_i32_5 c32_i32
  let c1_i32 : BitVec 32 := 1#32
  ⟨c0_i32_5, v13, c1_i32⟩
def k0_off3 (k0_t1 : Fin k0_t1_loop.trips) : Fin 1 → Nat :=
  let c0_i32_5 : BitVec 32 := 0#32
  let c1_i32 : BitVec 32 := 1#32
  let arg20 : BitVec 32 := Scf.iv c0_i32_5 c1_i32 k0_t1
  let c16_i32_35 : BitVec 32 := 16#32
  let v49 : BitVec 32 := Scalar.muli arg20 c16_i32_35
  let v50 : Index := Scalar.indexCast v49
  ![v50.toNat]

def k0_chk1 (v51 : IVec S16 32) : Prop :=
  (∀ a x, ((![v51] : Fin 1 → IVec S16 32) a x).toNat < S100.size a)
instance k0_chk1.dec : ∀ (v51 : IVec S16 32), Decidable (k0_chk1 v51) := fun v51 => decidable_of_iff' _ (Iff.of_eq (k0_chk1.eq_1 v51))
theorem k0_idx1_inb : ∀ (v51 : IVec S16 32) (k0_hw1 : k0_chk1 v51), ∀ a x, ((![v51] : Fin 1 → IVec S16 32) a x).toNat < S100.size a := fun v51 k0_hw1 => k0_hw1
def k0_off4 (k0_t1 : Fin k0_t1_loop.trips) : Fin 1 → Nat :=
  let c0_i32_5 : BitVec 32 := 0#32
  let c1_i32 : BitVec 32 := 1#32
  let arg20 : BitVec 32 := Scf.iv c0_i32_5 c1_i32 k0_t1
  let c16_i32_36 : BitVec 32 := 16#32
  let v53 : BitVec 32 := Scalar.muli arg20 c16_i32_36
  let v54 : Index := Scalar.indexCast v53
  ![v54.toNat]
@[reducible] def k0_t2_loop : Scf.Loop 32 :=
  let c0_i32_12 : BitVec 32 := 0#32
  let c32_i32_13 : BitVec 32 := 32#32
  let v33 : BitVec 32 := Scalar.addi c0_i32_12 c32_i32_13
  let c1_i32_14 : BitVec 32 := 1#32
  ⟨c0_i32_12, v33, c1_i32_14⟩

def k0_chk2 (v52 : IVec S16 32) : Prop :=
  (∀ a x, ((![v52] : Fin 1 → IVec S16 32) a x).toNat < S512.size a)
instance k0_chk2.dec : ∀ (v52 : IVec S16 32), Decidable (k0_chk2 v52) := fun v52 => decidable_of_iff' _ (Iff.of_eq (k0_chk2.eq_1 v52))
theorem k0_idx2_inb : ∀ (v52 : IVec S16 32) (k0_hw2 : k0_chk2 v52), ∀ a x, ((![v52] : Fin 1 → IVec S16 32) a x).toNat < S512.size a := fun v52 k0_hw2 => k0_hw2

def k0_chk3 (v55 : IVec S16 32) : Prop :=
  (∀ a x, ((![v55] : Fin 1 → IVec S16 32) a x).toNat < S512.size a)
instance k0_chk3.dec : ∀ (v55 : IVec S16 32), Decidable (k0_chk3 v55) := fun v55 => decidable_of_iff' _ (Iff.of_eq (k0_chk3.eq_1 v55))
theorem k0_idx3_inb : ∀ (v55 : IVec S16 32) (k0_hw3 : k0_chk3 v55), ∀ a x, ((![v55] : Fin 1 → IVec S16 32) a x).toNat < S512.size a := fun v55 k0_hw3 => k0_hw3

def k0_chk4 (v58 : IVec S16 32) : Prop :=
  (∀ a x, ((![v58] : Fin 1 → IVec S16 32) a x).toNat < S512.size a)
instance k0_chk4.dec : ∀ (v58 : IVec S16 32), Decidable (k0_chk4 v58) := fun v58 => decidable_of_iff' _ (Iff.of_eq (k0_chk4.eq_1 v58))
theorem k0_idx4_inb : ∀ (v58 : IVec S16 32) (k0_hw4 : k0_chk4 v58), ∀ a x, ((![v58] : Fin 1 → IVec S16 32) a x).toNat < S512.size a := fun v58 k0_hw4 => k0_hw4

def k0_chk5 (v61 : IVec S16 32) : Prop :=
  (∀ a x, ((![v61] : Fin 1 → IVec S16 32) a x).toNat < S512.size a)
instance k0_chk5.dec : ∀ (v61 : IVec S16 32), Decidable (k0_chk5 v61) := fun v61 => decidable_of_iff' _ (Iff.of_eq (k0_chk5.eq_1 v61))
theorem k0_idx5_inb : ∀ (v61 : IVec S16 32) (k0_hw5 : k0_chk5 v61), ∀ a x, ((![v61] : Fin 1 → IVec S16 32) a x).toNat < S512.size a := fun v61 k0_hw5 => k0_hw5

def k0_chk6 (v64 : IVec S16 32) : Prop :=
  (∀ a x, ((![v64] : Fin 1 → IVec S16 32) a x).toNat < S512.size a)
instance k0_chk6.dec : ∀ (v64 : IVec S16 32), Decidable (k0_chk6 v64) := fun v64 => decidable_of_iff' _ (Iff.of_eq (k0_chk6.eq_1 v64))
theorem k0_idx6_inb : ∀ (v64 : IVec S16 32) (k0_hw6 : k0_chk6 v64), ∀ a x, ((![v64] : Fin 1 → IVec S16 32) a x).toNat < S512.size a := fun v64 k0_hw6 => k0_hw6

def k0_chk7 (v67 : IVec S16 32) : Prop :=
  (∀ a x, ((![v67] : Fin 1 → IVec S16 32) a x).toNat < S512.size a)
instance k0_chk7.dec : ∀ (v67 : IVec S16 32), Decidable (k0_chk7 v67) := fun v67 => decidable_of_iff' _ (Iff.of_eq (k0_chk7.eq_1 v67))
theorem k0_idx7_inb : ∀ (v67 : IVec S16 32) (k0_hw7 : k0_chk7 v67), ∀ a x, ((![v67] : Fin 1 → IVec S16 32) a x).toNat < S512.size a := fun v67 k0_hw7 => k0_hw7

def k0_chk8 (v70 : IVec S16 32) : Prop :=
  (∀ a x, ((![v70] : Fin 1 → IVec S16 32) a x).toNat < S512.size a)
instance k0_chk8.dec : ∀ (v70 : IVec S16 32), Decidable (k0_chk8 v70) := fun v70 => decidable_of_iff' _ (Iff.of_eq (k0_chk8.eq_1 v70))
theorem k0_idx8_inb : ∀ (v70 : IVec S16 32) (k0_hw8 : k0_chk8 v70), ∀ a x, ((![v70] : Fin 1 → IVec S16 32) a x).toNat < S512.size a := fun v70 k0_hw8 => k0_hw8

def k0_chk9 (v73 : IVec S16 32) : Prop :=
  (∀ a x, ((![v73] : Fin 1 → IVec S16 32) a x).toNat < S512.size a)
instance k0_chk9.dec : ∀ (v73 : IVec S16 32), Decidable (k0_chk9 v73) := fun v73 => decidable_of_iff' _ (Iff.of_eq (k0_chk9.eq_1 v73))
theorem k0_idx9_inb : ∀ (v73 : IVec S16 32) (k0_hw9 : k0_chk9 v73), ∀ a x, ((![v73] : Fin 1 → IVec S16 32) a x).toNat < S512.size a := fun v73 k0_hw9 => k0_hw9

def k0_chk10 (v16 : IVec S16 32) (v18 : IVec S16 32) (v20 : IVec S16 32) (v22 : IVec S16 32) (v24 : IVec S16 32) (v26 : IVec S16 32) (v28 : IVec S16 32) (v30 : IVec S16 32) (v53 : IVec S16 32) : Prop :=
  (∀ a x, ((![v53, v16] : Fin 2 → IVec S16 32) a x).toNat < S100x128.size a) ∧
  (∀ a x, ((![v53, v18] : Fin 2 → IVec S16 32) a x).toNat < S100x128.size a) ∧
  (∀ a x, ((![v53, v20] : Fin 2 → IVec S16 32) a x).toNat < S100x128.size a) ∧
  (∀ a x, ((![v53, v22] : Fin 2 → IVec S16 32) a x).toNat < S100x128.size a) ∧
  (∀ a x, ((![v53, v24] : Fin 2 → IVec S16 32) a x).toNat < S100x128.size a) ∧
  (∀ a x, ((![v53, v26] : Fin 2 → IVec S16 32) a x).toNat < S100x128.size a) ∧
  (∀ a x, ((![v53, v28] : Fin 2 → IVec S16 32) a x).toNat < S100x128.size a) ∧
  (∀ a x, ((![v53, v30] : Fin 2 → IVec S16 32) a x).toNat < S100x128.size a)
instance k0_chk10.dec : ∀ (v16 : IVec S16 32) (v18 : IVec S16 32) (v20 : IVec S16 32) (v22 : IVec S16 32) (v24 : IVec S16 32) (v26 : IVec S16 32) (v28 : IVec S16 32) (v30 : IVec S16 32) (v53 : IVec S16 32), Decidable (k0_chk10 v16 v18 v20 v22 v24 v26 v28 v30 v53) := fun v16 v18 v20 v22 v24 v26 v28 v30 v53 => decidable_of_iff' _ (Iff.of_eq (k0_chk10.eq_1 v16 v18 v20 v22 v24 v26 v28 v30 v53))
theorem k0_idx10_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v16] : Fin 2 → IVec S16 32) a x).toNat < S100x128.size a := fun v16 v18 v20 v22 v24 v26 v28 v30 v53 k0_hw10 => k0_hw10.1
theorem k0_idx11_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v18] : Fin 2 → IVec S16 32) a x).toNat < S100x128.size a := fun v16 v18 v20 v22 v24 v26 v28 v30 v53 k0_hw10 => k0_hw10.2.1
theorem k0_idx12_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v20] : Fin 2 → IVec S16 32) a x).toNat < S100x128.size a := fun v16 v18 v20 v22 v24 v26 v28 v30 v53 k0_hw10 => k0_hw10.2.2.1
theorem k0_idx13_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v22] : Fin 2 → IVec S16 32) a x).toNat < S100x128.size a := fun v16 v18 v20 v22 v24 v26 v28 v30 v53 k0_hw10 => k0_hw10.2.2.2.1
theorem k0_idx14_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v24] : Fin 2 → IVec S16 32) a x).toNat < S100x128.size a := fun v16 v18 v20 v22 v24 v26 v28 v30 v53 k0_hw10 => k0_hw10.2.2.2.2.1
theorem k0_idx15_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v26] : Fin 2 → IVec S16 32) a x).toNat < S100x128.size a := fun v16 v18 v20 v22 v24 v26 v28 v30 v53 k0_hw10 => k0_hw10.2.2.2.2.2.1
theorem k0_idx16_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v28] : Fin 2 → IVec S16 32) a x).toNat < S100x128.size a := fun v16 v18 v20 v22 v24 v26 v28 v30 v53 k0_hw10 => k0_hw10.2.2.2.2.2.2.1
theorem k0_idx17_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw10 : k0_chk10 v16 v18 v20 v22 v24 v26 v28 v30 v53), ∀ a x, ((![v53, v30] : Fin 2 → IVec S16 32) a x).toNat < S100x128.size a := fun v16 v18 v20 v22 v24 v26 v28 v30 v53 k0_hw10 => k0_hw10.2.2.2.2.2.2.2
def k0_off5 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v85 : Index := Scalar.indexCast v76
  let c0 : Index := 0#32
  ![v85.toNat, 0]
def k0_off6 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v87 : Index := Scalar.indexCast v76
  let c16 : Index := 16#32
  ![v87.toNat, 16]
def k0_off7 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v89 : Index := Scalar.indexCast v76
  let c32 : Index := 32#32
  ![v89.toNat, 32]
def k0_off8 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v91 : Index := Scalar.indexCast v76
  let c48 : Index := 48#32
  ![v91.toNat, 48]
def k0_off9 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v93 : Index := Scalar.indexCast v76
  let c64 : Index := 64#32
  ![v93.toNat, 64]
def k0_off10 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v95 : Index := Scalar.indexCast v76
  let c80 : Index := 80#32
  ![v95.toNat, 80]
def k0_off11 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v97 : Index := Scalar.indexCast v76
  let c96 : Index := 96#32
  ![v97.toNat, 96]
def k0_off12 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_39 : BitVec 32 := 8#32
  let v75 : BitVec 32 := Scalar.muli arg20 c8_i32_39
  let c0_i32_40 : BitVec 32 := 0#32
  let v76 : BitVec 32 := Scalar.addi v75 c0_i32_40
  let v99 : Index := Scalar.indexCast v76
  let c112 : Index := 112#32
  ![v99.toNat, 112]

def k0_chk11 (v16 : IVec S16 32) (v18 : IVec S16 32) (v20 : IVec S16 32) (v22 : IVec S16 32) (v24 : IVec S16 32) (v26 : IVec S16 32) (v28 : IVec S16 32) (v30 : IVec S16 32) (v56 : IVec S16 32) : Prop :=
  (∀ a x, ((![v56, v16] : Fin 2 → IVec S16 32) a x).toNat < S100x128.size a) ∧
  (∀ a x, ((![v56, v18] : Fin 2 → IVec S16 32) a x).toNat < S100x128.size a) ∧
  (∀ a x, ((![v56, v20] : Fin 2 → IVec S16 32) a x).toNat < S100x128.size a) ∧
  (∀ a x, ((![v56, v22] : Fin 2 → IVec S16 32) a x).toNat < S100x128.size a) ∧
  (∀ a x, ((![v56, v24] : Fin 2 → IVec S16 32) a x).toNat < S100x128.size a) ∧
  (∀ a x, ((![v56, v26] : Fin 2 → IVec S16 32) a x).toNat < S100x128.size a) ∧
  (∀ a x, ((![v56, v28] : Fin 2 → IVec S16 32) a x).toNat < S100x128.size a) ∧
  (∀ a x, ((![v56, v30] : Fin 2 → IVec S16 32) a x).toNat < S100x128.size a)
instance k0_chk11.dec : ∀ (v16 : IVec S16 32) (v18 : IVec S16 32) (v20 : IVec S16 32) (v22 : IVec S16 32) (v24 : IVec S16 32) (v26 : IVec S16 32) (v28 : IVec S16 32) (v30 : IVec S16 32) (v56 : IVec S16 32), Decidable (k0_chk11 v16 v18 v20 v22 v24 v26 v28 v30 v56) := fun v16 v18 v20 v22 v24 v26 v28 v30 v56 => decidable_of_iff' _ (Iff.of_eq (k0_chk11.eq_1 v16 v18 v20 v22 v24 v26 v28 v30 v56))
theorem k0_idx18_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v16] : Fin 2 → IVec S16 32) a x).toNat < S100x128.size a := fun v16 v18 v20 v22 v24 v26 v28 v30 v56 k0_hw11 => k0_hw11.1
theorem k0_idx19_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v18] : Fin 2 → IVec S16 32) a x).toNat < S100x128.size a := fun v16 v18 v20 v22 v24 v26 v28 v30 v56 k0_hw11 => k0_hw11.2.1
theorem k0_idx20_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v20] : Fin 2 → IVec S16 32) a x).toNat < S100x128.size a := fun v16 v18 v20 v22 v24 v26 v28 v30 v56 k0_hw11 => k0_hw11.2.2.1
theorem k0_idx21_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v22] : Fin 2 → IVec S16 32) a x).toNat < S100x128.size a := fun v16 v18 v20 v22 v24 v26 v28 v30 v56 k0_hw11 => k0_hw11.2.2.2.1
theorem k0_idx22_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v24] : Fin 2 → IVec S16 32) a x).toNat < S100x128.size a := fun v16 v18 v20 v22 v24 v26 v28 v30 v56 k0_hw11 => k0_hw11.2.2.2.2.1
theorem k0_idx23_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v26] : Fin 2 → IVec S16 32) a x).toNat < S100x128.size a := fun v16 v18 v20 v22 v24 v26 v28 v30 v56 k0_hw11 => k0_hw11.2.2.2.2.2.1
theorem k0_idx24_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v28] : Fin 2 → IVec S16 32) a x).toNat < S100x128.size a := fun v16 v18 v20 v22 v24 v26 v28 v30 v56 k0_hw11 => k0_hw11.2.2.2.2.2.2.1
theorem k0_idx25_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw11 : k0_chk11 v16 v18 v20 v22 v24 v26 v28 v30 v56), ∀ a x, ((![v56, v30] : Fin 2 → IVec S16 32) a x).toNat < S100x128.size a := fun v16 v18 v20 v22 v24 v26 v28 v30 v56 k0_hw11 => k0_hw11.2.2.2.2.2.2.2
def k0_off13 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v135 : Index := Scalar.indexCast v126
  let c0_51 : Index := 0#32
  ![v135.toNat, 0]
def k0_off14 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v137 : Index := Scalar.indexCast v126
  let c16_52 : Index := 16#32
  ![v137.toNat, 16]
def k0_off15 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v139 : Index := Scalar.indexCast v126
  let c32_53 : Index := 32#32
  ![v139.toNat, 32]
def k0_off16 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v141 : Index := Scalar.indexCast v126
  let c48_54 : Index := 48#32
  ![v141.toNat, 48]
def k0_off17 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v143 : Index := Scalar.indexCast v126
  let c64_55 : Index := 64#32
  ![v143.toNat, 64]
def k0_off18 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v145 : Index := Scalar.indexCast v126
  let c80_56 : Index := 80#32
  ![v145.toNat, 80]
def k0_off19 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v147 : Index := Scalar.indexCast v126
  let c96_57 : Index := 96#32
  ![v147.toNat, 96]
def k0_off20 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_49 : BitVec 32 := 8#32
  let v125 : BitVec 32 := Scalar.muli arg20 c8_i32_49
  let c1_i32_50 : BitVec 32 := 1#32
  let v126 : BitVec 32 := Scalar.addi v125 c1_i32_50
  let v149 : Index := Scalar.indexCast v126
  let c112_58 : Index := 112#32
  ![v149.toNat, 112]

def k0_chk12 (v16 : IVec S16 32) (v18 : IVec S16 32) (v20 : IVec S16 32) (v22 : IVec S16 32) (v24 : IVec S16 32) (v26 : IVec S16 32) (v28 : IVec S16 32) (v30 : IVec S16 32) (v59 : IVec S16 32) : Prop :=
  (∀ a x, ((![v59, v16] : Fin 2 → IVec S16 32) a x).toNat < S100x128.size a) ∧
  (∀ a x, ((![v59, v18] : Fin 2 → IVec S16 32) a x).toNat < S100x128.size a) ∧
  (∀ a x, ((![v59, v20] : Fin 2 → IVec S16 32) a x).toNat < S100x128.size a) ∧
  (∀ a x, ((![v59, v22] : Fin 2 → IVec S16 32) a x).toNat < S100x128.size a) ∧
  (∀ a x, ((![v59, v24] : Fin 2 → IVec S16 32) a x).toNat < S100x128.size a) ∧
  (∀ a x, ((![v59, v26] : Fin 2 → IVec S16 32) a x).toNat < S100x128.size a) ∧
  (∀ a x, ((![v59, v28] : Fin 2 → IVec S16 32) a x).toNat < S100x128.size a) ∧
  (∀ a x, ((![v59, v30] : Fin 2 → IVec S16 32) a x).toNat < S100x128.size a)
instance k0_chk12.dec : ∀ (v16 : IVec S16 32) (v18 : IVec S16 32) (v20 : IVec S16 32) (v22 : IVec S16 32) (v24 : IVec S16 32) (v26 : IVec S16 32) (v28 : IVec S16 32) (v30 : IVec S16 32) (v59 : IVec S16 32), Decidable (k0_chk12 v16 v18 v20 v22 v24 v26 v28 v30 v59) := fun v16 v18 v20 v22 v24 v26 v28 v30 v59 => decidable_of_iff' _ (Iff.of_eq (k0_chk12.eq_1 v16 v18 v20 v22 v24 v26 v28 v30 v59))
theorem k0_idx26_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v16] : Fin 2 → IVec S16 32) a x).toNat < S100x128.size a := fun v16 v18 v20 v22 v24 v26 v28 v30 v59 k0_hw12 => k0_hw12.1
theorem k0_idx27_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v18] : Fin 2 → IVec S16 32) a x).toNat < S100x128.size a := fun v16 v18 v20 v22 v24 v26 v28 v30 v59 k0_hw12 => k0_hw12.2.1
theorem k0_idx28_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v20] : Fin 2 → IVec S16 32) a x).toNat < S100x128.size a := fun v16 v18 v20 v22 v24 v26 v28 v30 v59 k0_hw12 => k0_hw12.2.2.1
theorem k0_idx29_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v22] : Fin 2 → IVec S16 32) a x).toNat < S100x128.size a := fun v16 v18 v20 v22 v24 v26 v28 v30 v59 k0_hw12 => k0_hw12.2.2.2.1
theorem k0_idx30_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v24] : Fin 2 → IVec S16 32) a x).toNat < S100x128.size a := fun v16 v18 v20 v22 v24 v26 v28 v30 v59 k0_hw12 => k0_hw12.2.2.2.2.1
theorem k0_idx31_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v26] : Fin 2 → IVec S16 32) a x).toNat < S100x128.size a := fun v16 v18 v20 v22 v24 v26 v28 v30 v59 k0_hw12 => k0_hw12.2.2.2.2.2.1
theorem k0_idx32_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v28] : Fin 2 → IVec S16 32) a x).toNat < S100x128.size a := fun v16 v18 v20 v22 v24 v26 v28 v30 v59 k0_hw12 => k0_hw12.2.2.2.2.2.2.1
theorem k0_idx33_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw12 : k0_chk12 v16 v18 v20 v22 v24 v26 v28 v30 v59), ∀ a x, ((![v59, v30] : Fin 2 → IVec S16 32) a x).toNat < S100x128.size a := fun v16 v18 v20 v22 v24 v26 v28 v30 v59 k0_hw12 => k0_hw12.2.2.2.2.2.2.2
def k0_off21 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v185 : Index := Scalar.indexCast v176
  let c0_69 : Index := 0#32
  ![v185.toNat, 0]
def k0_off22 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v187 : Index := Scalar.indexCast v176
  let c16_70 : Index := 16#32
  ![v187.toNat, 16]
def k0_off23 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v189 : Index := Scalar.indexCast v176
  let c32_71 : Index := 32#32
  ![v189.toNat, 32]
def k0_off24 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v191 : Index := Scalar.indexCast v176
  let c48_72 : Index := 48#32
  ![v191.toNat, 48]
def k0_off25 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v193 : Index := Scalar.indexCast v176
  let c64_73 : Index := 64#32
  ![v193.toNat, 64]
def k0_off26 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v195 : Index := Scalar.indexCast v176
  let c80_74 : Index := 80#32
  ![v195.toNat, 80]
def k0_off27 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v197 : Index := Scalar.indexCast v176
  let c96_75 : Index := 96#32
  ![v197.toNat, 96]
def k0_off28 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_67 : BitVec 32 := 8#32
  let v175 : BitVec 32 := Scalar.muli arg20 c8_i32_67
  let c2_i32_68 : BitVec 32 := 2#32
  let v176 : BitVec 32 := Scalar.addi v175 c2_i32_68
  let v199 : Index := Scalar.indexCast v176
  let c112_76 : Index := 112#32
  ![v199.toNat, 112]

def k0_chk13 (v16 : IVec S16 32) (v18 : IVec S16 32) (v20 : IVec S16 32) (v22 : IVec S16 32) (v24 : IVec S16 32) (v26 : IVec S16 32) (v28 : IVec S16 32) (v30 : IVec S16 32) (v62 : IVec S16 32) : Prop :=
  (∀ a x, ((![v62, v16] : Fin 2 → IVec S16 32) a x).toNat < S100x128.size a) ∧
  (∀ a x, ((![v62, v18] : Fin 2 → IVec S16 32) a x).toNat < S100x128.size a) ∧
  (∀ a x, ((![v62, v20] : Fin 2 → IVec S16 32) a x).toNat < S100x128.size a) ∧
  (∀ a x, ((![v62, v22] : Fin 2 → IVec S16 32) a x).toNat < S100x128.size a) ∧
  (∀ a x, ((![v62, v24] : Fin 2 → IVec S16 32) a x).toNat < S100x128.size a) ∧
  (∀ a x, ((![v62, v26] : Fin 2 → IVec S16 32) a x).toNat < S100x128.size a) ∧
  (∀ a x, ((![v62, v28] : Fin 2 → IVec S16 32) a x).toNat < S100x128.size a) ∧
  (∀ a x, ((![v62, v30] : Fin 2 → IVec S16 32) a x).toNat < S100x128.size a)
instance k0_chk13.dec : ∀ (v16 : IVec S16 32) (v18 : IVec S16 32) (v20 : IVec S16 32) (v22 : IVec S16 32) (v24 : IVec S16 32) (v26 : IVec S16 32) (v28 : IVec S16 32) (v30 : IVec S16 32) (v62 : IVec S16 32), Decidable (k0_chk13 v16 v18 v20 v22 v24 v26 v28 v30 v62) := fun v16 v18 v20 v22 v24 v26 v28 v30 v62 => decidable_of_iff' _ (Iff.of_eq (k0_chk13.eq_1 v16 v18 v20 v22 v24 v26 v28 v30 v62))
theorem k0_idx34_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v16] : Fin 2 → IVec S16 32) a x).toNat < S100x128.size a := fun v16 v18 v20 v22 v24 v26 v28 v30 v62 k0_hw13 => k0_hw13.1
theorem k0_idx35_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v18] : Fin 2 → IVec S16 32) a x).toNat < S100x128.size a := fun v16 v18 v20 v22 v24 v26 v28 v30 v62 k0_hw13 => k0_hw13.2.1
theorem k0_idx36_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v20] : Fin 2 → IVec S16 32) a x).toNat < S100x128.size a := fun v16 v18 v20 v22 v24 v26 v28 v30 v62 k0_hw13 => k0_hw13.2.2.1
theorem k0_idx37_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v22] : Fin 2 → IVec S16 32) a x).toNat < S100x128.size a := fun v16 v18 v20 v22 v24 v26 v28 v30 v62 k0_hw13 => k0_hw13.2.2.2.1
theorem k0_idx38_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v24] : Fin 2 → IVec S16 32) a x).toNat < S100x128.size a := fun v16 v18 v20 v22 v24 v26 v28 v30 v62 k0_hw13 => k0_hw13.2.2.2.2.1
theorem k0_idx39_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v26] : Fin 2 → IVec S16 32) a x).toNat < S100x128.size a := fun v16 v18 v20 v22 v24 v26 v28 v30 v62 k0_hw13 => k0_hw13.2.2.2.2.2.1
theorem k0_idx40_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v28] : Fin 2 → IVec S16 32) a x).toNat < S100x128.size a := fun v16 v18 v20 v22 v24 v26 v28 v30 v62 k0_hw13 => k0_hw13.2.2.2.2.2.2.1
theorem k0_idx41_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw13 : k0_chk13 v16 v18 v20 v22 v24 v26 v28 v30 v62), ∀ a x, ((![v62, v30] : Fin 2 → IVec S16 32) a x).toNat < S100x128.size a := fun v16 v18 v20 v22 v24 v26 v28 v30 v62 k0_hw13 => k0_hw13.2.2.2.2.2.2.2
def k0_off29 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v235 : Index := Scalar.indexCast v226
  let c0_87 : Index := 0#32
  ![v235.toNat, 0]
def k0_off30 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v237 : Index := Scalar.indexCast v226
  let c16_88 : Index := 16#32
  ![v237.toNat, 16]
def k0_off31 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v239 : Index := Scalar.indexCast v226
  let c32_89 : Index := 32#32
  ![v239.toNat, 32]
def k0_off32 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v241 : Index := Scalar.indexCast v226
  let c48_90 : Index := 48#32
  ![v241.toNat, 48]
def k0_off33 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v243 : Index := Scalar.indexCast v226
  let c64_91 : Index := 64#32
  ![v243.toNat, 64]
def k0_off34 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v245 : Index := Scalar.indexCast v226
  let c80_92 : Index := 80#32
  ![v245.toNat, 80]
def k0_off35 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v247 : Index := Scalar.indexCast v226
  let c96_93 : Index := 96#32
  ![v247.toNat, 96]
def k0_off36 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_85 : BitVec 32 := 8#32
  let v225 : BitVec 32 := Scalar.muli arg20 c8_i32_85
  let c3_i32_86 : BitVec 32 := 3#32
  let v226 : BitVec 32 := Scalar.addi v225 c3_i32_86
  let v249 : Index := Scalar.indexCast v226
  let c112_94 : Index := 112#32
  ![v249.toNat, 112]

def k0_chk14 (v16 : IVec S16 32) (v18 : IVec S16 32) (v20 : IVec S16 32) (v22 : IVec S16 32) (v24 : IVec S16 32) (v26 : IVec S16 32) (v28 : IVec S16 32) (v30 : IVec S16 32) (v65 : IVec S16 32) : Prop :=
  (∀ a x, ((![v65, v16] : Fin 2 → IVec S16 32) a x).toNat < S100x128.size a) ∧
  (∀ a x, ((![v65, v18] : Fin 2 → IVec S16 32) a x).toNat < S100x128.size a) ∧
  (∀ a x, ((![v65, v20] : Fin 2 → IVec S16 32) a x).toNat < S100x128.size a) ∧
  (∀ a x, ((![v65, v22] : Fin 2 → IVec S16 32) a x).toNat < S100x128.size a) ∧
  (∀ a x, ((![v65, v24] : Fin 2 → IVec S16 32) a x).toNat < S100x128.size a) ∧
  (∀ a x, ((![v65, v26] : Fin 2 → IVec S16 32) a x).toNat < S100x128.size a) ∧
  (∀ a x, ((![v65, v28] : Fin 2 → IVec S16 32) a x).toNat < S100x128.size a) ∧
  (∀ a x, ((![v65, v30] : Fin 2 → IVec S16 32) a x).toNat < S100x128.size a)
instance k0_chk14.dec : ∀ (v16 : IVec S16 32) (v18 : IVec S16 32) (v20 : IVec S16 32) (v22 : IVec S16 32) (v24 : IVec S16 32) (v26 : IVec S16 32) (v28 : IVec S16 32) (v30 : IVec S16 32) (v65 : IVec S16 32), Decidable (k0_chk14 v16 v18 v20 v22 v24 v26 v28 v30 v65) := fun v16 v18 v20 v22 v24 v26 v28 v30 v65 => decidable_of_iff' _ (Iff.of_eq (k0_chk14.eq_1 v16 v18 v20 v22 v24 v26 v28 v30 v65))
theorem k0_idx42_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v16] : Fin 2 → IVec S16 32) a x).toNat < S100x128.size a := fun v16 v18 v20 v22 v24 v26 v28 v30 v65 k0_hw14 => k0_hw14.1
theorem k0_idx43_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v18] : Fin 2 → IVec S16 32) a x).toNat < S100x128.size a := fun v16 v18 v20 v22 v24 v26 v28 v30 v65 k0_hw14 => k0_hw14.2.1
theorem k0_idx44_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v20] : Fin 2 → IVec S16 32) a x).toNat < S100x128.size a := fun v16 v18 v20 v22 v24 v26 v28 v30 v65 k0_hw14 => k0_hw14.2.2.1
theorem k0_idx45_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v22] : Fin 2 → IVec S16 32) a x).toNat < S100x128.size a := fun v16 v18 v20 v22 v24 v26 v28 v30 v65 k0_hw14 => k0_hw14.2.2.2.1
theorem k0_idx46_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v24] : Fin 2 → IVec S16 32) a x).toNat < S100x128.size a := fun v16 v18 v20 v22 v24 v26 v28 v30 v65 k0_hw14 => k0_hw14.2.2.2.2.1
theorem k0_idx47_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v26] : Fin 2 → IVec S16 32) a x).toNat < S100x128.size a := fun v16 v18 v20 v22 v24 v26 v28 v30 v65 k0_hw14 => k0_hw14.2.2.2.2.2.1
theorem k0_idx48_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v28] : Fin 2 → IVec S16 32) a x).toNat < S100x128.size a := fun v16 v18 v20 v22 v24 v26 v28 v30 v65 k0_hw14 => k0_hw14.2.2.2.2.2.2.1
theorem k0_idx49_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw14 : k0_chk14 v16 v18 v20 v22 v24 v26 v28 v30 v65), ∀ a x, ((![v65, v30] : Fin 2 → IVec S16 32) a x).toNat < S100x128.size a := fun v16 v18 v20 v22 v24 v26 v28 v30 v65 k0_hw14 => k0_hw14.2.2.2.2.2.2.2
def k0_off37 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v285 : Index := Scalar.indexCast v276
  let c0_105 : Index := 0#32
  ![v285.toNat, 0]
def k0_off38 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v287 : Index := Scalar.indexCast v276
  let c16_106 : Index := 16#32
  ![v287.toNat, 16]
def k0_off39 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v289 : Index := Scalar.indexCast v276
  let c32_107 : Index := 32#32
  ![v289.toNat, 32]
def k0_off40 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v291 : Index := Scalar.indexCast v276
  let c48_108 : Index := 48#32
  ![v291.toNat, 48]
def k0_off41 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v293 : Index := Scalar.indexCast v276
  let c64_109 : Index := 64#32
  ![v293.toNat, 64]
def k0_off42 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v295 : Index := Scalar.indexCast v276
  let c80_110 : Index := 80#32
  ![v295.toNat, 80]
def k0_off43 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v297 : Index := Scalar.indexCast v276
  let c96_111 : Index := 96#32
  ![v297.toNat, 96]
def k0_off44 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_103 : BitVec 32 := 8#32
  let v275 : BitVec 32 := Scalar.muli arg20 c8_i32_103
  let c4_i32_104 : BitVec 32 := 4#32
  let v276 : BitVec 32 := Scalar.addi v275 c4_i32_104
  let v299 : Index := Scalar.indexCast v276
  let c112_112 : Index := 112#32
  ![v299.toNat, 112]

def k0_chk15 (v16 : IVec S16 32) (v18 : IVec S16 32) (v20 : IVec S16 32) (v22 : IVec S16 32) (v24 : IVec S16 32) (v26 : IVec S16 32) (v28 : IVec S16 32) (v30 : IVec S16 32) (v68 : IVec S16 32) : Prop :=
  (∀ a x, ((![v68, v16] : Fin 2 → IVec S16 32) a x).toNat < S100x128.size a) ∧
  (∀ a x, ((![v68, v18] : Fin 2 → IVec S16 32) a x).toNat < S100x128.size a) ∧
  (∀ a x, ((![v68, v20] : Fin 2 → IVec S16 32) a x).toNat < S100x128.size a) ∧
  (∀ a x, ((![v68, v22] : Fin 2 → IVec S16 32) a x).toNat < S100x128.size a) ∧
  (∀ a x, ((![v68, v24] : Fin 2 → IVec S16 32) a x).toNat < S100x128.size a) ∧
  (∀ a x, ((![v68, v26] : Fin 2 → IVec S16 32) a x).toNat < S100x128.size a) ∧
  (∀ a x, ((![v68, v28] : Fin 2 → IVec S16 32) a x).toNat < S100x128.size a) ∧
  (∀ a x, ((![v68, v30] : Fin 2 → IVec S16 32) a x).toNat < S100x128.size a)
instance k0_chk15.dec : ∀ (v16 : IVec S16 32) (v18 : IVec S16 32) (v20 : IVec S16 32) (v22 : IVec S16 32) (v24 : IVec S16 32) (v26 : IVec S16 32) (v28 : IVec S16 32) (v30 : IVec S16 32) (v68 : IVec S16 32), Decidable (k0_chk15 v16 v18 v20 v22 v24 v26 v28 v30 v68) := fun v16 v18 v20 v22 v24 v26 v28 v30 v68 => decidable_of_iff' _ (Iff.of_eq (k0_chk15.eq_1 v16 v18 v20 v22 v24 v26 v28 v30 v68))
theorem k0_idx50_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v16] : Fin 2 → IVec S16 32) a x).toNat < S100x128.size a := fun v16 v18 v20 v22 v24 v26 v28 v30 v68 k0_hw15 => k0_hw15.1
theorem k0_idx51_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v18] : Fin 2 → IVec S16 32) a x).toNat < S100x128.size a := fun v16 v18 v20 v22 v24 v26 v28 v30 v68 k0_hw15 => k0_hw15.2.1
theorem k0_idx52_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v20] : Fin 2 → IVec S16 32) a x).toNat < S100x128.size a := fun v16 v18 v20 v22 v24 v26 v28 v30 v68 k0_hw15 => k0_hw15.2.2.1
theorem k0_idx53_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v22] : Fin 2 → IVec S16 32) a x).toNat < S100x128.size a := fun v16 v18 v20 v22 v24 v26 v28 v30 v68 k0_hw15 => k0_hw15.2.2.2.1
theorem k0_idx54_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v24] : Fin 2 → IVec S16 32) a x).toNat < S100x128.size a := fun v16 v18 v20 v22 v24 v26 v28 v30 v68 k0_hw15 => k0_hw15.2.2.2.2.1
theorem k0_idx55_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v26] : Fin 2 → IVec S16 32) a x).toNat < S100x128.size a := fun v16 v18 v20 v22 v24 v26 v28 v30 v68 k0_hw15 => k0_hw15.2.2.2.2.2.1
theorem k0_idx56_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v28] : Fin 2 → IVec S16 32) a x).toNat < S100x128.size a := fun v16 v18 v20 v22 v24 v26 v28 v30 v68 k0_hw15 => k0_hw15.2.2.2.2.2.2.1
theorem k0_idx57_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw15 : k0_chk15 v16 v18 v20 v22 v24 v26 v28 v30 v68), ∀ a x, ((![v68, v30] : Fin 2 → IVec S16 32) a x).toNat < S100x128.size a := fun v16 v18 v20 v22 v24 v26 v28 v30 v68 k0_hw15 => k0_hw15.2.2.2.2.2.2.2
def k0_off45 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v335 : Index := Scalar.indexCast v326
  let c0_123 : Index := 0#32
  ![v335.toNat, 0]
def k0_off46 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v337 : Index := Scalar.indexCast v326
  let c16_124 : Index := 16#32
  ![v337.toNat, 16]
def k0_off47 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v339 : Index := Scalar.indexCast v326
  let c32_125 : Index := 32#32
  ![v339.toNat, 32]
def k0_off48 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v341 : Index := Scalar.indexCast v326
  let c48_126 : Index := 48#32
  ![v341.toNat, 48]
def k0_off49 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v343 : Index := Scalar.indexCast v326
  let c64_127 : Index := 64#32
  ![v343.toNat, 64]
def k0_off50 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v345 : Index := Scalar.indexCast v326
  let c80_128 : Index := 80#32
  ![v345.toNat, 80]
def k0_off51 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v347 : Index := Scalar.indexCast v326
  let c96_129 : Index := 96#32
  ![v347.toNat, 96]
def k0_off52 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_121 : BitVec 32 := 8#32
  let v325 : BitVec 32 := Scalar.muli arg20 c8_i32_121
  let c5_i32_122 : BitVec 32 := 5#32
  let v326 : BitVec 32 := Scalar.addi v325 c5_i32_122
  let v349 : Index := Scalar.indexCast v326
  let c112_130 : Index := 112#32
  ![v349.toNat, 112]

def k0_chk16 (v16 : IVec S16 32) (v18 : IVec S16 32) (v20 : IVec S16 32) (v22 : IVec S16 32) (v24 : IVec S16 32) (v26 : IVec S16 32) (v28 : IVec S16 32) (v30 : IVec S16 32) (v71 : IVec S16 32) : Prop :=
  (∀ a x, ((![v71, v16] : Fin 2 → IVec S16 32) a x).toNat < S100x128.size a) ∧
  (∀ a x, ((![v71, v18] : Fin 2 → IVec S16 32) a x).toNat < S100x128.size a) ∧
  (∀ a x, ((![v71, v20] : Fin 2 → IVec S16 32) a x).toNat < S100x128.size a) ∧
  (∀ a x, ((![v71, v22] : Fin 2 → IVec S16 32) a x).toNat < S100x128.size a) ∧
  (∀ a x, ((![v71, v24] : Fin 2 → IVec S16 32) a x).toNat < S100x128.size a) ∧
  (∀ a x, ((![v71, v26] : Fin 2 → IVec S16 32) a x).toNat < S100x128.size a) ∧
  (∀ a x, ((![v71, v28] : Fin 2 → IVec S16 32) a x).toNat < S100x128.size a) ∧
  (∀ a x, ((![v71, v30] : Fin 2 → IVec S16 32) a x).toNat < S100x128.size a)
instance k0_chk16.dec : ∀ (v16 : IVec S16 32) (v18 : IVec S16 32) (v20 : IVec S16 32) (v22 : IVec S16 32) (v24 : IVec S16 32) (v26 : IVec S16 32) (v28 : IVec S16 32) (v30 : IVec S16 32) (v71 : IVec S16 32), Decidable (k0_chk16 v16 v18 v20 v22 v24 v26 v28 v30 v71) := fun v16 v18 v20 v22 v24 v26 v28 v30 v71 => decidable_of_iff' _ (Iff.of_eq (k0_chk16.eq_1 v16 v18 v20 v22 v24 v26 v28 v30 v71))
theorem k0_idx58_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v16] : Fin 2 → IVec S16 32) a x).toNat < S100x128.size a := fun v16 v18 v20 v22 v24 v26 v28 v30 v71 k0_hw16 => k0_hw16.1
theorem k0_idx59_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v18] : Fin 2 → IVec S16 32) a x).toNat < S100x128.size a := fun v16 v18 v20 v22 v24 v26 v28 v30 v71 k0_hw16 => k0_hw16.2.1
theorem k0_idx60_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v20] : Fin 2 → IVec S16 32) a x).toNat < S100x128.size a := fun v16 v18 v20 v22 v24 v26 v28 v30 v71 k0_hw16 => k0_hw16.2.2.1
theorem k0_idx61_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v22] : Fin 2 → IVec S16 32) a x).toNat < S100x128.size a := fun v16 v18 v20 v22 v24 v26 v28 v30 v71 k0_hw16 => k0_hw16.2.2.2.1
theorem k0_idx62_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v24] : Fin 2 → IVec S16 32) a x).toNat < S100x128.size a := fun v16 v18 v20 v22 v24 v26 v28 v30 v71 k0_hw16 => k0_hw16.2.2.2.2.1
theorem k0_idx63_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v26] : Fin 2 → IVec S16 32) a x).toNat < S100x128.size a := fun v16 v18 v20 v22 v24 v26 v28 v30 v71 k0_hw16 => k0_hw16.2.2.2.2.2.1
theorem k0_idx64_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v28] : Fin 2 → IVec S16 32) a x).toNat < S100x128.size a := fun v16 v18 v20 v22 v24 v26 v28 v30 v71 k0_hw16 => k0_hw16.2.2.2.2.2.2.1
theorem k0_idx65_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw16 : k0_chk16 v16 v18 v20 v22 v24 v26 v28 v30 v71), ∀ a x, ((![v71, v30] : Fin 2 → IVec S16 32) a x).toNat < S100x128.size a := fun v16 v18 v20 v22 v24 v26 v28 v30 v71 k0_hw16 => k0_hw16.2.2.2.2.2.2.2
def k0_off53 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v385 : Index := Scalar.indexCast v376
  let c0_141 : Index := 0#32
  ![v385.toNat, 0]
def k0_off54 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v387 : Index := Scalar.indexCast v376
  let c16_142 : Index := 16#32
  ![v387.toNat, 16]
def k0_off55 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v389 : Index := Scalar.indexCast v376
  let c32_143 : Index := 32#32
  ![v389.toNat, 32]
def k0_off56 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v391 : Index := Scalar.indexCast v376
  let c48_144 : Index := 48#32
  ![v391.toNat, 48]
def k0_off57 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v393 : Index := Scalar.indexCast v376
  let c64_145 : Index := 64#32
  ![v393.toNat, 64]
def k0_off58 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v395 : Index := Scalar.indexCast v376
  let c80_146 : Index := 80#32
  ![v395.toNat, 80]
def k0_off59 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v397 : Index := Scalar.indexCast v376
  let c96_147 : Index := 96#32
  ![v397.toNat, 96]
def k0_off60 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_139 : BitVec 32 := 8#32
  let v375 : BitVec 32 := Scalar.muli arg20 c8_i32_139
  let c6_i32_140 : BitVec 32 := 6#32
  let v376 : BitVec 32 := Scalar.addi v375 c6_i32_140
  let v399 : Index := Scalar.indexCast v376
  let c112_148 : Index := 112#32
  ![v399.toNat, 112]

def k0_chk17 (v16 : IVec S16 32) (v18 : IVec S16 32) (v20 : IVec S16 32) (v22 : IVec S16 32) (v24 : IVec S16 32) (v26 : IVec S16 32) (v28 : IVec S16 32) (v30 : IVec S16 32) (v74 : IVec S16 32) : Prop :=
  (∀ a x, ((![v74, v16] : Fin 2 → IVec S16 32) a x).toNat < S100x128.size a) ∧
  (∀ a x, ((![v74, v18] : Fin 2 → IVec S16 32) a x).toNat < S100x128.size a) ∧
  (∀ a x, ((![v74, v20] : Fin 2 → IVec S16 32) a x).toNat < S100x128.size a) ∧
  (∀ a x, ((![v74, v22] : Fin 2 → IVec S16 32) a x).toNat < S100x128.size a) ∧
  (∀ a x, ((![v74, v24] : Fin 2 → IVec S16 32) a x).toNat < S100x128.size a) ∧
  (∀ a x, ((![v74, v26] : Fin 2 → IVec S16 32) a x).toNat < S100x128.size a) ∧
  (∀ a x, ((![v74, v28] : Fin 2 → IVec S16 32) a x).toNat < S100x128.size a) ∧
  (∀ a x, ((![v74, v30] : Fin 2 → IVec S16 32) a x).toNat < S100x128.size a)
instance k0_chk17.dec : ∀ (v16 : IVec S16 32) (v18 : IVec S16 32) (v20 : IVec S16 32) (v22 : IVec S16 32) (v24 : IVec S16 32) (v26 : IVec S16 32) (v28 : IVec S16 32) (v30 : IVec S16 32) (v74 : IVec S16 32), Decidable (k0_chk17 v16 v18 v20 v22 v24 v26 v28 v30 v74) := fun v16 v18 v20 v22 v24 v26 v28 v30 v74 => decidable_of_iff' _ (Iff.of_eq (k0_chk17.eq_1 v16 v18 v20 v22 v24 v26 v28 v30 v74))
theorem k0_idx66_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v16] : Fin 2 → IVec S16 32) a x).toNat < S100x128.size a := fun v16 v18 v20 v22 v24 v26 v28 v30 v74 k0_hw17 => k0_hw17.1
theorem k0_idx67_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v18] : Fin 2 → IVec S16 32) a x).toNat < S100x128.size a := fun v16 v18 v20 v22 v24 v26 v28 v30 v74 k0_hw17 => k0_hw17.2.1
theorem k0_idx68_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v20] : Fin 2 → IVec S16 32) a x).toNat < S100x128.size a := fun v16 v18 v20 v22 v24 v26 v28 v30 v74 k0_hw17 => k0_hw17.2.2.1
theorem k0_idx69_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v22] : Fin 2 → IVec S16 32) a x).toNat < S100x128.size a := fun v16 v18 v20 v22 v24 v26 v28 v30 v74 k0_hw17 => k0_hw17.2.2.2.1
theorem k0_idx70_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v24] : Fin 2 → IVec S16 32) a x).toNat < S100x128.size a := fun v16 v18 v20 v22 v24 v26 v28 v30 v74 k0_hw17 => k0_hw17.2.2.2.2.1
theorem k0_idx71_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v26] : Fin 2 → IVec S16 32) a x).toNat < S100x128.size a := fun v16 v18 v20 v22 v24 v26 v28 v30 v74 k0_hw17 => k0_hw17.2.2.2.2.2.1
theorem k0_idx72_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v28] : Fin 2 → IVec S16 32) a x).toNat < S100x128.size a := fun v16 v18 v20 v22 v24 v26 v28 v30 v74 k0_hw17 => k0_hw17.2.2.2.2.2.2.1
theorem k0_idx73_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw17 : k0_chk17 v16 v18 v20 v22 v24 v26 v28 v30 v74), ∀ a x, ((![v74, v30] : Fin 2 → IVec S16 32) a x).toNat < S100x128.size a := fun v16 v18 v20 v22 v24 v26 v28 v30 v74 k0_hw17 => k0_hw17.2.2.2.2.2.2.2
def k0_off61 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v435 : Index := Scalar.indexCast v426
  let c0_159 : Index := 0#32
  ![v435.toNat, 0]
def k0_off62 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v437 : Index := Scalar.indexCast v426
  let c16_160 : Index := 16#32
  ![v437.toNat, 16]
def k0_off63 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v439 : Index := Scalar.indexCast v426
  let c32_161 : Index := 32#32
  ![v439.toNat, 32]
def k0_off64 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v441 : Index := Scalar.indexCast v426
  let c48_162 : Index := 48#32
  ![v441.toNat, 48]
def k0_off65 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v443 : Index := Scalar.indexCast v426
  let c64_163 : Index := 64#32
  ![v443.toNat, 64]
def k0_off66 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v445 : Index := Scalar.indexCast v426
  let c80_164 : Index := 80#32
  ![v445.toNat, 80]
def k0_off67 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v447 : Index := Scalar.indexCast v426
  let c96_165 : Index := 96#32
  ![v447.toNat, 96]
def k0_off68 (k0_t2 : Fin k0_t2_loop.trips) : Fin 2 → Nat :=
  let c0_i32_12 : BitVec 32 := 0#32
  let c1_i32_14 : BitVec 32 := 1#32
  let arg20 : BitVec 32 := Scf.iv c0_i32_12 c1_i32_14 k0_t2
  let c8_i32_157 : BitVec 32 := 8#32
  let v425 : BitVec 32 := Scalar.muli arg20 c8_i32_157
  let c7_i32_158 : BitVec 32 := 7#32
  let v426 : BitVec 32 := Scalar.addi v425 c7_i32_158
  let v449 : Index := Scalar.indexCast v426
  let c112_166 : Index := 112#32
  ![v449.toNat, 112]
def k0_off69 (i : grid0.Coords) (c0_i32_16 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v34 : BitVec 32 := Scalar.addi v2 c0_i32_16
  let c0_i32_17 : BitVec 32 := 0#32
  ![v34.toNat, 0]
@[reducible] def k0_t3_loop : Scf.Loop 32 :=
  let c0_i32_22 : BitVec 32 := 0#32
  let c32_i32_23 : BitVec 32 := 32#32
  let v39 : BitVec 32 := Scalar.addi c0_i32_22 c32_i32_23
  let c1_i32_24 : BitVec 32 := 1#32
  ⟨c0_i32_22, v39, c1_i32_24⟩

def k0_chk18 (v52 : IVec S16 32) : Prop :=
  (∀ a x, ((![v52] : Fin 1 → IVec S16 32) a x).toNat < S512.size a)
instance k0_chk18.dec : ∀ (v52 : IVec S16 32), Decidable (k0_chk18 v52) := fun v52 => decidable_of_iff' _ (Iff.of_eq (k0_chk18.eq_1 v52))
theorem k0_idx74_inb : ∀ (v52 : IVec S16 32) (k0_hw18 : k0_chk18 v52), ∀ a x, ((![v52] : Fin 1 → IVec S16 32) a x).toNat < S512.size a := fun v52 k0_hw18 => k0_hw18

def k0_chk19 (v55 : IVec S16 32) : Prop :=
  (∀ a x, ((![v55] : Fin 1 → IVec S16 32) a x).toNat < S512.size a)
instance k0_chk19.dec : ∀ (v55 : IVec S16 32), Decidable (k0_chk19 v55) := fun v55 => decidable_of_iff' _ (Iff.of_eq (k0_chk19.eq_1 v55))
theorem k0_idx75_inb : ∀ (v55 : IVec S16 32) (k0_hw19 : k0_chk19 v55), ∀ a x, ((![v55] : Fin 1 → IVec S16 32) a x).toNat < S512.size a := fun v55 k0_hw19 => k0_hw19

def k0_chk20 (v58 : IVec S16 32) : Prop :=
  (∀ a x, ((![v58] : Fin 1 → IVec S16 32) a x).toNat < S512.size a)
instance k0_chk20.dec : ∀ (v58 : IVec S16 32), Decidable (k0_chk20 v58) := fun v58 => decidable_of_iff' _ (Iff.of_eq (k0_chk20.eq_1 v58))
theorem k0_idx76_inb : ∀ (v58 : IVec S16 32) (k0_hw20 : k0_chk20 v58), ∀ a x, ((![v58] : Fin 1 → IVec S16 32) a x).toNat < S512.size a := fun v58 k0_hw20 => k0_hw20

def k0_chk21 (v61 : IVec S16 32) : Prop :=
  (∀ a x, ((![v61] : Fin 1 → IVec S16 32) a x).toNat < S512.size a)
instance k0_chk21.dec : ∀ (v61 : IVec S16 32), Decidable (k0_chk21 v61) := fun v61 => decidable_of_iff' _ (Iff.of_eq (k0_chk21.eq_1 v61))
theorem k0_idx77_inb : ∀ (v61 : IVec S16 32) (k0_hw21 : k0_chk21 v61), ∀ a x, ((![v61] : Fin 1 → IVec S16 32) a x).toNat < S512.size a := fun v61 k0_hw21 => k0_hw21

def k0_chk22 (v64 : IVec S16 32) : Prop :=
  (∀ a x, ((![v64] : Fin 1 → IVec S16 32) a x).toNat < S512.size a)
instance k0_chk22.dec : ∀ (v64 : IVec S16 32), Decidable (k0_chk22 v64) := fun v64 => decidable_of_iff' _ (Iff.of_eq (k0_chk22.eq_1 v64))
theorem k0_idx78_inb : ∀ (v64 : IVec S16 32) (k0_hw22 : k0_chk22 v64), ∀ a x, ((![v64] : Fin 1 → IVec S16 32) a x).toNat < S512.size a := fun v64 k0_hw22 => k0_hw22

def k0_chk23 (v67 : IVec S16 32) : Prop :=
  (∀ a x, ((![v67] : Fin 1 → IVec S16 32) a x).toNat < S512.size a)
instance k0_chk23.dec : ∀ (v67 : IVec S16 32), Decidable (k0_chk23 v67) := fun v67 => decidable_of_iff' _ (Iff.of_eq (k0_chk23.eq_1 v67))
theorem k0_idx79_inb : ∀ (v67 : IVec S16 32) (k0_hw23 : k0_chk23 v67), ∀ a x, ((![v67] : Fin 1 → IVec S16 32) a x).toNat < S512.size a := fun v67 k0_hw23 => k0_hw23

def k0_chk24 (v70 : IVec S16 32) : Prop :=
  (∀ a x, ((![v70] : Fin 1 → IVec S16 32) a x).toNat < S512.size a)
instance k0_chk24.dec : ∀ (v70 : IVec S16 32), Decidable (k0_chk24 v70) := fun v70 => decidable_of_iff' _ (Iff.of_eq (k0_chk24.eq_1 v70))
theorem k0_idx80_inb : ∀ (v70 : IVec S16 32) (k0_hw24 : k0_chk24 v70), ∀ a x, ((![v70] : Fin 1 → IVec S16 32) a x).toNat < S512.size a := fun v70 k0_hw24 => k0_hw24

def k0_chk25 (v73 : IVec S16 32) : Prop :=
  (∀ a x, ((![v73] : Fin 1 → IVec S16 32) a x).toNat < S512.size a)
instance k0_chk25.dec : ∀ (v73 : IVec S16 32), Decidable (k0_chk25 v73) := fun v73 => decidable_of_iff' _ (Iff.of_eq (k0_chk25.eq_1 v73))
theorem k0_idx81_inb : ∀ (v73 : IVec S16 32) (k0_hw25 : k0_chk25 v73), ∀ a x, ((![v73] : Fin 1 → IVec S16 32) a x).toNat < S512.size a := fun v73 k0_hw25 => k0_hw25

def k0_chk26 (v16 : IVec S16 32) (v18 : IVec S16 32) (v20 : IVec S16 32) (v22 : IVec S16 32) (v24 : IVec S16 32) (v26 : IVec S16 32) (v28 : IVec S16 32) (v30 : IVec S16 32) (v53 : IVec S16 32) : Prop :=
  (∀ a x, ((![v53, v16] : Fin 2 → IVec S16 32) a x).toNat < S100x128.size a) ∧
  (∀ a x, ((![v53, v18] : Fin 2 → IVec S16 32) a x).toNat < S100x128.size a) ∧
  (∀ a x, ((![v53, v20] : Fin 2 → IVec S16 32) a x).toNat < S100x128.size a) ∧
  (∀ a x, ((![v53, v22] : Fin 2 → IVec S16 32) a x).toNat < S100x128.size a) ∧
  (∀ a x, ((![v53, v24] : Fin 2 → IVec S16 32) a x).toNat < S100x128.size a) ∧
  (∀ a x, ((![v53, v26] : Fin 2 → IVec S16 32) a x).toNat < S100x128.size a) ∧
  (∀ a x, ((![v53, v28] : Fin 2 → IVec S16 32) a x).toNat < S100x128.size a) ∧
  (∀ a x, ((![v53, v30] : Fin 2 → IVec S16 32) a x).toNat < S100x128.size a)
instance k0_chk26.dec : ∀ (v16 : IVec S16 32) (v18 : IVec S16 32) (v20 : IVec S16 32) (v22 : IVec S16 32) (v24 : IVec S16 32) (v26 : IVec S16 32) (v28 : IVec S16 32) (v30 : IVec S16 32) (v53 : IVec S16 32), Decidable (k0_chk26 v16 v18 v20 v22 v24 v26 v28 v30 v53) := fun v16 v18 v20 v22 v24 v26 v28 v30 v53 => decidable_of_iff' _ (Iff.of_eq (k0_chk26.eq_1 v16 v18 v20 v22 v24 v26 v28 v30 v53))
theorem k0_idx82_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v16] : Fin 2 → IVec S16 32) a x).toNat < S100x128.size a := fun v16 v18 v20 v22 v24 v26 v28 v30 v53 k0_hw26 => k0_hw26.1
theorem k0_idx83_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v18] : Fin 2 → IVec S16 32) a x).toNat < S100x128.size a := fun v16 v18 v20 v22 v24 v26 v28 v30 v53 k0_hw26 => k0_hw26.2.1
theorem k0_idx84_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v20] : Fin 2 → IVec S16 32) a x).toNat < S100x128.size a := fun v16 v18 v20 v22 v24 v26 v28 v30 v53 k0_hw26 => k0_hw26.2.2.1
theorem k0_idx85_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v22] : Fin 2 → IVec S16 32) a x).toNat < S100x128.size a := fun v16 v18 v20 v22 v24 v26 v28 v30 v53 k0_hw26 => k0_hw26.2.2.2.1
theorem k0_idx86_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v24] : Fin 2 → IVec S16 32) a x).toNat < S100x128.size a := fun v16 v18 v20 v22 v24 v26 v28 v30 v53 k0_hw26 => k0_hw26.2.2.2.2.1
theorem k0_idx87_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v26] : Fin 2 → IVec S16 32) a x).toNat < S100x128.size a := fun v16 v18 v20 v22 v24 v26 v28 v30 v53 k0_hw26 => k0_hw26.2.2.2.2.2.1
theorem k0_idx88_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v28] : Fin 2 → IVec S16 32) a x).toNat < S100x128.size a := fun v16 v18 v20 v22 v24 v26 v28 v30 v53 k0_hw26 => k0_hw26.2.2.2.2.2.2.1
theorem k0_idx89_inb : ∀ (v16 : IVec S16 32) (v18 : IVec S16 32) (v20 : IVec S16 32) (v22 : IVec S16 32) (v24 : IVec S16 32) (v26 : IVec S16 32) (v28 : IVec S16 32) (v30 : IVec S16 32) (v53 : IVec S16 32) (k0_hw26 : k0_chk26 v16 v18 v20 v22 v24 v26 v28 v30 v53), ∀ a x, ((![v53, v30] : Fin 2 → IVec S16 32) a x).toNat < S100x128.size a := fun v16 v18 v20 v22 v24 v26 v28 v30 v53 k0_hw26 => k0_hw26.2.2.2.2.2.2.2
def k0_off70 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v85 : Index := Scalar.indexCast v76
  let c0 : Index := 0#32
  ![v85.toNat, 0]
def k0_off71 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v87 : Index := Scalar.indexCast v76
  let c16 : Index := 16#32
  ![v87.toNat, 16]
def k0_off72 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v89 : Index := Scalar.indexCast v76
  let c32 : Index := 32#32
  ![v89.toNat, 32]
def k0_off73 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v91 : Index := Scalar.indexCast v76
  let c48 : Index := 48#32
  ![v91.toNat, 48]
def k0_off74 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v93 : Index := Scalar.indexCast v76
  let c64 : Index := 64#32
  ![v93.toNat, 64]
def k0_off75 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v95 : Index := Scalar.indexCast v76
  let c80 : Index := 80#32
  ![v95.toNat, 80]
def k0_off76 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v97 : Index := Scalar.indexCast v76
  let c96 : Index := 96#32
  ![v97.toNat, 96]
def k0_off77 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_39 : BitVec 32 := 8#32
  let v75 : BitVec 32 := Scalar.muli arg20 c8_i32_39
  let c0_i32_40 : BitVec 32 := 0#32
  let v76 : BitVec 32 := Scalar.addi v75 c0_i32_40
  let v99 : Index := Scalar.indexCast v76
  let c112 : Index := 112#32
  ![v99.toNat, 112]

def k0_chk27 (v16 : IVec S16 32) (v18 : IVec S16 32) (v20 : IVec S16 32) (v22 : IVec S16 32) (v24 : IVec S16 32) (v26 : IVec S16 32) (v28 : IVec S16 32) (v30 : IVec S16 32) (v56 : IVec S16 32) : Prop :=
  (∀ a x, ((![v56, v16] : Fin 2 → IVec S16 32) a x).toNat < S100x128.size a) ∧
  (∀ a x, ((![v56, v18] : Fin 2 → IVec S16 32) a x).toNat < S100x128.size a) ∧
  (∀ a x, ((![v56, v20] : Fin 2 → IVec S16 32) a x).toNat < S100x128.size a) ∧
  (∀ a x, ((![v56, v22] : Fin 2 → IVec S16 32) a x).toNat < S100x128.size a) ∧
  (∀ a x, ((![v56, v24] : Fin 2 → IVec S16 32) a x).toNat < S100x128.size a) ∧
  (∀ a x, ((![v56, v26] : Fin 2 → IVec S16 32) a x).toNat < S100x128.size a) ∧
  (∀ a x, ((![v56, v28] : Fin 2 → IVec S16 32) a x).toNat < S100x128.size a) ∧
  (∀ a x, ((![v56, v30] : Fin 2 → IVec S16 32) a x).toNat < S100x128.size a)
instance k0_chk27.dec : ∀ (v16 : IVec S16 32) (v18 : IVec S16 32) (v20 : IVec S16 32) (v22 : IVec S16 32) (v24 : IVec S16 32) (v26 : IVec S16 32) (v28 : IVec S16 32) (v30 : IVec S16 32) (v56 : IVec S16 32), Decidable (k0_chk27 v16 v18 v20 v22 v24 v26 v28 v30 v56) := fun v16 v18 v20 v22 v24 v26 v28 v30 v56 => decidable_of_iff' _ (Iff.of_eq (k0_chk27.eq_1 v16 v18 v20 v22 v24 v26 v28 v30 v56))
theorem k0_idx90_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v16] : Fin 2 → IVec S16 32) a x).toNat < S100x128.size a := fun v16 v18 v20 v22 v24 v26 v28 v30 v56 k0_hw27 => k0_hw27.1
theorem k0_idx91_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v18] : Fin 2 → IVec S16 32) a x).toNat < S100x128.size a := fun v16 v18 v20 v22 v24 v26 v28 v30 v56 k0_hw27 => k0_hw27.2.1
theorem k0_idx92_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v20] : Fin 2 → IVec S16 32) a x).toNat < S100x128.size a := fun v16 v18 v20 v22 v24 v26 v28 v30 v56 k0_hw27 => k0_hw27.2.2.1
theorem k0_idx93_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v22] : Fin 2 → IVec S16 32) a x).toNat < S100x128.size a := fun v16 v18 v20 v22 v24 v26 v28 v30 v56 k0_hw27 => k0_hw27.2.2.2.1
theorem k0_idx94_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v24] : Fin 2 → IVec S16 32) a x).toNat < S100x128.size a := fun v16 v18 v20 v22 v24 v26 v28 v30 v56 k0_hw27 => k0_hw27.2.2.2.2.1
theorem k0_idx95_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v26] : Fin 2 → IVec S16 32) a x).toNat < S100x128.size a := fun v16 v18 v20 v22 v24 v26 v28 v30 v56 k0_hw27 => k0_hw27.2.2.2.2.2.1
theorem k0_idx96_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v28] : Fin 2 → IVec S16 32) a x).toNat < S100x128.size a := fun v16 v18 v20 v22 v24 v26 v28 v30 v56 k0_hw27 => k0_hw27.2.2.2.2.2.2.1
theorem k0_idx97_inb : ∀ (v16 : IVec S16 32) (v18 : IVec S16 32) (v20 : IVec S16 32) (v22 : IVec S16 32) (v24 : IVec S16 32) (v26 : IVec S16 32) (v28 : IVec S16 32) (v30 : IVec S16 32) (v56 : IVec S16 32) (k0_hw27 : k0_chk27 v16 v18 v20 v22 v24 v26 v28 v30 v56), ∀ a x, ((![v56, v30] : Fin 2 → IVec S16 32) a x).toNat < S100x128.size a := fun v16 v18 v20 v22 v24 v26 v28 v30 v56 k0_hw27 => k0_hw27.2.2.2.2.2.2.2
def k0_off78 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v135 : Index := Scalar.indexCast v126
  let c0_51 : Index := 0#32
  ![v135.toNat, 0]
def k0_off79 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v137 : Index := Scalar.indexCast v126
  let c16_52 : Index := 16#32
  ![v137.toNat, 16]
def k0_off80 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v139 : Index := Scalar.indexCast v126
  let c32_53 : Index := 32#32
  ![v139.toNat, 32]
def k0_off81 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v141 : Index := Scalar.indexCast v126
  let c48_54 : Index := 48#32
  ![v141.toNat, 48]
def k0_off82 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v143 : Index := Scalar.indexCast v126
  let c64_55 : Index := 64#32
  ![v143.toNat, 64]
def k0_off83 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v145 : Index := Scalar.indexCast v126
  let c80_56 : Index := 80#32
  ![v145.toNat, 80]
def k0_off84 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v147 : Index := Scalar.indexCast v126
  let c96_57 : Index := 96#32
  ![v147.toNat, 96]
def k0_off85 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_49 : BitVec 32 := 8#32
  let v125 : BitVec 32 := Scalar.muli arg20 c8_i32_49
  let c1_i32_50 : BitVec 32 := 1#32
  let v126 : BitVec 32 := Scalar.addi v125 c1_i32_50
  let v149 : Index := Scalar.indexCast v126
  let c112_58 : Index := 112#32
  ![v149.toNat, 112]

def k0_chk28 (v16 : IVec S16 32) (v18 : IVec S16 32) (v20 : IVec S16 32) (v22 : IVec S16 32) (v24 : IVec S16 32) (v26 : IVec S16 32) (v28 : IVec S16 32) (v30 : IVec S16 32) (v59 : IVec S16 32) : Prop :=
  (∀ a x, ((![v59, v16] : Fin 2 → IVec S16 32) a x).toNat < S100x128.size a) ∧
  (∀ a x, ((![v59, v18] : Fin 2 → IVec S16 32) a x).toNat < S100x128.size a) ∧
  (∀ a x, ((![v59, v20] : Fin 2 → IVec S16 32) a x).toNat < S100x128.size a) ∧
  (∀ a x, ((![v59, v22] : Fin 2 → IVec S16 32) a x).toNat < S100x128.size a) ∧
  (∀ a x, ((![v59, v24] : Fin 2 → IVec S16 32) a x).toNat < S100x128.size a) ∧
  (∀ a x, ((![v59, v26] : Fin 2 → IVec S16 32) a x).toNat < S100x128.size a) ∧
  (∀ a x, ((![v59, v28] : Fin 2 → IVec S16 32) a x).toNat < S100x128.size a) ∧
  (∀ a x, ((![v59, v30] : Fin 2 → IVec S16 32) a x).toNat < S100x128.size a)
instance k0_chk28.dec : ∀ (v16 : IVec S16 32) (v18 : IVec S16 32) (v20 : IVec S16 32) (v22 : IVec S16 32) (v24 : IVec S16 32) (v26 : IVec S16 32) (v28 : IVec S16 32) (v30 : IVec S16 32) (v59 : IVec S16 32), Decidable (k0_chk28 v16 v18 v20 v22 v24 v26 v28 v30 v59) := fun v16 v18 v20 v22 v24 v26 v28 v30 v59 => decidable_of_iff' _ (Iff.of_eq (k0_chk28.eq_1 v16 v18 v20 v22 v24 v26 v28 v30 v59))
theorem k0_idx98_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v16] : Fin 2 → IVec S16 32) a x).toNat < S100x128.size a := fun v16 v18 v20 v22 v24 v26 v28 v30 v59 k0_hw28 => k0_hw28.1
theorem k0_idx99_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v18] : Fin 2 → IVec S16 32) a x).toNat < S100x128.size a := fun v16 v18 v20 v22 v24 v26 v28 v30 v59 k0_hw28 => k0_hw28.2.1
theorem k0_idx100_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v20] : Fin 2 → IVec S16 32) a x).toNat < S100x128.size a := fun v16 v18 v20 v22 v24 v26 v28 v30 v59 k0_hw28 => k0_hw28.2.2.1
theorem k0_idx101_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v22] : Fin 2 → IVec S16 32) a x).toNat < S100x128.size a := fun v16 v18 v20 v22 v24 v26 v28 v30 v59 k0_hw28 => k0_hw28.2.2.2.1
theorem k0_idx102_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v24] : Fin 2 → IVec S16 32) a x).toNat < S100x128.size a := fun v16 v18 v20 v22 v24 v26 v28 v30 v59 k0_hw28 => k0_hw28.2.2.2.2.1
theorem k0_idx103_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v26] : Fin 2 → IVec S16 32) a x).toNat < S100x128.size a := fun v16 v18 v20 v22 v24 v26 v28 v30 v59 k0_hw28 => k0_hw28.2.2.2.2.2.1
theorem k0_idx104_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v28] : Fin 2 → IVec S16 32) a x).toNat < S100x128.size a := fun v16 v18 v20 v22 v24 v26 v28 v30 v59 k0_hw28 => k0_hw28.2.2.2.2.2.2.1
theorem k0_idx105_inb : ∀ (v16 : IVec S16 32) (v18 : IVec S16 32) (v20 : IVec S16 32) (v22 : IVec S16 32) (v24 : IVec S16 32) (v26 : IVec S16 32) (v28 : IVec S16 32) (v30 : IVec S16 32) (v59 : IVec S16 32) (k0_hw28 : k0_chk28 v16 v18 v20 v22 v24 v26 v28 v30 v59), ∀ a x, ((![v59, v30] : Fin 2 → IVec S16 32) a x).toNat < S100x128.size a := fun v16 v18 v20 v22 v24 v26 v28 v30 v59 k0_hw28 => k0_hw28.2.2.2.2.2.2.2
def k0_off86 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v185 : Index := Scalar.indexCast v176
  let c0_69 : Index := 0#32
  ![v185.toNat, 0]
def k0_off87 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v187 : Index := Scalar.indexCast v176
  let c16_70 : Index := 16#32
  ![v187.toNat, 16]
def k0_off88 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v189 : Index := Scalar.indexCast v176
  let c32_71 : Index := 32#32
  ![v189.toNat, 32]
def k0_off89 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v191 : Index := Scalar.indexCast v176
  let c48_72 : Index := 48#32
  ![v191.toNat, 48]
def k0_off90 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v193 : Index := Scalar.indexCast v176
  let c64_73 : Index := 64#32
  ![v193.toNat, 64]
def k0_off91 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v195 : Index := Scalar.indexCast v176
  let c80_74 : Index := 80#32
  ![v195.toNat, 80]
def k0_off92 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v197 : Index := Scalar.indexCast v176
  let c96_75 : Index := 96#32
  ![v197.toNat, 96]
def k0_off93 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_67 : BitVec 32 := 8#32
  let v175 : BitVec 32 := Scalar.muli arg20 c8_i32_67
  let c2_i32_68 : BitVec 32 := 2#32
  let v176 : BitVec 32 := Scalar.addi v175 c2_i32_68
  let v199 : Index := Scalar.indexCast v176
  let c112_76 : Index := 112#32
  ![v199.toNat, 112]

def k0_chk29 (v16 : IVec S16 32) (v18 : IVec S16 32) (v20 : IVec S16 32) (v22 : IVec S16 32) (v24 : IVec S16 32) (v26 : IVec S16 32) (v28 : IVec S16 32) (v30 : IVec S16 32) (v62 : IVec S16 32) : Prop :=
  (∀ a x, ((![v62, v16] : Fin 2 → IVec S16 32) a x).toNat < S100x128.size a) ∧
  (∀ a x, ((![v62, v18] : Fin 2 → IVec S16 32) a x).toNat < S100x128.size a) ∧
  (∀ a x, ((![v62, v20] : Fin 2 → IVec S16 32) a x).toNat < S100x128.size a) ∧
  (∀ a x, ((![v62, v22] : Fin 2 → IVec S16 32) a x).toNat < S100x128.size a) ∧
  (∀ a x, ((![v62, v24] : Fin 2 → IVec S16 32) a x).toNat < S100x128.size a) ∧
  (∀ a x, ((![v62, v26] : Fin 2 → IVec S16 32) a x).toNat < S100x128.size a) ∧
  (∀ a x, ((![v62, v28] : Fin 2 → IVec S16 32) a x).toNat < S100x128.size a) ∧
  (∀ a x, ((![v62, v30] : Fin 2 → IVec S16 32) a x).toNat < S100x128.size a)
instance k0_chk29.dec : ∀ (v16 : IVec S16 32) (v18 : IVec S16 32) (v20 : IVec S16 32) (v22 : IVec S16 32) (v24 : IVec S16 32) (v26 : IVec S16 32) (v28 : IVec S16 32) (v30 : IVec S16 32) (v62 : IVec S16 32), Decidable (k0_chk29 v16 v18 v20 v22 v24 v26 v28 v30 v62) := fun v16 v18 v20 v22 v24 v26 v28 v30 v62 => decidable_of_iff' _ (Iff.of_eq (k0_chk29.eq_1 v16 v18 v20 v22 v24 v26 v28 v30 v62))
theorem k0_idx106_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v16] : Fin 2 → IVec S16 32) a x).toNat < S100x128.size a := fun v16 v18 v20 v22 v24 v26 v28 v30 v62 k0_hw29 => k0_hw29.1
theorem k0_idx107_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v18] : Fin 2 → IVec S16 32) a x).toNat < S100x128.size a := fun v16 v18 v20 v22 v24 v26 v28 v30 v62 k0_hw29 => k0_hw29.2.1
theorem k0_idx108_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v20] : Fin 2 → IVec S16 32) a x).toNat < S100x128.size a := fun v16 v18 v20 v22 v24 v26 v28 v30 v62 k0_hw29 => k0_hw29.2.2.1
theorem k0_idx109_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v22] : Fin 2 → IVec S16 32) a x).toNat < S100x128.size a := fun v16 v18 v20 v22 v24 v26 v28 v30 v62 k0_hw29 => k0_hw29.2.2.2.1
theorem k0_idx110_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v24] : Fin 2 → IVec S16 32) a x).toNat < S100x128.size a := fun v16 v18 v20 v22 v24 v26 v28 v30 v62 k0_hw29 => k0_hw29.2.2.2.2.1
theorem k0_idx111_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v26] : Fin 2 → IVec S16 32) a x).toNat < S100x128.size a := fun v16 v18 v20 v22 v24 v26 v28 v30 v62 k0_hw29 => k0_hw29.2.2.2.2.2.1
theorem k0_idx112_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v28] : Fin 2 → IVec S16 32) a x).toNat < S100x128.size a := fun v16 v18 v20 v22 v24 v26 v28 v30 v62 k0_hw29 => k0_hw29.2.2.2.2.2.2.1
theorem k0_idx113_inb : ∀ (v16 : IVec S16 32) (v18 : IVec S16 32) (v20 : IVec S16 32) (v22 : IVec S16 32) (v24 : IVec S16 32) (v26 : IVec S16 32) (v28 : IVec S16 32) (v30 : IVec S16 32) (v62 : IVec S16 32) (k0_hw29 : k0_chk29 v16 v18 v20 v22 v24 v26 v28 v30 v62), ∀ a x, ((![v62, v30] : Fin 2 → IVec S16 32) a x).toNat < S100x128.size a := fun v16 v18 v20 v22 v24 v26 v28 v30 v62 k0_hw29 => k0_hw29.2.2.2.2.2.2.2
def k0_off94 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v235 : Index := Scalar.indexCast v226
  let c0_87 : Index := 0#32
  ![v235.toNat, 0]
def k0_off95 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v237 : Index := Scalar.indexCast v226
  let c16_88 : Index := 16#32
  ![v237.toNat, 16]
def k0_off96 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v239 : Index := Scalar.indexCast v226
  let c32_89 : Index := 32#32
  ![v239.toNat, 32]
def k0_off97 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v241 : Index := Scalar.indexCast v226
  let c48_90 : Index := 48#32
  ![v241.toNat, 48]
def k0_off98 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v243 : Index := Scalar.indexCast v226
  let c64_91 : Index := 64#32
  ![v243.toNat, 64]
def k0_off99 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v245 : Index := Scalar.indexCast v226
  let c80_92 : Index := 80#32
  ![v245.toNat, 80]
def k0_off100 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v247 : Index := Scalar.indexCast v226
  let c96_93 : Index := 96#32
  ![v247.toNat, 96]
def k0_off101 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_85 : BitVec 32 := 8#32
  let v225 : BitVec 32 := Scalar.muli arg20 c8_i32_85
  let c3_i32_86 : BitVec 32 := 3#32
  let v226 : BitVec 32 := Scalar.addi v225 c3_i32_86
  let v249 : Index := Scalar.indexCast v226
  let c112_94 : Index := 112#32
  ![v249.toNat, 112]

def k0_chk30 (v16 : IVec S16 32) (v18 : IVec S16 32) (v20 : IVec S16 32) (v22 : IVec S16 32) (v24 : IVec S16 32) (v26 : IVec S16 32) (v28 : IVec S16 32) (v30 : IVec S16 32) (v65 : IVec S16 32) : Prop :=
  (∀ a x, ((![v65, v16] : Fin 2 → IVec S16 32) a x).toNat < S100x128.size a) ∧
  (∀ a x, ((![v65, v18] : Fin 2 → IVec S16 32) a x).toNat < S100x128.size a) ∧
  (∀ a x, ((![v65, v20] : Fin 2 → IVec S16 32) a x).toNat < S100x128.size a) ∧
  (∀ a x, ((![v65, v22] : Fin 2 → IVec S16 32) a x).toNat < S100x128.size a) ∧
  (∀ a x, ((![v65, v24] : Fin 2 → IVec S16 32) a x).toNat < S100x128.size a) ∧
  (∀ a x, ((![v65, v26] : Fin 2 → IVec S16 32) a x).toNat < S100x128.size a) ∧
  (∀ a x, ((![v65, v28] : Fin 2 → IVec S16 32) a x).toNat < S100x128.size a) ∧
  (∀ a x, ((![v65, v30] : Fin 2 → IVec S16 32) a x).toNat < S100x128.size a)
instance k0_chk30.dec : ∀ (v16 : IVec S16 32) (v18 : IVec S16 32) (v20 : IVec S16 32) (v22 : IVec S16 32) (v24 : IVec S16 32) (v26 : IVec S16 32) (v28 : IVec S16 32) (v30 : IVec S16 32) (v65 : IVec S16 32), Decidable (k0_chk30 v16 v18 v20 v22 v24 v26 v28 v30 v65) := fun v16 v18 v20 v22 v24 v26 v28 v30 v65 => decidable_of_iff' _ (Iff.of_eq (k0_chk30.eq_1 v16 v18 v20 v22 v24 v26 v28 v30 v65))
theorem k0_idx114_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v16] : Fin 2 → IVec S16 32) a x).toNat < S100x128.size a := fun v16 v18 v20 v22 v24 v26 v28 v30 v65 k0_hw30 => k0_hw30.1
theorem k0_idx115_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v18] : Fin 2 → IVec S16 32) a x).toNat < S100x128.size a := fun v16 v18 v20 v22 v24 v26 v28 v30 v65 k0_hw30 => k0_hw30.2.1
theorem k0_idx116_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v20] : Fin 2 → IVec S16 32) a x).toNat < S100x128.size a := fun v16 v18 v20 v22 v24 v26 v28 v30 v65 k0_hw30 => k0_hw30.2.2.1
theorem k0_idx117_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v22] : Fin 2 → IVec S16 32) a x).toNat < S100x128.size a := fun v16 v18 v20 v22 v24 v26 v28 v30 v65 k0_hw30 => k0_hw30.2.2.2.1
theorem k0_idx118_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v24] : Fin 2 → IVec S16 32) a x).toNat < S100x128.size a := fun v16 v18 v20 v22 v24 v26 v28 v30 v65 k0_hw30 => k0_hw30.2.2.2.2.1
theorem k0_idx119_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v26] : Fin 2 → IVec S16 32) a x).toNat < S100x128.size a := fun v16 v18 v20 v22 v24 v26 v28 v30 v65 k0_hw30 => k0_hw30.2.2.2.2.2.1
theorem k0_idx120_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v28] : Fin 2 → IVec S16 32) a x).toNat < S100x128.size a := fun v16 v18 v20 v22 v24 v26 v28 v30 v65 k0_hw30 => k0_hw30.2.2.2.2.2.2.1
theorem k0_idx121_inb : ∀ (v16 : IVec S16 32) (v18 : IVec S16 32) (v20 : IVec S16 32) (v22 : IVec S16 32) (v24 : IVec S16 32) (v26 : IVec S16 32) (v28 : IVec S16 32) (v30 : IVec S16 32) (v65 : IVec S16 32) (k0_hw30 : k0_chk30 v16 v18 v20 v22 v24 v26 v28 v30 v65), ∀ a x, ((![v65, v30] : Fin 2 → IVec S16 32) a x).toNat < S100x128.size a := fun v16 v18 v20 v22 v24 v26 v28 v30 v65 k0_hw30 => k0_hw30.2.2.2.2.2.2.2
def k0_off102 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v285 : Index := Scalar.indexCast v276
  let c0_105 : Index := 0#32
  ![v285.toNat, 0]
def k0_off103 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v287 : Index := Scalar.indexCast v276
  let c16_106 : Index := 16#32
  ![v287.toNat, 16]
def k0_off104 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v289 : Index := Scalar.indexCast v276
  let c32_107 : Index := 32#32
  ![v289.toNat, 32]
def k0_off105 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v291 : Index := Scalar.indexCast v276
  let c48_108 : Index := 48#32
  ![v291.toNat, 48]
def k0_off106 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v293 : Index := Scalar.indexCast v276
  let c64_109 : Index := 64#32
  ![v293.toNat, 64]
def k0_off107 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v295 : Index := Scalar.indexCast v276
  let c80_110 : Index := 80#32
  ![v295.toNat, 80]
def k0_off108 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v297 : Index := Scalar.indexCast v276
  let c96_111 : Index := 96#32
  ![v297.toNat, 96]
def k0_off109 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_103 : BitVec 32 := 8#32
  let v275 : BitVec 32 := Scalar.muli arg20 c8_i32_103
  let c4_i32_104 : BitVec 32 := 4#32
  let v276 : BitVec 32 := Scalar.addi v275 c4_i32_104
  let v299 : Index := Scalar.indexCast v276
  let c112_112 : Index := 112#32
  ![v299.toNat, 112]

def k0_chk31 (v16 : IVec S16 32) (v18 : IVec S16 32) (v20 : IVec S16 32) (v22 : IVec S16 32) (v24 : IVec S16 32) (v26 : IVec S16 32) (v28 : IVec S16 32) (v30 : IVec S16 32) (v68 : IVec S16 32) : Prop :=
  (∀ a x, ((![v68, v16] : Fin 2 → IVec S16 32) a x).toNat < S100x128.size a) ∧
  (∀ a x, ((![v68, v18] : Fin 2 → IVec S16 32) a x).toNat < S100x128.size a) ∧
  (∀ a x, ((![v68, v20] : Fin 2 → IVec S16 32) a x).toNat < S100x128.size a) ∧
  (∀ a x, ((![v68, v22] : Fin 2 → IVec S16 32) a x).toNat < S100x128.size a) ∧
  (∀ a x, ((![v68, v24] : Fin 2 → IVec S16 32) a x).toNat < S100x128.size a) ∧
  (∀ a x, ((![v68, v26] : Fin 2 → IVec S16 32) a x).toNat < S100x128.size a) ∧
  (∀ a x, ((![v68, v28] : Fin 2 → IVec S16 32) a x).toNat < S100x128.size a) ∧
  (∀ a x, ((![v68, v30] : Fin 2 → IVec S16 32) a x).toNat < S100x128.size a)
instance k0_chk31.dec : ∀ (v16 : IVec S16 32) (v18 : IVec S16 32) (v20 : IVec S16 32) (v22 : IVec S16 32) (v24 : IVec S16 32) (v26 : IVec S16 32) (v28 : IVec S16 32) (v30 : IVec S16 32) (v68 : IVec S16 32), Decidable (k0_chk31 v16 v18 v20 v22 v24 v26 v28 v30 v68) := fun v16 v18 v20 v22 v24 v26 v28 v30 v68 => decidable_of_iff' _ (Iff.of_eq (k0_chk31.eq_1 v16 v18 v20 v22 v24 v26 v28 v30 v68))
theorem k0_idx122_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v16] : Fin 2 → IVec S16 32) a x).toNat < S100x128.size a := fun v16 v18 v20 v22 v24 v26 v28 v30 v68 k0_hw31 => k0_hw31.1
theorem k0_idx123_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v18] : Fin 2 → IVec S16 32) a x).toNat < S100x128.size a := fun v16 v18 v20 v22 v24 v26 v28 v30 v68 k0_hw31 => k0_hw31.2.1
theorem k0_idx124_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v20] : Fin 2 → IVec S16 32) a x).toNat < S100x128.size a := fun v16 v18 v20 v22 v24 v26 v28 v30 v68 k0_hw31 => k0_hw31.2.2.1
theorem k0_idx125_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v22] : Fin 2 → IVec S16 32) a x).toNat < S100x128.size a := fun v16 v18 v20 v22 v24 v26 v28 v30 v68 k0_hw31 => k0_hw31.2.2.2.1
theorem k0_idx126_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v24] : Fin 2 → IVec S16 32) a x).toNat < S100x128.size a := fun v16 v18 v20 v22 v24 v26 v28 v30 v68 k0_hw31 => k0_hw31.2.2.2.2.1
theorem k0_idx127_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v26] : Fin 2 → IVec S16 32) a x).toNat < S100x128.size a := fun v16 v18 v20 v22 v24 v26 v28 v30 v68 k0_hw31 => k0_hw31.2.2.2.2.2.1
theorem k0_idx128_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v28] : Fin 2 → IVec S16 32) a x).toNat < S100x128.size a := fun v16 v18 v20 v22 v24 v26 v28 v30 v68 k0_hw31 => k0_hw31.2.2.2.2.2.2.1
theorem k0_idx129_inb : ∀ (v16 : IVec S16 32) (v18 : IVec S16 32) (v20 : IVec S16 32) (v22 : IVec S16 32) (v24 : IVec S16 32) (v26 : IVec S16 32) (v28 : IVec S16 32) (v30 : IVec S16 32) (v68 : IVec S16 32) (k0_hw31 : k0_chk31 v16 v18 v20 v22 v24 v26 v28 v30 v68), ∀ a x, ((![v68, v30] : Fin 2 → IVec S16 32) a x).toNat < S100x128.size a := fun v16 v18 v20 v22 v24 v26 v28 v30 v68 k0_hw31 => k0_hw31.2.2.2.2.2.2.2
def k0_off110 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v335 : Index := Scalar.indexCast v326
  let c0_123 : Index := 0#32
  ![v335.toNat, 0]
def k0_off111 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v337 : Index := Scalar.indexCast v326
  let c16_124 : Index := 16#32
  ![v337.toNat, 16]
def k0_off112 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v339 : Index := Scalar.indexCast v326
  let c32_125 : Index := 32#32
  ![v339.toNat, 32]
def k0_off113 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v341 : Index := Scalar.indexCast v326
  let c48_126 : Index := 48#32
  ![v341.toNat, 48]
def k0_off114 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v343 : Index := Scalar.indexCast v326
  let c64_127 : Index := 64#32
  ![v343.toNat, 64]
def k0_off115 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v345 : Index := Scalar.indexCast v326
  let c80_128 : Index := 80#32
  ![v345.toNat, 80]
def k0_off116 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v347 : Index := Scalar.indexCast v326
  let c96_129 : Index := 96#32
  ![v347.toNat, 96]
def k0_off117 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_121 : BitVec 32 := 8#32
  let v325 : BitVec 32 := Scalar.muli arg20 c8_i32_121
  let c5_i32_122 : BitVec 32 := 5#32
  let v326 : BitVec 32 := Scalar.addi v325 c5_i32_122
  let v349 : Index := Scalar.indexCast v326
  let c112_130 : Index := 112#32
  ![v349.toNat, 112]

def k0_chk32 (v16 : IVec S16 32) (v18 : IVec S16 32) (v20 : IVec S16 32) (v22 : IVec S16 32) (v24 : IVec S16 32) (v26 : IVec S16 32) (v28 : IVec S16 32) (v30 : IVec S16 32) (v71 : IVec S16 32) : Prop :=
  (∀ a x, ((![v71, v16] : Fin 2 → IVec S16 32) a x).toNat < S100x128.size a) ∧
  (∀ a x, ((![v71, v18] : Fin 2 → IVec S16 32) a x).toNat < S100x128.size a) ∧
  (∀ a x, ((![v71, v20] : Fin 2 → IVec S16 32) a x).toNat < S100x128.size a) ∧
  (∀ a x, ((![v71, v22] : Fin 2 → IVec S16 32) a x).toNat < S100x128.size a) ∧
  (∀ a x, ((![v71, v24] : Fin 2 → IVec S16 32) a x).toNat < S100x128.size a) ∧
  (∀ a x, ((![v71, v26] : Fin 2 → IVec S16 32) a x).toNat < S100x128.size a) ∧
  (∀ a x, ((![v71, v28] : Fin 2 → IVec S16 32) a x).toNat < S100x128.size a) ∧
  (∀ a x, ((![v71, v30] : Fin 2 → IVec S16 32) a x).toNat < S100x128.size a)
instance k0_chk32.dec : ∀ (v16 : IVec S16 32) (v18 : IVec S16 32) (v20 : IVec S16 32) (v22 : IVec S16 32) (v24 : IVec S16 32) (v26 : IVec S16 32) (v28 : IVec S16 32) (v30 : IVec S16 32) (v71 : IVec S16 32), Decidable (k0_chk32 v16 v18 v20 v22 v24 v26 v28 v30 v71) := fun v16 v18 v20 v22 v24 v26 v28 v30 v71 => decidable_of_iff' _ (Iff.of_eq (k0_chk32.eq_1 v16 v18 v20 v22 v24 v26 v28 v30 v71))
theorem k0_idx130_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v16] : Fin 2 → IVec S16 32) a x).toNat < S100x128.size a := fun v16 v18 v20 v22 v24 v26 v28 v30 v71 k0_hw32 => k0_hw32.1
theorem k0_idx131_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v18] : Fin 2 → IVec S16 32) a x).toNat < S100x128.size a := fun v16 v18 v20 v22 v24 v26 v28 v30 v71 k0_hw32 => k0_hw32.2.1
theorem k0_idx132_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v20] : Fin 2 → IVec S16 32) a x).toNat < S100x128.size a := fun v16 v18 v20 v22 v24 v26 v28 v30 v71 k0_hw32 => k0_hw32.2.2.1
theorem k0_idx133_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v22] : Fin 2 → IVec S16 32) a x).toNat < S100x128.size a := fun v16 v18 v20 v22 v24 v26 v28 v30 v71 k0_hw32 => k0_hw32.2.2.2.1
theorem k0_idx134_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v24] : Fin 2 → IVec S16 32) a x).toNat < S100x128.size a := fun v16 v18 v20 v22 v24 v26 v28 v30 v71 k0_hw32 => k0_hw32.2.2.2.2.1
theorem k0_idx135_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v26] : Fin 2 → IVec S16 32) a x).toNat < S100x128.size a := fun v16 v18 v20 v22 v24 v26 v28 v30 v71 k0_hw32 => k0_hw32.2.2.2.2.2.1
theorem k0_idx136_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v28] : Fin 2 → IVec S16 32) a x).toNat < S100x128.size a := fun v16 v18 v20 v22 v24 v26 v28 v30 v71 k0_hw32 => k0_hw32.2.2.2.2.2.2.1
theorem k0_idx137_inb : ∀ (v16 : IVec S16 32) (v18 : IVec S16 32) (v20 : IVec S16 32) (v22 : IVec S16 32) (v24 : IVec S16 32) (v26 : IVec S16 32) (v28 : IVec S16 32) (v30 : IVec S16 32) (v71 : IVec S16 32) (k0_hw32 : k0_chk32 v16 v18 v20 v22 v24 v26 v28 v30 v71), ∀ a x, ((![v71, v30] : Fin 2 → IVec S16 32) a x).toNat < S100x128.size a := fun v16 v18 v20 v22 v24 v26 v28 v30 v71 k0_hw32 => k0_hw32.2.2.2.2.2.2.2
def k0_off118 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v385 : Index := Scalar.indexCast v376
  let c0_141 : Index := 0#32
  ![v385.toNat, 0]
def k0_off119 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v387 : Index := Scalar.indexCast v376
  let c16_142 : Index := 16#32
  ![v387.toNat, 16]
def k0_off120 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v389 : Index := Scalar.indexCast v376
  let c32_143 : Index := 32#32
  ![v389.toNat, 32]
def k0_off121 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v391 : Index := Scalar.indexCast v376
  let c48_144 : Index := 48#32
  ![v391.toNat, 48]
def k0_off122 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v393 : Index := Scalar.indexCast v376
  let c64_145 : Index := 64#32
  ![v393.toNat, 64]
def k0_off123 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v395 : Index := Scalar.indexCast v376
  let c80_146 : Index := 80#32
  ![v395.toNat, 80]
def k0_off124 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v397 : Index := Scalar.indexCast v376
  let c96_147 : Index := 96#32
  ![v397.toNat, 96]
def k0_off125 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_139 : BitVec 32 := 8#32
  let v375 : BitVec 32 := Scalar.muli arg20 c8_i32_139
  let c6_i32_140 : BitVec 32 := 6#32
  let v376 : BitVec 32 := Scalar.addi v375 c6_i32_140
  let v399 : Index := Scalar.indexCast v376
  let c112_148 : Index := 112#32
  ![v399.toNat, 112]

def k0_chk33 (v16 : IVec S16 32) (v18 : IVec S16 32) (v20 : IVec S16 32) (v22 : IVec S16 32) (v24 : IVec S16 32) (v26 : IVec S16 32) (v28 : IVec S16 32) (v30 : IVec S16 32) (v74 : IVec S16 32) : Prop :=
  (∀ a x, ((![v74, v16] : Fin 2 → IVec S16 32) a x).toNat < S100x128.size a) ∧
  (∀ a x, ((![v74, v18] : Fin 2 → IVec S16 32) a x).toNat < S100x128.size a) ∧
  (∀ a x, ((![v74, v20] : Fin 2 → IVec S16 32) a x).toNat < S100x128.size a) ∧
  (∀ a x, ((![v74, v22] : Fin 2 → IVec S16 32) a x).toNat < S100x128.size a) ∧
  (∀ a x, ((![v74, v24] : Fin 2 → IVec S16 32) a x).toNat < S100x128.size a) ∧
  (∀ a x, ((![v74, v26] : Fin 2 → IVec S16 32) a x).toNat < S100x128.size a) ∧
  (∀ a x, ((![v74, v28] : Fin 2 → IVec S16 32) a x).toNat < S100x128.size a) ∧
  (∀ a x, ((![v74, v30] : Fin 2 → IVec S16 32) a x).toNat < S100x128.size a)
instance k0_chk33.dec : ∀ (v16 : IVec S16 32) (v18 : IVec S16 32) (v20 : IVec S16 32) (v22 : IVec S16 32) (v24 : IVec S16 32) (v26 : IVec S16 32) (v28 : IVec S16 32) (v30 : IVec S16 32) (v74 : IVec S16 32), Decidable (k0_chk33 v16 v18 v20 v22 v24 v26 v28 v30 v74) := fun v16 v18 v20 v22 v24 v26 v28 v30 v74 => decidable_of_iff' _ (Iff.of_eq (k0_chk33.eq_1 v16 v18 v20 v22 v24 v26 v28 v30 v74))
theorem k0_idx138_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v16] : Fin 2 → IVec S16 32) a x).toNat < S100x128.size a := fun v16 v18 v20 v22 v24 v26 v28 v30 v74 k0_hw33 => k0_hw33.1
theorem k0_idx139_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v18] : Fin 2 → IVec S16 32) a x).toNat < S100x128.size a := fun v16 v18 v20 v22 v24 v26 v28 v30 v74 k0_hw33 => k0_hw33.2.1
theorem k0_idx140_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v20] : Fin 2 → IVec S16 32) a x).toNat < S100x128.size a := fun v16 v18 v20 v22 v24 v26 v28 v30 v74 k0_hw33 => k0_hw33.2.2.1
theorem k0_idx141_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v22] : Fin 2 → IVec S16 32) a x).toNat < S100x128.size a := fun v16 v18 v20 v22 v24 v26 v28 v30 v74 k0_hw33 => k0_hw33.2.2.2.1
theorem k0_idx142_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v24] : Fin 2 → IVec S16 32) a x).toNat < S100x128.size a := fun v16 v18 v20 v22 v24 v26 v28 v30 v74 k0_hw33 => k0_hw33.2.2.2.2.1
theorem k0_idx143_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v26] : Fin 2 → IVec S16 32) a x).toNat < S100x128.size a := fun v16 v18 v20 v22 v24 v26 v28 v30 v74 k0_hw33 => k0_hw33.2.2.2.2.2.1
theorem k0_idx144_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v28] : Fin 2 → IVec S16 32) a x).toNat < S100x128.size a := fun v16 v18 v20 v22 v24 v26 v28 v30 v74 k0_hw33 => k0_hw33.2.2.2.2.2.2.1
theorem k0_idx145_inb : ∀ (v16 : IVec S16 32) (v18 : IVec S16 32) (v20 : IVec S16 32) (v22 : IVec S16 32) (v24 : IVec S16 32) (v26 : IVec S16 32) (v28 : IVec S16 32) (v30 : IVec S16 32) (v74 : IVec S16 32) (k0_hw33 : k0_chk33 v16 v18 v20 v22 v24 v26 v28 v30 v74), ∀ a x, ((![v74, v30] : Fin 2 → IVec S16 32) a x).toNat < S100x128.size a := fun v16 v18 v20 v22 v24 v26 v28 v30 v74 k0_hw33 => k0_hw33.2.2.2.2.2.2.2
def k0_off126 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v435 : Index := Scalar.indexCast v426
  let c0_159 : Index := 0#32
  ![v435.toNat, 0]
def k0_off127 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v437 : Index := Scalar.indexCast v426
  let c16_160 : Index := 16#32
  ![v437.toNat, 16]
def k0_off128 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v439 : Index := Scalar.indexCast v426
  let c32_161 : Index := 32#32
  ![v439.toNat, 32]
def k0_off129 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v441 : Index := Scalar.indexCast v426
  let c48_162 : Index := 48#32
  ![v441.toNat, 48]
def k0_off130 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v443 : Index := Scalar.indexCast v426
  let c64_163 : Index := 64#32
  ![v443.toNat, 64]
def k0_off131 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v445 : Index := Scalar.indexCast v426
  let c80_164 : Index := 80#32
  ![v445.toNat, 80]
def k0_off132 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v447 : Index := Scalar.indexCast v426
  let c96_165 : Index := 96#32
  ![v447.toNat, 96]
def k0_off133 (k0_t3 : Fin k0_t3_loop.trips) : Fin 2 → Nat :=
  let c0_i32_22 : BitVec 32 := 0#32
  let c1_i32_24 : BitVec 32 := 1#32
  let arg20 : BitVec 32 := Scf.iv c0_i32_22 c1_i32_24 k0_t3
  let c8_i32_157 : BitVec 32 := 8#32
  let v425 : BitVec 32 := Scalar.muli arg20 c8_i32_157
  let c7_i32_158 : BitVec 32 := 7#32
  let v426 : BitVec 32 := Scalar.addi v425 c7_i32_158
  let v449 : Index := Scalar.indexCast v426
  let c112_166 : Index := 112#32
  ![v449.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S100 : 0 < S100.numel
  iota_S16_d0_w32_scVector : S16.Iotas .scVector 32 [0]
  h_S512 : 0 < S512.numel
  h_S100x128 : 0 < S100x128.numel
  h_S1x16 : 0 < S1x16.numel
  shapeCasts_S1x16_S16 : S1x16.ShapeCasts S16
  shapeCasts_S16_S1x16 : S16.ShapeCasts S1x16
  hcc0_scratch6 : 0 + S_.numel ≤ 7
  hcc0_scratch7 : 1 + S_.numel ≤ 7
  hcc0_scratch8 : 2 + S_.numel ≤ 7
  hcc0_scratch9 : 3 + S_.numel ≤ 7
  hcc0_scratch10 : 4 + S_.numel ≤ 7
  hcc0_scratch11 : 5 + S_.numel ≤ 7
  hcc0_scratch12 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 2), ∀ a, (k0_off2 i (BitVec.ofNat 32 (256 * r.val))) a + S256x128.size a ≤ S16384x128.size a
  k0_t1_ok : k0_t1_loop.OK
  k0_off3_inb : ∀ k0_t1 : Fin k0_t1_loop.trips, ∀ a, (k0_off3 k0_t1) a + S16.size a ≤ S512.size a
  k0_off4_inb : ∀ k0_t1 : Fin k0_t1_loop.trips, ∀ a, (k0_off4 k0_t1) a + S16.size a ≤ S512.size a
  k0_t2_ok : k0_t2_loop.OK
  k0_off5_inb : ∀ k0_t2 : Fin k0_t2_loop.trips, ∀ a, (k0_off5 k0_t2) a + S1x16.size a ≤ S256x128.size a
  k0_off6_inb : ∀ k0_t2 : Fin k0_t2_loop.trips, ∀ a, (k0_off6 k0_t2) a + S1x16.size a ≤ S256x128.size a
  k0_off7_inb : ∀ k0_t2 : Fin k0_t2_loop.trips, ∀ a, (k0_off7 k0_t2) a + S1x16.size a ≤ S256x128.size a
  k0_off8_inb : ∀ k0_t2 : Fin k0_t2_loop.trips, ∀ a, (k0_off8 k0_t2) a + S1x16.size a ≤ S256x128.size a
  k0_off9_inb : ∀ k0_t2 : Fin k0_t2_loop.trips, ∀ a, (k0_off9 k0_t2) a + S1x16.size a ≤ S256x128.size a
  k0_off10_inb : ∀ k0_t2 : Fin k0_t2_loop.trips, ∀ a, (k0_off10 k0_t2) a + S1x16.size a ≤ S256x128.size a
  k0_off11_inb : ∀ k0_t2 : Fin k0_t2_loop.trips, ∀ a, (k0_off11 k0_t2) a + S1x16.size a ≤ S256x128.size a
  k0_off12_inb : ∀ k0_t2 : Fin k0_t2_loop.trips, ∀ a, (k0_off12 k0_t2) a + S1x16.size a ≤ S256x128.size a
  k0_off13_inb : ∀ k0_t2 : Fin k0_t2_loop.trips, ∀ a, (k0_off13 k0_t2) a + S1x16.size a ≤ S256x128.size a
  k0_off14_inb : ∀ k0_t2 : Fin k0_t2_loop.trips, ∀ a, (k0_off14 k0_t2) a + S1x16.size a ≤ S256x128.size a
  k0_off15_inb : ∀ k0_t2 : Fin k0_t2_loop.trips, ∀ a, (k0_off15 k0_t2) a + S1x16.size a ≤ S256x128.size a
  k0_off16_inb : ∀ k0_t2 : Fin k0_t2_loop.trips, ∀ a, (k0_off16 k0_t2) a + S1x16.size a ≤ S256x128.size a
  k0_off17_inb : ∀ k0_t2 : Fin k0_t2_loop.trips, ∀ a, (k0_off17 k0_t2) a + S1x16.size a ≤ S256x128.size a
  k0_off18_inb : ∀ k0_t2 : Fin k0_t2_loop.trips, ∀ a, (k0_off18 k0_t2) a + S1x16.size a ≤ S256x128.size a
  k0_off19_inb : ∀ k0_t2 : Fin k0_t2_loop.trips, ∀ a, (k0_off19 k0_t2) a + S1x16.size a ≤ S256x128.size a
  k0_off20_inb : ∀ k0_t2 : Fin k0_t2_loop.trips, ∀ a, (k0_off20 k0_t2) a + S1x16.size a ≤ S256x128.size a
  k0_off21_inb : ∀ k0_t2 : Fin k0_t2_loop.trips, ∀ a, (k0_off21 k0_t2) a + S1x16.size a ≤ S256x128.size a
  k0_off22_inb : ∀ k0_t2 : Fin k0_t2_loop.trips, ∀ a, (k0_off22 k0_t2) a + S1x16.size a ≤ S256x128.size a
  k0_off23_inb : ∀ k0_t2 : Fin k0_t2_loop.trips, ∀ a, (k0_off23 k0_t2) a + S1x16.size a ≤ S256x128.size a
  k0_off24_inb : ∀ k0_t2 : Fin k0_t2_loop.trips, ∀ a, (k0_off24 k0_t2) a + S1x16.size a ≤ S256x128.size a
  k0_off25_inb : ∀ k0_t2 : Fin k0_t2_loop.trips, ∀ a, (k0_off25 k0_t2) a + S1x16.size a ≤ S256x128.size a
  k0_off26_inb : ∀ k0_t2 : Fin k0_t2_loop.trips, ∀ a, (k0_off26 k0_t2) a + S1x16.size a ≤ S256x128.size a
  k0_off27_inb : ∀ k0_t2 : Fin k0_t2_loop.trips, ∀ a, (k0_off27 k0_t2) a + S1x16.size a ≤ S256x128.size a
  k0_off28_inb : ∀ k0_t2 : Fin k0_t2_loop.trips, ∀ a, (k0_off28 k0_t2) a + S1x16.size a ≤ S256x128.size a
  k0_off29_inb : ∀ k0_t2 : Fin k0_t2_loop.trips, ∀ a, (k0_off29 k0_t2) a + S1x16.size a ≤ S256x128.size a
  k0_off30_inb : ∀ k0_t2 : Fin k0_t2_loop.trips, ∀ a, (k0_off30 k0_t2) a + S1x16.size a ≤ S256x128.size a
  k0_off31_inb : ∀ k0_t2 : Fin k0_t2_loop.trips, ∀ a, (k0_off31 k0_t2) a + S1x16.size a ≤ S256x128.size a
  k0_off32_inb : ∀ k0_t2 : Fin k0_t2_loop.trips, ∀ a, (k0_off32 k0_t2) a + S1x16.size a ≤ S256x128.size a
  k0_off33_inb : ∀ k0_t2 : Fin k0_t2_loop.trips, ∀ a, (k0_off33 k0_t2) a + S1x16.size a ≤ S256x128.size a
  k0_off34_inb : ∀ k0_t2 : Fin k0_t2_loop.trips, ∀ a, (k0_off34 k0_t2) a + S1x16.size a ≤ S256x128.size a
  k0_off35_inb : ∀ k0_t2 : Fin k0_t2_loop.trips, ∀ a, (k0_off35 k0_t2) a + S1x16.size a ≤ S256x128.size a
  k0_off36_inb : ∀ k0_t2 : Fin k0_t2_loop.trips, ∀ a, (k0_off36 k0_t2) a + S1x16.size a ≤ S256x128.size a
  k0_off37_inb : ∀ k0_t2 : Fin k0_t2_loop.trips, ∀ a, (k0_off37 k0_t2) a + S1x16.size a ≤ S256x128.size a
  k0_off38_inb : ∀ k0_t2 : Fin k0_t2_loop.trips, ∀ a, (k0_off38 k0_t2) a + S1x16.size a ≤ S256x128.size a
  k0_off39_inb : ∀ k0_t2 : Fin k0_t2_loop.trips, ∀ a, (k0_off39 k0_t2) a + S1x16.size a ≤ S256x128.size a
  k0_off40_inb : ∀ k0_t2 : Fin k0_t2_loop.trips, ∀ a, (k0_off40 k0_t2) a + S1x16.size a ≤ S256x128.size a
  k0_off41_inb : ∀ k0_t2 : Fin k0_t2_loop.trips, ∀ a, (k0_off41 k0_t2) a + S1x16.size a ≤ S256x128.size a
  k0_off42_inb : ∀ k0_t2 : Fin k0_t2_loop.trips, ∀ a, (k0_off42 k0_t2) a + S1x16.size a ≤ S256x128.size a
  k0_off43_inb : ∀ k0_t2 : Fin k0_t2_loop.trips, ∀ a, (k0_off43 k0_t2) a + S1x16.size a ≤ S256x128.size a
  k0_off44_inb : ∀ k0_t2 : Fin k0_t2_loop.trips, ∀ a, (k0_off44 k0_t2) a + S1x16.size a ≤ S256x128.size a
  k0_off45_inb : ∀ k0_t2 : Fin k0_t2_loop.trips, ∀ a, (k0_off45 k0_t2) a + S1x16.size a ≤ S256x128.size a
  k0_off46_inb : ∀ k0_t2 : Fin k0_t2_loop.trips, ∀ a, (k0_off46 k0_t2) a + S1x16.size a ≤ S256x128.size a
  k0_off47_inb : ∀ k0_t2 : Fin k0_t2_loop.trips, ∀ a, (k0_off47 k0_t2) a + S1x16.size a ≤ S256x128.size a
  k0_off48_inb : ∀ k0_t2 : Fin k0_t2_loop.trips, ∀ a, (k0_off48 k0_t2) a + S1x16.size a ≤ S256x128.size a
  k0_off49_inb : ∀ k0_t2 : Fin k0_t2_loop.trips, ∀ a, (k0_off49 k0_t2) a + S1x16.size a ≤ S256x128.size a
  k0_off50_inb : ∀ k0_t2 : Fin k0_t2_loop.trips, ∀ a, (k0_off50 k0_t2) a + S1x16.size a ≤ S256x128.size a
  k0_off51_inb : ∀ k0_t2 : Fin k0_t2_loop.trips, ∀ a, (k0_off51 k0_t2) a + S1x16.size a ≤ S256x128.size a
  k0_off52_inb : ∀ k0_t2 : Fin k0_t2_loop.trips, ∀ a, (k0_off52 k0_t2) a + S1x16.size a ≤ S256x128.size a
  k0_off53_inb : ∀ k0_t2 : Fin k0_t2_loop.trips, ∀ a, (k0_off53 k0_t2) a + S1x16.size a ≤ S256x128.size a
  k0_off54_inb : ∀ k0_t2 : Fin k0_t2_loop.trips, ∀ a, (k0_off54 k0_t2) a + S1x16.size a ≤ S256x128.size a
  k0_off55_inb : ∀ k0_t2 : Fin k0_t2_loop.trips, ∀ a, (k0_off55 k0_t2) a + S1x16.size a ≤ S256x128.size a
  k0_off56_inb : ∀ k0_t2 : Fin k0_t2_loop.trips, ∀ a, (k0_off56 k0_t2) a + S1x16.size a ≤ S256x128.size a
  k0_off57_inb : ∀ k0_t2 : Fin k0_t2_loop.trips, ∀ a, (k0_off57 k0_t2) a + S1x16.size a ≤ S256x128.size a
  k0_off58_inb : ∀ k0_t2 : Fin k0_t2_loop.trips, ∀ a, (k0_off58 k0_t2) a + S1x16.size a ≤ S256x128.size a
  k0_off59_inb : ∀ k0_t2 : Fin k0_t2_loop.trips, ∀ a, (k0_off59 k0_t2) a + S1x16.size a ≤ S256x128.size a
  k0_off60_inb : ∀ k0_t2 : Fin k0_t2_loop.trips, ∀ a, (k0_off60 k0_t2) a + S1x16.size a ≤ S256x128.size a
  k0_off61_inb : ∀ k0_t2 : Fin k0_t2_loop.trips, ∀ a, (k0_off61 k0_t2) a + S1x16.size a ≤ S256x128.size a
  k0_off62_inb : ∀ k0_t2 : Fin k0_t2_loop.trips, ∀ a, (k0_off62 k0_t2) a + S1x16.size a ≤ S256x128.size a
  k0_off63_inb : ∀ k0_t2 : Fin k0_t2_loop.trips, ∀ a, (k0_off63 k0_t2) a + S1x16.size a ≤ S256x128.size a
  k0_off64_inb : ∀ k0_t2 : Fin k0_t2_loop.trips, ∀ a, (k0_off64 k0_t2) a + S1x16.size a ≤ S256x128.size a
  k0_off65_inb : ∀ k0_t2 : Fin k0_t2_loop.trips, ∀ a, (k0_off65 k0_t2) a + S1x16.size a ≤ S256x128.size a
  k0_off66_inb : ∀ k0_t2 : Fin k0_t2_loop.trips, ∀ a, (k0_off66 k0_t2) a + S1x16.size a ≤ S256x128.size a
  k0_off67_inb : ∀ k0_t2 : Fin k0_t2_loop.trips, ∀ a, (k0_off67 k0_t2) a + S1x16.size a ≤ S256x128.size a
  k0_off68_inb : ∀ k0_t2 : Fin k0_t2_loop.trips, ∀ a, (k0_off68 k0_t2) a + S1x16.size a ≤ S256x128.size a
  k0_off69_inb : ∀ i : grid0.Coords, ∀ (r : Fin 2), ∀ a, (k0_off69 i (BitVec.ofNat 32 (256 * r.val))) a + S256x128.size a ≤ S16384x128.size a
  k0_t3_ok : k0_t3_loop.OK
  k0_off70_inb : ∀ k0_t3 : Fin k0_t3_loop.trips, ∀ a, (k0_off70 k0_t3) a + S1x16.size a ≤ S256x128.size a
  k0_off71_inb : ∀ k0_t3 : Fin k0_t3_loop.trips, ∀ a, (k0_off71 k0_t3) a + S1x16.size a ≤ S256x128.size a
  k0_off72_inb : ∀ k0_t3 : Fin k0_t3_loop.trips, ∀ a, (k0_off72 k0_t3) a + S1x16.size a ≤ S256x128.size a
  k0_off73_inb : ∀ k0_t3 : Fin k0_t3_loop.trips, ∀ a, (k0_off73 k0_t3) a + S1x16.size a ≤ S256x128.size a
  k0_off74_inb : ∀ k0_t3 : Fin k0_t3_loop.trips, ∀ a, (k0_off74 k0_t3) a + S1x16.size a ≤ S256x128.size a
  k0_off75_inb : ∀ k0_t3 : Fin k0_t3_loop.trips, ∀ a, (k0_off75 k0_t3) a + S1x16.size a ≤ S256x128.size a
  k0_off76_inb : ∀ k0_t3 : Fin k0_t3_loop.trips, ∀ a, (k0_off76 k0_t3) a + S1x16.size a ≤ S256x128.size a
  k0_off77_inb : ∀ k0_t3 : Fin k0_t3_loop.trips, ∀ a, (k0_off77 k0_t3) a + S1x16.size a ≤ S256x128.size a
  k0_off78_inb : ∀ k0_t3 : Fin k0_t3_loop.trips, ∀ a, (k0_off78 k0_t3) a + S1x16.size a ≤ S256x128.size a
  k0_off79_inb : ∀ k0_t3 : Fin k0_t3_loop.trips, ∀ a, (k0_off79 k0_t3) a + S1x16.size a ≤ S256x128.size a
  k0_off80_inb : ∀ k0_t3 : Fin k0_t3_loop.trips, ∀ a, (k0_off80 k0_t3) a + S1x16.size a ≤ S256x128.size a
  k0_off81_inb : ∀ k0_t3 : Fin k0_t3_loop.trips, ∀ a, (k0_off81 k0_t3) a + S1x16.size a ≤ S256x128.size a
  k0_off82_inb : ∀ k0_t3 : Fin k0_t3_loop.trips, ∀ a, (k0_off82 k0_t3) a + S1x16.size a ≤ S256x128.size a
  k0_off83_inb : ∀ k0_t3 : Fin k0_t3_loop.trips, ∀ a, (k0_off83 k0_t3) a + S1x16.size a ≤ S256x128.size a
  k0_off84_inb : ∀ k0_t3 : Fin k0_t3_loop.trips, ∀ a, (k0_off84 k0_t3) a + S1x16.size a ≤ S256x128.size a
  k0_off85_inb : ∀ k0_t3 : Fin k0_t3_loop.trips, ∀ a, (k0_off85 k0_t3) a + S1x16.size a ≤ S256x128.size a
  k0_off86_inb : ∀ k0_t3 : Fin k0_t3_loop.trips, ∀ a, (k0_off86 k0_t3) a + S1x16.size a ≤ S256x128.size a
  k0_off87_inb : ∀ k0_t3 : Fin k0_t3_loop.trips, ∀ a, (k0_off87 k0_t3) a + S1x16.size a ≤ S256x128.size a
  k0_off88_inb : ∀ k0_t3 : Fin k0_t3_loop.trips, ∀ a, (k0_off88 k0_t3) a + S1x16.size a ≤ S256x128.size a
  k0_off89_inb : ∀ k0_t3 : Fin k0_t3_loop.trips, ∀ a, (k0_off89 k0_t3) a + S1x16.size a ≤ S256x128.size a
  k0_off90_inb : ∀ k0_t3 : Fin k0_t3_loop.trips, ∀ a, (k0_off90 k0_t3) a + S1x16.size a ≤ S256x128.size a
  k0_off91_inb : ∀ k0_t3 : Fin k0_t3_loop.trips, ∀ a, (k0_off91 k0_t3) a + S1x16.size a ≤ S256x128.size a
  k0_off92_inb : ∀ k0_t3 : Fin k0_t3_loop.trips, ∀ a, (k0_off92 k0_t3) a + S1x16.size a ≤ S256x128.size a
  k0_off93_inb : ∀ k0_t3 : Fin k0_t3_loop.trips, ∀ a, (k0_off93 k0_t3) a + S1x16.size a ≤ S256x128.size a
  k0_off94_inb : ∀ k0_t3 : Fin k0_t3_loop.trips, ∀ a, (k0_off94 k0_t3) a + S1x16.size a ≤ S256x128.size a
  k0_off95_inb : ∀ k0_t3 : Fin k0_t3_loop.trips, ∀ a, (k0_off95 k0_t3) a + S1x16.size a ≤ S256x128.size a
  k0_off96_inb : ∀ k0_t3 : Fin k0_t3_loop.trips, ∀ a, (k0_off96 k0_t3) a + S1x16.size a ≤ S256x128.size a
  k0_off97_inb : ∀ k0_t3 : Fin k0_t3_loop.trips, ∀ a, (k0_off97 k0_t3) a + S1x16.size a ≤ S256x128.size a
  k0_off98_inb : ∀ k0_t3 : Fin k0_t3_loop.trips, ∀ a, (k0_off98 k0_t3) a + S1x16.size a ≤ S256x128.size a
  k0_off99_inb : ∀ k0_t3 : Fin k0_t3_loop.trips, ∀ a, (k0_off99 k0_t3) a + S1x16.size a ≤ S256x128.size a
  k0_off100_inb : ∀ k0_t3 : Fin k0_t3_loop.trips, ∀ a, (k0_off100 k0_t3) a + S1x16.size a ≤ S256x128.size a
  k0_off101_inb : ∀ k0_t3 : Fin k0_t3_loop.trips, ∀ a, (k0_off101 k0_t3) a + S1x16.size a ≤ S256x128.size a
  k0_off102_inb : ∀ k0_t3 : Fin k0_t3_loop.trips, ∀ a, (k0_off102 k0_t3) a + S1x16.size a ≤ S256x128.size a
  k0_off103_inb : ∀ k0_t3 : Fin k0_t3_loop.trips, ∀ a, (k0_off103 k0_t3) a + S1x16.size a ≤ S256x128.size a
  k0_off104_inb : ∀ k0_t3 : Fin k0_t3_loop.trips, ∀ a, (k0_off104 k0_t3) a + S1x16.size a ≤ S256x128.size a
  k0_off105_inb : ∀ k0_t3 : Fin k0_t3_loop.trips, ∀ a, (k0_off105 k0_t3) a + S1x16.size a ≤ S256x128.size a
  k0_off106_inb : ∀ k0_t3 : Fin k0_t3_loop.trips, ∀ a, (k0_off106 k0_t3) a + S1x16.size a ≤ S256x128.size a
  k0_off107_inb : ∀ k0_t3 : Fin k0_t3_loop.trips, ∀ a, (k0_off107 k0_t3) a + S1x16.size a ≤ S256x128.size a
  k0_off108_inb : ∀ k0_t3 : Fin k0_t3_loop.trips, ∀ a, (k0_off108 k0_t3) a + S1x16.size a ≤ S256x128.size a
  k0_off109_inb : ∀ k0_t3 : Fin k0_t3_loop.trips, ∀ a, (k0_off109 k0_t3) a + S1x16.size a ≤ S256x128.size a
  k0_off110_inb : ∀ k0_t3 : Fin k0_t3_loop.trips, ∀ a, (k0_off110 k0_t3) a + S1x16.size a ≤ S256x128.size a
  k0_off111_inb : ∀ k0_t3 : Fin k0_t3_loop.trips, ∀ a, (k0_off111 k0_t3) a + S1x16.size a ≤ S256x128.size a
  k0_off112_inb : ∀ k0_t3 : Fin k0_t3_loop.trips, ∀ a, (k0_off112 k0_t3) a + S1x16.size a ≤ S256x128.size a
  k0_off113_inb : ∀ k0_t3 : Fin k0_t3_loop.trips, ∀ a, (k0_off113 k0_t3) a + S1x16.size a ≤ S256x128.size a
  k0_off114_inb : ∀ k0_t3 : Fin k0_t3_loop.trips, ∀ a, (k0_off114 k0_t3) a + S1x16.size a ≤ S256x128.size a
  k0_off115_inb : ∀ k0_t3 : Fin k0_t3_loop.trips, ∀ a, (k0_off115 k0_t3) a + S1x16.size a ≤ S256x128.size a
  k0_off116_inb : ∀ k0_t3 : Fin k0_t3_loop.trips, ∀ a, (k0_off116 k0_t3) a + S1x16.size a ≤ S256x128.size a
  k0_off117_inb : ∀ k0_t3 : Fin k0_t3_loop.trips, ∀ a, (k0_off117 k0_t3) a + S1x16.size a ≤ S256x128.size a
  k0_off118_inb : ∀ k0_t3 : Fin k0_t3_loop.trips, ∀ a, (k0_off118 k0_t3) a + S1x16.size a ≤ S256x128.size a
  k0_off119_inb : ∀ k0_t3 : Fin k0_t3_loop.trips, ∀ a, (k0_off119 k0_t3) a + S1x16.size a ≤ S256x128.size a
  k0_off120_inb : ∀ k0_t3 : Fin k0_t3_loop.trips, ∀ a, (k0_off120 k0_t3) a + S1x16.size a ≤ S256x128.size a
  k0_off121_inb : ∀ k0_t3 : Fin k0_t3_loop.trips, ∀ a, (k0_off121 k0_t3) a + S1x16.size a ≤ S256x128.size a
  k0_off122_inb : ∀ k0_t3 : Fin k0_t3_loop.trips, ∀ a, (k0_off122 k0_t3) a + S1x16.size a ≤ S256x128.size a
  k0_off123_inb : ∀ k0_t3 : Fin k0_t3_loop.trips, ∀ a, (k0_off123 k0_t3) a + S1x16.size a ≤ S256x128.size a
  k0_off124_inb : ∀ k0_t3 : Fin k0_t3_loop.trips, ∀ a, (k0_off124 k0_t3) a + S1x16.size a ≤ S256x128.size a
  k0_off125_inb : ∀ k0_t3 : Fin k0_t3_loop.trips, ∀ a, (k0_off125 k0_t3) a + S1x16.size a ≤ S256x128.size a
  k0_off126_inb : ∀ k0_t3 : Fin k0_t3_loop.trips, ∀ a, (k0_off126 k0_t3) a + S1x16.size a ≤ S256x128.size a
  k0_off127_inb : ∀ k0_t3 : Fin k0_t3_loop.trips, ∀ a, (k0_off127 k0_t3) a + S1x16.size a ≤ S256x128.size a
  k0_off128_inb : ∀ k0_t3 : Fin k0_t3_loop.trips, ∀ a, (k0_off128 k0_t3) a + S1x16.size a ≤ S256x128.size a
  k0_off129_inb : ∀ k0_t3 : Fin k0_t3_loop.trips, ∀ a, (k0_off129 k0_t3) a + S1x16.size a ≤ S256x128.size a
  k0_off130_inb : ∀ k0_t3 : Fin k0_t3_loop.trips, ∀ a, (k0_off130 k0_t3) a + S1x16.size a ≤ S256x128.size a
  k0_off131_inb : ∀ k0_t3 : Fin k0_t3_loop.trips, ∀ a, (k0_off131 k0_t3) a + S1x16.size a ≤ S256x128.size a
  k0_off132_inb : ∀ k0_t3 : Fin k0_t3_loop.trips, ∀ a, (k0_off132 k0_t3) a + S1x16.size a ≤ S256x128.size a
  k0_off133_inb : ∀ k0_t3 : Fin k0_t3_loop.trips, ∀ a, (k0_off133 k0_t3) a + S1x16.size a ≤ S256x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12

class Facts : Prop extends Facts₀ where

variable [Facts]
-- ==== ReferenceIdeal.lean ====
abbrev S16384x128 : Shape := ⟨2, ![16384, 128]⟩
abbrev S16384 : Shape := ⟨1, ![16384]⟩
abbrev S100 : Shape := ⟨1, ![100]⟩
abbrev S100x128 : Shape := ⟨2, ![100, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S100, .i32⟩
  | .hbm, ⟨3, _⟩ => ⟨S100x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x128, .f32⟩
  | .hbm, ⟨45, _⟩ => ⟨S16384x128, .i1⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100_S16384x1_S16384_n_0_n_n_0_1_1_wf : GatherDims.WF S100 S16384x1 S16384 [] [0] [] [0] [] 1 ![1]
  gather_S100x128_S16384x1_S16384x128_1_0_n_n_0_1_1128_wf : GatherDims.WF S100x128 S16384x1 S16384x128 [1] [0] [] [0] [] 1 ![1, 128]

variable [Facts₀]

def gather_S100_S16384x1_S16384_n_0_n_n_0_1_1 : GatherDims S100 S16384x1 S16384 where
  offsetDims := []
  collapsedSliceDims := [0]
  operandBatchingDims := []
  startIndicesBatchingDims := []
  startIndexMap := [0]
  indexVectorDim := 1
  sliceSizes := ![1]
  wf := gather_S100_S16384x1_S16384_n_0_n_n_0_1_1_wf
def gather_S100x128_S16384x1_S16384x128_1_0_n_n_0_1_1128 : GatherDims S100x128 S16384x1 S16384x128 where
  offsetDims := [1]
  collapsedSliceDims := [0]
  operandBatchingDims := []
  startIndicesBatchingDims := []
  startIndexMap := [0]
  indexVectorDim := 1
  sliceSizes := ![1, 128]
  wf := gather_S100x128_S16384x1_S16384x128_1_0_n_n_0_1_1128_wf

class Facts : Prop extends Facts₀ where

variable [Facts]
-- ==== Proof.Spec.lean ====
/-
  The function both programs compute, stated once over plain arrays and no program.

  Row `r` of the result is row `r` of `x` plus one row of the table `dl`: the row named by the entry of the
  index table `t` that row `r`'s user index `u r` selects — a lookup through two tables, then a pointwise sum.
  The two lookups need their indices in range (`u r < 100`, `t k < 100`, as unsigned words); they are hypotheses of
  the definition, so that the index into each table is an honest element of its axis.
-/
import Idealize.ShloMosaic.PureOps
import Idealize.ShloMosaic.Lib.ValueIdx

noncomputable section

namespace Cert.Spec

open Idealize.ShloMosaic Idealize.ShloMosaic.ValueIdx

abbrev SX : Shape := ⟨2, ![16384, 128]⟩
abbrev SU : Shape := ⟨1, ![16384]⟩
abbrev ST : Shape := ⟨1, ![100]⟩
abbrev SD : Shape := ⟨2, ![100, 128]⟩

/-- Every user index names an entry of the index table. -/
def UOk (u : IVec SU 32) : Prop := ∀ i, (u i).toNat < 100
/-- Every entry of the index table names a row of the delta table. -/
def TOk (t : IVec ST 32) : Prop := ∀ k, (t k).toNat < 100

/-- The delta-set of row `r`: the index table's entry at that row's user index. -/
def setOf (u : IVec SU 32) (t : IVec ST 32) (hu : UOk u) (r : Fin 16384) : BitVec 32 :=
  t (ix1 ⟨(u (ix1 r)).toNat, hu _⟩)

/-- The result array: `x (r, j) + dl (setOf r, j)`. -/
def outFn {F : FTy → Type} [FloatOps F] (x : FVec F SX .f32) (u : IVec SU 32) (t : IVec ST 32) (dl : FVec F SD .f32)
    (hu : UOk u) (ht : TOk t) : FVec F SX .f32 :=
  fun i => FloatOps.addf (x i) (dl (ix2 ⟨(setOf u t hu (i 0)).toNat, ht _⟩ (i 1)))

theorem outFn_apply {F : FTy → Type} [FloatOps F] (x : FVec F SX .f32) (u : IVec SU 32) (t : IVec ST 32) (dl : FVec F SD .f32)
    (hu : UOk u) (ht : TOk t) (r : Fin 16384) (j : Fin 128) :
    outFn x u t dl hu ht (ix2 r j) = FloatOps.addf (x (ix2 r j)) (dl (ix2 ⟨(setOf u t hu r).toNat, ht _⟩ j)) := rfl

end Cert.Spec

end
-- ==== Proof.IfaceKernel.lean ====
/-
  What the launch hands each tile and what each tile hands back: the shared statement between the proof of one
  tile's task and the proof of the launch.

  The device runs 32 tasks, one per vector subcore (c, s) of the two SparseCores; task (c, s) owns rows
  [1024 s + 512 c, 1024 s + 512 c + 512) of the batch, in two chunks of 256 rows. A task reads its 512 user indices,
  the whole index table and the whole delta table, and its two chunks of the input; it writes its two chunks of the
  result. So a task is handed: its two input chunks and its slice of the user indices outright, a read share of the
  two tables (every task reads them whole), and its two chunks of the result at whatever they hold; it hands back
  the same, the result's two chunks now holding the specified function `Spec.outFn` of the argument arrays.
-/
import proofs.«202775_g10411000725526_cont_sun_m_1212_8_alg».proof.Kernel
import proofs.«202775_g10411000725526_cont_sun_m_1212_8_alg».proof.Proof.Gen.Kernel
import proofs.«202775_g10411000725526_cont_sun_m_1212_8_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Iface

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

abbrev xLoc (d : Dev nD) : Loc nD τ sig := (SparseCore.T d).loc main_arg0
abbrev uLoc (d : Dev nD) : Loc nD τ sig := (SparseCore.T d).loc main_arg1
abbrev tLoc (d : Dev nD) : Loc nD τ sig := (SparseCore.T d).loc main_arg2
abbrev dLoc (d : Dev nD) : Loc nD τ sig := (SparseCore.T d).loc main_arg3
abbrev oLoc (d : Dev nD) : Loc nD τ sig := (SparseCore.T d).loc main_v0

/-- The arrays as a tile's memrefs name them. -/
abbrev xM : Memref sig .scVector .hbm S16384x128 .f32 := Memref.whole main_arg0_scv
abbrev uM : Memref sig .scVector .hbm S16384 .i32 := Memref.whole main_arg1_scv
abbrev tM : Memref sig .scVector .hbm S100 .i32 := Memref.whole main_arg2_scv
abbrev dM : Memref sig .scVector .hbm S100x128 .f32 := Memref.whole main_arg3_scv
abbrev oM : Memref sig .scVector .hbm S16384x128 .f32 := Memref.whole main_v0_scv

/-- A grid position from its two coordinates, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

/-- The slices a task at grid position `L` transfers, spelt as the program slices them: its two input chunks, its user
    indices, its two result chunks. -/
abbrev xS0 (L : grid0.Coords) : Memref sig .scVector .hbm S256x128 .f32 :=
  (xM).slice (Rect.unit (s := S16384x128) (k0_off2 L 0#32) S256x128.size (k0_off2_inb L 0)) (fun _ => rfl)
abbrev xS1 (L : grid0.Coords) : Memref sig .scVector .hbm S256x128 .f32 :=
  (xM).slice (Rect.unit (s := S16384x128) (k0_off2 L 256#32) S256x128.size (k0_off2_inb L 1)) (fun _ => rfl)
abbrev uS (L : grid0.Coords) : Memref sig .scVector .hbm S512 .i32 :=
  (uM).slice (Rect.unit (s := S16384) (k0_off1 L) S512.size (k0_off1_inb L)) (fun _ => rfl)
abbrev oS0 (L : grid0.Coords) : Memref sig .scVector .hbm S256x128 .f32 :=
  (oM).slice (Rect.unit (s := S16384x128) (k0_off69 L 0#32) S256x128.size (k0_off69_inb L 0)) (fun _ => rfl)
abbrev oS1 (L : grid0.Coords) : Memref sig .scVector .hbm S256x128 .f32 :=
  (oM).slice (Rect.unit (s := S16384x128) (k0_off69 L 256#32) S256x128.size (k0_off69_inb L 1)) (fun _ => rfl)

/-- The read share of the two tables that task `i` of SparseCore `c` holds: the tables' full share is cut into a read
    token per SparseCore, each of those into a read token per task. -/
abbrev qT (c : Fin 2) (i : Fin 16) : PosShare TreeShare := shareTok (shareTok fullShare 2 c) 16 i

/-- The grid position of task `i` of SparseCore `c`. -/
abbrev Lof (c : Fin ((K (F := F)).nCore 0)) (i : Fin ((K (F := F)).nSub 0)) : grid0.Coords :=
  coordsV ⟨c.val, c.isLt⟩ ⟨i.val, i.isLt⟩

variable [FloatOps F]

/-- The result the programs are to leave: `Spec.outFn` of the four argument arrays of device `d`. -/
abbrev G (hu : ∀ d, Spec.UOk (m (uLoc d))) (ht : ∀ d, Spec.TOk (m (tLoc d))) (d : Dev nD) : Buf (Elt F) (oLoc d) :=
  Spec.outFn (F := F) (m (xLoc d)) (m (uLoc d)) (m (tLoc d)) (m (dLoc d)) (hu d) (ht d)

/-- What a task at `L` with table share `q` reads, all at the launch contents. -/
abbrev tileIn (d : Dev nD) (L : grid0.Coords) (q : PosShare TreeShare) : sProp 𝕄 :=
  iprop((xLoc d ↦[(xS0 L).view.set]{fullShare} m (xLoc d)) ∗ (xLoc d ↦[(xS1 L).view.set]{fullShare} m (xLoc d))
    ∗ (uLoc d ↦[(uS L).view.set]{fullShare} m (uLoc d)) ∗ (tLoc d ↦{q} m (tLoc d)) ∗ (dLoc d ↦{q} m (dLoc d)))

/-- A task's operands: what it reads, and its two result chunks at whatever they hold. -/
abbrev tileGo (d : Dev nD) (L : grid0.Coords) (q : PosShare TreeShare) : sProp 𝕄 :=
  iprop(tileIn m d L q ∗ (∃ f, oLoc d ↦[(oS0 L).view.set]{fullShare} f) ∗ (∃ f, oLoc d ↦[(oS1 L).view.set]{fullShare} f))

/-- A task's results: what it read, unchanged, and its two result chunks at the specified function. -/
abbrev tileTd (hu : ∀ d, Spec.UOk (m (uLoc d))) (ht : ∀ d, Spec.TOk (m (tLoc d))) (d : Dev nD) (L : grid0.Coords) (q : PosShare TreeShare) : sProp 𝕄 :=
  iprop(tileIn m d L q ∗ (oLoc d ↦[(oS0 L).view.set]{fullShare} G m hu ht d) ∗ (oLoc d ↦[(oS1 L).view.set]{fullShare} G m hu ht d))

/-- The one call's payloads: a SparseCore is handed, and hands back, its sixteen tasks' parts; the tasks' own
    transfers need nothing of the launch. -/
def P (hu : ∀ d, Spec.UOk (m (uLoc d))) (ht : ∀ d, Spec.TOk (m (tLoc d))) : (K (F := F)).Pay (nD := nD) (Val := Elt F) (Name := ℕ) (U := UU) where
  st := fun q d c => match q with
    | 0 => bigSep Finset.univ fun i : Fin ((K (F := F)).nSub 0) => tileGo m d (Lof c i) (qT (Fin.cast nCore_zero c) (Fin.cast nSub_zero i))
  dn := fun q d c => match q with
    | 0 => bigSep Finset.univ fun i : Fin ((K (F := F)).nSub 0) => tileTd m hu ht d (Lof c i) (qT (Fin.cast nCore_zero c) (Fin.cast nSub_zero i))
  go := fun q d c i => match q with
    | 0 => tileGo m d (Lof c i) (qT (Fin.cast nCore_zero c) (Fin.cast nSub_zero i))
  td := fun q d c i => match q with
    | 0 => tileTd m hu ht d (Lof c i) (qT (Fin.cast nCore_zero c) (Fin.cast nSub_zero i))
  x := fun _ _ => iprop(emp)

end Cert.Kernel.Iface

end
-- ==== Proof.LaunchKernel.lean ====
/-
  The launch: from "each vector subcore's task is proved" to the run of the whole device.

  The device's TensorCore runs @main, which is one call of the SparseCore kernel: it starts the two SparseCores'
  sequencers, each of which hands its sixteen vector subcores their tasks, waits for them and reports back. The launch
  theorem (Lib/SparseCore/Launch.lean `Cfg.θ_run_sc`) turns the tasks' obligation (`TileObl`, a hypothesis here) into
  `θ_run` of all 35 threads, given: the payloads (`Iface.P`: a SparseCore is handed its sixteen tasks' parts, so the split
  among the tasks is the identity); @main's proof (`hmain`), where the five arrays the TensorCore holds whole are cut
  into the 32 tasks' parts before the call and joined back after it; the launch element (`hu₀`: the handshakes' rounds,
  nothing of the kernel's own); and how the final memory reads the post (`hfin`).

  The cut. Task `(c, i)` owns rows `[1024 i + 512 c, + 512)` in two chunks of 256 rows; over `(c, i, r)` the 64 chunks
  `[1024 i + 512 c + 256 r, + 256)` are pairwise disjoint and cover the 16384 rows, so the input array and the result
  array are the `∗` of their chunks (`xPts_cut`, `oPts_cut`), the user indices of their 32 slices (`uPts_cut`); each of
  the two tables every task reads whole is a read token per SparseCore, each of those a read token per task, and the
  remainders (`toks_cut`, kept aside during the call as `REM`). Every chunk of the result comes back holding the SAME
  function `Iface.G`, so the chunks join to the whole array at `G`.

  Everything is generic in the float instance `F`.
-/
import proofs.«202775_g10411000725526_cont_sun_m_1212_8_alg».proof.Proof.IfaceKernel

noncomputable section

namespace Cert.Kernel.Launch

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## The tasks' row blocks

Task `(c, i)` (SparseCore `c`, vector subcore `i`) works on rows `[1024 i + 512 c, 1024 i + 512 c + 512)`, in two chunks of
256 rows. Numbering the chunks `n = 4 i + 2 c + r` (`r` the chunk), chunk `n` is rows `[256 n, 256 n + 256)`: the 64 chunks
are pairwise disjoint and cover the 16384 rows; the 32 index slices `[512 (2 i + c), + 512)` likewise. -/

theorem unit_congr {s : Shape} {off off' size : Fin s.rank → Nat} (h : off = off') (inb : ∀ a, off a + size a ≤ s.size a)
    (inb' : ∀ a, off' a + size a ≤ s.size a) : Rect.unit off size inb = Rect.unit off' size inb' := by subst h; rfl

/-- Chunk `r` of the input rows of the task at `L`, and of its result rows. -/
abbrev xSr (L : grid0.Coords) (r : Fin 2) : Memref sig .scVector .hbm S256x128 .f32 :=
  (xM).slice (Rect.unit (s := S16384x128) (k0_off2 L (BitVec.ofNat 32 (256 * r.val))) S256x128.size (k0_off2_inb L r)) (fun _ => rfl)
abbrev oSr (L : grid0.Coords) (r : Fin 2) : Memref sig .scVector .hbm S256x128 .f32 :=
  (oM).slice (Rect.unit (s := S16384x128) (k0_off69 L (BitVec.ofNat 32 (256 * r.val))) S256x128.size (k0_off69_inb L r)) (fun _ => rfl)

theorem xSr_zero (L : grid0.Coords) : xSr L 0 = xS0 L := rfl
theorem xSr_one (L : grid0.Coords) : xSr L 1 = xS1 L := rfl
theorem oSr_zero (L : grid0.Coords) : oSr L 0 = oS0 L := rfl
theorem oSr_one (L : grid0.Coords) : oSr L 1 = oS1 L := rfl

theorem mem_xSr {L : grid0.Coords} {r : Fin 2} {x : S16384x128.Idx} :
    x ∈ (xSr L r).view.set ↔ 1024 * (L 1).val + 512 * (L 0).val + 256 * r.val ≤ (x 0).val
      ∧ (x 0).val < 1024 * (L 1).val + 512 * (L 0).val + 256 * r.val + 256 := by
  simp only [Memref.view_slice, Memref.view_whole, View.set_slice_whole]
  rw [Rect.mem_set_unit, k0_off2_eq]
  have h1 : (x 1).val < 128 := (x 1).isLt
  constructor
  · intro h; exact h 0
  · rintro ⟨h, h'⟩ a
    match a with
    | 0 => exact ⟨h, h'⟩
    | 1 => exact ⟨Nat.zero_le _, (Nat.zero_add _).symm ▸ h1⟩

theorem mem_oSr {L : grid0.Coords} {r : Fin 2} {x : S16384x128.Idx} :
    x ∈ (oSr L r).view.set ↔ 1024 * (L 1).val + 512 * (L 0).val + 256 * r.val ≤ (x 0).val
      ∧ (x 0).val < 1024 * (L 1).val + 512 * (L 0).val + 256 * r.val + 256 := by
  simp only [Memref.view_slice, Memref.view_whole, View.set_slice_whole]
  rw [Rect.mem_set_unit, k0_off69_eq]
  have h1 : (x 1).val < 128 := (x 1).isLt
  constructor
  · intro h; exact h 0
  · rintro ⟨h, h'⟩ a
    match a with
    | 0 => exact ⟨h, h'⟩
    | 1 => exact ⟨Nat.zero_le _, (Nat.zero_add _).symm ▸ h1⟩

theorem mem_uS {L : grid0.Coords} {x : S16384.Idx} :
    x ∈ (uS L).view.set ↔ 1024 * (L 1).val + 512 * (L 0).val ≤ (x 0).val ∧ (x 0).val < 1024 * (L 1).val + 512 * (L 0).val + 512 := by
  simp only [Memref.view_slice, Memref.view_whole, View.set_slice_whole]
  rw [Rect.mem_set_unit, k0_off1_eq]
  constructor
  · intro h; exact h 0
  · rintro ⟨h, h'⟩ a
    match a with
    | 0 => exact ⟨h, h'⟩

/-! ### Disjoint and covering -/

section Blocks

/-- The 64 chunks' index: SparseCore, vector subcore, chunk. -/
abbrev TB : Type := Fin 2 × Fin 16 × Fin 2
/-- The 32 tasks' index. -/
abbrev TU : Type := Fin 2 × Fin 16

/-- The grid position of task `(c, i)`. -/
abbrev Lc (c : Fin 2) (i : Fin 16) : grid0.Coords := coordsV ⟨c.val, c.isLt⟩ ⟨i.val, i.isLt⟩
theorem Lc_zero (c : Fin 2) (i : Fin 16) : ((Lc c i) 0).val = c.val := rfl
theorem Lc_one (c : Fin 2) (i : Fin 16) : ((Lc c i) 1).val = i.val := rfl

abbrev xK (t : TB) : Finset S16384x128.Idx := (xSr (Lc t.1 t.2.1) t.2.2).view.set
abbrev oK (t : TB) : Finset S16384x128.Idx := (oSr (Lc t.1 t.2.1) t.2.2).view.set
abbrev uK (t : TU) : Finset S16384.Idx := (uS (Lc t.1 t.2)).view.set

theorem chunks_sep {c c' : Fin 2} {i i' : Fin 16} {r r' : Fin 2} {x : ℕ}
    (h : 1024 * i.val + 512 * c.val + 256 * r.val ≤ x ∧ x < 1024 * i.val + 512 * c.val + 256 * r.val + 256)
    (h' : 1024 * i'.val + 512 * c'.val + 256 * r'.val ≤ x ∧ x < 1024 * i'.val + 512 * c'.val + 256 * r'.val + 256) :
    (c, i, r) = (c', i', r') := by
  have := c.isLt; have := c'.isLt; have := r.isLt; have := r'.isLt
  have hc : c.val = c'.val := by omega
  have hi : i.val = i'.val := by omega
  have hr : r.val = r'.val := by omega
  rw [Fin.ext hc, Fin.ext hi, Fin.ext hr]

theorem chunks_cover (x : ℕ) (hx : x < 16384) : ∃ t : TB,
    1024 * t.2.1.val + 512 * t.1.val + 256 * t.2.2.val ≤ x ∧ x < 1024 * t.2.1.val + 512 * t.1.val + 256 * t.2.2.val + 256 :=
  ⟨(⟨x % 1024 / 512, by omega⟩, ⟨x / 1024, by omega⟩, ⟨x % 512 / 256, by omega⟩), by dsimp only; omega⟩

theorem slices_cover (x : ℕ) (hx : x < 16384) : ∃ t : TU,
    1024 * t.2.val + 512 * t.1.val ≤ x ∧ x < 1024 * t.2.val + 512 * t.1.val + 512 :=
  ⟨(⟨x % 1024 / 512, by omega⟩, ⟨x / 1024, by omega⟩), by dsimp only; omega⟩

theorem slices_sep {c c' : Fin 2} {i i' : Fin 16} {x : ℕ}
    (h : 1024 * i.val + 512 * c.val ≤ x ∧ x < 1024 * i.val + 512 * c.val + 512)
    (h' : 1024 * i'.val + 512 * c'.val ≤ x ∧ x < 1024 * i'.val + 512 * c'.val + 512) : (c, i) = (c', i') := by
  have := c.isLt; have := c'.isLt
  have hc : c.val = c'.val := by omega
  have hi : i.val = i'.val := by omega
  rw [Fin.ext hc, Fin.ext hi]

theorem xK_disjoint : ∀ t ∈ (Finset.univ : Finset TB), ∀ t' ∈ (Finset.univ : Finset TB), t ≠ t' → Disjoint (xK t) (xK t') := by
  rintro ⟨c, i, r⟩ - ⟨c', i', r'⟩ - h
  refine Finset.disjoint_left.mpr fun x hx hx' => h ?_
  rw [mem_xSr, Lc_zero, Lc_one] at hx hx'
  exact chunks_sep hx hx'
theorem oK_disjoint : ∀ t ∈ (Finset.univ : Finset TB), ∀ t' ∈ (Finset.univ : Finset TB), t ≠ t' → Disjoint (oK t) (oK t') := by
  rintro ⟨c, i, r⟩ - ⟨c', i', r'⟩ - h
  refine Finset.disjoint_left.mpr fun x hx hx' => h ?_
  rw [mem_oSr, Lc_zero, Lc_one] at hx hx'
  exact chunks_sep hx hx'
theorem xK_cover : (Finset.univ : Finset TB).biUnion xK = Finset.univ := by
  ext x
  simp only [Finset.mem_biUnion, Finset.mem_univ, true_and, iff_true]
  obtain ⟨t, ht⟩ := chunks_cover (x 0).val (x 0).isLt
  exact ⟨t, mem_xSr.mpr ht⟩
theorem oK_cover : (Finset.univ : Finset TB).biUnion oK = Finset.univ := by
  ext x
  simp only [Finset.mem_biUnion, Finset.mem_univ, true_and, iff_true]
  obtain ⟨t, ht⟩ := chunks_cover (x 0).val (x 0).isLt
  exact ⟨t, mem_oSr.mpr ht⟩

theorem uK_disjoint : ∀ t ∈ (Finset.univ : Finset TU), ∀ t' ∈ (Finset.univ : Finset TU), t ≠ t' → Disjoint (uK t) (uK t') := by
  rintro ⟨c, i⟩ - ⟨c', i'⟩ - h
  refine Finset.disjoint_left.mpr fun x hx hx' => h ?_
  rw [mem_uS, Lc_zero, Lc_one] at hx hx'
  exact slices_sep hx hx'
theorem uK_cover : (Finset.univ : Finset TU).biUnion uK = Finset.univ := by
  ext x
  simp only [Finset.mem_biUnion, Finset.mem_univ, true_and, iff_true]
  obtain ⟨t, ht⟩ := slices_cover (x 0).val (x 0).isLt
  exact ⟨t, mem_uS.mpr ht⟩

end Blocks

/-! ## The arrays cut into the tasks' parts -/

section Cuts

variable (d : Dev nD)

omit d in
/-- A product over the 64 chunks, grouped by task, the two chunks of each apart. -/
theorem bigSep_TB (Φ : TB → sProp 𝕄) : bigSep Finset.univ Φ
    = iprop((bigSep Finset.univ fun c : Fin 2 => bigSep Finset.univ fun i : Fin 16 => Φ (c, i, 0))
        ∗ (bigSep Finset.univ fun c : Fin 2 => bigSep Finset.univ fun i : Fin 16 => Φ (c, i, 1))) :=
  (BI.bigSep_univ_prod Φ).trans <|
    (bigSep_congr fun c _ => (BI.bigSep_univ_prod fun b : Fin 16 × Fin 2 => Φ (c, b)).trans <|
      (bigSep_congr fun i _ => bigSep_univ_two fun r => Φ (c, i, r)).trans (bigSep_sep' _ _ _)).trans (bigSep_sep' _ _ _)

/-- The input array, whole, is the tasks' chunks of it. -/
theorem xPts_cut (f : Buf (Elt F) (xLoc d)) : (xLoc d ↦{fullShare} f : sProp 𝕄)
    = iprop((bigSep Finset.univ fun c : Fin 2 => bigSep Finset.univ fun i : Fin 16 => xLoc d ↦[(xS0 (Lc c i)).view.set]{fullShare} f)
        ∗ (bigSep Finset.univ fun c : Fin 2 => bigSep Finset.univ fun i : Fin 16 => xLoc d ↦[(xS1 (Lc c i)).view.set]{fullShare} f)) := by
  have h : (xLoc d ↦{fullShare} f : sProp 𝕄) = bigSep Finset.univ fun t : TB => xLoc d ↦[xK t]{fullShare} f := by
    rw [← pointsTo_biUnion Finset.univ (ℓ := xLoc d) xK xK_disjoint, xK_cover]; try rfl
  exact h.trans (bigSep_TB _)

/-- The result array likewise. -/
theorem oPts_cut (f : Buf (Elt F) (oLoc d)) : (oLoc d ↦{fullShare} f : sProp 𝕄)
    = iprop((bigSep Finset.univ fun c : Fin 2 => bigSep Finset.univ fun i : Fin 16 => oLoc d ↦[(oS0 (Lc c i)).view.set]{fullShare} f)
        ∗ (bigSep Finset.univ fun c : Fin 2 => bigSep Finset.univ fun i : Fin 16 => oLoc d ↦[(oS1 (Lc c i)).view.set]{fullShare} f)) := by
  have h : (oLoc d ↦{fullShare} f : sProp 𝕄) = bigSep Finset.univ fun t : TB => oLoc d ↦[oK t]{fullShare} f := by
    rw [← pointsTo_biUnion Finset.univ (ℓ := oLoc d) oK oK_disjoint, oK_cover]; try rfl
  exact h.trans (bigSep_TB _)

/-- The user indices, whole, are the tasks' slices of them. -/
theorem uPts_cut (f : Buf (Elt F) (uLoc d)) : (uLoc d ↦{fullShare} f : sProp 𝕄)
    = bigSep Finset.univ fun c : Fin 2 => bigSep Finset.univ fun i : Fin 16 => uLoc d ↦[(uS (Lc c i)).view.set]{fullShare} f := by
  have h : (uLoc d ↦{fullShare} f : sProp 𝕄) = bigSep Finset.univ fun t : TU => uLoc d ↦[uK t]{fullShare} f := by
    rw [← pointsTo_biUnion Finset.univ (ℓ := uLoc d) uK uK_disjoint, uK_cover]; try rfl
  exact h.trans (BI.bigSep_univ_prod _)

omit d in
/-- A table every task reads whole: its full share is a read token per SparseCore, each of those a read token per task;
    the two remainders are kept aside. -/
theorem toks_cut {ℓ : Loc nD τ sig} (f : Buf (Elt F) ℓ) : (ℓ ↦{fullShare} f : sProp 𝕄)
    = iprop((ℓ ↦{shareDrop fullShare 2} f) ∗ (bigSep Finset.univ fun c : Fin 2 => ℓ ↦{shareDrop (shareTok fullShare 2 c) 16} f)
        ∗ bigSep Finset.univ fun c : Fin 2 => bigSep Finset.univ fun i : Fin 16 => ℓ ↦{qT c i} f) := by
  have h2 : (ℓ ↦{fullShare} f : sProp 𝕄) = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have h16 (c : Fin 2) : (ℓ ↦{shareTok fullShare 2 c} f : sProp 𝕄)
      = iprop((ℓ ↦{shareDrop (shareTok fullShare 2 c) 16} f) ∗ bigSep Finset.univ fun i : Fin 16 => ℓ ↦{qT c i} f) :=
    BI.equiv_iff.mp ⟨(pointsTo_toks _ 16).1, (pointsTo_toks _ 16).2⟩
  rw [h2, bigSep_congr fun c _ => h16 c, bigSep_sep']

end Cuts

/-! ## The launch's payloads -/

variable (m : (ℓ : Loc nD τ sig) → Buf (Elt F) ℓ) (ρ : Dev nD → PrngReg)
variable [FloatOps F] (hu : ∀ d, Spec.UOk (m (uLoc d))) (ht : ∀ d, Spec.TOk (m (tLoc d)))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem P_st (d : Dev nD) (c : Fin ((K (F := F)).nCore 0)) : (P m hu ht).st 0 d c
    = bigSep Finset.univ fun i : Fin ((K (F := F)).nSub 0) => tileGo m d (Lof c i) (qT (Fin.cast nCore_zero c) (Fin.cast nSub_zero i)) := rfl
theorem P_dn (d : Dev nD) (c : Fin ((K (F := F)).nCore 0)) : (P m hu ht).dn 0 d c
    = bigSep Finset.univ fun i : Fin ((K (F := F)).nSub 0) => tileTd m hu ht d (Lof c i) (qT (Fin.cast nCore_zero c) (Fin.cast nSub_zero i)) := rfl
theorem P_go (d : Dev nD) (c : Fin ((K (F := F)).nCore 0)) (i : Fin ((K (F := F)).nSub 0)) : (P m hu ht).go 0 d c i
    = tileGo m d (Lof c i) (qT (Fin.cast nCore_zero c) (Fin.cast nSub_zero i)) := rfl
theorem P_td (d : Dev nD) (c : Fin ((K (F := F)).nCore 0)) (i : Fin ((K (F := F)).nSub 0)) : (P m hu ht).td 0 d c i
    = tileTd m hu ht d (Lof c i) (qT (Fin.cast nCore_zero c) (Fin.cast nSub_zero i)) := rfl

instance P_storable : (P m hu ht).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-- A SparseCore's operands ARE its sixteen tasks' and its results theirs: nothing to cut. -/
theorem vecSplit : (K (F := F)).VecSplit' (P m hu ht) 0 := by
  intro d c
  rw [P_st, P_dn, bigSep_congr fun i _ => P_go m hu ht d c i, bigSep_congr fun i _ => P_td m hu ht d c i]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P m hu ht).x q thr = iprop(emp) := rfl

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hu ht).x q thr) := by
  unfold u₀
  iintro Hu
  ihave H := (ownU_pair _ _) $$ Hu
  icases H with ⟨HH, -⟩
  imodintro
  isplitl [HH]; · iexact HH
  isplitr; · rw [bigSep_emp']; iempintro
  have hx : (bigSep Finset.univ fun thr : Thread nD τ => bigSep Finset.univ fun q : Fin 1 => (P m hu ht).x q thr) = (iprop(emp) : sProp 𝕄) :=
    (bigSep_congr fun thr _ => (bigSep_congr fun q _ => P_x m hu ht q thr).trans (bigSep_emp' _)).trans (bigSep_emp' _)
  rw [hx]; iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (uLoc d ↦{fullShare} W main_arg1) ∗ (tLoc d ↦{fullShare} W main_arg2)
      ∗ (dLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What the one call takes for the two SparseCores, and what it hands back: every task's part. -/
theorem st0_eq (d : Dev nD) : (bigSep Finset.univ fun c : Fin ((K (F := F)).nCore 0) => (P m hu ht).st 0 d c)
    = bigSep Finset.univ fun c : Fin 2 => bigSep Finset.univ fun i : Fin 16 => tileGo m d (Lc c i) (qT c i) :=
  bigSep_congr fun c _ => P_st m hu ht d c
theorem dn0_eq (d : Dev nD) : (bigSep Finset.univ fun c : Fin ((K (F := F)).nCore 0) => (P m hu ht).dn 0 d c)
    = bigSep Finset.univ fun c : Fin 2 => bigSep Finset.univ fun i : Fin 16 => tileTd m hu ht d (Lc c i) (qT c i) :=
  bigSep_congr fun c _ => P_dn m hu ht d c

omit [FloatOps F] in
/-- A product over the tasks of a `∗` is the `∗` of the products. -/
theorem tasks_sep (Φ Ψ : Fin 2 → Fin 16 → sProp 𝕄) :
    (bigSep Finset.univ fun c : Fin 2 => bigSep Finset.univ fun i : Fin 16 => iprop(Φ c i ∗ Ψ c i))
      = iprop((bigSep Finset.univ fun c : Fin 2 => bigSep Finset.univ fun i : Fin 16 => Φ c i)
          ∗ (bigSep Finset.univ fun c : Fin 2 => bigSep Finset.univ fun i : Fin 16 => Ψ c i)) :=
  (bigSep_congr fun c _ => bigSep_sep' _ _ _).trans (bigSep_sep' _ _ _)

omit [FloatOps F] in
theorem tasks_mono {Φ Ψ : Fin 2 → Fin 16 → sProp 𝕄} (h : ∀ c i, Φ c i ⊢ Ψ c i) :
    (bigSep Finset.univ fun c : Fin 2 => bigSep Finset.univ fun i : Fin 16 => Φ c i)
      ⊢ bigSep Finset.univ fun c : Fin 2 => bigSep Finset.univ fun i : Fin 16 => Ψ c i :=
  bigSep_mono fun c _ => bigSep_mono fun i _ => h c i

/-- The table shares kept aside while the tasks run: what remains of each table's full share after a read token per
    SparseCore, and of each of those after a read token per task. -/
abbrev REM (d : Dev nD) : sProp 𝕄 :=
  iprop(((tLoc d ↦{shareDrop fullShare 2} m (tLoc d)) ∗ bigSep Finset.univ fun c : Fin 2 => tLoc d ↦{shareDrop (shareTok fullShare 2 c) 16} m (tLoc d))
    ∗ ((dLoc d ↦{shareDrop fullShare 2} m (dLoc d)) ∗ bigSep Finset.univ fun c : Fin 2 => dLoc d ↦{shareDrop (shareTok fullShare 2 c) 16} m (dLoc d)))

/-- @main's arrays, whole: the four arguments at the launch contents, the result at `f`. -/
abbrev ARR (d : Dev nD) (f : Buf (Elt F) (oLoc d)) : sProp 𝕄 :=
  iprop((xLoc d ↦{fullShare} m (xLoc d)) ∗ (uLoc d ↦{fullShare} m (uLoc d)) ∗ (tLoc d ↦{fullShare} m (tLoc d))
    ∗ (dLoc d ↦{fullShare} m (dLoc d)) ∗ oLoc d ↦{fullShare} f)

theorem go_cut (d : Dev nD) : (bigSep Finset.univ fun c : Fin 2 => bigSep Finset.univ fun i : Fin 16 => tileGo m d (Lc c i) (qT c i))
    = iprop(((bigSep Finset.univ fun c : Fin 2 => bigSep Finset.univ fun i : Fin 16 => xLoc d ↦[(xS0 (Lc c i)).view.set]{fullShare} m (xLoc d))
        ∗ (bigSep Finset.univ fun c : Fin 2 => bigSep Finset.univ fun i : Fin 16 => xLoc d ↦[(xS1 (Lc c i)).view.set]{fullShare} m (xLoc d))
        ∗ (bigSep Finset.univ fun c : Fin 2 => bigSep Finset.univ fun i : Fin 16 => uLoc d ↦[(uS (Lc c i)).view.set]{fullShare} m (uLoc d))
        ∗ (bigSep Finset.univ fun c : Fin 2 => bigSep Finset.univ fun i : Fin 16 => tLoc d ↦{qT c i} m (tLoc d))
        ∗ (bigSep Finset.univ fun c : Fin 2 => bigSep Finset.univ fun i : Fin 16 => dLoc d ↦{qT c i} m (dLoc d)))
      ∗ (bigSep Finset.univ fun c : Fin 2 => bigSep Finset.univ fun i : Fin 16 => iprop(∃ f, oLoc d ↦[(oS0 (Lc c i)).view.set]{fullShare} f))
      ∗ (bigSep Finset.univ fun c : Fin 2 => bigSep Finset.univ fun i : Fin 16 => iprop(∃ f, oLoc d ↦[(oS1 (Lc c i)).view.set]{fullShare} f))) := by
  rw [← tasks_sep, ← tasks_sep, ← tasks_sep, ← tasks_sep, ← tasks_sep, ← tasks_sep]

theorem td_cut (d : Dev nD) : (bigSep Finset.univ fun c : Fin 2 => bigSep Finset.univ fun i : Fin 16 => tileTd m hu ht d (Lc c i) (qT c i))
    = iprop(((bigSep Finset.univ fun c : Fin 2 => bigSep Finset.univ fun i : Fin 16 => xLoc d ↦[(xS0 (Lc c i)).view.set]{fullShare} m (xLoc d))
        ∗ (bigSep Finset.univ fun c : Fin 2 => bigSep Finset.univ fun i : Fin 16 => xLoc d ↦[(xS1 (Lc c i)).view.set]{fullShare} m (xLoc d))
        ∗ (bigSep Finset.univ fun c : Fin 2 => bigSep Finset.univ fun i : Fin 16 => uLoc d ↦[(uS (Lc c i)).view.set]{fullShare} m (uLoc d))
        ∗ (bigSep Finset.univ fun c : Fin 2 => bigSep Finset.univ fun i : Fin 16 => tLoc d ↦{qT c i} m (tLoc d))
        ∗ (bigSep Finset.univ fun c : Fin 2 => bigSep Finset.univ fun i : Fin 16 => dLoc d ↦{qT c i} m (dLoc d)))
      ∗ (bigSep Finset.univ fun c : Fin 2 => bigSep Finset.univ fun i : Fin 16 => oLoc d ↦[(oS0 (Lc c i)).view.set]{fullShare} G m hu ht d)
      ∗ (bigSep Finset.univ fun c : Fin 2 => bigSep Finset.univ fun i : Fin 16 => oLoc d ↦[(oS1 (Lc c i)).view.set]{fullShare} G m hu ht d)) := by
  rw [← tasks_sep, ← tasks_sep, ← tasks_sep, ← tasks_sep, ← tasks_sep, ← tasks_sep]

/-- The five arrays, whole, give every task its part; the tables' remainders are kept aside. -/
theorem cut_in (d : Dev nD) : ARR m d (m (oLoc d))
    ⊢ iprop((bigSep Finset.univ fun c : Fin 2 => bigSep Finset.univ fun i : Fin 16 => tileGo m d (Lc c i) (qT c i)) ∗ REM m d) := by
  unfold ARR
  rw [go_cut, xPts_cut d, uPts_cut d, toks_cut (m (tLoc d)), toks_cut (m (dLoc d)), oPts_cut d]
  iintro ⟨⟨Hx0, Hx1⟩, Hu, ⟨Ht2, Ht16, Ht⟩, ⟨Hd2, Hd16, Hd⟩, ⟨Ho0, Ho1⟩⟩
  isplitl [Hx0 Hx1 Hu Ht Hd Ho0 Ho1]
  · isplitl [Hx0 Hx1 Hu Ht Hd]
    · isplitl [Hx0]; · iexact Hx0
      isplitl [Hx1]; · iexact Hx1
      isplitl [Hu]; · iexact Hu
      isplitl [Ht]; · iexact Ht
      iexact Hd
    isplitl [Ho0]
    · iapply (tasks_mono (Φ := fun c i => oLoc d ↦[(oS0 (Lc c i)).view.set]{fullShare} m (oLoc d)) fun c i => by iintro H; iexists _; iexact H)
      iexact Ho0
    · iapply (tasks_mono (Φ := fun c i => oLoc d ↦[(oS1 (Lc c i)).view.set]{fullShare} m (oLoc d)) fun c i => by iintro H; iexists _; iexact H)
      iexact Ho1
  · isplitl [Ht2 Ht16]
    · isplitl [Ht2]; · iexact Ht2
      iexact Ht16
    · isplitl [Hd2]; · iexact Hd2
      iexact Hd16

/-- Every task's results and the remainders give the five arrays back whole, the result at the specified function. -/
theorem join_out (d : Dev nD) :
    iprop((bigSep Finset.univ fun c : Fin 2 => bigSep Finset.univ fun i : Fin 16 => tileTd m hu ht d (Lc c i) (qT c i)) ∗ REM m d)
      ⊢ ARR m d (G m hu ht d) := by
  unfold ARR
  rw [td_cut, xPts_cut d, uPts_cut d, toks_cut (m (tLoc d)), toks_cut (m (dLoc d)), oPts_cut d]
  iintro ⟨⟨⟨Hx0, Hx1, Hu, Ht, Hd⟩, Ho0, Ho1⟩, ⟨Ht2, Ht16⟩, ⟨Hd2, Hd16⟩⟩
  isplitl [Hx0 Hx1]
  · isplitl [Hx0]; · iexact Hx0
    iexact Hx1
  isplitl [Hu]; · iexact Hu
  isplitl [Ht2 Ht16 Ht]
  · isplitl [Ht2]; · iexact Ht2
    isplitl [Ht16]; · iexact Ht16
    iexact Ht
  isplitl [Hd2 Hd16 Hd]
  · isplitl [Hd2]; · iexact Hd2
    isplitl [Hd16]; · iexact Hd16
    iexact Hd
  isplitl [Ho0]; · iexact Ho0
  iexact Ho1

/-- What @main leaves the claim: the arguments at their launch contents, the result at the specified function. -/
abbrev FIN (d : Dev nD) : sProp 𝕄 := ARR m d (G m hu ht d)

/-- @main on device `d`'s TensorCore: the one call, from the five arrays whole and back to them. -/
theorem hmain (κ : GSem nD τ sig → ℕ) (d : Dev nD) :
    iprop((K (F := F)).ctx EH (P m hu ht) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hu ht d) := by
  unfold SparseCore.Cfg.tcRes
  rw [unscopedBufs_eq]
  simp only [main, wp_bind, wp_pure]
  iintro ⟨#Hctx, Hst, ⟨Hb, Harr, -, -⟩, -⟩
  ihave Hcut := (cut_in m d) $$ Harr
  icases Hcut with ⟨Hgo, Hrem⟩
  iapply ((K (F := F)).wp_run (D (F := F)) 𝒱 (EH := EH) (P := P m hu ht) κ d 0) $$ [Hst Hgo Hrem]
  isplitr; · iexact Hctx
  isplitl [Hst]; · iexact Hst
  isplitl [Hgo]
  · rw [st0_eq]; iexact Hgo
  iintro ⟨Hst, Hdn⟩
  ihave Hdn' := (Entails.of_eq (dn0_eq m hu ht d)) $$ Hdn
  ihave Hfin := (join_out m hu ht d) $$ [Hdn' Hrem]
  · isplitl [Hdn']; · iexact Hdn'
    iexact Hrem
  imodintro
  isplitl [Hst]; · iexact Hst
  iexact Hfin

def fq (d : Dev nD) (s' : Phys nD τ sig (Elt F)) : Prop :=
  s'.mem.mem (oLoc d) = G m hu ht d ∧ s'.mem.mem (xLoc d) = m (xLoc d) ∧ s'.mem.mem (uLoc d) = m (uLoc d)
    ∧ s'.mem.mem (tLoc d) = m (tLoc d) ∧ s'.mem.mem (dLoc d) = m (dLoc d)

theorem hfin (d : Dev nD) (s' : Phys nD τ sig (Elt F)) : iprop(FIN m hu ht d ∗ SI s') ⊢ (⌜fq m hu ht d s'⌝ : sProp 𝕄) := by
  iintro ⟨⟨Hx, Hu, Ht, Hd, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h4, HSI, -⟩
  ihave H := (SI_pointsTo_agree (st := s') (ℓ := oLoc d) (I := Finset.univ) (q := fullShare) (f := G m hu ht d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- The run's post: on every device the result is the specified function of the arguments, which are unchanged. -/
def QC : PUnit × MemSt nD τ sig (Elt F) → Prop := fun r => ∀ c : Dev nD,
  r.2.mem (oLoc c) = G m hu ht c ∧ r.2.mem (xLoc c) = m (xLoc c) ∧ r.2.mem (uLoc c) = m (uLoc c)
    ∧ r.2.mem (tLoc c) = m (tLoc c) ∧ r.2.mem (dLoc c) = m (dLoc c)

/-- From the tasks' obligation to the run of the whole device: every weakly fair execution of the 35 threads terminates,
    nothing faulting, the result array the specified function of the arguments, the arguments unchanged. -/
theorem run_main [∀ e, Nonempty (Elt F e)] (htile : (K (F := F)).TileObl (D (F := F)) 𝒱 (P m hu ht) v₀ 0) :
    θ_run (Cert.Kernel.defs (F := F)) (Cert.Kernel.threads (F := F)) ⟨m, fun _ => 0, ρ⟩
      (fun r => ∀ c : Dev nD, r.2.mem (oLoc c) = G m hu ht c ∧ r.2.mem (xLoc c) = m (xLoc c) ∧ r.2.mem (uLoc c) = m (uLoc c)
        ∧ r.2.mem (tLoc c) = m (tLoc c) ∧ r.2.mem (dLoc c) = m (dLoc c)) :=
  SparseCore.Cfg.θ_run_sc (K := K (F := F)) (D := D (F := F)) (𝒱 := 𝒱) (EH := EH) (P := P m hu ht) facts v₀
    (fun q hq => match q with | 0 => nomatch hq)
    (fun q _ => match q with | 0 => htile)
    (fun q _ => match q with | 0 => SparseCore.Cfg.VecSplit.of_plain (vecSplit m hu ht))
    m ρ main (fun _ => iprop(emp)) (FIN m hu ht) (u₀ (F := F)) (sep_elim_left.trans (hu₀ m hu ht)) (hmain m ρ hu ht) (fq m hu ht) (hfin m hu ht)
    (QC m hu ht) (fun _ h => h)

end Cert.Kernel.Launch

end
-- ==== Proof.FrameKernel.lean ====
/-
  The frame claim's post from the run of the launch, for the program as printed (floats as words).

  `Launch.run_main` ends with the result array at the specified function of the arguments and the four arguments
  unchanged, on every device; the frame claim is that run with the result's conjunct dropped, stated in the claim's own
  spelling of the locations, `(c.tc).loc main_…`, which is the interface's (`rfl`). The precondition enters only through
  the two range facts it implies (every user index and every entry of the index table below 100), a hypothesis here
  beside the tasks' obligation.
-/
import proofs.«202775_g10411000725526_cont_sun_m_1212_8_alg».proof.Defs
import proofs.«202775_g10411000725526_cont_sun_m_1212_8_alg».proof.Proof.LaunchKernel

noncomputable section

namespace Cert.Kernel.Launch

open Cert.Kernel Cert.Kernel.Gen Cert.Kernel.Iface

open Idealize.ShloMosaic Idealize.SL.Sem

/-- The locations as the claims spell them are the interface's. -/
theorem loc_spelling (c : Dev nD) :
    xLoc c = (c.tc : Thread nD τ).loc main_arg0 ∧ uLoc c = (c.tc : Thread nD τ).loc main_arg1 ∧ tLoc c = (c.tc : Thread nD τ).loc main_arg2
      ∧ dLoc c = (c.tc : Thread nD τ).loc main_arg3 ∧ oLoc c = (c.tc : Thread nD τ).loc main_v0 := ⟨rfl, rfl, rfl, rfl, rfl⟩

section Generic

variable {F : FTy → Type} [FloatOps F] [∀ e, Nonempty (Elt F e)]

/-- The run in the claims' spelling: the result the specified function, the arguments unchanged. -/
theorem run_of_tile (m : (ℓ : Loc nD τ sig) → Buf (Elt F) ℓ) (g : Dev nD → PrngReg)
    (hu : ∀ d, Spec.UOk (m (uLoc d))) (ht : ∀ d, Spec.TOk (m (tLoc d)))
    (htile : (K (F := F)).TileObl (D (F := F)) 𝒱 (P m hu ht) v₀ 0) :
    θ_run (Cert.Kernel.defs (F := F)) (Cert.Kernel.threads (F := F)) ⟨m, fun _ => 0, g⟩ (fun r => ∀ c : Dev nD,
      r.2.mem ((c.tc : Thread nD τ).loc main_v0) = G m hu ht c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m g hu ht htile

/-- The frame: the same run, the result's conjunct dropped. -/
theorem frame_run_of_tile (m : (ℓ : Loc nD τ sig) → Buf (Elt F) ℓ) (g : Dev nD → PrngReg)
    (hu : ∀ d, Spec.UOk (m (uLoc d))) (ht : ∀ d, Spec.TOk (m (tLoc d)))
    (htile : (K (F := F)).TileObl (D (F := F)) 𝒱 (P m hu ht) v₀ 0) :
    θ_run (Cert.Kernel.defs (F := F)) (Cert.Kernel.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.Kernel.defs _ _).mono (fun _ h c => (h c).2) (run_of_tile m g hu ht htile)

end Generic

/-- `Cert.frame_Kernel` (Defs.lean), from the tasks' obligation and the range facts the precondition gives. -/
theorem frame_of_tile [hPre : Cert.Pre_input_domain.Facts]
    (hranges : ∀ m : (ℓ : Loc nD τ sig) → Buf (Elt Bits) ℓ, Cert.Pre_Kernel m →
      (∀ d, Spec.UOk (m (uLoc d))) ∧ (∀ d, Spec.TOk (m (tLoc d))))
    (htile : ∀ (m : (ℓ : Loc nD τ sig) → Buf (Elt Bits) ℓ) (hu : ∀ d, Spec.UOk (m (uLoc d))) (ht : ∀ d, Spec.TOk (m (tLoc d))),
      (K (F := Bits)).TileObl (D (F := Bits)) 𝒱 (P m hu ht) v₀ 0) :
    Cert.frame_Kernel := fun m g hpre =>
  frame_run_of_tile m g (hranges m hpre).1 (hranges m hpre).2 (htile m _ _)

end Cert.Kernel.Launch

end
-- ==== Proof.IfaceKernelIdeal.lean ====
/-
  What the launch hands each tile and what each tile hands back: the shared statement between the proof of one
  tile's task and the proof of the launch.

  The device runs 32 tasks, one per vector subcore (c, s) of the two SparseCores; task (c, s) owns rows
  [1024 s + 512 c, 1024 s + 512 c + 512) of the batch, in two chunks of 256 rows. A task reads its 512 user indices,
  the whole index table and the whole delta table, and its two chunks of the input; it writes its two chunks of the
  result. So a task is handed: its two input chunks and its slice of the user indices outright, a read share of the
  two tables (every task reads them whole), and its two chunks of the result at whatever they hold; it hands back
  the same, the result's two chunks now holding the specified function `Spec.outFn` of the argument arrays.
-/
import proofs.«202775_g10411000725526_cont_sun_m_1212_8_alg».proof.KernelIdeal
import proofs.«202775_g10411000725526_cont_sun_m_1212_8_alg».proof.Proof.Gen.KernelIdeal
import proofs.«202775_g10411000725526_cont_sun_m_1212_8_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Iface

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

abbrev xLoc (d : Dev nD) : Loc nD τ sig := (SparseCore.T d).loc main_arg0
abbrev uLoc (d : Dev nD) : Loc nD τ sig := (SparseCore.T d).loc main_arg1
abbrev tLoc (d : Dev nD) : Loc nD τ sig := (SparseCore.T d).loc main_arg2
abbrev dLoc (d : Dev nD) : Loc nD τ sig := (SparseCore.T d).loc main_arg3
abbrev oLoc (d : Dev nD) : Loc nD τ sig := (SparseCore.T d).loc main_v0

/-- The arrays as a tile's memrefs name them. -/
abbrev xM : Memref sig .scVector .hbm S16384x128 .f32 := Memref.whole main_arg0_scv
abbrev uM : Memref sig .scVector .hbm S16384 .i32 := Memref.whole main_arg1_scv
abbrev tM : Memref sig .scVector .hbm S100 .i32 := Memref.whole main_arg2_scv
abbrev dM : Memref sig .scVector .hbm S100x128 .f32 := Memref.whole main_arg3_scv
abbrev oM : Memref sig .scVector .hbm S16384x128 .f32 := Memref.whole main_v0_scv

/-- A grid position from its two coordinates, as the body table spells it. -/
def coordsV (c : Fin (grid0.bound 0)) (s : Fin (grid0.bound 1)) : grid0.Coords :=
  fun | 0 => c | 1 => s | ⟨_ + 2, h⟩ => absurd h (Nat.not_lt.2 (Nat.le_add_left _ _))

/-- The slices a task at grid position `L` transfers, spelt as the program slices them: its two input chunks, its user
    indices, its two result chunks. -/
abbrev xS0 (L : grid0.Coords) : Memref sig .scVector .hbm S256x128 .f32 :=
  (xM).slice (Rect.unit (s := S16384x128) (k0_off2 L 0#32) S256x128.size (k0_off2_inb L 0)) (fun _ => rfl)
abbrev xS1 (L : grid0.Coords) : Memref sig .scVector .hbm S256x128 .f32 :=
  (xM).slice (Rect.unit (s := S16384x128) (k0_off2 L 256#32) S256x128.size (k0_off2_inb L 1)) (fun _ => rfl)
abbrev uS (L : grid0.Coords) : Memref sig .scVector .hbm S512 .i32 :=
  (uM).slice (Rect.unit (s := S16384) (k0_off1 L) S512.size (k0_off1_inb L)) (fun _ => rfl)
abbrev oS0 (L : grid0.Coords) : Memref sig .scVector .hbm S256x128 .f32 :=
  (oM).slice (Rect.unit (s := S16384x128) (k0_off69 L 0#32) S256x128.size (k0_off69_inb L 0)) (fun _ => rfl)
abbrev oS1 (L : grid0.Coords) : Memref sig .scVector .hbm S256x128 .f32 :=
  (oM).slice (Rect.unit (s := S16384x128) (k0_off69 L 256#32) S256x128.size (k0_off69_inb L 1)) (fun _ => rfl)

/-- The read share of the two tables that task `i` of SparseCore `c` holds: the tables' full share is cut into a read
    token per SparseCore, each of those into a read token per task. -/
abbrev qT (c : Fin 2) (i : Fin 16) : PosShare TreeShare := shareTok (shareTok fullShare 2 c) 16 i

/-- The grid position of task `i` of SparseCore `c`. -/
abbrev Lof (c : Fin ((K (F := F)).nCore 0)) (i : Fin ((K (F := F)).nSub 0)) : grid0.Coords :=
  coordsV ⟨c.val, c.isLt⟩ ⟨i.val, i.isLt⟩

variable [FloatOps F]

/-- The result the programs are to leave: `Spec.outFn` of the four argument arrays of device `d`. -/
abbrev G (hu : ∀ d, Spec.UOk (m (uLoc d))) (ht : ∀ d, Spec.TOk (m (tLoc d))) (d : Dev nD) : Buf (Elt F) (oLoc d) :=
  Spec.outFn (F := F) (m (xLoc d)) (m (uLoc d)) (m (tLoc d)) (m (dLoc d)) (hu d) (ht d)

/-- What a task at `L` with table share `q` reads, all at the launch contents. -/
abbrev tileIn (d : Dev nD) (L : grid0.Coords) (q : PosShare TreeShare) : sProp 𝕄 :=
  iprop((xLoc d ↦[(xS0 L).view.set]{fullShare} m (xLoc d)) ∗ (xLoc d ↦[(xS1 L).view.set]{fullShare} m (xLoc d))
    ∗ (uLoc d ↦[(uS L).view.set]{fullShare} m (uLoc d)) ∗ (tLoc d ↦{q} m (tLoc d)) ∗ (dLoc d ↦{q} m (dLoc d)))

/-- A task's operands: what it reads, and its two result chunks at whatever they hold. -/
abbrev tileGo (d : Dev nD) (L : grid0.Coords) (q : PosShare TreeShare) : sProp 𝕄 :=
  iprop(tileIn m d L q ∗ (∃ f, oLoc d ↦[(oS0 L).view.set]{fullShare} f) ∗ (∃ f, oLoc d ↦[(oS1 L).view.set]{fullShare} f))

/-- A task's results: what it read, unchanged, and its two result chunks at the specified function. -/
abbrev tileTd (hu : ∀ d, Spec.UOk (m (uLoc d))) (ht : ∀ d, Spec.TOk (m (tLoc d))) (d : Dev nD) (L : grid0.Coords) (q : PosShare TreeShare) : sProp 𝕄 :=
  iprop(tileIn m d L q ∗ (oLoc d ↦[(oS0 L).view.set]{fullShare} G m hu ht d) ∗ (oLoc d ↦[(oS1 L).view.set]{fullShare} G m hu ht d))

/-- The one call's payloads: a SparseCore is handed, and hands back, its sixteen tasks' parts; the tasks' own
    transfers need nothing of the launch. -/
def P (hu : ∀ d, Spec.UOk (m (uLoc d))) (ht : ∀ d, Spec.TOk (m (tLoc d))) : (K (F := F)).Pay (nD := nD) (Val := Elt F) (Name := ℕ) (U := UU) where
  st := fun q d c => match q with
    | 0 => bigSep Finset.univ fun i : Fin ((K (F := F)).nSub 0) => tileGo m d (Lof c i) (qT (Fin.cast nCore_zero c) (Fin.cast nSub_zero i))
  dn := fun q d c => match q with
    | 0 => bigSep Finset.univ fun i : Fin ((K (F := F)).nSub 0) => tileTd m hu ht d (Lof c i) (qT (Fin.cast nCore_zero c) (Fin.cast nSub_zero i))
  go := fun q d c i => match q with
    | 0 => tileGo m d (Lof c i) (qT (Fin.cast nCore_zero c) (Fin.cast nSub_zero i))
  td := fun q d c i => match q with
    | 0 => tileTd m hu ht d (Lof c i) (qT (Fin.cast nCore_zero c) (Fin.cast nSub_zero i))
  x := fun _ _ => iprop(emp)

end Cert.KernelIdeal.Iface

end
-- ==== Proof.LaunchKernelIdeal.lean ====
/-
  The launch: from "each vector subcore's task is proved" to the run of the whole device.

  The device's TensorCore runs @main, which is one call of the SparseCore kernel: it starts the two SparseCores'
  sequencers, each of which hands its sixteen vector subcores their tasks, waits for them and reports back. The launch
  theorem (Lib/SparseCore/Launch.lean `Cfg.θ_run_sc`) turns the tasks' obligation (`TileObl`, a hypothesis here) into
  `θ_run` of all 35 threads, given: the payloads (`Iface.P`: a SparseCore is handed its sixteen tasks' parts, so the split
  among the tasks is the identity); @main's proof (`hmain`), where the five arrays the TensorCore holds whole are cut
  into the 32 tasks' parts before the call and joined back after it; the launch element (`hu₀`: the handshakes' rounds,
  nothing of the kernel's own); and how the final memory reads the post (`hfin`).

  The cut. Task `(c, i)` owns rows `[1024 i + 512 c, + 512)` in two chunks of 256 rows; over `(c, i, r)` the 64 chunks
  `[1024 i + 512 c + 256 r, + 256)` are pairwise disjoint and cover the 16384 rows, so the input array and the result
  array are the `∗` of their chunks (`xPts_cut`, `oPts_cut`), the user indices of their 32 slices (`uPts_cut`); each of
  the two tables every task reads whole is a read token per SparseCore, each of those a read token per task, and the
  remainders (`toks_cut`, kept aside during the call as `REM`). Every chunk of the result comes back holding the SAME
  function `Iface.G`, so the chunks join to the whole array at `G`.

  Everything is generic in the float instance `F`.
-/
import proofs.«202775_g10411000725526_cont_sun_m_1212_8_alg».proof.Proof.IfaceKernelIdeal

noncomputable section

namespace Cert.KernelIdeal.Launch

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## The tasks' row blocks

Task `(c, i)` (SparseCore `c`, vector subcore `i`) works on rows `[1024 i + 512 c, 1024 i + 512 c + 512)`, in two chunks of
256 rows. Numbering the chunks `n = 4 i + 2 c + r` (`r` the chunk), chunk `n` is rows `[256 n, 256 n + 256)`: the 64 chunks
are pairwise disjoint and cover the 16384 rows; the 32 index slices `[512 (2 i + c), + 512)` likewise. -/

theorem unit_congr {s : Shape} {off off' size : Fin s.rank → Nat} (h : off = off') (inb : ∀ a, off a + size a ≤ s.size a)
    (inb' : ∀ a, off' a + size a ≤ s.size a) : Rect.unit off size inb = Rect.unit off' size inb' := by subst h; rfl

/-- Chunk `r` of the input rows of the task at `L`, and of its result rows. -/
abbrev xSr (L : grid0.Coords) (r : Fin 2) : Memref sig .scVector .hbm S256x128 .f32 :=
  (xM).slice (Rect.unit (s := S16384x128) (k0_off2 L (BitVec.ofNat 32 (256 * r.val))) S256x128.size (k0_off2_inb L r)) (fun _ => rfl)
abbrev oSr (L : grid0.Coords) (r : Fin 2) : Memref sig .scVector .hbm S256x128 .f32 :=
  (oM).slice (Rect.unit (s := S16384x128) (k0_off69 L (BitVec.ofNat 32 (256 * r.val))) S256x128.size (k0_off69_inb L r)) (fun _ => rfl)

theorem xSr_zero (L : grid0.Coords) : xSr L 0 = xS0 L := rfl
theorem xSr_one (L : grid0.Coords) : xSr L 1 = xS1 L := rfl
theorem oSr_zero (L : grid0.Coords) : oSr L 0 = oS0 L := rfl
theorem oSr_one (L : grid0.Coords) : oSr L 1 = oS1 L := rfl

theorem mem_xSr {L : grid0.Coords} {r : Fin 2} {x : S16384x128.Idx} :
    x ∈ (xSr L r).view.set ↔ 1024 * (L 1).val + 512 * (L 0).val + 256 * r.val ≤ (x 0).val
      ∧ (x 0).val < 1024 * (L 1).val + 512 * (L 0).val + 256 * r.val + 256 := by
  simp only [Memref.view_slice, Memref.view_whole, View.set_slice_whole]
  rw [Rect.mem_set_unit, k0_off2_eq]
  have h1 : (x 1).val < 128 := (x 1).isLt
  constructor
  · intro h; exact h 0
  · rintro ⟨h, h'⟩ a
    match a with
    | 0 => exact ⟨h, h'⟩
    | 1 => exact ⟨Nat.zero_le _, (Nat.zero_add _).symm ▸ h1⟩

theorem mem_oSr {L : grid0.Coords} {r : Fin 2} {x : S16384x128.Idx} :
    x ∈ (oSr L r).view.set ↔ 1024 * (L 1).val + 512 * (L 0).val + 256 * r.val ≤ (x 0).val
      ∧ (x 0).val < 1024 * (L 1).val + 512 * (L 0).val + 256 * r.val + 256 := by
  simp only [Memref.view_slice, Memref.view_whole, View.set_slice_whole]
  rw [Rect.mem_set_unit, k0_off69_eq]
  have h1 : (x 1).val < 128 := (x 1).isLt
  constructor
  · intro h; exact h 0
  · rintro ⟨h, h'⟩ a
    match a with
    | 0 => exact ⟨h, h'⟩
    | 1 => exact ⟨Nat.zero_le _, (Nat.zero_add _).symm ▸ h1⟩

theorem mem_uS {L : grid0.Coords} {x : S16384.Idx} :
    x ∈ (uS L).view.set ↔ 1024 * (L 1).val + 512 * (L 0).val ≤ (x 0).val ∧ (x 0).val < 1024 * (L 1).val + 512 * (L 0).val + 512 := by
  simp only [Memref.view_slice, Memref.view_whole, View.set_slice_whole]
  rw [Rect.mem_set_unit, k0_off1_eq]
  constructor
  · intro h; exact h 0
  · rintro ⟨h, h'⟩ a
    match a with
    | 0 => exact ⟨h, h'⟩

/-! ### Disjoint and covering -/

section Blocks

/-- The 64 chunks' index: SparseCore, vector subcore, chunk. -/
abbrev TB : Type := Fin 2 × Fin 16 × Fin 2
/-- The 32 tasks' index. -/
abbrev TU : Type := Fin 2 × Fin 16

/-- The grid position of task `(c, i)`. -/
abbrev Lc (c : Fin 2) (i : Fin 16) : grid0.Coords := coordsV ⟨c.val, c.isLt⟩ ⟨i.val, i.isLt⟩
theorem Lc_zero (c : Fin 2) (i : Fin 16) : ((Lc c i) 0).val = c.val := rfl
theorem Lc_one (c : Fin 2) (i : Fin 16) : ((Lc c i) 1).val = i.val := rfl

abbrev xK (t : TB) : Finset S16384x128.Idx := (xSr (Lc t.1 t.2.1) t.2.2).view.set
abbrev oK (t : TB) : Finset S16384x128.Idx := (oSr (Lc t.1 t.2.1) t.2.2).view.set
abbrev uK (t : TU) : Finset S16384.Idx := (uS (Lc t.1 t.2)).view.set

theorem chunks_sep {c c' : Fin 2} {i i' : Fin 16} {r r' : Fin 2} {x : ℕ}
    (h : 1024 * i.val + 512 * c.val + 256 * r.val ≤ x ∧ x < 1024 * i.val + 512 * c.val + 256 * r.val + 256)
    (h' : 1024 * i'.val + 512 * c'.val + 256 * r'.val ≤ x ∧ x < 1024 * i'.val + 512 * c'.val + 256 * r'.val + 256) :
    (c, i, r) = (c', i', r') := by
  have := c.isLt; have := c'.isLt; have := r.isLt; have := r'.isLt
  have hc : c.val = c'.val := by omega
  have hi : i.val = i'.val := by omega
  have hr : r.val = r'.val := by omega
  rw [Fin.ext hc, Fin.ext hi, Fin.ext hr]

theorem chunks_cover (x : ℕ) (hx : x < 16384) : ∃ t : TB,
    1024 * t.2.1.val + 512 * t.1.val + 256 * t.2.2.val ≤ x ∧ x < 1024 * t.2.1.val + 512 * t.1.val + 256 * t.2.2.val + 256 :=
  ⟨(⟨x % 1024 / 512, by omega⟩, ⟨x / 1024, by omega⟩, ⟨x % 512 / 256, by omega⟩), by dsimp only; omega⟩

theorem slices_cover (x : ℕ) (hx : x < 16384) : ∃ t : TU,
    1024 * t.2.val + 512 * t.1.val ≤ x ∧ x < 1024 * t.2.val + 512 * t.1.val + 512 :=
  ⟨(⟨x % 1024 / 512, by omega⟩, ⟨x / 1024, by omega⟩), by dsimp only; omega⟩

theorem slices_sep {c c' : Fin 2} {i i' : Fin 16} {x : ℕ}
    (h : 1024 * i.val + 512 * c.val ≤ x ∧ x < 1024 * i.val + 512 * c.val + 512)
    (h' : 1024 * i'.val + 512 * c'.val ≤ x ∧ x < 1024 * i'.val + 512 * c'.val + 512) : (c, i) = (c', i') := by
  have := c.isLt; have := c'.isLt
  have hc : c.val = c'.val := by omega
  have hi : i.val = i'.val := by omega
  rw [Fin.ext hc, Fin.ext hi]

theorem xK_disjoint : ∀ t ∈ (Finset.univ : Finset TB), ∀ t' ∈ (Finset.univ : Finset TB), t ≠ t' → Disjoint (xK t) (xK t') := by
  rintro ⟨c, i, r⟩ - ⟨c', i', r'⟩ - h
  refine Finset.disjoint_left.mpr fun x hx hx' => h ?_
  rw [mem_xSr, Lc_zero, Lc_one] at hx hx'
  exact chunks_sep hx hx'
theorem oK_disjoint : ∀ t ∈ (Finset.univ : Finset TB), ∀ t' ∈ (Finset.univ : Finset TB), t ≠ t' → Disjoint (oK t) (oK t') := by
  rintro ⟨c, i, r⟩ - ⟨c', i', r'⟩ - h
  refine Finset.disjoint_left.mpr fun x hx hx' => h ?_
  rw [mem_oSr, Lc_zero, Lc_one] at hx hx'
  exact chunks_sep hx hx'
theorem xK_cover : (Finset.univ : Finset TB).biUnion xK = Finset.univ := by
  ext x
  simp only [Finset.mem_biUnion, Finset.mem_univ, true_and, iff_true]
  obtain ⟨t, ht⟩ := chunks_cover (x 0).val (x 0).isLt
  exact ⟨t, mem_xSr.mpr ht⟩
theorem oK_cover : (Finset.univ : Finset TB).biUnion oK = Finset.univ := by
  ext x
  simp only [Finset.mem_biUnion, Finset.mem_univ, true_and, iff_true]
  obtain ⟨t, ht⟩ := chunks_cover (x 0).val (x 0).isLt
  exact ⟨t, mem_oSr.mpr ht⟩

theorem uK_disjoint : ∀ t ∈ (Finset.univ : Finset TU), ∀ t' ∈ (Finset.univ : Finset TU), t ≠ t' → Disjoint (uK t) (uK t') := by
  rintro ⟨c, i⟩ - ⟨c', i'⟩ - h
  refine Finset.disjoint_left.mpr fun x hx hx' => h ?_
  rw [mem_uS, Lc_zero, Lc_one] at hx hx'
  exact slices_sep hx hx'
theorem uK_cover : (Finset.univ : Finset TU).biUnion uK = Finset.univ := by
  ext x
  simp only [Finset.mem_biUnion, Finset.mem_univ, true_and, iff_true]
  obtain ⟨t, ht⟩ := slices_cover (x 0).val (x 0).isLt
  exact ⟨t, mem_uS.mpr ht⟩

end Blocks

/-! ## The arrays cut into the tasks' parts -/

section Cuts

variable (d : Dev nD)

omit d in
/-- A product over the 64 chunks, grouped by task, the two chunks of each apart. -/
theorem bigSep_TB (Φ : TB → sProp 𝕄) : bigSep Finset.univ Φ
    = iprop((bigSep Finset.univ fun c : Fin 2 => bigSep Finset.univ fun i : Fin 16 => Φ (c, i, 0))
        ∗ (bigSep Finset.univ fun c : Fin 2 => bigSep Finset.univ fun i : Fin 16 => Φ (c, i, 1))) :=
  (BI.bigSep_univ_prod Φ).trans <|
    (bigSep_congr fun c _ => (BI.bigSep_univ_prod fun b : Fin 16 × Fin 2 => Φ (c, b)).trans <|
      (bigSep_congr fun i _ => bigSep_univ_two fun r => Φ (c, i, r)).trans (bigSep_sep' _ _ _)).trans (bigSep_sep' _ _ _)

/-- The input array, whole, is the tasks' chunks of it. -/
theorem xPts_cut (f : Buf (Elt F) (xLoc d)) : (xLoc d ↦{fullShare} f : sProp 𝕄)
    = iprop((bigSep Finset.univ fun c : Fin 2 => bigSep Finset.univ fun i : Fin 16 => xLoc d ↦[(xS0 (Lc c i)).view.set]{fullShare} f)
        ∗ (bigSep Finset.univ fun c : Fin 2 => bigSep Finset.univ fun i : Fin 16 => xLoc d ↦[(xS1 (Lc c i)).view.set]{fullShare} f)) := by
  have h : (xLoc d ↦{fullShare} f : sProp 𝕄) = bigSep Finset.univ fun t : TB => xLoc d ↦[xK t]{fullShare} f := by
    rw [← pointsTo_biUnion Finset.univ (ℓ := xLoc d) xK xK_disjoint, xK_cover]; try rfl
  exact h.trans (bigSep_TB _)

/-- The result array likewise. -/
theorem oPts_cut (f : Buf (Elt F) (oLoc d)) : (oLoc d ↦{fullShare} f : sProp 𝕄)
    = iprop((bigSep Finset.univ fun c : Fin 2 => bigSep Finset.univ fun i : Fin 16 => oLoc d ↦[(oS0 (Lc c i)).view.set]{fullShare} f)
        ∗ (bigSep Finset.univ fun c : Fin 2 => bigSep Finset.univ fun i : Fin 16 => oLoc d ↦[(oS1 (Lc c i)).view.set]{fullShare} f)) := by
  have h : (oLoc d ↦{fullShare} f : sProp 𝕄) = bigSep Finset.univ fun t : TB => oLoc d ↦[oK t]{fullShare} f := by
    rw [← pointsTo_biUnion Finset.univ (ℓ := oLoc d) oK oK_disjoint, oK_cover]; try rfl
  exact h.trans (bigSep_TB _)

/-- The user indices, whole, are the tasks' slices of them. -/
theorem uPts_cut (f : Buf (Elt F) (uLoc d)) : (uLoc d ↦{fullShare} f : sProp 𝕄)
    = bigSep Finset.univ fun c : Fin 2 => bigSep Finset.univ fun i : Fin 16 => uLoc d ↦[(uS (Lc c i)).view.set]{fullShare} f := by
  have h : (uLoc d ↦{fullShare} f : sProp 𝕄) = bigSep Finset.univ fun t : TU => uLoc d ↦[uK t]{fullShare} f := by
    rw [← pointsTo_biUnion Finset.univ (ℓ := uLoc d) uK uK_disjoint, uK_cover]; try rfl
  exact h.trans (BI.bigSep_univ_prod _)

omit d in
/-- A table every task reads whole: its full share is a read token per SparseCore, each of those a read token per task;
    the two remainders are kept aside. -/
theorem toks_cut {ℓ : Loc nD τ sig} (f : Buf (Elt F) ℓ) : (ℓ ↦{fullShare} f : sProp 𝕄)
    = iprop((ℓ ↦{shareDrop fullShare 2} f) ∗ (bigSep Finset.univ fun c : Fin 2 => ℓ ↦{shareDrop (shareTok fullShare 2 c) 16} f)
        ∗ bigSep Finset.univ fun c : Fin 2 => bigSep Finset.univ fun i : Fin 16 => ℓ ↦{qT c i} f) := by
  have h2 : (ℓ ↦{fullShare} f : sProp 𝕄) = iprop((ℓ ↦{shareDrop fullShare 2} f) ∗ bigSep Finset.univ fun c : Fin 2 => ℓ ↦{shareTok fullShare 2 c} f) :=
    BI.equiv_iff.mp ⟨(pointsTo_toks fullShare 2).1, (pointsTo_toks fullShare 2).2⟩
  have h16 (c : Fin 2) : (ℓ ↦{shareTok fullShare 2 c} f : sProp 𝕄)
      = iprop((ℓ ↦{shareDrop (shareTok fullShare 2 c) 16} f) ∗ bigSep Finset.univ fun i : Fin 16 => ℓ ↦{qT c i} f) :=
    BI.equiv_iff.mp ⟨(pointsTo_toks _ 16).1, (pointsTo_toks _ 16).2⟩
  rw [h2, bigSep_congr fun c _ => h16 c, bigSep_sep']

end Cuts

/-! ## The launch's payloads -/

variable (m : (ℓ : Loc nD τ sig) → Buf (Elt F) ℓ) (ρ : Dev nD → PrngReg)
variable [FloatOps F] (hu : ∀ d, Spec.UOk (m (uLoc d))) (ht : ∀ d, Spec.TOk (m (tLoc d)))

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem P_st (d : Dev nD) (c : Fin ((K (F := F)).nCore 0)) : (P m hu ht).st 0 d c
    = bigSep Finset.univ fun i : Fin ((K (F := F)).nSub 0) => tileGo m d (Lof c i) (qT (Fin.cast nCore_zero c) (Fin.cast nSub_zero i)) := rfl
theorem P_dn (d : Dev nD) (c : Fin ((K (F := F)).nCore 0)) : (P m hu ht).dn 0 d c
    = bigSep Finset.univ fun i : Fin ((K (F := F)).nSub 0) => tileTd m hu ht d (Lof c i) (qT (Fin.cast nCore_zero c) (Fin.cast nSub_zero i)) := rfl
theorem P_go (d : Dev nD) (c : Fin ((K (F := F)).nCore 0)) (i : Fin ((K (F := F)).nSub 0)) : (P m hu ht).go 0 d c i
    = tileGo m d (Lof c i) (qT (Fin.cast nCore_zero c) (Fin.cast nSub_zero i)) := rfl
theorem P_td (d : Dev nD) (c : Fin ((K (F := F)).nCore 0)) (i : Fin ((K (F := F)).nSub 0)) : (P m hu ht).td 0 d c i
    = tileTd m hu ht d (Lof c i) (qT (Fin.cast nCore_zero c) (Fin.cast nSub_zero i)) := rfl

instance P_storable : (P m hu ht).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-- A SparseCore's operands ARE its sixteen tasks' and its results theirs: nothing to cut. -/
theorem vecSplit : (K (F := F)).VecSplit' (P m hu ht) 0 := by
  intro d c
  rw [P_st, P_dn, bigSep_congr fun i _ => P_go m hu ht d c i, bigSep_congr fun i _ => P_td m hu ht d c i]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P m hu ht).x q thr = iprop(emp) := rfl

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hu ht).x q thr) := by
  unfold u₀
  iintro Hu
  ihave H := (ownU_pair _ _) $$ Hu
  icases H with ⟨HH, -⟩
  imodintro
  isplitl [HH]; · iexact HH
  isplitr; · rw [bigSep_emp']; iempintro
  have hx : (bigSep Finset.univ fun thr : Thread nD τ => bigSep Finset.univ fun q : Fin 1 => (P m hu ht).x q thr) = (iprop(emp) : sProp 𝕄) :=
    (bigSep_congr fun thr _ => (bigSep_congr fun q _ => P_x m hu ht q thr).trans (bigSep_emp' _)).trans (bigSep_emp' _)
  rw [hx]; iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (uLoc d ↦{fullShare} W main_arg1) ∗ (tLoc d ↦{fullShare} W main_arg2)
      ∗ (dLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What the one call takes for the two SparseCores, and what it hands back: every task's part. -/
theorem st0_eq (d : Dev nD) : (bigSep Finset.univ fun c : Fin ((K (F := F)).nCore 0) => (P m hu ht).st 0 d c)
    = bigSep Finset.univ fun c : Fin 2 => bigSep Finset.univ fun i : Fin 16 => tileGo m d (Lc c i) (qT c i) :=
  bigSep_congr fun c _ => P_st m hu ht d c
theorem dn0_eq (d : Dev nD) : (bigSep Finset.univ fun c : Fin ((K (F := F)).nCore 0) => (P m hu ht).dn 0 d c)
    = bigSep Finset.univ fun c : Fin 2 => bigSep Finset.univ fun i : Fin 16 => tileTd m hu ht d (Lc c i) (qT c i) :=
  bigSep_congr fun c _ => P_dn m hu ht d c

omit [FloatOps F] in
/-- A product over the tasks of a `∗` is the `∗` of the products. -/
theorem tasks_sep (Φ Ψ : Fin 2 → Fin 16 → sProp 𝕄) :
    (bigSep Finset.univ fun c : Fin 2 => bigSep Finset.univ fun i : Fin 16 => iprop(Φ c i ∗ Ψ c i))
      = iprop((bigSep Finset.univ fun c : Fin 2 => bigSep Finset.univ fun i : Fin 16 => Φ c i)
          ∗ (bigSep Finset.univ fun c : Fin 2 => bigSep Finset.univ fun i : Fin 16 => Ψ c i)) :=
  (bigSep_congr fun c _ => bigSep_sep' _ _ _).trans (bigSep_sep' _ _ _)

omit [FloatOps F] in
theorem tasks_mono {Φ Ψ : Fin 2 → Fin 16 → sProp 𝕄} (h : ∀ c i, Φ c i ⊢ Ψ c i) :
    (bigSep Finset.univ fun c : Fin 2 => bigSep Finset.univ fun i : Fin 16 => Φ c i)
      ⊢ bigSep Finset.univ fun c : Fin 2 => bigSep Finset.univ fun i : Fin 16 => Ψ c i :=
  bigSep_mono fun c _ => bigSep_mono fun i _ => h c i

/-- The table shares kept aside while the tasks run: what remains of each table's full share after a read token per
    SparseCore, and of each of those after a read token per task. -/
abbrev REM (d : Dev nD) : sProp 𝕄 :=
  iprop(((tLoc d ↦{shareDrop fullShare 2} m (tLoc d)) ∗ bigSep Finset.univ fun c : Fin 2 => tLoc d ↦{shareDrop (shareTok fullShare 2 c) 16} m (tLoc d))
    ∗ ((dLoc d ↦{shareDrop fullShare 2} m (dLoc d)) ∗ bigSep Finset.univ fun c : Fin 2 => dLoc d ↦{shareDrop (shareTok fullShare 2 c) 16} m (dLoc d)))

/-- @main's arrays, whole: the four arguments at the launch contents, the result at `f`. -/
abbrev ARR (d : Dev nD) (f : Buf (Elt F) (oLoc d)) : sProp 𝕄 :=
  iprop((xLoc d ↦{fullShare} m (xLoc d)) ∗ (uLoc d ↦{fullShare} m (uLoc d)) ∗ (tLoc d ↦{fullShare} m (tLoc d))
    ∗ (dLoc d ↦{fullShare} m (dLoc d)) ∗ oLoc d ↦{fullShare} f)

theorem go_cut (d : Dev nD) : (bigSep Finset.univ fun c : Fin 2 => bigSep Finset.univ fun i : Fin 16 => tileGo m d (Lc c i) (qT c i))
    = iprop(((bigSep Finset.univ fun c : Fin 2 => bigSep Finset.univ fun i : Fin 16 => xLoc d ↦[(xS0 (Lc c i)).view.set]{fullShare} m (xLoc d))
        ∗ (bigSep Finset.univ fun c : Fin 2 => bigSep Finset.univ fun i : Fin 16 => xLoc d ↦[(xS1 (Lc c i)).view.set]{fullShare} m (xLoc d))
        ∗ (bigSep Finset.univ fun c : Fin 2 => bigSep Finset.univ fun i : Fin 16 => uLoc d ↦[(uS (Lc c i)).view.set]{fullShare} m (uLoc d))
        ∗ (bigSep Finset.univ fun c : Fin 2 => bigSep Finset.univ fun i : Fin 16 => tLoc d ↦{qT c i} m (tLoc d))
        ∗ (bigSep Finset.univ fun c : Fin 2 => bigSep Finset.univ fun i : Fin 16 => dLoc d ↦{qT c i} m (dLoc d)))
      ∗ (bigSep Finset.univ fun c : Fin 2 => bigSep Finset.univ fun i : Fin 16 => iprop(∃ f, oLoc d ↦[(oS0 (Lc c i)).view.set]{fullShare} f))
      ∗ (bigSep Finset.univ fun c : Fin 2 => bigSep Finset.univ fun i : Fin 16 => iprop(∃ f, oLoc d ↦[(oS1 (Lc c i)).view.set]{fullShare} f))) := by
  rw [← tasks_sep, ← tasks_sep, ← tasks_sep, ← tasks_sep, ← tasks_sep, ← tasks_sep]

theorem td_cut (d : Dev nD) : (bigSep Finset.univ fun c : Fin 2 => bigSep Finset.univ fun i : Fin 16 => tileTd m hu ht d (Lc c i) (qT c i))
    = iprop(((bigSep Finset.univ fun c : Fin 2 => bigSep Finset.univ fun i : Fin 16 => xLoc d ↦[(xS0 (Lc c i)).view.set]{fullShare} m (xLoc d))
        ∗ (bigSep Finset.univ fun c : Fin 2 => bigSep Finset.univ fun i : Fin 16 => xLoc d ↦[(xS1 (Lc c i)).view.set]{fullShare} m (xLoc d))
        ∗ (bigSep Finset.univ fun c : Fin 2 => bigSep Finset.univ fun i : Fin 16 => uLoc d ↦[(uS (Lc c i)).view.set]{fullShare} m (uLoc d))
        ∗ (bigSep Finset.univ fun c : Fin 2 => bigSep Finset.univ fun i : Fin 16 => tLoc d ↦{qT c i} m (tLoc d))
        ∗ (bigSep Finset.univ fun c : Fin 2 => bigSep Finset.univ fun i : Fin 16 => dLoc d ↦{qT c i} m (dLoc d)))
      ∗ (bigSep Finset.univ fun c : Fin 2 => bigSep Finset.univ fun i : Fin 16 => oLoc d ↦[(oS0 (Lc c i)).view.set]{fullShare} G m hu ht d)
      ∗ (bigSep Finset.univ fun c : Fin 2 => bigSep Finset.univ fun i : Fin 16 => oLoc d ↦[(oS1 (Lc c i)).view.set]{fullShare} G m hu ht d)) := by
  rw [← tasks_sep, ← tasks_sep, ← tasks_sep, ← tasks_sep, ← tasks_sep, ← tasks_sep]

/-- The five arrays, whole, give every task its part; the tables' remainders are kept aside. -/
theorem cut_in (d : Dev nD) : ARR m d (m (oLoc d))
    ⊢ iprop((bigSep Finset.univ fun c : Fin 2 => bigSep Finset.univ fun i : Fin 16 => tileGo m d (Lc c i) (qT c i)) ∗ REM m d) := by
  unfold ARR
  rw [go_cut, xPts_cut d, uPts_cut d, toks_cut (m (tLoc d)), toks_cut (m (dLoc d)), oPts_cut d]
  iintro ⟨⟨Hx0, Hx1⟩, Hu, ⟨Ht2, Ht16, Ht⟩, ⟨Hd2, Hd16, Hd⟩, ⟨Ho0, Ho1⟩⟩
  isplitl [Hx0 Hx1 Hu Ht Hd Ho0 Ho1]
  · isplitl [Hx0 Hx1 Hu Ht Hd]
    · isplitl [Hx0]; · iexact Hx0
      isplitl [Hx1]; · iexact Hx1
      isplitl [Hu]; · iexact Hu
      isplitl [Ht]; · iexact Ht
      iexact Hd
    isplitl [Ho0]
    · iapply (tasks_mono (Φ := fun c i => oLoc d ↦[(oS0 (Lc c i)).view.set]{fullShare} m (oLoc d)) fun c i => by iintro H; iexists _; iexact H)
      iexact Ho0
    · iapply (tasks_mono (Φ := fun c i => oLoc d ↦[(oS1 (Lc c i)).view.set]{fullShare} m (oLoc d)) fun c i => by iintro H; iexists _; iexact H)
      iexact Ho1
  · isplitl [Ht2 Ht16]
    · isplitl [Ht2]; · iexact Ht2
      iexact Ht16
    · isplitl [Hd2]; · iexact Hd2
      iexact Hd16

/-- Every task's results and the remainders give the five arrays back whole, the result at the specified function. -/
theorem join_out (d : Dev nD) :
    iprop((bigSep Finset.univ fun c : Fin 2 => bigSep Finset.univ fun i : Fin 16 => tileTd m hu ht d (Lc c i) (qT c i)) ∗ REM m d)
      ⊢ ARR m d (G m hu ht d) := by
  unfold ARR
  rw [td_cut, xPts_cut d, uPts_cut d, toks_cut (m (tLoc d)), toks_cut (m (dLoc d)), oPts_cut d]
  iintro ⟨⟨⟨Hx0, Hx1, Hu, Ht, Hd⟩, Ho0, Ho1⟩, ⟨Ht2, Ht16⟩, ⟨Hd2, Hd16⟩⟩
  isplitl [Hx0 Hx1]
  · isplitl [Hx0]; · iexact Hx0
    iexact Hx1
  isplitl [Hu]; · iexact Hu
  isplitl [Ht2 Ht16 Ht]
  · isplitl [Ht2]; · iexact Ht2
    isplitl [Ht16]; · iexact Ht16
    iexact Ht
  isplitl [Hd2 Hd16 Hd]
  · isplitl [Hd2]; · iexact Hd2
    isplitl [Hd16]; · iexact Hd16
    iexact Hd
  isplitl [Ho0]; · iexact Ho0
  iexact Ho1

/-- What @main leaves the claim: the arguments at their launch contents, the result at the specified function. -/
abbrev FIN (d : Dev nD) : sProp 𝕄 := ARR m d (G m hu ht d)

/-- @main on device `d`'s TensorCore: the one call, from the five arrays whole and back to them. -/
theorem hmain (κ : GSem nD τ sig → ℕ) (d : Dev nD) :
    iprop((K (F := F)).ctx EH (P m hu ht) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hu ht d) := by
  unfold SparseCore.Cfg.tcRes
  rw [unscopedBufs_eq]
  simp only [main, wp_bind, wp_pure]
  iintro ⟨#Hctx, Hst, ⟨Hb, Harr, -, -⟩, -⟩
  ihave Hcut := (cut_in m d) $$ Harr
  icases Hcut with ⟨Hgo, Hrem⟩
  iapply ((K (F := F)).wp_run (D (F := F)) 𝒱 (EH := EH) (P := P m hu ht) κ d 0) $$ [Hst Hgo Hrem]
  isplitr; · iexact Hctx
  isplitl [Hst]; · iexact Hst
  isplitl [Hgo]
  · rw [st0_eq]; iexact Hgo
  iintro ⟨Hst, Hdn⟩
  ihave Hdn' := (Entails.of_eq (dn0_eq m hu ht d)) $$ Hdn
  ihave Hfin := (join_out m hu ht d) $$ [Hdn' Hrem]
  · isplitl [Hdn']; · iexact Hdn'
    iexact Hrem
  imodintro
  isplitl [Hst]; · iexact Hst
  iexact Hfin

def fq (d : Dev nD) (s' : Phys nD τ sig (Elt F)) : Prop :=
  s'.mem.mem (oLoc d) = G m hu ht d ∧ s'.mem.mem (xLoc d) = m (xLoc d) ∧ s'.mem.mem (uLoc d) = m (uLoc d)
    ∧ s'.mem.mem (tLoc d) = m (tLoc d) ∧ s'.mem.mem (dLoc d) = m (dLoc d)

theorem hfin (d : Dev nD) (s' : Phys nD τ sig (Elt F)) : iprop(FIN m hu ht d ∗ SI s') ⊢ (⌜fq m hu ht d s'⌝ : sProp 𝕄) := by
  iintro ⟨⟨Hx, Hu, Ht, Hd, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (persistent_entails_right (SI_pointsTo_agree (st := s') (ℓ := dLoc d) (I := Finset.univ) (q := fullShare) (f := m (dLoc d)))) $$ [HSI Hd]
  · isplitl [HSI] <;> iassumption
  icases H with ⟨%h4, HSI, -⟩
  ihave H := (SI_pointsTo_agree (st := s') (ℓ := oLoc d) (I := Finset.univ) (q := fullShare) (f := G m hu ht d)) $$ [HSI Ho]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The program's run -/

/-- The run's post: on every device the result is the specified function of the arguments, which are unchanged. -/
def QC : PUnit × MemSt nD τ sig (Elt F) → Prop := fun r => ∀ c : Dev nD,
  r.2.mem (oLoc c) = G m hu ht c ∧ r.2.mem (xLoc c) = m (xLoc c) ∧ r.2.mem (uLoc c) = m (uLoc c)
    ∧ r.2.mem (tLoc c) = m (tLoc c) ∧ r.2.mem (dLoc c) = m (dLoc c)

/-- From the tasks' obligation to the run of the whole device: every weakly fair execution of the 35 threads terminates,
    nothing faulting, the result array the specified function of the arguments, the arguments unchanged. -/
theorem run_main [∀ e, Nonempty (Elt F e)] (htile : (K (F := F)).TileObl (D (F := F)) 𝒱 (P m hu ht) v₀ 0) :
    θ_run (Cert.KernelIdeal.defs (F := F)) (Cert.KernelIdeal.threads (F := F)) ⟨m, fun _ => 0, ρ⟩
      (fun r => ∀ c : Dev nD, r.2.mem (oLoc c) = G m hu ht c ∧ r.2.mem (xLoc c) = m (xLoc c) ∧ r.2.mem (uLoc c) = m (uLoc c)
        ∧ r.2.mem (tLoc c) = m (tLoc c) ∧ r.2.mem (dLoc c) = m (dLoc c)) :=
  SparseCore.Cfg.θ_run_sc (K := K (F := F)) (D := D (F := F)) (𝒱 := 𝒱) (EH := EH) (P := P m hu ht) facts v₀
    (fun q hq => match q with | 0 => nomatch hq)
    (fun q _ => match q with | 0 => htile)
    (fun q _ => match q with | 0 => SparseCore.Cfg.VecSplit.of_plain (vecSplit m hu ht))
    m ρ main (fun _ => iprop(emp)) (FIN m hu ht) (u₀ (F := F)) (sep_elim_left.trans (hu₀ m hu ht)) (hmain m ρ hu ht) (fq m hu ht) (hfin m hu ht)
    (QC m hu ht) (fun _ h => h)

end Cert.KernelIdeal.Launch

end
-- ==== Proof.FrameKernelIdeal.lean ====
/-
  The claims' posts from the run of the launch.

  `Launch.run_main` ends with the result array at the specified function of the arguments and the four arguments
  unchanged, on every device. The frame claim is that run with the result's conjunct dropped; the kernel's half of the
  algebraic claim is that run itself, the per-device result `v0 c` being `Iface.G m hu ht c`. Both are stated in the
  claims' own spelling of the locations, `(c.tc).loc main_…`, which is the interface's (`rfl`). The precondition enters
  only through the two range facts it implies (every user index and every entry of the index table below 100), a
  hypothesis here beside the tasks' obligation.
-/
import proofs.«202775_g10411000725526_cont_sun_m_1212_8_alg».proof.Defs
import proofs.«202775_g10411000725526_cont_sun_m_1212_8_alg».proof.Proof.LaunchKernelIdeal

noncomputable section

namespace Cert.KernelIdeal.Launch

open Cert.KernelIdeal Cert.KernelIdeal.Gen Cert.KernelIdeal.Iface

open Idealize.ShloMosaic Idealize.SL.Sem

/-- The locations as the claims spell them are the interface's. -/
theorem loc_spelling (c : Dev nD) :
    xLoc c = (c.tc : Thread nD τ).loc main_arg0 ∧ uLoc c = (c.tc : Thread nD τ).loc main_arg1 ∧ tLoc c = (c.tc : Thread nD τ).loc main_arg2
      ∧ dLoc c = (c.tc : Thread nD τ).loc main_arg3 ∧ oLoc c = (c.tc : Thread nD τ).loc main_v0 := ⟨rfl, rfl, rfl, rfl, rfl⟩

section Generic

variable {F : FTy → Type} [FloatOps F] [∀ e, Nonempty (Elt F e)]

/-- The run in the claims' spelling: the result the specified function, the arguments unchanged. -/
theorem run_of_tile (m : (ℓ : Loc nD τ sig) → Buf (Elt F) ℓ) (g : Dev nD → PrngReg)
    (hu : ∀ d, Spec.UOk (m (uLoc d))) (ht : ∀ d, Spec.TOk (m (tLoc d)))
    (htile : (K (F := F)).TileObl (D (F := F)) 𝒱 (P m hu ht) v₀ 0) :
    θ_run (Cert.KernelIdeal.defs (F := F)) (Cert.KernelIdeal.threads (F := F)) ⟨m, fun _ => 0, g⟩ (fun r => ∀ c : Dev nD,
      r.2.mem ((c.tc : Thread nD τ).loc main_v0) = G m hu ht c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main m g hu ht htile

/-- The frame: the same run, the result's conjunct dropped. -/
theorem frame_run_of_tile (m : (ℓ : Loc nD τ sig) → Buf (Elt F) ℓ) (g : Dev nD → PrngReg)
    (hu : ∀ d, Spec.UOk (m (uLoc d))) (ht : ∀ d, Spec.TOk (m (tLoc d)))
    (htile : (K (F := F)).TileObl (D (F := F)) 𝒱 (P m hu ht) v₀ 0) :
    θ_run (Cert.KernelIdeal.defs (F := F)) (Cert.KernelIdeal.threads (F := F)) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun _ h c => (h c).2) (run_of_tile m g hu ht htile)

end Generic

/-- `Cert.frame_KernelIdeal` (Defs.lean), from the tasks' obligation and the range facts the precondition gives. -/
theorem frame_of_tile [hPre : Cert.Pre_input_domain.Facts]
    (hranges : ∀ m : (ℓ : Loc nD τ sig) → Buf (Elt Ideal) ℓ, Cert.Pre_KernelIdeal m →
      (∀ d, Spec.UOk (m (uLoc d))) ∧ (∀ d, Spec.TOk (m (tLoc d))))
    (htile : ∀ (m : (ℓ : Loc nD τ sig) → Buf (Elt Ideal) ℓ) (hu : ∀ d, Spec.UOk (m (uLoc d))) (ht : ∀ d, Spec.TOk (m (tLoc d))),
      (K (F := Ideal)).TileObl (D (F := Ideal)) 𝒱 (P m hu ht) v₀ 0) :
    Cert.frame_KernelIdeal := fun m g hpre =>
  frame_run_of_tile m g (hranges m hpre).1 (hranges m hpre).2 (htile m _ _)

/-- The kernel's half of `Cert.algebraic_KernelIdeal_ReferenceIdeal` (Defs.lean): under the precondition the kernel runs,
    leaves on device `c` the result `Iface.G m hu ht c` — the value to give for `v0 c` — and its arguments unchanged. -/
theorem algebraic_kernel_of_tile [hPre : Cert.Pre_input_domain.Facts]
    (hranges : ∀ m : (ℓ : Loc nD τ sig) → Buf (Elt Ideal) ℓ, Cert.Pre_KernelIdeal m →
      (∀ d, Spec.UOk (m (uLoc d))) ∧ (∀ d, Spec.TOk (m (tLoc d))))
    (htile : ∀ (m : (ℓ : Loc nD τ sig) → Buf (Elt Ideal) ℓ) (hu : ∀ d, Spec.UOk (m (uLoc d))) (ht : ∀ d, Spec.TOk (m (tLoc d))),
      (K (F := Ideal)).TileObl (D (F := Ideal)) 𝒱 (P m hu ht) v₀ 0)
    (m : (ℓ : Loc nD τ sig) → Buf (Elt Ideal) ℓ) (g : Dev nD → PrngReg) (hpre : Cert.Pre_KernelIdeal m) :
    θ_run (Cert.KernelIdeal.defs (F := Ideal)) (Cert.KernelIdeal.threads (F := Ideal)) ⟨m, fun _ => 0, g⟩ (fun r => ∀ c : Dev nD,
      r.2.mem ((c.tc : Thread nD τ).loc main_v0) = G m (hranges m hpre).1 (hranges m hpre).2 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of_tile m g (hranges m hpre).1 (hranges m hpre).2 (htile m _ _)

end Cert.KernelIdeal.Launch

end
-- ==== Proof.BodyDefsKernel.lean ====
/-
  The vocabulary of one tile's task: its thread, its seven transfer semaphores and six scratch buffers taken out of
  the subcore's own storage, the arrays respelt as the task's memrefs address them, and the three loops' invariants.

  The task fetches its 512 user indices (scratch 0), the index table (scratch 2) and the delta table (scratch 3), and
  its two input chunks (scratches 4 and 5). Loop 1 composes the two lookups: after `k` trips entries `[0, 16 k)` of
  scratch 1 hold the delta-set of the task's rows. Loops 2 and 3 walk a chunk eight rows a trip: after `k` trips rows
  `[0, 8 k)` of the chunk's buffer hold input plus delta row, the rest still the input.
-/
import proofs.«202775_g10411000725526_cont_sun_m_1212_8_alg».proof.Proof.IfaceKernel

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

abbrev c6 : GSem nD τ sig := (V d (cV L) (jV L), .dma cc0_scratch6.sem)
abbrev c7 : GSem nD τ sig := (V d (cV L) (jV L), .dma cc0_scratch7.sem)
abbrev c8 : GSem nD τ sig := (V d (cV L) (jV L), .dma cc0_scratch8.sem)
abbrev c9 : GSem nD τ sig := (V d (cV L) (jV L), .dma cc0_scratch9.sem)
abbrev c10 : GSem nD τ sig := (V d (cV L) (jV L), .dma cc0_scratch10.sem)
abbrev c11 : GSem nD τ sig := (V d (cV L) (jV L), .dma cc0_scratch11.sem)
abbrev c12 : GSem nD τ sig := (V d (cV L) (jV L), .dma cc0_scratch12.sem)

theorem ownSems0_V :
    (ownSems0 (V d (cV L) (jV L)) : sProp 𝕄)
      = iprop(semVal (c6 d L) 0 ∗ semVal (c7 d L) 0 ∗ semVal (c8 d L) 0 ∗ semVal (c9 d L) 0 ∗ semVal (c10 d L) 0 ∗ semVal (c11 d L) 0 ∗ semVal (c12 d L) 0
          ∗ bigSep ((((((((ownCells (V d (cV L) (jV L))).erase (c6 d L)).erase (c7 d L)).erase (c8 d L)).erase (c9 d L)).erase (c10 d L)).erase (c11 d L)).erase (c12 d L)) fun g => semVal g 0) := by
  unfold SparseCore.Cfg.ownSems0
  rw [SparseCore.bigSep_erase' ((mem_ownCells (g := c6 d L)).mpr ⟨rfl, by show (SemLoc.dma cc0_scratch6.sem : SemLoc sig).isScoped .scVector = true; decide⟩),
    SparseCore.bigSep_erase' (Finset.mem_erase.mpr ⟨fun e => absurd (Prod.mk.inj e).2 (by decide), (mem_ownCells (g := c7 d L)).mpr ⟨rfl, by show (SemLoc.dma cc0_scratch7.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := c8 d L)).mpr ⟨rfl, by show (SemLoc.dma cc0_scratch8.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c9 d L)).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c10 d L)).mpr ⟨rfl, by show (SemLoc.dma cc0_scratch10.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c11 d L)).mpr ⟨rfl, by show (SemLoc.dma cc0_scratch11.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c12 d L)).mpr ⟨rfl, by show (SemLoc.dma cc0_scratch12.sem : SemLoc sig).isScoped .scVector = true; decide⟩⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

theorem pts_x0 (f : Buf (Elt F) (xLoc d)) : ((xS0 L).view.loc (V d (cV L) (jV L)) ↦[(xS0 L).view.set]{fullShare} f : sProp 𝕄) = xLoc d ↦[(xS0 L).view.set]{fullShare} f := rfl
theorem pts_x1 (f : Buf (Elt F) (xLoc d)) : ((xS1 L).view.loc (V d (cV L) (jV L)) ↦[(xS1 L).view.set]{fullShare} f : sProp 𝕄) = xLoc d ↦[(xS1 L).view.set]{fullShare} f := rfl
theorem pts_u (f : Buf (Elt F) (uLoc d)) : ((uS L).view.loc (V d (cV L) (jV L)) ↦[(uS L).view.set]{fullShare} f : sProp 𝕄) = uLoc d ↦[(uS L).view.set]{fullShare} f := rfl
theorem pts_o0 (f : Buf (Elt F) (oLoc d)) : ((oS0 L).view.loc (V d (cV L) (jV L)) ↦[(oS0 L).view.set]{fullShare} f : sProp 𝕄) = oLoc d ↦[(oS0 L).view.set]{fullShare} f := rfl
theorem pts_o1 (f : Buf (Elt F) (oLoc d)) : ((oS1 L).view.loc (V d (cV L) (jV L)) ↦[(oS1 L).view.set]{fullShare} f : sProp 𝕄) = oLoc d ↦[(oS1 L).view.set]{fullShare} f := rfl
theorem pts_t (q : PosShare TreeShare) (f : Buf (Elt F) (tLoc d)) : ((tM).view.loc (V d (cV L) (jV L)) ↦{q} f : sProp 𝕄) = tLoc d ↦{q} f := by
  simp only [Memref.view_whole, View.set_whole]
theorem pts_d (q : PosShare TreeShare) (f : Buf (Elt F) (dLoc d)) : ((dM).view.loc (V d (cV L) (jV L)) ↦{q} f : sProp 𝕄) = dLoc d ↦{q} f := by
  simp only [Memref.view_whole, View.set_whole]
theorem pts_s0 (f : Buf (Elt F) ((V d (cV L) (jV L)).loc cc0_scratch0)) : ((Memref.whole cc0_scratch0).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) : ((Memref.whole cc0_scratch1).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) : ((Memref.whole cc0_scratch2).view.loc (V d (cV L) (jV L)) ↦{fullShare} f : sProp 𝕄) = (V d (cV L) (jV L)).loc cc0_scratch2 ↦{fullShare} f := rfl
theorem pts_s3 (f : Buf (Elt F) ((V d (cV L) (jV L)).loc cc0_scratch3)) : ((Memref.whole cc0_scratch3).view.loc (V d (cV L) (jV L)) ↦{fullShare} f : sProp 𝕄) = (V d (cV L) (jV L)).loc cc0_scratch3 ↦{fullShare} f := rfl
theorem pts_s4 (f : Buf (Elt F) ((V d (cV L) (jV L)).loc cc0_scratch4)) : ((Memref.whole cc0_scratch4).view.loc (V d (cV L) (jV L)) ↦{fullShare} f : sProp 𝕄) = (V d (cV L) (jV L)).loc cc0_scratch4 ↦{fullShare} f := rfl
theorem pts_s5 (f : Buf (Elt F) ((V d (cV L) (jV L)).loc cc0_scratch5)) : ((Memref.whole cc0_scratch5).view.loc (V d (cV L) (jV L)) ↦{fullShare} f : sProp 𝕄) = (V d (cV L) (jV L)).loc cc0_scratch5 ↦{fullShare} f := rfl

variable [FloatOps F] (m : (ℓ : Loc nD τ sig) → Buf (Elt F) ℓ) (hu : ∀ d, Spec.UOk (m (uLoc d))) (ht : ∀ d, Spec.TOk (m (tLoc d)))

abbrev B0 := Buf (Elt F) ((V d (cV L) (jV L)).loc cc0_scratch0)
abbrev B1 := Buf (Elt F) ((V d (cV L) (jV L)).loc cc0_scratch1)
abbrev B2 := Buf (Elt F) ((V d (cV L) (jV L)).loc cc0_scratch2)
abbrev B3 := Buf (Elt F) ((V d (cV L) (jV L)).loc cc0_scratch3)
abbrev B4 := Buf (Elt F) ((V d (cV L) (jV L)).loc cc0_scratch4)
abbrev B5 := Buf (Elt F) ((V d (cV L) (jV L)).loc cc0_scratch5)

/-- The task's user indices, as its scratch holds them after the fetch: entry `p` is the launch array's entry at the slice's `p`. -/
def Fact0 (a0 : B0 (F := F) d L) : Prop := ∀ p : S512.Idx, a0 p = m (uLoc d) ((uS L).view.emb p)
/-- The index table and the delta table, fetched whole. -/
def Fact2 (a2 : B2 (F := F) d L) : Prop := ∀ p : S100.Idx, a2 p = m (tLoc d) p
def Fact3 (a3 : B3 (F := F) d L) : Prop := ∀ y : S100x128.Idx, a3 y = m (dLoc d) y

/-- The delta-set of the task's row `p`: the index table at that row's user index. -/
def Tbl (p : S512.Idx) : BitVec 32 := m (tLoc d) (ValueIdx.ix1 ⟨(m (uLoc d) ((uS L).view.emb p)).toNat, hu d _⟩)
def Fact1 (a1 : B1 (F := F) d L) : Prop := ∀ p : S512.Idx, a1 p = Tbl d L m hu p

/-- After `k` trips of the first loop the first `16 k` composed indices are in place. -/
def Low1 (k : Nat) (f : B1 (F := F) d L) : Prop := ∀ p : S512.Idx, (p 0).val < 16 * k → f p = Tbl d L m hu p

def inv1 (k : Nat) (_ : PUnit) : sProp 𝕄 :=
  iprop(∃ (a0 : B0 (F := F) d L) (a2 : B2 (F := F) d L), ⌜Fact0 d L m a0 ∧ Fact2 d L m a2⌝
    ∗ ((Memref.whole cc0_scratch0).view.loc (V d (cV L) (jV L)) ↦{fullShare} a0) ∗ ((Memref.whole cc0_scratch2).view.loc (V d (cV L) (jV L)) ↦{fullShare} a2)
    ∗ ∃ f, ⌜Low1 d L m hu k f⌝ ∗ (Memref.whole cc0_scratch1).view.loc (V d (cV L) (jV L)) ↦{fullShare} f)

/-- The result at the task's chunk `r`, row `y 0`, column `y 1`, and the input there. -/
def OutAt (r : Fin 2) (y : S256x128.Idx) : Elt F .f32 :=
  G m hu ht d (ValueIdx.ix2 ⟨1024 * (L 1).val + 512 * (L 0).val + 256 * r.val + (y 0).val, by have h1 : (L 1).val < 16 := (L 1).isLt; have h0 : (L 0).val < 2 := (L 0).isLt; have hy : (y 0).val < 256 := (y 0).isLt; have := r.isLt; omega⟩ (y 1))
def InAt (r : Fin 2) (y : S256x128.Idx) : Elt F .f32 :=
  m (xLoc d) (ValueIdx.ix2 ⟨1024 * (L 1).val + 512 * (L 0).val + 256 * r.val + (y 0).val, by have h1 : (L 1).val < 16 := (L 1).isLt; have h0 : (L 0).val < 2 := (L 0).isLt; have hy : (y 0).val < 256 := (y 0).isLt; have := r.isLt; omega⟩ (y 1))

/-- After `k` trips of a chunk's loop the first `8 k` rows of the chunk's buffer hold the result, the rest the input. -/
def Low2 (r : Fin 2) (k : Nat) (f : B4 (F := F) d L) : Prop :=
  ∀ y : S256x128.Idx, ((y 0).val < 8 * k → f y = OutAt d L m hu ht r y) ∧ (8 * k ≤ (y 0).val → f y = InAt d L m r y)

def inv2 (k : Nat) (_ : PUnit) : sProp 𝕄 :=
  iprop(∃ (a1 : B1 (F := F) d L) (a3 : B3 (F := F) d L), ⌜Fact1 d L m hu a1 ∧ Fact3 d L m a3⌝
    ∗ ((Memref.whole cc0_scratch1).view.loc (V d (cV L) (jV L)) ↦{fullShare} a1) ∗ ((Memref.whole cc0_scratch3).view.loc (V d (cV L) (jV L)) ↦{fullShare} a3)
    ∗ ∃ f, ⌜Low2 d L m hu ht 0 k f⌝ ∗ (Memref.whole cc0_scratch4).view.loc (V d (cV L) (jV L)) ↦{fullShare} f)

/-- The same for the second chunk, whose buffer is scratch 5. -/
def Low3 (k : Nat) (f : B5 (F := F) d L) : Prop :=
  ∀ y : S256x128.Idx, ((y 0).val < 8 * k → f y = OutAt d L m hu ht 1 y) ∧ (8 * k ≤ (y 0).val → f y = InAt d L m 1 y)

def inv3 (k : Nat) (_ : PUnit) : sProp 𝕄 :=
  iprop(∃ (a1 : B1 (F := F) d L) (a3 : B3 (F := F) d L), ⌜Fact1 d L m hu a1 ∧ Fact3 d L m a3⌝
    ∗ ((Memref.whole cc0_scratch1).view.loc (V d (cV L) (jV L)) ↦{fullShare} a1) ∗ ((Memref.whole cc0_scratch3).view.loc (V d (cV L) (jV L)) ↦{fullShare} a3)
    ∗ ∃ f, ⌜Low3 d L m hu ht k f⌝ ∗ (Memref.whole cc0_scratch5).view.loc (V d (cV L) (jV L)) ↦{fullShare} f)

end Cert.Kernel.Body

end
-- ==== Proof.TileOblKernel.lean ====
/-
  The tasks' obligation of the launch theorem, from the proof of one task's body at a symbolic grid position.

  The launch theorem asks, of every vector subcore `(c, i)` of the call's grid, that the label's body on that subcore
  takes the task's operands and the subcore's scoped storage to the task's results (`TileObl`). The label's body on a
  subcore of the grid IS the kernel function at that subcore's coordinates, lifted into the launch's body table; so the
  obligation is the body's proof at the grid position `(c, i)`, with the task's operands read off the payloads.
-/
import proofs.«202775_g10411000725526_cont_sun_m_1212_8_alg».proof.Proof.BodyDefsKernel
import proofs.«202775_g10411000725526_cont_sun_m_1212_8_alg».proof.Proof.LaunchKernel

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

variable [FloatOps F] (m : (ℓ : Loc nD τ sig) → Buf (Elt F) ℓ) (hu : ∀ d, Spec.UOk (m (uLoc d))) (ht : ∀ d, Spec.TOk (m (tLoc d)))

/-- The label's body on vector subcore `(c, s)`: the kernel function at the subcore's coordinates when the grid holds it. -/
theorem defs₀_vector (c : Fin τ.nSC) (s : Fin τ.nSub) :
    defs₀ (F := F) (.scVector c s) 0 ()
      = SparseCore.onTile hcore0 hsub0 (fun c s => cc0__body (coordsV c s) xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12) ⟨⟩ c s := rfl

omit [FloatOps F] in
/-- A wait recorded at no call's index is in particular one at no index or this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tasks' obligation, from the body proved once at a symbolic grid position and read share. -/
theorem tileObl_of_body
    (hbody : ∀ (d : Dev nD) (L : grid0.Coords) (q : PosShare TreeShare) (O : CellTallies nD τ sig (HIx 1)) (W : Waits sig (HIx 1)), (∀ g, O g none = 0) →
      iprop(levAts (K (F := F)).L (K (F := F)).lev ∗ emp ∗ tileGo m d L q
          ∗ scopedBufs (V d (cV L) (jV L)) ∗ scopedSems0 (V d (cV L) (jV L)) ∗ owes (V d (cV L) (jV L)) O W)
        ⊢ wp frame (wpE (defs₀ (F := F)) 𝒱₀ (V d (cV L) (jV L)) none) Set.univ
            (cc0__body L xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12)
            fun _ => iprop(tileTd m hu ht d L q ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m hu ht) v₀ 0 := by
  intro d c i O W hO _ _
  -- this kernel owes nothing for a protocol of its own
  simp only [show (P m hu ht).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [Launch.P_x, Launch.P_go, Launch.P_td]
  have hb := hbody d (coordsV ⟨_, hc.1⟩ ⟨_, hc.2⟩) (qT (Fin.cast nCore_zero c) (Fin.cast nSub_zero i)) O W hO
  generalize cc0__body (F := F) (coordsV ⟨_, hc.1⟩ ⟨_, hc.2⟩) xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12 = prog at hb ⊢
  exact hb.trans (wp_mono frame _ _ fun _ => obl_post)

end Cert.Kernel.Body

end
-- ==== Proof.BodyDefsKernelIdeal.lean ====
/-
  The vocabulary of one tile's task: its thread, its seven transfer semaphores and six scratch buffers taken out of
  the subcore's own storage, the arrays respelt as the task's memrefs address them, and the three loops' invariants.

  The task fetches its 512 user indices (scratch 0), the index table (scratch 2) and the delta table (scratch 3), and
  its two input chunks (scratches 4 and 5). Loop 1 composes the two lookups: after `k` trips entries `[0, 16 k)` of
  scratch 1 hold the delta-set of the task's rows. Loops 2 and 3 walk a chunk eight rows a trip: after `k` trips rows
  `[0, 8 k)` of the chunk's buffer hold input plus delta row, the rest still the input.
-/
import proofs.«202775_g10411000725526_cont_sun_m_1212_8_alg».proof.Proof.IfaceKernelIdeal

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

abbrev c6 : GSem nD τ sig := (V d (cV L) (jV L), .dma cc0_scratch6.sem)
abbrev c7 : GSem nD τ sig := (V d (cV L) (jV L), .dma cc0_scratch7.sem)
abbrev c8 : GSem nD τ sig := (V d (cV L) (jV L), .dma cc0_scratch8.sem)
abbrev c9 : GSem nD τ sig := (V d (cV L) (jV L), .dma cc0_scratch9.sem)
abbrev c10 : GSem nD τ sig := (V d (cV L) (jV L), .dma cc0_scratch10.sem)
abbrev c11 : GSem nD τ sig := (V d (cV L) (jV L), .dma cc0_scratch11.sem)
abbrev c12 : GSem nD τ sig := (V d (cV L) (jV L), .dma cc0_scratch12.sem)

theorem ownSems0_V :
    (ownSems0 (V d (cV L) (jV L)) : sProp 𝕄)
      = iprop(semVal (c6 d L) 0 ∗ semVal (c7 d L) 0 ∗ semVal (c8 d L) 0 ∗ semVal (c9 d L) 0 ∗ semVal (c10 d L) 0 ∗ semVal (c11 d L) 0 ∗ semVal (c12 d L) 0
          ∗ bigSep ((((((((ownCells (V d (cV L) (jV L))).erase (c6 d L)).erase (c7 d L)).erase (c8 d L)).erase (c9 d L)).erase (c10 d L)).erase (c11 d L)).erase (c12 d L)) fun g => semVal g 0) := by
  unfold SparseCore.Cfg.ownSems0
  rw [SparseCore.bigSep_erase' ((mem_ownCells (g := c6 d L)).mpr ⟨rfl, by show (SemLoc.dma cc0_scratch6.sem : SemLoc sig).isScoped .scVector = true; decide⟩),
    SparseCore.bigSep_erase' (Finset.mem_erase.mpr ⟨fun e => absurd (Prod.mk.inj e).2 (by decide), (mem_ownCells (g := c7 d L)).mpr ⟨rfl, by show (SemLoc.dma cc0_scratch7.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := c8 d L)).mpr ⟨rfl, by show (SemLoc.dma cc0_scratch8.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c9 d L)).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c10 d L)).mpr ⟨rfl, by show (SemLoc.dma cc0_scratch10.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c11 d L)).mpr ⟨rfl, by show (SemLoc.dma cc0_scratch11.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := c12 d L)).mpr ⟨rfl, by show (SemLoc.dma cc0_scratch12.sem : SemLoc sig).isScoped .scVector = true; decide⟩⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := ((Proc.scVector (cV L) (jV L)).devRef cc0_scratch5)) rfl⟩⟩⟩⟩⟩)]

theorem pts_x0 (f : Buf (Elt F) (xLoc d)) : ((xS0 L).view.loc (V d (cV L) (jV L)) ↦[(xS0 L).view.set]{fullShare} f : sProp 𝕄) = xLoc d ↦[(xS0 L).view.set]{fullShare} f := rfl
theorem pts_x1 (f : Buf (Elt F) (xLoc d)) : ((xS1 L).view.loc (V d (cV L) (jV L)) ↦[(xS1 L).view.set]{fullShare} f : sProp 𝕄) = xLoc d ↦[(xS1 L).view.set]{fullShare} f := rfl
theorem pts_u (f : Buf (Elt F) (uLoc d)) : ((uS L).view.loc (V d (cV L) (jV L)) ↦[(uS L).view.set]{fullShare} f : sProp 𝕄) = uLoc d ↦[(uS L).view.set]{fullShare} f := rfl
theorem pts_o0 (f : Buf (Elt F) (oLoc d)) : ((oS0 L).view.loc (V d (cV L) (jV L)) ↦[(oS0 L).view.set]{fullShare} f : sProp 𝕄) = oLoc d ↦[(oS0 L).view.set]{fullShare} f := rfl
theorem pts_o1 (f : Buf (Elt F) (oLoc d)) : ((oS1 L).view.loc (V d (cV L) (jV L)) ↦[(oS1 L).view.set]{fullShare} f : sProp 𝕄) = oLoc d ↦[(oS1 L).view.set]{fullShare} f := rfl
theorem pts_t (q : PosShare TreeShare) (f : Buf (Elt F) (tLoc d)) : ((tM).view.loc (V d (cV L) (jV L)) ↦{q} f : sProp 𝕄) = tLoc d ↦{q} f := by
  simp only [Memref.view_whole, View.set_whole]
theorem pts_d (q : PosShare TreeShare) (f : Buf (Elt F) (dLoc d)) : ((dM).view.loc (V d (cV L) (jV L)) ↦{q} f : sProp 𝕄) = dLoc d ↦{q} f := by
  simp only [Memref.view_whole, View.set_whole]
theorem pts_s0 (f : Buf (Elt F) ((V d (cV L) (jV L)).loc cc0_scratch0)) : ((Memref.whole cc0_scratch0).view.loc (V d (cV L) (jV L)) ↦{fullShare} f : sProp 𝕄) = (V d (cV L) (jV L)).loc cc0_scratch0 ↦{fullShare} f := rfl
theorem pts_s1 (f : Buf (Elt F) ((V d (cV L) (jV L)).loc cc0_scratch1)) : ((Memref.whole cc0_scratch1).view.loc (V d (cV L) (jV L)) ↦{fullShare} f : sProp 𝕄) = (V d (cV L) (jV L)).loc cc0_scratch1 ↦{fullShare} f := rfl
theorem pts_s2 (f : Buf (Elt F) ((V d (cV L) (jV L)).loc cc0_scratch2)) : ((Memref.whole cc0_scratch2).view.loc (V d (cV L) (jV L)) ↦{fullShare} f : sProp 𝕄) = (V d (cV L) (jV L)).loc cc0_scratch2 ↦{fullShare} f := rfl
theorem pts_s3 (f : Buf (Elt F) ((V d (cV L) (jV L)).loc cc0_scratch3)) : ((Memref.whole cc0_scratch3).view.loc (V d (cV L) (jV L)) ↦{fullShare} f : sProp 𝕄) = (V d (cV L) (jV L)).loc cc0_scratch3 ↦{fullShare} f := rfl
theorem pts_s4 (f : Buf (Elt F) ((V d (cV L) (jV L)).loc cc0_scratch4)) : ((Memref.whole cc0_scratch4).view.loc (V d (cV L) (jV L)) ↦{fullShare} f : sProp 𝕄) = (V d (cV L) (jV L)).loc cc0_scratch4 ↦{fullShare} f := rfl
theorem pts_s5 (f : Buf (Elt F) ((V d (cV L) (jV L)).loc cc0_scratch5)) : ((Memref.whole cc0_scratch5).view.loc (V d (cV L) (jV L)) ↦{fullShare} f : sProp 𝕄) = (V d (cV L) (jV L)).loc cc0_scratch5 ↦{fullShare} f := rfl

variable [FloatOps F] (m : (ℓ : Loc nD τ sig) → Buf (Elt F) ℓ) (hu : ∀ d, Spec.UOk (m (uLoc d))) (ht : ∀ d, Spec.TOk (m (tLoc d)))

abbrev B0 := Buf (Elt F) ((V d (cV L) (jV L)).loc cc0_scratch0)
abbrev B1 := Buf (Elt F) ((V d (cV L) (jV L)).loc cc0_scratch1)
abbrev B2 := Buf (Elt F) ((V d (cV L) (jV L)).loc cc0_scratch2)
abbrev B3 := Buf (Elt F) ((V d (cV L) (jV L)).loc cc0_scratch3)
abbrev B4 := Buf (Elt F) ((V d (cV L) (jV L)).loc cc0_scratch4)
abbrev B5 := Buf (Elt F) ((V d (cV L) (jV L)).loc cc0_scratch5)

/-- The task's user indices, as its scratch holds them after the fetch: entry `p` is the launch array's entry at the slice's `p`. -/
def Fact0 (a0 : B0 (F := F) d L) : Prop := ∀ p : S512.Idx, a0 p = m (uLoc d) ((uS L).view.emb p)
/-- The index table and the delta table, fetched whole. -/
def Fact2 (a2 : B2 (F := F) d L) : Prop := ∀ p : S100.Idx, a2 p = m (tLoc d) p
def Fact3 (a3 : B3 (F := F) d L) : Prop := ∀ y : S100x128.Idx, a3 y = m (dLoc d) y

/-- The delta-set of the task's row `p`: the index table at that row's user index. -/
def Tbl (p : S512.Idx) : BitVec 32 := m (tLoc d) (ValueIdx.ix1 ⟨(m (uLoc d) ((uS L).view.emb p)).toNat, hu d _⟩)
def Fact1 (a1 : B1 (F := F) d L) : Prop := ∀ p : S512.Idx, a1 p = Tbl d L m hu p

/-- After `k` trips of the first loop the first `16 k` composed indices are in place. -/
def Low1 (k : Nat) (f : B1 (F := F) d L) : Prop := ∀ p : S512.Idx, (p 0).val < 16 * k → f p = Tbl d L m hu p

def inv1 (k : Nat) (_ : PUnit) : sProp 𝕄 :=
  iprop(∃ (a0 : B0 (F := F) d L) (a2 : B2 (F := F) d L), ⌜Fact0 d L m a0 ∧ Fact2 d L m a2⌝
    ∗ ((Memref.whole cc0_scratch0).view.loc (V d (cV L) (jV L)) ↦{fullShare} a0) ∗ ((Memref.whole cc0_scratch2).view.loc (V d (cV L) (jV L)) ↦{fullShare} a2)
    ∗ ∃ f, ⌜Low1 d L m hu k f⌝ ∗ (Memref.whole cc0_scratch1).view.loc (V d (cV L) (jV L)) ↦{fullShare} f)

/-- The result at the task's chunk `r`, row `y 0`, column `y 1`, and the input there. -/
def OutAt (r : Fin 2) (y : S256x128.Idx) : Elt F .f32 :=
  G m hu ht d (ValueIdx.ix2 ⟨1024 * (L 1).val + 512 * (L 0).val + 256 * r.val + (y 0).val, by have h1 : (L 1).val < 16 := (L 1).isLt; have h0 : (L 0).val < 2 := (L 0).isLt; have hy : (y 0).val < 256 := (y 0).isLt; have := r.isLt; omega⟩ (y 1))
def InAt (r : Fin 2) (y : S256x128.Idx) : Elt F .f32 :=
  m (xLoc d) (ValueIdx.ix2 ⟨1024 * (L 1).val + 512 * (L 0).val + 256 * r.val + (y 0).val, by have h1 : (L 1).val < 16 := (L 1).isLt; have h0 : (L 0).val < 2 := (L 0).isLt; have hy : (y 0).val < 256 := (y 0).isLt; have := r.isLt; omega⟩ (y 1))

/-- After `k` trips of a chunk's loop the first `8 k` rows of the chunk's buffer hold the result, the rest the input. -/
def Low2 (r : Fin 2) (k : Nat) (f : B4 (F := F) d L) : Prop :=
  ∀ y : S256x128.Idx, ((y 0).val < 8 * k → f y = OutAt d L m hu ht r y) ∧ (8 * k ≤ (y 0).val → f y = InAt d L m r y)

def inv2 (k : Nat) (_ : PUnit) : sProp 𝕄 :=
  iprop(∃ (a1 : B1 (F := F) d L) (a3 : B3 (F := F) d L), ⌜Fact1 d L m hu a1 ∧ Fact3 d L m a3⌝
    ∗ ((Memref.whole cc0_scratch1).view.loc (V d (cV L) (jV L)) ↦{fullShare} a1) ∗ ((Memref.whole cc0_scratch3).view.loc (V d (cV L) (jV L)) ↦{fullShare} a3)
    ∗ ∃ f, ⌜Low2 d L m hu ht 0 k f⌝ ∗ (Memref.whole cc0_scratch4).view.loc (V d (cV L) (jV L)) ↦{fullShare} f)

/-- The same for the second chunk, whose buffer is scratch 5. -/
def Low3 (k : Nat) (f : B5 (F := F) d L) : Prop :=
  ∀ y : S256x128.Idx, ((y 0).val < 8 * k → f y = OutAt d L m hu ht 1 y) ∧ (8 * k ≤ (y 0).val → f y = InAt d L m 1 y)

def inv3 (k : Nat) (_ : PUnit) : sProp 𝕄 :=
  iprop(∃ (a1 : B1 (F := F) d L) (a3 : B3 (F := F) d L), ⌜Fact1 d L m hu a1 ∧ Fact3 d L m a3⌝
    ∗ ((Memref.whole cc0_scratch1).view.loc (V d (cV L) (jV L)) ↦{fullShare} a1) ∗ ((Memref.whole cc0_scratch3).view.loc (V d (cV L) (jV L)) ↦{fullShare} a3)
    ∗ ∃ f, ⌜Low3 d L m hu ht k f⌝ ∗ (Memref.whole cc0_scratch5).view.loc (V d (cV L) (jV L)) ↦{fullShare} f)

end Cert.KernelIdeal.Body

end
-- ==== Proof.TileOblKernelIdeal.lean ====
/-
  The tasks' obligation of the launch theorem, from the proof of one task's body at a symbolic grid position.

  The launch theorem asks, of every vector subcore `(c, i)` of the call's grid, that the label's body on that subcore
  takes the task's operands and the subcore's scoped storage to the task's results (`TileObl`). The label's body on a
  subcore of the grid IS the kernel function at that subcore's coordinates, lifted into the launch's body table; so the
  obligation is the body's proof at the grid position `(c, i)`, with the task's operands read off the payloads.
-/
import proofs.«202775_g10411000725526_cont_sun_m_1212_8_alg».proof.Proof.BodyDefsKernelIdeal
import proofs.«202775_g10411000725526_cont_sun_m_1212_8_alg».proof.Proof.LaunchKernelIdeal

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

variable [FloatOps F] (m : (ℓ : Loc nD τ sig) → Buf (Elt F) ℓ) (hu : ∀ d, Spec.UOk (m (uLoc d))) (ht : ∀ d, Spec.TOk (m (tLoc d)))

/-- The label's body on vector subcore `(c, s)`: the kernel function at the subcore's coordinates when the grid holds it. -/
theorem defs₀_vector (c : Fin τ.nSC) (s : Fin τ.nSub) :
    defs₀ (F := F) (.scVector c s) 0 ()
      = SparseCore.onTile hcore0 hsub0 (fun c s => cc0__body (coordsV c s) xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12) ⟨⟩ c s := rfl

omit [FloatOps F] in
/-- A wait recorded at no call's index is in particular one at no index or this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tasks' obligation, from the body proved once at a symbolic grid position and read share. -/
theorem tileObl_of_body
    (hbody : ∀ (d : Dev nD) (L : grid0.Coords) (q : PosShare TreeShare) (O : CellTallies nD τ sig (HIx 1)) (W : Waits sig (HIx 1)), (∀ g, O g none = 0) →
      iprop(levAts (K (F := F)).L (K (F := F)).lev ∗ emp ∗ tileGo m d L q
          ∗ scopedBufs (V d (cV L) (jV L)) ∗ scopedSems0 (V d (cV L) (jV L)) ∗ owes (V d (cV L) (jV L)) O W)
        ⊢ wp frame (wpE (defs₀ (F := F)) 𝒱₀ (V d (cV L) (jV L)) none) Set.univ
            (cc0__body L xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12)
            fun _ => iprop(tileTd m hu ht d L q ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P m hu ht) v₀ 0 := by
  intro d c i O W hO _ _
  -- this kernel owes nothing for a protocol of its own
  simp only [show (P m hu ht).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [Launch.P_x, Launch.P_go, Launch.P_td]
  have hb := hbody d (coordsV ⟨_, hc.1⟩ ⟨_, hc.2⟩) (qT (Fin.cast nCore_zero c) (Fin.cast nSub_zero i)) O W hO
  generalize cc0__body (F := F) (coordsV ⟨_, hc.1⟩ ⟨_, hc.2⟩) xM (Memref.isWhole_whole _) uM (Memref.isWhole_whole _) tM (Memref.isWhole_whole _) dM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11 cc0_scratch12 = prog at hb ⊢
  exact hb.trans (wp_mono frame _ _ fun _ => obl_post)

end Cert.KernelIdeal.Body

end
-- ==== Proof.RefRun.lean ====
/-
  The reference program's run. Its @main is two table lookups and a sum: `take(t, u)` into an index array, `take(dl, ·)`
  of that into rows, and the pointwise sum with `x`; each lookup is a function of the module whose body is inlined at
  the call (as is the `where` inside it). Listed in order, the program is a straight line of 46 tensor operations, each
  writing a buffer of its own, so its run is the fold of those operations over the launch contents: the result buffer
  ends at the operations' composed term `refOut` of the four argument arrays, and the arguments end unchanged.
-/
import proofs.«202775_g10411000725526_cont_sun_m_1212_8_alg».proof.ReferenceIdeal
import proofs.«202775_g10411000725526_cont_sun_m_1212_8_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed pure terms

Both lookups share their index arithmetic, so it is stated once: `adj` (a negative index has the axis length added),
`col` (the adjusted indices as a column), `mask` (is the index in `[0, 99]`), and then each lookup is a select on the
mask between what its gather reads at the column and its fill value. -/

/-- The index with 100 added where it is negative: `where(idx < 0, idx + 100, idx)`. -/
def adj (idx : IVec S16384 32) : IVec S16384 32 :=
  let c : IVec S_ 32 := constantI S_ 32 0#32
  let v0 : IVec S16384 32 := broadcastInDim S16384 ![] bcast_S_S16384 c
  let v1 : IVec S16384 1 := cmpi .slt idx v0
  let c_0 : IVec S_ 32 := constantI S_ 32 100#32
  let v2 : IVec S16384 32 := broadcastInDim S16384 ![] bcast_S_S16384 c_0
  let v3 : IVec S16384 32 := addi idx v2
  select v1 v3 idx

/-- The adjusted indices as a column `[16384, 1]`: the gathers' start indices. -/
def col (idx : IVec S16384 32) : IVec S16384x1 32 :=
  broadcastInDim S16384x1 ![0] bcast_S16384_S16384x1_0 (adj idx)

/-- The range test: 1 where the adjusted index is at least 0 and at most 99 (an `and` of two comparisons on the column,
    reduced by `and` over the column's one entry per row). -/
def mask (idx : IVec S16384 32) : IVec S16384 1 :=
  let v5 : IVec S16384x1 32 := col idx
  let c_1 : IVec S1 32 := constantI S1 32 99#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  Host.reduce IntOp.andi v11 c_3 reducesTo_S16384x1_S16384_d1 h_S_

/-- The integer lookup's term: `take(tbl, idx)` along the one axis of a 100-entry table, out-of-range entries filled
    with the least 32-bit integer: the gather reads the table at the (clamped) start index, the range test selects
    between what was read and the fill. -/
def takeI (tbl : IVec S100 32) (idx : IVec S16384 32) : IVec S16384 32 :=
  select (mask idx) (Host.gather gather_S100_S16384x1_S16384_n_0_n_n_0_1_1 tbl (col idx))
    (broadcastInDim S16384 ![] bcast_S_S16384 (constantI S_ 32 2147483648#32))

/-- The row lookup's term: `take(tbl, idx, axis 0)` of a 100-row table, out-of-range rows filled with the NaN constant:
    the gather reads whole rows, the range test, broadcast along the row, selects. -/
def takeF (tbl : FVec F S100x128 .f32) (idx : IVec S16384 32) : FVec F S16384x128 .f32 :=
  select (broadcastInDim S16384x128 ![0] bcast_S16384_S16384x128_0 (mask idx))
    (Host.gather gather_S100x128_S16384x1_S16384x128_1_0_n_n_0_1_1128 tbl (col idx))
    (broadcastInDim S16384x128 ![] bcast_S_S16384x128 (constant S_ .f32 0x7FC00000#32))

/-- The whole program's term at the ideal instance: `x + take(dl, take(t, u))`. -/
def refOut (x : FVec Ideal S16384x128 .f32) (u : IVec S16384 32) (t : IVec S100 32) (dl : FVec Ideal S100x128 .f32) :
    FVec Ideal S16384x128 .f32 :=
  addf x (takeF dl (takeI t u))

/-! ## The program as a list of operations -/

/-- The arguments and the first lookup's result as typed references (a call's operands). -/
abbrev tArg1 : TRef sig ⟨S16384, .i32⟩ := .of main_arg1
abbrev tArg2 : TRef sig ⟨S100, .i32⟩ := .of main_arg2
abbrev tArg3 : TRef sig ⟨S100x128, .f32⟩ := .of main_arg3
abbrev tV0 : TRef sig ⟨S16384, .i32⟩ := .of main_v0

/-- @main's 46 operations in order, the calls unfolded: the integer lookup's 22 (its `where` the seventh) into the
    first call's buffers, the row lookup's 23 into the second's, the sum. -/
abbrev ops : List (HloOp τ sig (Elt F)) :=
  [ TRef.nullary main_call0.c (constantI S_ 32 0#32),
    TRef.unary main_call0.c main_call0.v0 (broadcastInDim S16384 ![] bcast_S_S16384),
    TRef.binary tArg1 main_call0.v0 main_call0.v1 (cmpi .slt),
    TRef.nullary main_call0.c_0 (constantI S_ 32 100#32),
    TRef.unary main_call0.c_0 main_call0.v2 (broadcastInDim S16384 ![] bcast_S_S16384),
    TRef.binary tArg1 main_call0.v2 main_call0.v3 addi,
    TRef.ternary main_call0.v1 main_call0.v3 tArg1 main_call0.call0.v0 select,
    TRef.unary main_call0.call0.v0 main_call0.v5 (broadcastInDim S16384x1 ![0] bcast_S16384_S16384x1_0),
    TRef.nullary main_call0.c_1 (constantI S1 32 99#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary tArg2 main_call0.v5 main_call0.v13 (fun x i => Host.gather gather_S100_S16384x1_S16384_n_0_n_n_0_1_1 x i),
    TRef.nullary main_call0.c_4 (constantI S_ 32 2147483648#32),
    TRef.unary main_call0.c_4 main_call0.v14 (broadcastInDim S16384 ![] bcast_S_S16384),
    TRef.ternary main_call0.v12 main_call0.v13 main_call0.v14 main_call0.v15 select,
    TRef.nullary main_call1.c (constantI S_ 32 0#32),
    TRef.unary main_call1.c main_call1.v0 (broadcastInDim S16384 ![] bcast_S_S16384),
    TRef.binary tV0 main_call1.v0 main_call1.v1 (cmpi .slt),
    TRef.nullary main_call1.c_0 (constantI S_ 32 100#32),
    TRef.unary main_call1.c_0 main_call1.v2 (broadcastInDim S16384 ![] bcast_S_S16384),
    TRef.binary tV0 main_call1.v2 main_call1.v3 addi,
    TRef.ternary main_call1.v1 main_call1.v3 tV0 main_call1.call0.v0 select,
    TRef.unary main_call1.call0.v0 main_call1.v5 (broadcastInDim S16384x1 ![0] bcast_S16384_S16384x1_0),
    TRef.nullary main_call1.c_1 (constantI S1 32 99#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary tArg3 main_call1.v5 main_call1.v13 (fun x i => Host.gather gather_S100x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_arg0 main_v1 main_v2 (addf : (⟨S16384x128, .f32⟩ : BufTy).Contents (Elt F) → (⟨S16384x128, .f32⟩ : BufTy).Contents (Elt F) → (⟨S16384x128, .f32⟩ : BufTy).Contents (Elt F)) ]

set_option maxRecDepth 2048 in
/-- @main is that straight line: the functions' bodies unfolded at their calls, sequencing reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-! ## The fold at the result and at the arguments

Read at one buffer, the fold of the 46 operations is a computation: each operation's result at the buffer it writes is its
function of its operands' contents, at any other buffer what was there, and the typed references' transports are the
identity at these literal buffers. The tensor operations themselves are kept folded meanwhile: the two sides name the
same operations in the same order, and nothing here depends on what any of them computes. -/

attribute [local irreducible] Host.reduce Host.gather select cmpi andi addi broadcastInDim constantI constant addf

set_option maxRecDepth 8192 in
set_option maxHeartbeats 400000 in
/-- The fold at the result buffer is `refOut` of the arguments' contents. -/
theorem out_eq (V : Valuation τ sig (Elt Ideal)) :
    after (ops (F := Ideal)) V (main_v2 : DevRef τ sig)
      = refOut (V (main_arg0 : DevRef τ sig)) (V (main_arg1 : DevRef τ sig)) (V (main_arg2 : DevRef τ sig))
          (V (main_arg3 : DevRef τ sig)) := by
  simp only [after_cons, after_nil]
  rfl

set_option maxRecDepth 8192 in
set_option maxHeartbeats 400000 in
/-- No operation writes argument 0's buffer. -/
theorem arg0_eq (V : Valuation τ sig (Elt F)) :
    after (ops (F := F)) V (main_arg0 : DevRef τ sig) = V (main_arg0 : DevRef τ sig) := by
  simp only [after_cons, after_nil]
  rfl

set_option maxRecDepth 8192 in
set_option maxHeartbeats 400000 in
/-- No operation writes argument 1's buffer. -/
theorem arg1_eq (V : Valuation τ sig (Elt F)) :
    after (ops (F := F)) V (main_arg1 : DevRef τ sig) = V (main_arg1 : DevRef τ sig) := by
  simp only [after_cons, after_nil]
  rfl

set_option maxRecDepth 8192 in
set_option maxHeartbeats 400000 in
/-- No operation writes argument 2's buffer. -/
theorem arg2_eq (V : Valuation τ sig (Elt F)) :
    after (ops (F := F)) V (main_arg2 : DevRef τ sig) = V (main_arg2 : DevRef τ sig) := by
  simp only [after_cons, after_nil]
  rfl

set_option maxRecDepth 8192 in
set_option maxHeartbeats 400000 in
/-- No operation writes argument 3's buffer. -/
theorem arg3_eq (V : Valuation τ sig (Elt F)) :
    after (ops (F := F)) V (main_arg3 : DevRef τ sig) = V (main_arg3 : DevRef τ sig) := by
  simp only [after_cons, after_nil]
  rfl

/-! ## The run -/

/-- At the ideal instance, from any memory with zero counters: every weakly fair execution of @main terminates with the
    result buffer at `refOut` of the arguments' launch contents and the four arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v2) = refOut (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c main_v2).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefFrame.lean ====
/-
  The reference's frame claim: it runs, and its four argument arrays end unchanged. This is the run of the straight line of
  tensor operations with the statement about the result dropped; the precondition is not needed.
-/
import proofs.«202775_g10411000725526_cont_sun_m_1212_8_alg».proof.Defs
import proofs.«202775_g10411000725526_cont_sun_m_1212_8_alg».proof.Proof.Gen.ReferenceIdeal
import proofs.«202775_g10411000725526_cont_sun_m_1212_8_alg».proof.Proof.Gen.Pre_input_domain
import proofs.«202775_g10411000725526_cont_sun_m_1212_8_alg».proof.Proof.RefRun

noncomputable section

namespace Cert.ReferenceIdeal.RefFrame

open Idealize.ShloMosaic Idealize.SL.Sem

/-- `Cert.frame_ReferenceIdeal` (Defs.lean), at the generated instances of the stated facts. -/
theorem frame_ri : Cert.frame_ReferenceIdeal (hReferenceIdeal := Cert.ReferenceIdeal.Gen.facts)
    (hPre_input_domain := Cert.Pre_input_domain.Gen.facts) :=
  fun m ρ _ => (θ_run (Cert.ReferenceIdeal.defs (F := Ideal)) _ _).mono (fun _ h c => (h c).2)
    (Cert.ReferenceIdeal.RefRun.run m ρ)

end Cert.ReferenceIdeal.RefFrame

end
-- ==== Proof.LibTakeRows.lean ====
/-
  Two general facts about host operations, for a row lookup `x[idx]` of a rank-2 table.

  (1) `stablehlo.gather` of a rank-2 operand `[N, C]` at a column `[R, 1]` of start indices, with offset_dims `[1]`,
  collapsed_slice_dims `[0]`, start_index_map `[0]`, index_vector_dim 1 and slice_sizes `[1, C]` — what
  `jnp.take(x, idx, axis=0)` lowers to — read at result index `(r, j)`: the operand at row `idx[r, 0]`, read as a
  signed integer and clamped into `[0, N − 1]`, and column `j`. The argument is the one for a rank-1 operand
  (`ValueIdx.gather_take_apply`), with one more operand axis: axis 0 is collapsed and takes its coordinate from the
  clamped start index, axis 1 is the offset axis and takes the result's second coordinate.

  (2) A `stablehlo.reduce` by `and` of one-bit words that are all 1, from the initial value 1, is 1 at every result
  index, whatever axes it reduces: a left fold by `and` from 1 over 1s stays 1.
-/
import Idealize.ShloMosaic.PureOps
import Idealize.ShloMosaic.PureOps.Reduce
import Idealize.ShloMosaic.Lib.ValueIdx

noncomputable section

namespace Cert.LibTakeRows

open Idealize.ShloMosaic Idealize.ShloMosaic.ValueIdx

/-! ## The gather of rows, read at an index -/

section TakeRows
variable {α : Type}

/-- The dimension numbers of a row lookup, for an operand `[N, C]`, start indices `[R, 1]` and result `[R, C]`. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, j)`. -/
abbrev takeRowIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, j)`: the operand at row `idx[r, 0]`, read signed and clamped into `[0, N − 1]`, and
    column `j`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (takeRowIdx y)).toInt.toNat (N - 1), by omega⟩ ⟨(y 1).val, idx2_lt1 y⟩) := by
  unfold Host.gather
  congr 1
  funext a
  refine Fin.ext ?_
  show (takeRowsDims N R C wf).start y idx a + (takeRowsDims N R C wf).batchCoord y a + (takeRowsDims N R C wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N R C wf).startIndexMap from List.mem_singleton.mpr rfl)]
    have hsi : (takeRowsDims N R C wf).siIdx y ⟨List.idxOf (⟨0, by decide⟩ : Fin 2) (takeRowsDims N R C wf).startIndexMap,
        List.idxOf_lt_length_iff.2 (List.mem_singleton.mpr rfl)⟩ = takeRowIdx y := by
      funext b; refine Fin.ext ?_
      match b with
      | ⟨0, _⟩ => rfl
      | ⟨1, _⟩ => rfl
    rw [hsi]
    rfl
  | ⟨1, _⟩ =>
    have hns : (⟨1, by decide⟩ : Fin 2) ∉ (takeRowsDims N R C wf).startIndexMap :=
      fun h => Nat.one_ne_zero (congrArg Fin.val (List.mem_singleton.mp h))
    unfold GatherDims.start
    rw [dif_neg hns]
    simp only [Nat.add_zero, Nat.zero_add]
    rfl

end TakeRows

/-! ## A reduce by `and` of ones -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A `stablehlo.reduce` by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x hx _

end Cert.LibTakeRows

end
-- ==== Proof.RefValue.lean ====
/-
  The reference's term, read index by index. Under the two range facts — every user index and every entry of the index
  table is a word below 100 — neither lookup's index arithmetic does anything: no index is negative, so none is adjusted;
  every adjusted index passes the range test, so the mask is all ones and each select takes what its gather read; and a
  word below 100, read signed and clamped into `[0, 99]`, is itself. So the first lookup reads the index table at the
  user index, the second reads the delta table's row at that entry, and the sum is the specification's.
-/
import proofs.«202775_g10411000725526_cont_sun_m_1212_8_alg».proof.Proof.RefRun
import proofs.«202775_g10411000725526_cont_sun_m_1212_8_alg».proof.Proof.Spec
import proofs.«202775_g10411000725526_cont_sun_m_1212_8_alg».proof.Proof.LibTakeRows
import Idealize.ShloMosaic.Lib.Affine
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx

/-! ## Words below 100 -/

/-- Read signed, a word below 100 is its unsigned value. -/
theorem toInt_of_lt {v : BitVec 32} (h : v.toNat < 100) : v.toInt = (v.toNat : Int) :=
  BitVec.toInt_eq_toNat_of_lt (by omega)

/-- A word below 100 is not negative: the signed test `v < 0` is 0. -/
theorem slt_zero {v : BitVec 32} (h : v.toNat < 100) : IntOp.cmpi .slt v 0#32 = 0#1 := by
  refine eq_zero_of_ne_one fun e => ?_
  rw [IntOp.cmpi_slt, toInt_of_lt h, show (0#32 : BitVec 32).toInt = 0 from by decide] at e
  omega

/-- A word below 100 passes the signed test `v ≥ 0`. -/
theorem sge_zero {v : BitVec 32} (h : v.toNat < 100) : IntOp.cmpi .sge v 0#32 = 1#1 := by
  rw [IntOp.cmpi_sge, toInt_of_lt h, show (0#32 : BitVec 32).toInt = 0 from by decide]
  omega

/-- A word below 100 passes the signed test `v ≤ 99`. -/
theorem sle_99 {v : BitVec 32} (h : v.toNat < 100) : IntOp.cmpi .sle v 99#32 = 1#1 := by
  rw [IntOp.cmpi_sle, toInt_of_lt h, show (99#32 : BitVec 32).toInt = 99 from by decide]
  omega

/-- A word below 100, read signed and clamped into `[0, 99]`, is its unsigned value. -/
theorem clamp_of_lt {v : BitVec 32} (h : v.toNat < 100) : min v.toInt.toNat (100 - 1) = v.toNat := by
  rw [toInt_of_lt h, Int.toNat_natCast]
  omega

/-! ## The gather of a rank-1 table at a column of start indices, read at an index

What `jnp.take(x, idx, axis=0)` of a flat table `x : [N]` lowers to: operand `[N]`, start indices `[R, 1]`, result
`[R]`, no offset axis, operand axis 0 collapsed and named by the start index map, the index vector on axis 1. Result
element `r` is the table at the start index `idx[r, 0]`, read signed and clamped into `[0, N − 1]`. -/

section TakeCol
variable {α : Type}

/-- Those dimension numbers. -/
abbrev takeColDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

theorem idx1_lt {n : Nat} (j : (⟨1, ![n]⟩ : Shape).Idx) : (j 0).val < n := (j 0).isLt

/-- The start-indices index `[r, 0]` of result index `r`. -/
abbrev takeColIdx {R : Nat} (y : (⟨1, ![R]⟩ : Shape).Idx) : (⟨2, ![R, 1]⟩ : Shape).Idx :=
  fun a => match a with | ⟨0, _⟩ => ⟨(y 0).val, idx1_lt y⟩ | ⟨1, _⟩ => ⟨0, Nat.one_pos⟩

/-- The gather read at `r`: the table at the start index `idx[r, 0]`, read signed and clamped into `[0, N − 1]`. -/
theorem gather_takeCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (takeColDims N R wf) x idx y = x (ix1 ⟨min (idx (takeColIdx y)).toInt.toNat (N - 1), by omega⟩) := by
  unfold Host.gather
  congr 1
  funext a
  obtain rfl : a = 0 := Subsingleton.elim _ _
  refine Fin.ext ?_
  show (takeColDims N R wf).start y idx 0 + (takeColDims N R wf).batchCoord y 0 + (takeColDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims N R wf).startIndexMap from List.mem_singleton.mpr rfl)]
  have hsi : (takeColDims N R wf).siIdx y ⟨List.idxOf (0 : Fin 1) (takeColDims N R wf).startIndexMap,
      List.idxOf_lt_length_iff.2 (List.mem_singleton.mpr rfl)⟩ = takeColIdx y := by
    funext b; refine Fin.ext ?_
    match b with
    | ⟨0, _⟩ => rfl
    | ⟨1, _⟩ => rfl
  rw [hsi]
  rfl

end TakeCol

/-! ## The shared index arithmetic under the range fact -/

-- the reduction and the gather are folds and searches over their operands: what follows never looks inside them
attribute [local irreducible] Host.reduce Host.gather

section Arith
variable (idx : IVec S16384 32) (hidx : ∀ i, (idx i).toNat < 100)
include hidx

/-- No index is negative, so none is adjusted. -/
theorem adj_apply (i : S16384.Idx) : adj idx i = idx i := by
  show Scalar.select (IntOp.cmpi .slt (idx i) 0#32) (IntOp.addi (idx i) 100#32) (idx i) = idx i
  rw [slt_zero (hidx i)]
  exact select_zero _ _

/-- The column of start indices at `(r, 0)` is the index at `r`. -/
theorem col_apply (k : S16384x1.Idx) : col idx k = idx (ix1 (k 0)) := by
  unfold col broadcastInDim
  rw [adj_apply idx hidx]
  refine congrArg idx (funext fun a => ?_)
  match a with
  | ⟨0, _⟩ => rfl

/-- Every index passes the range test. -/
theorem mask_apply (i : S16384.Idx) : mask idx i = 1#1 := by
  unfold mask
  refine Cert.LibTakeRows.reduce_andi_of_all _ _ _ _ (fun k => ?_) (fun _ => rfl) i
  show IntOp.andi (IntOp.cmpi .sge (col idx k) 0#32) (IntOp.cmpi .sle (col idx k) 99#32) = 1#1
  rw [col_apply idx hidx k, sge_zero (hidx _), sle_99 (hidx _)]
  rfl

end Arith

/-! ## The two lookups under the range fact -/

/-- The integer lookup reads the table at the index. -/
theorem takeI_apply (tbl : IVec S100 32) (idx : IVec S16384 32) (hidx : ∀ i, (idx i).toNat < 100) (r : Fin 16384) :
    takeI tbl idx (ix1 r) = tbl (ix1 ⟨(idx (ix1 r)).toNat, hidx _⟩) := by
  show Scalar.select (mask idx (ix1 r))
      (Host.gather (takeColDims 100 16384 gather_S100_S16384x1_S16384_n_0_n_n_0_1_1_wf) tbl (col idx) (ix1 r)) _ = _
  rw [mask_apply idx hidx, select_one,
    gather_takeCol_apply (by decide) gather_S100_S16384x1_S16384_n_0_n_n_0_1_1_wf tbl (col idx) (ix1 r)]
  refine congrArg tbl (congrArg ix1 (Fin.ext ?_))
  show min ((col idx (takeColIdx (ix1 r))).toInt.toNat) (100 - 1) = (idx (ix1 r)).toNat
  rw [col_apply idx hidx]
  exact clamp_of_lt (hidx _)

/-- The row lookup reads the table's row at the index. -/
theorem takeF_apply {F : FTy → Type} [FloatOps F] (tbl : FVec F S100x128 .f32) (idx : IVec S16384 32)
    (hidx : ∀ i, (idx i).toNat < 100) (r : Fin 16384) (j : Fin 128) :
    takeF tbl idx (ix2 r j) = tbl (ix2 ⟨(idx (ix1 r)).toNat, hidx _⟩ j) := by
  show Scalar.select (mask idx _)
      (Host.gather (Cert.LibTakeRows.takeRowsDims 100 16384 128 gather_S100x128_S16384x1_S16384x128_1_0_n_n_0_1_1128_wf)
        tbl (col idx) (ix2 r j)) _ = _
  rw [mask_apply idx hidx, select_one,
    Cert.LibTakeRows.gather_takeRows_apply (by decide) gather_S100x128_S16384x1_S16384x128_1_0_n_n_0_1_1128_wf tbl (col idx) (ix2 r j)]
  refine congrArg tbl (congrArg (fun a => ix2 a j) (Fin.ext ?_))
  show min ((col idx (Cert.LibTakeRows.takeRowIdx (ix2 r j))).toInt.toNat) (100 - 1) = (idx (ix1 r)).toNat
  rw [col_apply idx hidx]
  exact clamp_of_lt (hidx _)

/-! ## The reference's term is the specification -/

/-- Under the range facts the composed term of the reference's operations is the specified array. -/
theorem refOut_eq (x : FVec Ideal S16384x128 .f32) (u : IVec S16384 32) (t : IVec S100 32) (dl : FVec Ideal S100x128 .f32)
    (hu : Cert.Spec.UOk u) (ht : Cert.Spec.TOk t) :
    Cert.ReferenceIdeal.RefRun.refOut x u t dl = Cert.Spec.outFn (F := Ideal) x u t dl hu ht := by
  have hI : ∀ i : S16384.Idx, (takeI t u i).toNat < 100 := fun i => by
    obtain ⟨r, rfl⟩ : ∃ r : Fin 16384, i = ix1 r := ⟨(i 0 : Fin 16384), eq_ix1 i⟩
    rw [takeI_apply t u hu]
    exact ht _
  funext i
  obtain ⟨r, j, rfl⟩ : ∃ (r : Fin 16384) (j : Fin 128), i = ix2 r j := ⟨(i 0 : Fin 16384), (i 1 : Fin 128), eq_ix2 i⟩
  show FloatOps.addf (x (ix2 r j)) (takeF dl (takeI t u) (ix2 r j)) = _
  rw [takeF_apply dl (takeI t u) hI, Cert.Spec.outFn_apply]
  refine congrArg (FloatOps.addf _) (congrArg dl (congrArg (fun a => ix2 a j) (Fin.ext ?_)))
  exact congrArg BitVec.toNat (takeI_apply t u hu r)

end Cert.ReferenceIdeal.RefValue

end
-- ==== Proof.PreRanges.lean ====
/-
  The precondition, decoded. The printed predicate `input_domain` is a conjunction of four `all`s, each a
  reduction by `and` over a whole array: the two float arrays are finite, and every word of the two integer
  arrays lies between 0 and 99 as a signed word. Only the last two matter for the lookups: a signed word that is
  at least 0 and at most 99 has, read unsigned, a value below 100.
-/
import proofs.«202775_g10411000725526_cont_sun_m_1212_8_alg».proof.Pre_input_domain
import proofs.«202775_g10411000725526_cont_sun_m_1212_8_alg».proof.Proof.Spec
import Idealize.ShloMosaic.Lib.ReduceAll
import Idealize.ShloMosaic.Lib.ValueIdx

namespace Cert.PreRanges

open Idealize.ShloMosaic

/-- The rank-0 shape has one index. -/
instance subsingleton_scalarIdx : Subsingleton Cert.Pre_input_domain.S_.Idx := ⟨fun a b => funext fun d => d.elim0⟩

/-- A 32-bit word that is, read signed, at least 0 and at most 99 has unsigned value below 100. -/
theorem toNat_lt_of_cmp (v : BitVec 32) (h0 : IntOp.cmpi .sge v 0#32 = 1#1) (h1 : IntOp.cmpi .sle v 99#32 = 1#1) :
    v.toNat < 100 := by
  rw [IntOp.cmpi_sge] at h0
  rw [IntOp.cmpi_sle] at h1
  have e0 : (0#32 : BitVec 32).toInt = 0 := by decide
  have e99 : (99#32 : BitVec 32).toInt = 99 := by decide
  rw [e0] at h0
  rw [e99] at h1
  rw [BitVec.toInt_eq_toNat_cond] at h0 h1
  split at h0 <;> omega

/-- The precondition all ones gives the two range facts the lookups need: every user index and every entry of the
    index table is a word below 100. -/
theorem ranges_of_pre {F : FTy → Type} [FloatOps F] [Cert.Pre_input_domain.Facts]
    (a0 : FVec F Cert.Pre_input_domain.S16384x128 .f32) (a1 : IVec Cert.Pre_input_domain.S16384 32)
    (a2 : IVec Cert.Pre_input_domain.S100 32) (a3 : FVec F Cert.Pre_input_domain.S100x128 .f32)
    (h : Cert.Pre_input_domain.fn (F := F) a0 a1 a2 a3 = fun _ => 1#1) : Cert.Spec.UOk a1 ∧ Cert.Spec.TOk a2 := by
  have e := congrFun h ValueIdx.ix0
  dsimp only [Cert.Pre_input_domain.fn, Cert.Pre_input_domain.fn_part1] at e
  obtain ⟨e15, e21⟩ := IntOp.andi_eq_one.1 e
  obtain ⟨_, e14⟩ := IntOp.andi_eq_one.1 e15
  refine ⟨fun i => ?_, fun k => ?_⟩
  · have hi := Host.reduce_andi_all _ _ _ _ _ e14 i
    obtain ⟨g0, g1⟩ := IntOp.andi_eq_one.1 hi
    exact toNat_lt_of_cmp _ g0 g1
  · have hk := Host.reduce_andi_all _ _ _ _ _ e21 k
    obtain ⟨g0, g1⟩ := IntOp.andi_eq_one.1 hk
    exact toNat_lt_of_cmp _ g0 g1

end Cert.PreRanges
-- ==== Proof.ChecksKernel.lean ====
/-
  The in-range checks a task's body assumes, as pure facts.

  The body indexes its scratch arrays through vectors of words and assumes, before each indexed load, that every word
  names an element: a row of the composed index list (512 entries), an entry of the index table or a row of the delta
  table (100), a column (128). The rows it broadcasts are `base + 8 k + c` for trip `k < 32` of a loop and `c < 8`, with
  `base` 0 or 256: below 512. The columns are the lane number `0 … 15` plus a multiple of 16 up to 112: below 128. The
  looked-up words are below 100 when the tables' entries are (a hypothesis here).
-/
import proofs.«202775_g10411000725526_cont_sun_m_1212_8_alg».proof.Kernel
import proofs.«202775_g10411000725526_cont_sun_m_1212_8_alg».proof.Proof.Gen.Kernel
import proofs.«202775_g10411000725526_cont_sun_m_1212_8_alg».proof.Proof.SkeletonKernelP

namespace Cert.Kernel.Checks

open Cert.Kernel Cert.Kernel.Gen Cert.Kernel.GenP

open Idealize.ShloMosaic

/-- The lane numbers `0 … 15`, as the body makes them. -/
local notation "v14" => iota Kind.scVector S16 32 [0] iota_S16_d0_w32_scVector

/-! ## The broadcast rows: `base + 8 k + c < 512` -/

theorem row2_lt_0 (k : Fin k0_t2_loop.trips) :
    (Scalar.addi (Scalar.addi 0#32 (Scalar.muli (Scf.iv 0#32 1#32 k) 8#32)) 0#32).toNat < 512 := by revert k; decide +kernel
theorem row2_lt_1 (k : Fin k0_t2_loop.trips) :
    (Scalar.addi (Scalar.addi 0#32 (Scalar.muli (Scf.iv 0#32 1#32 k) 8#32)) 1#32).toNat < 512 := by revert k; decide +kernel
theorem row2_lt_2 (k : Fin k0_t2_loop.trips) :
    (Scalar.addi (Scalar.addi 0#32 (Scalar.muli (Scf.iv 0#32 1#32 k) 8#32)) 2#32).toNat < 512 := by revert k; decide +kernel
theorem row2_lt_3 (k : Fin k0_t2_loop.trips) :
    (Scalar.addi (Scalar.addi 0#32 (Scalar.muli (Scf.iv 0#32 1#32 k) 8#32)) 3#32).toNat < 512 := by revert k; decide +kernel
theorem row2_lt_4 (k : Fin k0_t2_loop.trips) :
    (Scalar.addi (Scalar.addi 0#32 (Scalar.muli (Scf.iv 0#32 1#32 k) 8#32)) 4#32).toNat < 512 := by revert k; decide +kernel
theorem row2_lt_5 (k : Fin k0_t2_loop.trips) :
    (Scalar.addi (Scalar.addi 0#32 (Scalar.muli (Scf.iv 0#32 1#32 k) 8#32)) 5#32).toNat < 512 := by revert k; decide +kernel
theorem row2_lt_6 (k : Fin k0_t2_loop.trips) :
    (Scalar.addi (Scalar.addi 0#32 (Scalar.muli (Scf.iv 0#32 1#32 k) 8#32)) 6#32).toNat < 512 := by revert k; decide +kernel
theorem row2_lt_7 (k : Fin k0_t2_loop.trips) :
    (Scalar.addi (Scalar.addi 0#32 (Scalar.muli (Scf.iv 0#32 1#32 k) 8#32)) 7#32).toNat < 512 := by revert k; decide +kernel
theorem row3_lt_0 (k : Fin k0_t3_loop.trips) :
    (Scalar.addi (Scalar.addi 256#32 (Scalar.muli (Scf.iv 0#32 1#32 k) 8#32)) 0#32).toNat < 512 := by revert k; decide +kernel
theorem row3_lt_1 (k : Fin k0_t3_loop.trips) :
    (Scalar.addi (Scalar.addi 256#32 (Scalar.muli (Scf.iv 0#32 1#32 k) 8#32)) 1#32).toNat < 512 := by revert k; decide +kernel
theorem row3_lt_2 (k : Fin k0_t3_loop.trips) :
    (Scalar.addi (Scalar.addi 256#32 (Scalar.muli (Scf.iv 0#32 1#32 k) 8#32)) 2#32).toNat < 512 := by revert k; decide +kernel
theorem row3_lt_3 (k : Fin k0_t3_loop.trips) :
    (Scalar.addi (Scalar.addi 256#32 (Scalar.muli (Scf.iv 0#32 1#32 k) 8#32)) 3#32).toNat < 512 := by revert k; decide +kernel
theorem row3_lt_4 (k : Fin k0_t3_loop.trips) :
    (Scalar.addi (Scalar.addi 256#32 (Scalar.muli (Scf.iv 0#32 1#32 k) 8#32)) 4#32).toNat < 512 := by revert k; decide +kernel
theorem row3_lt_5 (k : Fin k0_t3_loop.trips) :
    (Scalar.addi (Scalar.addi 256#32 (Scalar.muli (Scf.iv 0#32 1#32 k) 8#32)) 5#32).toNat < 512 := by revert k; decide +kernel
theorem row3_lt_6 (k : Fin k0_t3_loop.trips) :
    (Scalar.addi (Scalar.addi 256#32 (Scalar.muli (Scf.iv 0#32 1#32 k) 8#32)) 6#32).toNat < 512 := by revert k; decide +kernel
theorem row3_lt_7 (k : Fin k0_t3_loop.trips) :
    (Scalar.addi (Scalar.addi 256#32 (Scalar.muli (Scf.iv 0#32 1#32 k) 8#32)) 7#32).toNat < 512 := by revert k; decide +kernel

/-- A broadcast word below 512 names an entry of the composed index list: the body of the checks before the row
    look-ups. -/
theorem chkB (w : BitVec 32) (h : w.toNat < 512) : ∀ a x, ((![broadcast S16 w] : Fin 1 → IVec S16 32) a x).toNat < S512.size a := by
  intro a x
  match a with
  | 0 => exact h

/-! ## The columns: lane number plus a multiple of 16, below 128 -/

theorem col_lt_0 : ∀ x : S16.Idx, ((addi v14 (broadcast S16 0#32)) x).toNat < 128 := by decide +kernel
theorem col_lt_16 : ∀ x : S16.Idx, ((addi v14 (broadcast S16 16#32)) x).toNat < 128 := by decide +kernel
theorem col_lt_32 : ∀ x : S16.Idx, ((addi v14 (broadcast S16 32#32)) x).toNat < 128 := by decide +kernel
theorem col_lt_48 : ∀ x : S16.Idx, ((addi v14 (broadcast S16 48#32)) x).toNat < 128 := by decide +kernel
theorem col_lt_64 : ∀ x : S16.Idx, ((addi v14 (broadcast S16 64#32)) x).toNat < 128 := by decide +kernel
theorem col_lt_80 : ∀ x : S16.Idx, ((addi v14 (broadcast S16 80#32)) x).toNat < 128 := by decide +kernel
theorem col_lt_96 : ∀ x : S16.Idx, ((addi v14 (broadcast S16 96#32)) x).toNat < 128 := by decide +kernel
theorem col_lt_112 : ∀ x : S16.Idx, ((k0_pay1 v14) x).toNat < 128 := by decide +kernel

/-! ## The looked-up words -/

/-- A pair of index vectors, the first below 100 and the second below 128, names elements of the delta table. -/
theorem pair_lt (v c : IVec S16 32) (hv : ∀ x, (v x).toNat < 100) (hc : ∀ x, (c x).toNat < 128) :
    ∀ a x, ((![v, c] : Fin 2 → IVec S16 32) a x).toNat < S100x128.size a := by
  intro a x
  match a with
  | 0 => exact hv x
  | 1 => exact hc x

/-- The eight facts a check before the delta look-ups states, over the eight column vectors. -/
theorem chkD_body (v : IVec S16 32) (hv : ∀ x, (v x).toNat < 100) :
    (∀ a x, ((![v, addi v14 (broadcast S16 0#32)] : Fin 2 → IVec S16 32) a x).toNat < S100x128.size a) ∧
    (∀ a x, ((![v, addi v14 (broadcast S16 16#32)] : Fin 2 → IVec S16 32) a x).toNat < S100x128.size a) ∧
    (∀ a x, ((![v, addi v14 (broadcast S16 32#32)] : Fin 2 → IVec S16 32) a x).toNat < S100x128.size a) ∧
    (∀ a x, ((![v, addi v14 (broadcast S16 48#32)] : Fin 2 → IVec S16 32) a x).toNat < S100x128.size a) ∧
    (∀ a x, ((![v, addi v14 (broadcast S16 64#32)] : Fin 2 → IVec S16 32) a x).toNat < S100x128.size a) ∧
    (∀ a x, ((![v, addi v14 (broadcast S16 80#32)] : Fin 2 → IVec S16 32) a x).toNat < S100x128.size a) ∧
    (∀ a x, ((![v, addi v14 (broadcast S16 96#32)] : Fin 2 → IVec S16 32) a x).toNat < S100x128.size a) ∧
    (∀ a x, ((![v, k0_pay1 v14] : Fin 2 → IVec S16 32) a x).toNat < S100x128.size a) :=
  ⟨pair_lt v _ hv col_lt_0, pair_lt v _ hv col_lt_16, pair_lt v _ hv col_lt_32, pair_lt v _ hv col_lt_48,
    pair_lt v _ hv col_lt_64, pair_lt v _ hv col_lt_80, pair_lt v _ hv col_lt_96, pair_lt v _ hv col_lt_112⟩

theorem chkD10 (v : IVec S16 32) (hv : ∀ x, (v x).toNat < 100) :
    k0_chk10 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD11 (v : IVec S16 32) (hv : ∀ x, (v x).toNat < 100) :
    k0_chk11 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD12 (v : IVec S16 32) (hv : ∀ x, (v x).toNat < 100) :
    k0_chk12 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD13 (v : IVec S16 32) (hv : ∀ x, (v x).toNat < 100) :
    k0_chk13 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD14 (v : IVec S16 32) (hv : ∀ x, (v x).toNat < 100) :
    k0_chk14 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD15 (v : IVec S16 32) (hv : ∀ x, (v x).toNat < 100) :
    k0_chk15 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD16 (v : IVec S16 32) (hv : ∀ x, (v x).toNat < 100) :
    k0_chk16 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD17 (v : IVec S16 32) (hv : ∀ x, (v x).toNat < 100) :
    k0_chk17 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD26 (v : IVec S16 32) (hv : ∀ x, (v x).toNat < 100) :
    k0_chk26 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD27 (v : IVec S16 32) (hv : ∀ x, (v x).toNat < 100) :
    k0_chk27 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD28 (v : IVec S16 32) (hv : ∀ x, (v x).toNat < 100) :
    k0_chk28 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD29 (v : IVec S16 32) (hv : ∀ x, (v x).toNat < 100) :
    k0_chk29 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD30 (v : IVec S16 32) (hv : ∀ x, (v x).toNat < 100) :
    k0_chk30 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD31 (v : IVec S16 32) (hv : ∀ x, (v x).toNat < 100) :
    k0_chk31 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD32 (v : IVec S16 32) (hv : ∀ x, (v x).toNat < 100) :
    k0_chk32 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD33 (v : IVec S16 32) (hv : ∀ x, (v x).toNat < 100) :
    k0_chk33 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv

/-- Words below 100 name entries of the index table: the check before the composing look-up. -/
theorem chk1_of (v : IVec S16 32) (hv : ∀ x, (v x).toNat < 100) : k0_chk1 v := by
  intro a x
  match a with
  | 0 => exact hv x

/-- The row checks at a broadcast, all sixteen by the one fact. -/
theorem chkB2 (w : BitVec 32) (h : w.toNat < 512) : k0_chk2 (broadcast S16 w) := chkB w h
theorem chkB3 (w : BitVec 32) (h : w.toNat < 512) : k0_chk3 (broadcast S16 w) := chkB w h
theorem chkB4 (w : BitVec 32) (h : w.toNat < 512) : k0_chk4 (broadcast S16 w) := chkB w h
theorem chkB5 (w : BitVec 32) (h : w.toNat < 512) : k0_chk5 (broadcast S16 w) := chkB w h
theorem chkB6 (w : BitVec 32) (h : w.toNat < 512) : k0_chk6 (broadcast S16 w) := chkB w h
theorem chkB7 (w : BitVec 32) (h : w.toNat < 512) : k0_chk7 (broadcast S16 w) := chkB w h
theorem chkB8 (w : BitVec 32) (h : w.toNat < 512) : k0_chk8 (broadcast S16 w) := chkB w h
theorem chkB9 (w : BitVec 32) (h : w.toNat < 512) : k0_chk9 (broadcast S16 w) := chkB w h
theorem chkB18 (w : BitVec 32) (h : w.toNat < 512) : k0_chk18 (broadcast S16 w) := chkB w h
theorem chkB19 (w : BitVec 32) (h : w.toNat < 512) : k0_chk19 (broadcast S16 w) := chkB w h
theorem chkB20 (w : BitVec 32) (h : w.toNat < 512) : k0_chk20 (broadcast S16 w) := chkB w h
theorem chkB21 (w : BitVec 32) (h : w.toNat < 512) : k0_chk21 (broadcast S16 w) := chkB w h
theorem chkB22 (w : BitVec 32) (h : w.toNat < 512) : k0_chk22 (broadcast S16 w) := chkB w h
theorem chkB23 (w : BitVec 32) (h : w.toNat < 512) : k0_chk23 (broadcast S16 w) := chkB w h
theorem chkB24 (w : BitVec 32) (h : w.toNat < 512) : k0_chk24 (broadcast S16 w) := chkB w h
theorem chkB25 (w : BitVec 32) (h : w.toNat < 512) : k0_chk25 (broadcast S16 w) := chkB w h

/-! ## The same words' values -/

theorem row2_val_0 (k : Fin k0_t2_loop.trips) :
    (Scalar.addi (Scalar.addi 0#32 (Scalar.muli (Scf.iv 0#32 1#32 k) 8#32)) 0#32).toNat = 8 * k.val + 0 := by revert k; decide +kernel
theorem row2_val_1 (k : Fin k0_t2_loop.trips) :
    (Scalar.addi (Scalar.addi 0#32 (Scalar.muli (Scf.iv 0#32 1#32 k) 8#32)) 1#32).toNat = 8 * k.val + 1 := by revert k; decide +kernel
theorem row2_val_2 (k : Fin k0_t2_loop.trips) :
    (Scalar.addi (Scalar.addi 0#32 (Scalar.muli (Scf.iv 0#32 1#32 k) 8#32)) 2#32).toNat = 8 * k.val + 2 := by revert k; decide +kernel
theorem row2_val_3 (k : Fin k0_t2_loop.trips) :
    (Scalar.addi (Scalar.addi 0#32 (Scalar.muli (Scf.iv 0#32 1#32 k) 8#32)) 3#32).toNat = 8 * k.val + 3 := by revert k; decide +kernel
theorem row2_val_4 (k : Fin k0_t2_loop.trips) :
    (Scalar.addi (Scalar.addi 0#32 (Scalar.muli (Scf.iv 0#32 1#32 k) 8#32)) 4#32).toNat = 8 * k.val + 4 := by revert k; decide +kernel
theorem row2_val_5 (k : Fin k0_t2_loop.trips) :
    (Scalar.addi (Scalar.addi 0#32 (Scalar.muli (Scf.iv 0#32 1#32 k) 8#32)) 5#32).toNat = 8 * k.val + 5 := by revert k; decide +kernel
theorem row2_val_6 (k : Fin k0_t2_loop.trips) :
    (Scalar.addi (Scalar.addi 0#32 (Scalar.muli (Scf.iv 0#32 1#32 k) 8#32)) 6#32).toNat = 8 * k.val + 6 := by revert k; decide +kernel
theorem row2_val_7 (k : Fin k0_t2_loop.trips) :
    (Scalar.addi (Scalar.addi 0#32 (Scalar.muli (Scf.iv 0#32 1#32 k) 8#32)) 7#32).toNat = 8 * k.val + 7 := by revert k; decide +kernel
theorem row3_val_0 (k : Fin k0_t3_loop.trips) :
    (Scalar.addi (Scalar.addi 256#32 (Scalar.muli (Scf.iv 0#32 1#32 k) 8#32)) 0#32).toNat = 256 + 8 * k.val + 0 := by revert k; decide +kernel
theorem row3_val_1 (k : Fin k0_t3_loop.trips) :
    (Scalar.addi (Scalar.addi 256#32 (Scalar.muli (Scf.iv 0#32 1#32 k) 8#32)) 1#32).toNat = 256 + 8 * k.val + 1 := by revert k; decide +kernel
theorem row3_val_2 (k : Fin k0_t3_loop.trips) :
    (Scalar.addi (Scalar.addi 256#32 (Scalar.muli (Scf.iv 0#32 1#32 k) 8#32)) 2#32).toNat = 256 + 8 * k.val + 2 := by revert k; decide +kernel
theorem row3_val_3 (k : Fin k0_t3_loop.trips) :
    (Scalar.addi (Scalar.addi 256#32 (Scalar.muli (Scf.iv 0#32 1#32 k) 8#32)) 3#32).toNat = 256 + 8 * k.val + 3 := by revert k; decide +kernel
theorem row3_val_4 (k : Fin k0_t3_loop.trips) :
    (Scalar.addi (Scalar.addi 256#32 (Scalar.muli (Scf.iv 0#32 1#32 k) 8#32)) 4#32).toNat = 256 + 8 * k.val + 4 := by revert k; decide +kernel
theorem row3_val_5 (k : Fin k0_t3_loop.trips) :
    (Scalar.addi (Scalar.addi 256#32 (Scalar.muli (Scf.iv 0#32 1#32 k) 8#32)) 5#32).toNat = 256 + 8 * k.val + 5 := by revert k; decide +kernel
theorem row3_val_6 (k : Fin k0_t3_loop.trips) :
    (Scalar.addi (Scalar.addi 256#32 (Scalar.muli (Scf.iv 0#32 1#32 k) 8#32)) 6#32).toNat = 256 + 8 * k.val + 6 := by revert k; decide +kernel
theorem row3_val_7 (k : Fin k0_t3_loop.trips) :
    (Scalar.addi (Scalar.addi 256#32 (Scalar.muli (Scf.iv 0#32 1#32 k) 8#32)) 7#32).toNat = 256 + 8 * k.val + 7 := by revert k; decide +kernel
theorem col_val_0 : ∀ x : S16.Idx, ((addi v14 (broadcast S16 0#32)) x).toNat = 0 + (x 0).val := by decide +kernel
theorem col_val_16 : ∀ x : S16.Idx, ((addi v14 (broadcast S16 16#32)) x).toNat = 16 + (x 0).val := by decide +kernel
theorem col_val_32 : ∀ x : S16.Idx, ((addi v14 (broadcast S16 32#32)) x).toNat = 32 + (x 0).val := by decide +kernel
theorem col_val_48 : ∀ x : S16.Idx, ((addi v14 (broadcast S16 48#32)) x).toNat = 48 + (x 0).val := by decide +kernel
theorem col_val_64 : ∀ x : S16.Idx, ((addi v14 (broadcast S16 64#32)) x).toNat = 64 + (x 0).val := by decide +kernel
theorem col_val_80 : ∀ x : S16.Idx, ((addi v14 (broadcast S16 80#32)) x).toNat = 80 + (x 0).val := by decide +kernel
theorem col_val_96 : ∀ x : S16.Idx, ((addi v14 (broadcast S16 96#32)) x).toNat = 96 + (x 0).val := by decide +kernel
theorem col_val_112 : ∀ x : S16.Idx, ((k0_pay1 v14) x).toNat = 112 + (x 0).val := by decide +kernel

/-- Each chunk's loop makes 32 trips. -/
theorem trips2 : k0_t2_loop.trips = 32 := by decide +kernel
theorem trips3 : k0_t3_loop.trips = 32 := by decide +kernel
theorem trips2' : Scf.trips k0_t2_loop.lb k0_t2_loop.ub k0_t2_loop.st = 32 := trips2
theorem trips3' : Scf.trips k0_t3_loop.lb k0_t3_loop.ub k0_t3_loop.st = 32 := trips3

end Cert.Kernel.Checks
-- ==== Proof.BodyFacts1Kernel.lean ====
/-
  Pure facts about one tile's task, for the proof of its body: what the fetched scratches hold, what a trip of the
  first loop (the composition of the two lookups) adds to its invariant, and the range facts the two indexed loads ask.

  The task's user indices are a slice of the launch array, so each is below 100 by the first range fact, and names an
  entry of the index table; that entry is below 100 by the second, and names a row of the delta table. A trip of the
  first loop reads sixteen user indices, looks each up in the index table, and stores the sixteen entries at the same
  sixteen places of the composed array: entries `[16 k, 16 k + 16)` then hold the composed lookup, and the entries
  below them are untouched.
-/
import proofs.«202775_g10411000725526_cont_sun_m_1212_8_alg».proof.Proof.BodyDefsKernel

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## The sixteen places a trip of the first loop reads and writes -/

/-- Place `x` of trip `k`'s sixteen, as an index of the 512. -/
def rowAt (k : Fin k0_t1_loop.trips) (x : S16.Idx) : S512.Idx := (Rect.unit (s := S512) (k0_off3 k) S16.size (k0_off3_inb k)).toLoadRect.idx x

theorem rowAt_val (k : Fin k0_t1_loop.trips) (x : S16.Idx) : ((rowAt k x) 0).val = 16 * k.val + (x 0).val := by
  unfold rowAt
  rw [LoadRect.idx_apply]
  show (k0_off3 k) 0 + 1 * (x 0).val = _
  rw [k0_off3_eq k]
  show 16 * k.val + 1 * (x 0).val = _
  omega

/-- The store's rectangle places `x` at the same index. -/
theorem emb4_eq (k : Fin k0_t1_loop.trips) (x : S16.Idx) : (Rect.unit (s := S512) (k0_off4 k) S16.size (k0_off4_inb k)).emb x = rowAt k x := by
  funext a
  obtain rfl : a = 0 := Subsingleton.elim _ _
  refine Fin.ext ?_
  rw [rowAt_val, Rect.emb_apply]
  show (k0_off4 k) 0 + 1 * (x 0).val = _
  rw [k0_off4_eq k]
  show 16 * k.val + 1 * (x 0).val = _
  omega

/-- What the load of the sixteen user indices reads, under the entry fact. -/
theorem row_read (a0 : B0 (F := F) d L) (h0 : Fact0 d L m a0) (k : Fin k0_t1_loop.trips) (x : S16.Idx) :
    (View.readAt (Elt F) (Memref.whole cc0_scratch0).view (Rect.unit (s := S512) (k0_off3 k) S16.size (k0_off3_inb k)).toLoadRect a0) x = m (uLoc d) ((uS L).view.emb (rowAt k x)) :=
  h0 (rowAt k x)

/-! ## (1) The sixteen user indices are below 100 -/

include hu in
theorem lt100_row (a0 : B0 (F := F) d L) (h0 : Fact0 d L m a0) (k : Fin k0_t1_loop.trips) :
    ∀ x, ((View.readAt (Elt F) (Memref.whole cc0_scratch0).view (Rect.unit (s := S512) (k0_off3 k) S16.size (k0_off3_inb k)).toLoadRect a0) x).toNat < 100 := by
  intro x
  rw [row_read d L m a0 h0 k x]
  exact hu d _

/-! ## (2) A trip of the first loop -/

theorem low1_step (a0 : B0 (F := F) d L) (a2 : B2 (F := F) d L) (f : B1 (F := F) d L) (h0 : Fact0 d L m a0) (h2 : Fact2 d L m a2)
    (k : Fin k0_t1_loop.trips) (hf : Low1 d L m hu k.val f)
    (h : ∀ a x, ((![View.readAt (Elt F) (Memref.whole cc0_scratch0).view (Rect.unit (s := S512) (k0_off3 k) S16.size (k0_off3_inb k)).toLoadRect a0] : Fin 1 → IVec S16 32) a x).toNat < S100.size a) :
    Low1 d L m hu (k.val + 1) ((Memref.whole cc0_scratch1).view.writes (Elt F) f [⟨(Rect.unit (s := S512) (k0_off4 k) S16.size (k0_off4_inb k)), loadIdx (View.readAt (Elt F) (Memref.whole cc0_scratch2).view (LoadRect.whole S100) a2) ![View.readAt (Elt F) (Memref.whole cc0_scratch0).view (Rect.unit (s := S512) (k0_off3 k) S16.size (k0_off3_inb k)).toLoadRect a0] h⟩]) := by
  intro p hp
  by_cases hlo : (p 0).val < 16 * k.val
  · -- below the trip's sixteen: no piece covers `p`
    have hnot : ∀ q ∈ ([⟨(Rect.unit (s := S512) (k0_off4 k) S16.size (k0_off4_inb k)), loadIdx (View.readAt (Elt F) (Memref.whole cc0_scratch2).view (LoadRect.whole S100) a2) ![View.readAt (Elt F) (Memref.whole cc0_scratch0).view (Rect.unit (s := S512) (k0_off3 k) S16.size (k0_off3_inb k)).toLoadRect a0] h⟩] : List (View.Piece (Elt F) S512 .i32)), p ∉ q.1.set := by
      intro q hq
      obtain rfl := List.mem_singleton.mp hq
      intro hmem
      have hmem' : p ∈ (Rect.unit (s := S512) (k0_off4 k) S16.size (k0_off4_inb k)).set := hmem
      have h00 := (Rect.mem_set_unit.mp hmem' 0).1
      rw [k0_off4_eq k] at h00
      have : 16 * k.val ≤ (p 0).val := h00
      omega
    exact (View.read_writes_apply_of_forall_not_mem (Memref.whole cc0_scratch1).view f p _ hnot).trans (hf p hlo)
  · -- one of the trip's sixteen
    have hx : (p 0).val - 16 * k.val < 16 := by omega
    obtain ⟨x, rfl⟩ : ∃ x : S16.Idx, rowAt k x = p := by
      refine ⟨ValueIdx.ix1 ⟨(p 0).val - 16 * k.val, hx⟩, ?_⟩
      funext a
      obtain rfl : a = 0 := Subsingleton.elim _ _
      refine Fin.ext ?_
      rw [rowAt_val]
      show 16 * k.val + ((p 0).val - 16 * k.val) = (p 0).val
      omega
    rw [← emb4_eq k x]
    refine (View.read_writes_cons_emb (Memref.whole cc0_scratch1).view f (Rect.unit (s := S512) (k0_off4 k) S16.size (k0_off4_inb k)) _ [] x).trans ?_
    show a2 ((LoadRect.whole S100).idx (idxAt ![View.readAt (Elt F) (Memref.whole cc0_scratch0).view (Rect.unit (s := S512) (k0_off3 k) S16.size (k0_off3_inb k)).toLoadRect a0] h x)) = _
    rw [h2, emb4_eq k x]
    unfold Tbl
    refine congrArg (m (tLoc d)) (funext fun a => ?_)
    obtain rfl : a = 0 := Subsingleton.elim _ _
    refine Fin.ext ?_
    rw [LoadRect.idx_apply]
    show 0 + 1 * ((View.readAt (Elt F) (Memref.whole cc0_scratch0).view (Rect.unit (s := S512) (k0_off3 k) S16.size (k0_off3_inb k)).toLoadRect a0) x).toNat = (m (uLoc d) ((uS L).view.emb (rowAt k x))).toNat
    rw [row_read d L m a0 h0 k x]
    omega

/-! ## (3) The first loop's invariant at its ends -/

theorem low1_zero (f : B1 (F := F) d L) : Low1 d L m hu 0 f := fun p hp => absurd hp (by omega)

theorem fact1_of_low1 (f : B1 (F := F) d L) (h : Low1 d L m hu (Scf.trips k0_t1_loop.lb k0_t1_loop.ub k0_t1_loop.st) f) :
    Fact1 d L m hu f := by
  intro p
  refine h p ?_
  have e : Scf.trips k0_t1_loop.lb k0_t1_loop.ub k0_t1_loop.st = 32 := by decide
  rw [e]
  have : (p 0).val < 512 := (p 0).isLt
  omega

/-! ## (4) The composed indices are below 100 -/

include ht in
theorem lt100_of_fact1 (b1 : B1 (F := F) d L) (h1 : Fact1 d L m hu b1) {t : Shape} (idxs : Fin 1 → IVec t 32)
    (h : ∀ a x, (idxs a x).toNat < S512.size a) :
    ∀ x, ((loadIdx (View.readAt (Elt F) (Memref.whole cc0_scratch1).view (LoadRect.whole S512) b1) idxs h) x).toNat < 100 := by
  intro x
  show (b1 ((LoadRect.whole S512).idx (idxAt idxs h x))).toNat < 100
  rw [h1]
  exact ht d _

/-! ## (5) The fetched scratches hold the launch arrays' entries -/

theorem fact0_entry (f0 : B0 (F := F) d L) :
    Fact0 d L m (View.write (Elt F) (Memref.whole cc0_scratch0).view f0 ((uS L).view.read (Elt F) (m (uLoc d))) Finset.univ) := by
  intro p
  rw [View.write_whole_univ]
  exact (View.read_apply _ _).trans (cast_eq _ _)

theorem fact2_entry (f2 : B2 (F := F) d L) :
    Fact2 d L m (View.write (Elt F) (Memref.whole cc0_scratch2).view f2 ((tM).view.read (Elt F) (m (tLoc d))) Finset.univ) := by
  intro p
  rw [View.write_whole_univ]
  exact (View.read_apply _ _).trans (cast_eq _ _)

theorem fact3_entry (f3 : B3 (F := F) d L) :
    Fact3 d L m (View.write (Elt F) (Memref.whole cc0_scratch3).view f3 ((dM).view.read (Elt F) (m (dLoc d))) Finset.univ) := by
  intro y
  rw [View.write_whole_univ]
  exact (View.read_apply _ _).trans (cast_eq _ _)

end Cert.Kernel.Body

end
-- ==== Proof.BodyFacts2Kernel.lean ====
/-
  Pure facts about one tile's task, continued: what the two fetched input chunks hold, what the specified result is at a
  cell of a chunk, and that a chunk's buffer, once its loop has run, written back through the chunk's slice of the
  result array leaves the specified result there.

  A task at grid position `L` owns rows `[1024 L₁ + 512 L₀, 1024 L₁ + 512 L₀ + 512)`, chunk `r` of it the 256 rows
  from `256 r` on: cell `(a, b)` of a chunk's slice of a `[16384, 128]` array is the array's cell
  `(1024 L₁ + 512 L₀ + 256 r + a, b)`, and entry `p` of the task's slice of the user indices is the array's entry
  `1024 L₁ + 512 L₀ + p`. The specified result at a row is the input there plus the delta table's row named by the
  index table's entry at that row's user index.
-/
import proofs.«202775_g10411000725526_cont_sun_m_1212_8_alg».proof.Proof.BodyDefsKernel
import proofs.«202775_g10411000725526_cont_sun_m_1212_8_alg».proof.Proof.BodyFacts1Kernel

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## The slices' cells in the whole arrays -/

/-- The first row of the task's chunk `r`. -/
abbrev chunkBase (L : grid0.Coords) (r : Fin 2) : Nat := 1024 * (L 1).val + 512 * (L 0).val + 256 * r.val

theorem chunkBase_lt (r : Fin 2) (y : S256x128.Idx) : chunkBase L r + (y 0).val < 16384 := by
  have h1 : (L 1).val < 16 := (L 1).isLt
  have h0 : (L 0).val < 2 := (L 0).isLt
  have hy : (y 0).val < 256 := (y 0).isLt
  have := r.isLt
  show 1024 * (L 1).val + 512 * (L 0).val + 256 * r.val + (y 0).val < 16384
  omega

/-- A 256-row block of a `[16384, 128]` array at rows from `base` on, all columns: its cell `(a, b)` is the array's
    `(base + a, b)`. -/
theorem emb_chunk (base : Nat) (off : Fin 2 → Nat) (inb : ∀ a, off a + S256x128.size a ≤ S16384x128.size a)
    (hoff : off = ![base, 0]) (y : S256x128.Idx) (hb : base + (y 0).val < 16384) :
    (Rect.unit (s := S16384x128) off S256x128.size inb).emb y = ValueIdx.ix2 ⟨base + (y 0).val, hb⟩ (y 1) := by
  subst hoff
  funext a
  refine Fin.ext ?_
  rw [Rect.emb_apply]
  match a with
  | ⟨0, _⟩ =>
    show base + 1 * (y 0).val = base + (y 0).val
    omega
  | ⟨1, _⟩ =>
    show 0 + 1 * (y 1).val = (y 1).val
    omega

/-- Entry `p` of the task's slice of the user indices is the array's entry `1024 L₁ + 512 L₀ + p`. -/
theorem emb_u (p : S512.Idx) (hb : 1024 * (L 1).val + 512 * (L 0).val + (p 0).val < 16384) :
    (uS L).view.emb p = ValueIdx.ix1 ⟨1024 * (L 1).val + 512 * (L 0).val + (p 0).val, hb⟩ := by
  have key : ∀ a : Fin 1, ((Rect.unit (s := S16384) (k0_off1 L) S512.size (k0_off1_inb L)).emb p a : Nat)
      = ((ValueIdx.ix1 ⟨1024 * (L 1).val + 512 * (L 0).val + (p 0).val, hb⟩ : S16384.Idx) a : Nat) := fun a => by
    obtain rfl : a = 0 := Subsingleton.elim _ _
    rw [Rect.emb_apply]
    show (k0_off1 L) 0 + 1 * (p 0).val = 1024 * (L 1).val + 512 * (L 0).val + (p 0).val
    rw [k0_off1_eq L]
    show 1024 * (L 1).val + 512 * (L 0).val + 1 * (p 0).val = _
    omega
  exact funext fun a => Fin.ext (key a)

/-! ## (6) The fetched input chunks -/

theorem in_entry4 (f4 : B4 (F := F) d L) :
    ∀ y, (View.write (Elt F) (Memref.whole cc0_scratch4).view f4 ((xS0 L).view.read (Elt F) (m (xLoc d))) Finset.univ) y = InAt d L m 0 y := by
  intro y
  rw [View.write_whole_univ]
  refine (View.read_apply _ _).trans ((cast_eq _ _).trans ?_)
  unfold InAt
  exact congrArg (m (xLoc d)) (emb_chunk (chunkBase L 0) _ _ (k0_off2_eq L 0) y (chunkBase_lt L 0 y))

theorem in_entry5 (f5 : B5 (F := F) d L) :
    ∀ y, (View.write (Elt F) (Memref.whole cc0_scratch5).view f5 ((xS1 L).view.read (Elt F) (m (xLoc d))) Finset.univ) y = InAt d L m 1 y := by
  intro y
  rw [View.write_whole_univ]
  refine (View.read_apply _ _).trans ((cast_eq _ _).trans ?_)
  unfold InAt
  exact congrArg (m (xLoc d)) (emb_chunk (chunkBase L 1) _ _ (k0_off2_eq L 1) y (chunkBase_lt L 1 y))

/-! ## (7) The specified result at a chunk's cell -/

theorem out_eq (r : Fin 2) (y : S256x128.Idx) (p : S512.Idx) (hp : (p 0).val = 256 * r.val + (y 0).val) :
    OutAt d L m hu ht r y
      = FloatOps.addf (InAt d L m r y) (m (dLoc d) (ValueIdx.ix2 ⟨(Tbl d L m hu p).toNat, ht d _⟩ (y 1))) := by
  have hN : chunkBase L r + (y 0).val < 16384 := chunkBase_lt L r y
  have hb : 1024 * (L 1).val + 512 * (L 0).val + (p 0).val < 16384 := by
    have : chunkBase L r + (y 0).val = 1024 * (L 1).val + 512 * (L 0).val + (p 0).val := by
      show 1024 * (L 1).val + 512 * (L 0).val + 256 * r.val + (y 0).val = _
      omega
    omega
  have hemb : (uS L).view.emb p = ValueIdx.ix1 (⟨chunkBase L r + (y 0).val, hN⟩ : Fin 16384) := by
    rw [emb_u L p hb]
    refine congrArg ValueIdx.ix1 (Fin.ext ?_)
    show 1024 * (L 1).val + 512 * (L 0).val + (p 0).val = 1024 * (L 1).val + 512 * (L 0).val + 256 * r.val + (y 0).val
    omega
  have hT : Tbl d L m hu p = Spec.setOf (m (uLoc d)) (m (tLoc d)) (hu d) ⟨chunkBase L r + (y 0).val, hN⟩ := by
    unfold Tbl Spec.setOf
    exact congrArg (m (tLoc d)) (congrArg ValueIdx.ix1 (Fin.ext (congrArg BitVec.toNat (congrArg (m (uLoc d)) hemb))))
  unfold OutAt InAt
  refine (Spec.outFn_apply (m (xLoc d)) (m (uLoc d)) (m (tLoc d)) (m (dLoc d)) (hu d) (ht d) ⟨chunkBase L r + (y 0).val, hN⟩ (y 1)).trans ?_
  refine congrArg (FloatOps.addf _) (congrArg (m (dLoc d)) (congrArg (fun a => ValueIdx.ix2 a (y 1)) (Fin.ext ?_)))
  exact congrArg BitVec.toNat hT.symm

/-! ## (8) The chunks written back -/

theorem out_block0 (fo0 : Buf (Elt F) (oLoc d)) (g4 : B4 (F := F) d L) (hg : Low2 d L m hu ht 0 32 g4) :
    ∀ i ∈ (oS0 L).view.set, ((oS0 L).view.write (Elt F) fo0 ((Memref.whole cc0_scratch4).view.read (Elt F) g4) Finset.univ) i = G m hu ht d i := by
  intro i hi
  obtain ⟨y, -, rfl⟩ := Finset.mem_map.mp (show i ∈ Finset.univ.map (oS0 L).view.emb from hi)
  rw [View.write_emb_of_mem _ _ (Finset.mem_univ y)]
  refine (cast_eq _ _).trans ?_
  have hy : (y 0).val < 8 * 32 := (y 0).isLt
  refine ((hg y).1 hy).trans ?_
  unfold OutAt
  exact congrArg (G m hu ht d) (emb_chunk (chunkBase L 0) _ _ (k0_off69_eq L 0) y (chunkBase_lt L 0 y)).symm

theorem out_block1 (fo1 : Buf (Elt F) (oLoc d)) (g5 : B5 (F := F) d L) (hg : Low3 d L m hu ht 32 g5) :
    ∀ i ∈ (oS1 L).view.set, ((oS1 L).view.write (Elt F) fo1 ((Memref.whole cc0_scratch5).view.read (Elt F) g5) Finset.univ) i = G m hu ht d i := by
  intro i hi
  obtain ⟨y, -, rfl⟩ := Finset.mem_map.mp (show i ∈ Finset.univ.map (oS1 L).view.emb from hi)
  rw [View.write_emb_of_mem _ _ (Finset.mem_univ y)]
  refine (cast_eq _ _).trans ?_
  have hy : (y 0).val < 8 * 32 := (y 0).isLt
  refine ((hg y).1 hy).trans ?_
  unfold OutAt
  exact congrArg (G m hu ht d) (emb_chunk (chunkBase L 1) _ _ (k0_off69_eq L 1) y (chunkBase_lt L 1 y)).symm

/-! ## (8′) The same with the chunk written back as one piece of a list of writes, the payload any term equal to the buffer -/

theorem out_block0' (fo0 : Buf (Elt F) (oLoc d)) (g4 : B4 (F := F) d L) (hg : Low2 d L m hu ht 0 32 g4)
    (w : (Rect.whole S256x128).shape.Idx → Elt F .f32) (hw : ∀ y, w y = g4 y) :
    ∀ i ∈ (oS0 L).view.set, ((oS0 L).view.writes (Elt F) fo0 [⟨Rect.whole S256x128, w⟩]) i = G m hu ht d i := by
  intro i hi
  obtain ⟨y, -, rfl⟩ := Finset.mem_map.mp (show i ∈ Finset.univ.map (oS0 L).view.emb from hi)
  have e : ((oS0 L).view.slice (Rect.whole S256x128)).emb y = (oS0 L).view.emb y :=
    congrArg (oS0 L).view.emb (Rect.emb_whole_apply S256x128 y)
  have key : ((oS0 L).view.writes (Elt F) fo0 [⟨Rect.whole S256x128, w⟩]) ((oS0 L).view.emb y) = w y := by
    rw [← e]
    exact (View.write_emb_of_mem (v := (oS0 L).view.slice (Rect.whole S256x128)) fo0 w (Finset.mem_univ y)).trans (cast_eq _ _)
  have hy : (y 0).val < 8 * 32 := (y 0).isLt
  refine key.trans ((hw y).trans (((hg y).1 hy).trans ?_))
  unfold OutAt
  exact congrArg (G m hu ht d) (emb_chunk (chunkBase L 0) _ _ (k0_off69_eq L 0) y (chunkBase_lt L 0 y)).symm

theorem out_block1' (fo1 : Buf (Elt F) (oLoc d)) (g5 : B5 (F := F) d L) (hg : Low3 d L m hu ht 32 g5)
    (w : (Rect.whole S256x128).shape.Idx → Elt F .f32) (hw : ∀ y, w y = g5 y) :
    ∀ i ∈ (oS1 L).view.set, ((oS1 L).view.writes (Elt F) fo1 [⟨Rect.whole S256x128, w⟩]) i = G m hu ht d i := by
  intro i hi
  obtain ⟨y, -, rfl⟩ := Finset.mem_map.mp (show i ∈ Finset.univ.map (oS1 L).view.emb from hi)
  have e : ((oS1 L).view.slice (Rect.whole S256x128)).emb y = (oS1 L).view.emb y :=
    congrArg (oS1 L).view.emb (Rect.emb_whole_apply S256x128 y)
  have key : ((oS1 L).view.writes (Elt F) fo1 [⟨Rect.whole S256x128, w⟩]) ((oS1 L).view.emb y) = w y := by
    rw [← e]
    exact (View.write_emb_of_mem (v := (oS1 L).view.slice (Rect.whole S256x128)) fo1 w (Finset.mem_univ y)).trans (cast_eq _ _)
  have hy : (y 0).val < 8 * 32 := (y 0).isLt
  refine key.trans ((hw y).trans (((hg y).1 hy).trans ?_))
  unfold OutAt
  exact congrArg (G m hu ht d) (emb_chunk (chunkBase L 1) _ _ (k0_off69_eq L 1) y (chunkBase_lt L 1 y)).symm

end Cert.Kernel.Body

end
-- ==== Proof.BandKernel.lean ====
/-
  One trip of a chunk's loop, as a fact about the chunk's buffer.

  A trip works on a band of eight rows `[lo, lo + 8)` of the 256 x 128 buffer, in 64 stores: store number `n` (in program
  order) writes row `lo + n / 8`, columns `[16 (n % 8), 16 (n % 8) + 16)` — cell `n` of the band, the cells numbered row by
  row, eight to a row. `Part lo n Out f g` says where the buffer stands after the first `n` stores: the first `n` cells
  of the band hold `Out`, everything else what it held before the trip (`f`). One store takes `Part … n` to
  `Part … (n + 1)` (`part_step4`, `part_step5`: an element under the store's rectangle reads the payload, any other is
  untouched); after all 64 the band holds `Out`, which moves a loop's invariant from `k` trips to `k + 1`
  (`low2_of_part`, `low3_of_part`).
-/
import proofs.«202775_g10411000725526_cont_sun_m_1212_8_alg».proof.Proof.BodyDefsKernel

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

/-! ## The band and its cells -/

/-- Row `y 0` lies in the band of eight rows from `lo`. -/
def inBand (lo : Nat) (y : S256x128.Idx) : Prop := lo ≤ (y 0).val ∧ (y 0).val < lo + 8
/-- The number of the cell of the band that `y` lies in: eight cells of sixteen columns to a row. -/
def cellOf (lo : Nat) (y : S256x128.Idx) : Nat := 8 * ((y 0).val - lo) + (y 1).val / 16

/-- After the first `n` stores of a trip: the first `n` cells of the band hold `Out`, everything else what it held. -/
def Part (lo n : Nat) (Out f g : S256x128.Idx → Elt F .f32) : Prop :=
  ∀ y, (inBand lo y ∧ cellOf lo y < n → g y = Out y) ∧ (¬ (inBand lo y ∧ cellOf lo y < n) → g y = f y)

theorem part_zero (lo : Nat) (Out f : S256x128.Idx → Elt F .f32) : Part lo 0 Out f f :=
  fun _ => ⟨fun h => absurd h.2 (Nat.not_lt_zero _), fun _ => rfl⟩

/-- The rectangle of store number `n` of the band is cell `n`. -/
theorem mem_cell (lo n : Nat) (hn : n < 64) (off : Fin 2 → Nat) (h0 : off 0 = lo + n / 8) (h1 : off 1 = 16 * (n % 8))
    (inb : ∀ a, off a + S1x16.size a ≤ S256x128.size a) (y : S256x128.Idx) :
    y ∈ (Rect.unit (s := S256x128) off S1x16.size inb).set ↔ (inBand lo y ∧ cellOf lo y = n) := by
  rw [Rect.mem_set_unit]
  have hy1 : (y 1).val < 128 := (y 1).isLt
  unfold inBand cellOf
  constructor
  · intro h
    have g0 : off 0 ≤ (y 0).val ∧ (y 0).val < off 0 + 1 := h 0
    have g1 : off 1 ≤ (y 1).val ∧ (y 1).val < off 1 + 16 := h 1
    rw [h0] at g0; rw [h1] at g1
    omega
  · rintro ⟨⟨hlo1, hlo2⟩, hc⟩ a
    match a with
    | 0 => rw [h0]; show _ ≤ (y 0).val ∧ (y 0).val < _ + 1; omega
    | 1 => rw [h1]; show _ ≤ (y 1).val ∧ (y 1).val < _ + 16; omega

/-- One store: from `n` cells done to `n + 1`, in the buffer of scratch 4. -/
theorem part_step4 (lo n : Nat) (hn : n < 64) (hlo : lo + 8 ≤ 256) (Out f g : B4 (F := F) d L) (off : Fin 2 → Nat)
    (h0 : off 0 = lo + n / 8) (h1 : off 1 = 16 * (n % 8)) (inb : ∀ a, off a + S1x16.size a ≤ S256x128.size a)
    (w : (Rect.unit (s := S256x128) off S1x16.size inb).shape.Idx → Elt F .f32)
    (hw : ∀ x, w x = Out ((Rect.unit (s := S256x128) off S1x16.size inb).emb x)) (hg : Part lo n Out f g) :
    Part lo (n + 1) Out f ((Memref.whole cc0_scratch4).view.writes (Elt F) g [⟨Rect.unit (s := S256x128) off S1x16.size inb, w⟩]) := by
  intro y
  have hmem := mem_cell lo n hn off h0 h1 inb y
  by_cases hy : y ∈ (Rect.unit (s := S256x128) off S1x16.size inb).set
  · have hc := hmem.mp hy
    obtain ⟨x, hx⟩ : ∃ x, (Rect.unit (s := S256x128) off S1x16.size inb).emb x = y :=
      (Rect.unit (s := S256x128) off S1x16.size inb).exists_idx_of_mem hy
    have e : ((Memref.whole cc0_scratch4).view.writes (Elt F) g [⟨Rect.unit (s := S256x128) off S1x16.size inb, w⟩]) y = Out y := by
      rw [← hx, ← hw x]
      exact View.read_writes_cons_emb (Memref.whole cc0_scratch4).view g (Rect.unit (s := S256x128) off S1x16.size inb) w [] x
    exact ⟨fun _ => e, fun hneg => absurd ⟨hc.1, by omega⟩ hneg⟩
  · have e : ((Memref.whole cc0_scratch4).view.writes (Elt F) g [⟨Rect.unit (s := S256x128) off S1x16.size inb, w⟩]) y = g y :=
      View.read_writes_apply_of_forall_not_mem (Memref.whole cc0_scratch4).view g y [⟨Rect.unit (s := S256x128) off S1x16.size inb, w⟩]
        (fun p hp => by rw [List.mem_singleton] at hp; subst hp; exact hy)
    have hne : inBand lo y → cellOf lo y ≠ n := fun hb hcn => hy (hmem.mpr ⟨hb, hcn⟩)
    constructor
    · rintro ⟨hb, hc⟩
      rw [e]; exact (hg y).1 ⟨hb, by have := hne hb; omega⟩
    · intro hneg
      rw [e]; exact (hg y).2 fun ⟨hb, hc⟩ => hneg ⟨hb, by omega⟩

/-- One store: from `n` cells done to `n + 1`, in the buffer of scratch 5. -/
theorem part_step5 (lo n : Nat) (hn : n < 64) (hlo : lo + 8 ≤ 256) (Out f g : B5 (F := F) d L) (off : Fin 2 → Nat)
    (h0 : off 0 = lo + n / 8) (h1 : off 1 = 16 * (n % 8)) (inb : ∀ a, off a + S1x16.size a ≤ S256x128.size a)
    (w : (Rect.unit (s := S256x128) off S1x16.size inb).shape.Idx → Elt F .f32)
    (hw : ∀ x, w x = Out ((Rect.unit (s := S256x128) off S1x16.size inb).emb x)) (hg : Part lo n Out f g) :
    Part lo (n + 1) Out f ((Memref.whole cc0_scratch5).view.writes (Elt F) g [⟨Rect.unit (s := S256x128) off S1x16.size inb, w⟩]) := by
  intro y
  have hmem := mem_cell lo n hn off h0 h1 inb y
  by_cases hy : y ∈ (Rect.unit (s := S256x128) off S1x16.size inb).set
  · have hc := hmem.mp hy
    obtain ⟨x, hx⟩ : ∃ x, (Rect.unit (s := S256x128) off S1x16.size inb).emb x = y :=
      (Rect.unit (s := S256x128) off S1x16.size inb).exists_idx_of_mem hy
    have e : ((Memref.whole cc0_scratch5).view.writes (Elt F) g [⟨Rect.unit (s := S256x128) off S1x16.size inb, w⟩]) y = Out y := by
      rw [← hx, ← hw x]
      exact View.read_writes_cons_emb (Memref.whole cc0_scratch5).view g (Rect.unit (s := S256x128) off S1x16.size inb) w [] x
    exact ⟨fun _ => e, fun hneg => absurd ⟨hc.1, by omega⟩ hneg⟩
  · have e : ((Memref.whole cc0_scratch5).view.writes (Elt F) g [⟨Rect.unit (s := S256x128) off S1x16.size inb, w⟩]) y = g y :=
      View.read_writes_apply_of_forall_not_mem (Memref.whole cc0_scratch5).view g y [⟨Rect.unit (s := S256x128) off S1x16.size inb, w⟩]
        (fun p hp => by rw [List.mem_singleton] at hp; subst hp; exact hy)
    have hne : inBand lo y → cellOf lo y ≠ n := fun hb hcn => hy (hmem.mpr ⟨hb, hcn⟩)
    constructor
    · rintro ⟨hb, hc⟩
      rw [e]; exact (hg y).1 ⟨hb, by have := hne hb; omega⟩
    · intro hneg
      rw [e]; exact (hg y).2 fun ⟨hb, hc⟩ => hneg ⟨hb, by omega⟩

/-! ## A whole trip moves the loop's invariant on -/

variable [FloatOps F] (m : (ℓ : Loc nD τ sig) → Buf (Elt F) ℓ) (hu : ∀ d, Spec.UOk (m (uLoc d))) (ht : ∀ d, Spec.TOk (m (tLoc d)))

/-- The band of trip `k` has 64 cells: an element of it lies in one of them. -/
theorem cellOf_lt (k : Nat) (y : S256x128.Idx) (h : inBand (8 * k) y) : cellOf (8 * k) y < 64 := by
  have hy1 : (y 1).val < 128 := (y 1).isLt
  unfold inBand at h; unfold cellOf; omega

theorem low2_of_part (r : Fin 2) (k : Nat) (hk : 8 * k + 8 ≤ 256) (f g : B4 (F := F) d L) (hf : Low2 d L m hu ht r k f)
    (hg : Part (8 * k) 64 (OutAt d L m hu ht r) f g) : Low2 d L m hu ht r (k + 1) g := by
  intro y
  by_cases hb : inBand (8 * k) y
  · have e := (hg y).1 ⟨hb, cellOf_lt k y hb⟩
    unfold inBand at hb
    exact ⟨fun _ => e, fun h => by omega⟩
  · have e := (hg y).2 fun h => hb h.1
    unfold inBand at hb
    exact ⟨fun h => e.trans ((hf y).1 (by omega)), fun h => e.trans ((hf y).2 (by omega))⟩

theorem low3_of_part (k : Nat) (hk : 8 * k + 8 ≤ 256) (f g : B5 (F := F) d L) (hf : Low3 d L m hu ht k f)
    (hg : Part (8 * k) 64 (OutAt d L m hu ht 1) f g) : Low3 d L m hu ht (k + 1) g := by
  intro y
  by_cases hb : inBand (8 * k) y
  · have e := (hg y).1 ⟨hb, cellOf_lt k y hb⟩
    unfold inBand at hb
    exact ⟨fun _ => e, fun h => by omega⟩
  · have e := (hg y).2 fun h => hb h.1
    unfold inBand at hb
    exact ⟨fun h => e.trans ((hf y).1 (by omega)), fun h => e.trans ((hf y).2 (by omega))⟩

/-- At a loop's entry the buffer holds the input chunk: no row done. -/
theorem low2_zero (r : Fin 2) (f : B4 (F := F) d L) (hf : ∀ y, f y = InAt d L m r y) : Low2 d L m hu ht r 0 f :=
  fun y => ⟨fun h => absurd h (by omega), fun _ => hf y⟩
theorem low3_zero (f : B5 (F := F) d L) (hf : ∀ y, f y = InAt d L m 1 y) : Low3 d L m hu ht 0 f :=
  fun y => ⟨fun h => absurd h (by omega), fun _ => hf y⟩

end Cert.Kernel.Body

end
-- ==== Proof.BodyFacts3Kernel.lean ====
/-
  The one fact a trip of a chunk's loop turns on: what each of its 64 stores writes is the specified result at the cells it
  writes.

  A trip handles eight rows of the chunk, each in eight stores of sixteen lanes. A store reads sixteen cells of the
  chunk's buffer — which still hold the input there, since this trip is the first to write the row —, looks up the
  row's delta-set in the composed index array (every lane the same row), gathers sixteen cells of that row of the delta
  table at the store's own columns, and writes the sum back to the same sixteen cells. Lane `i` of store `n` of trip
  `k` is cell `(8 k + n / 8, 16 (n mod 8) + i)` of the chunk; the sum there is the input plus the delta table's entry at
  the row's delta-set and that column, which is the specified result.
-/
import proofs.«202775_g10411000725526_cont_sun_m_1212_8_alg».proof.Proof.BodyDefsKernel
import proofs.«202775_g10411000725526_cont_sun_m_1212_8_alg».proof.Proof.BodyFacts1Kernel
import proofs.«202775_g10411000725526_cont_sun_m_1212_8_alg».proof.Proof.BodyFacts2Kernel
import Idealize.ShloMosaic.Lib.ValueLayout

noncomputable section

namespace Cert.Kernel.Body

open Cert.Kernel Cert.Kernel.Gen Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## A store of the first chunk's loop -/

theorem pay_ok4 (b1 : B1 (F := F) d L) (b3 : B3 (F := F) d L) (h1 : Fact1 d L m hu b1) (h3 : Fact3 d L m b3)
    (k : Fin k0_t2_loop.trips) (f : B4 (F := F) d L) (hf : Low2 d L m hu ht 0 k.val f) (n : Nat) (hn : n < 64)
    (off : Fin 2 → Nat) (h0 : off 0 = 8 * k.val + n / 8) (h1' : off 1 = 16 * (n % 8))
    (inb : ∀ a, off a + S1x16.size a ≤ S256x128.size a) (W : BitVec 32) (hW : W.toNat = 8 * k.val + n / 8)
    (col : IVec S16 32) (hcol : ∀ x : S16.Idx, (col x).toNat = 16 * (n % 8) + (x 0).val)
    (hi1 : ∀ a x, ((![broadcast S16 W] : Fin 1 → IVec S16 32) a x).toNat < S512.size a)
    (hi2 : ∀ a x, ((![loadIdx (View.readAt (Elt F) (Memref.whole cc0_scratch1).view (LoadRect.whole S512) b1) ![broadcast S16 W] hi1, col] : Fin 2 → IVec S16 32) a x).toNat < S100x128.size a) :
    ∀ x, (shapeCast S1x16 (addf (shapeCast S16 (View.readAt (Elt F) (Memref.whole cc0_scratch4).view (Rect.unit (s := S256x128) off S1x16.size inb).toLoadRect f) shapeCasts_S1x16_S16) (loadIdx (View.readAt (Elt F) (Memref.whole cc0_scratch3).view (LoadRect.whole S100x128) b3) ![loadIdx (View.readAt (Elt F) (Memref.whole cc0_scratch1).view (LoadRect.whole S512) b1) ![broadcast S16 W] hi1, col] hi2)) shapeCasts_S16_S1x16) x
      = OutAt d L m hu ht 0 ((Rect.unit (s := S256x128) off S1x16.size inb).emb x) := by
  intro x
  obtain ⟨u, i, rfl⟩ : ∃ (u : Fin 1) (i : Fin 16), x = ValueIdx.ix2 u i := ⟨(x 0 : Fin 1), (x 1 : Fin 16), ValueIdx.eq_ix2 x⟩
  have hu0 : u.val = 0 := by omega
  -- the cell of the chunk's buffer this lane of the store names
  have hy0 : (((Rect.unit (s := S256x128) off S1x16.size inb).emb (ValueIdx.ix2 u i)) 0).val = 8 * k.val + n / 8 := by
    rw [Rect.emb_apply]
    show off 0 + 1 * u.val = _
    rw [h0, hu0]
    omega
  have hy1 : (((Rect.unit (s := S256x128) off S1x16.size inb).emb (ValueIdx.ix2 u i)) 1).val = 16 * (n % 8) + i.val := by
    rw [Rect.emb_apply]
    show off 1 + 1 * i.val = _
    rw [h1']
    omega
  -- the load of the trip's buffer at the store's own rectangle reads that cell: still the input there
  have hload : (shapeCast S16 (View.readAt (Elt F) (Memref.whole cc0_scratch4).view (Rect.unit (s := S256x128) off S1x16.size inb).toLoadRect f) shapeCasts_S1x16_S16) (ValueIdx.ix1 i) = InAt d L m 0 ((Rect.unit (s := S256x128) off S1x16.size inb).emb (ValueIdx.ix2 u i)) := by
    rw [ValueIdx.shapeCast_1a_a_apply]
    show f ((Rect.unit (s := S256x128) off S1x16.size inb).toLoadRect.idx (ValueIdx.ix2 (0 : Fin 1) i)) = _
    have hidx : (Rect.unit (s := S256x128) off S1x16.size inb).toLoadRect.idx (ValueIdx.ix2 (0 : Fin 1) i) = (Rect.unit (s := S256x128) off S1x16.size inb).emb (ValueIdx.ix2 u i) := by
      funext a
      refine Fin.ext ?_
      rw [LoadRect.idx_apply, Rect.emb_apply]
      match a with
      | ⟨0, _⟩ =>
        show off 0 + 1 * 0 = off 0 + 1 * u.val
        rw [hu0]
      | ⟨1, _⟩ => rfl
    rw [hidx]
    exact (hf _).2 (by rw [hy0]; omega)
  -- the row of the task's 512 the first gather names, and what it reads there
  have hp0 : (((LoadRect.whole S512).idx (idxAt (![broadcast S16 W] : Fin 1 → IVec S16 32) hi1 (ValueIdx.ix1 i))) 0).val = 8 * k.val + n / 8 := by
    rw [LoadRect.idx_apply]
    show 0 + 1 * W.toNat = _
    rw [hW]
    omega
  have hdv : (loadIdx (View.readAt (Elt F) (Memref.whole cc0_scratch1).view (LoadRect.whole S512) b1) ![broadcast S16 W] hi1) (ValueIdx.ix1 i)
      = Tbl d L m hu ((LoadRect.whole S512).idx (idxAt (![broadcast S16 W] : Fin 1 → IVec S16 32) hi1 (ValueIdx.ix1 i))) :=
    h1 _
  -- the second gather reads the delta table's row named by that entry, at the cell's column
  have hgather : (loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)
      = m (dLoc d) (ValueIdx.ix2 ⟨(Tbl d L m hu ((LoadRect.whole S512).idx (idxAt (![broadcast S16 W] : Fin 1 → IVec S16 32) hi1 (ValueIdx.ix1 i)))).toNat, ht d _⟩
          (((Rect.unit (s := S256x128) off S1x16.size inb).emb (ValueIdx.ix2 u i)) 1)) := by
    show b3 ((LoadRect.whole S100x128).idx (idxAt (![loadIdx (View.readAt (Elt F) (Memref.whole cc0_scratch1).view (LoadRect.whole S512) b1) ![broadcast S16 W] hi1, col] : Fin 2 → IVec S16 32) hi2 (ValueIdx.ix1 i))) = _
    rw [h3]
    refine congrArg (m (dLoc d)) (funext fun a => Fin.ext ?_)
    rw [LoadRect.idx_apply]
    match a with
    | ⟨0, _⟩ =>
      show 0 + 1 * ((loadIdx (View.readAt (Elt F) (Memref.whole cc0_scratch1).view (LoadRect.whole S512) b1) ![broadcast S16 W] hi1) (ValueIdx.ix1 i)).toNat = (Tbl d L m hu _).toNat
      rw [hdv]
      omega
    | ⟨1, _⟩ =>
      show 0 + 1 * (col (ValueIdx.ix1 i)).toNat = (((Rect.unit (s := S256x128) off S1x16.size inb).emb (ValueIdx.ix2 u i)) 1).val
      rw [hcol, hy1]
      show 0 + 1 * (16 * (n % 8) + i.val) = _
      omega
  rw [ValueIdx.shapeCast_a_1a_apply]
  show FloatOps.addf ((shapeCast S16 (View.readAt (Elt F) (Memref.whole cc0_scratch4).view (Rect.unit (s := S256x128) off S1x16.size inb).toLoadRect f) shapeCasts_S1x16_S16) (ValueIdx.ix1 i)) ((loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)) = _
  rw [hload, hgather]
  exact (out_eq d L m hu ht 0 ((Rect.unit (s := S256x128) off S1x16.size inb).emb (ValueIdx.ix2 u i)) _ (by rw [hp0, hy0]; show _ = 256 * 0 + _; omega)).symm

/-! ## A store of the second chunk's loop

The same store over the second chunk: its rows are the task's rows from 256 on, so the row the lookup names is
`256 + 8 k + n / 8` of the task's 512. -/

theorem pay_ok5 (b1 : B1 (F := F) d L) (b3 : B3 (F := F) d L) (h1 : Fact1 d L m hu b1) (h3 : Fact3 d L m b3)
    (k : Fin k0_t3_loop.trips) (f : B5 (F := F) d L) (hf : Low3 d L m hu ht k.val f) (n : Nat) (hn : n < 64)
    (off : Fin 2 → Nat) (h0 : off 0 = 8 * k.val + n / 8) (h1' : off 1 = 16 * (n % 8))
    (inb : ∀ a, off a + S1x16.size a ≤ S256x128.size a) (W : BitVec 32) (hW : W.toNat = 256 + 8 * k.val + n / 8)
    (col : IVec S16 32) (hcol : ∀ x : S16.Idx, (col x).toNat = 16 * (n % 8) + (x 0).val)
    (hi1 : ∀ a x, ((![broadcast S16 W] : Fin 1 → IVec S16 32) a x).toNat < S512.size a)
    (hi2 : ∀ a x, ((![loadIdx (View.readAt (Elt F) (Memref.whole cc0_scratch1).view (LoadRect.whole S512) b1) ![broadcast S16 W] hi1, col] : Fin 2 → IVec S16 32) a x).toNat < S100x128.size a) :
    ∀ x, (shapeCast S1x16 (addf (shapeCast S16 (View.readAt (Elt F) (Memref.whole cc0_scratch5).view (Rect.unit (s := S256x128) off S1x16.size inb).toLoadRect f) shapeCasts_S1x16_S16) (loadIdx (View.readAt (Elt F) (Memref.whole cc0_scratch3).view (LoadRect.whole S100x128) b3) ![loadIdx (View.readAt (Elt F) (Memref.whole cc0_scratch1).view (LoadRect.whole S512) b1) ![broadcast S16 W] hi1, col] hi2)) shapeCasts_S16_S1x16) x
      = OutAt d L m hu ht 1 ((Rect.unit (s := S256x128) off S1x16.size inb).emb x) := by
  intro x
  obtain ⟨u, i, rfl⟩ : ∃ (u : Fin 1) (i : Fin 16), x = ValueIdx.ix2 u i := ⟨(x 0 : Fin 1), (x 1 : Fin 16), ValueIdx.eq_ix2 x⟩
  have hu0 : u.val = 0 := by omega
  -- the cell of the chunk's buffer this lane of the store names
  have hy0 : (((Rect.unit (s := S256x128) off S1x16.size inb).emb (ValueIdx.ix2 u i)) 0).val = 8 * k.val + n / 8 := by
    rw [Rect.emb_apply]
    show off 0 + 1 * u.val = _
    rw [h0, hu0]
    omega
  have hy1 : (((Rect.unit (s := S256x128) off S1x16.size inb).emb (ValueIdx.ix2 u i)) 1).val = 16 * (n % 8) + i.val := by
    rw [Rect.emb_apply]
    show off 1 + 1 * i.val = _
    rw [h1']
    omega
  -- the load of the trip's buffer at the store's own rectangle reads that cell: still the input there
  have hload : (shapeCast S16 (View.readAt (Elt F) (Memref.whole cc0_scratch5).view (Rect.unit (s := S256x128) off S1x16.size inb).toLoadRect f) shapeCasts_S1x16_S16) (ValueIdx.ix1 i) = InAt d L m 1 ((Rect.unit (s := S256x128) off S1x16.size inb).emb (ValueIdx.ix2 u i)) := by
    rw [ValueIdx.shapeCast_1a_a_apply]
    show f ((Rect.unit (s := S256x128) off S1x16.size inb).toLoadRect.idx (ValueIdx.ix2 (0 : Fin 1) i)) = _
    have hidx : (Rect.unit (s := S256x128) off S1x16.size inb).toLoadRect.idx (ValueIdx.ix2 (0 : Fin 1) i) = (Rect.unit (s := S256x128) off S1x16.size inb).emb (ValueIdx.ix2 u i) := by
      funext a
      refine Fin.ext ?_
      rw [LoadRect.idx_apply, Rect.emb_apply]
      match a with
      | ⟨0, _⟩ =>
        show off 0 + 1 * 0 = off 0 + 1 * u.val
        rw [hu0]
      | ⟨1, _⟩ => rfl
    rw [hidx]
    exact (hf _).2 (by rw [hy0]; omega)
  -- the row of the task's 512 the first gather names, and what it reads there
  have hp0 : (((LoadRect.whole S512).idx (idxAt (![broadcast S16 W] : Fin 1 → IVec S16 32) hi1 (ValueIdx.ix1 i))) 0).val = 256 + 8 * k.val + n / 8 := by
    rw [LoadRect.idx_apply]
    show 0 + 1 * W.toNat = _
    rw [hW]
    omega
  have hdv : (loadIdx (View.readAt (Elt F) (Memref.whole cc0_scratch1).view (LoadRect.whole S512) b1) ![broadcast S16 W] hi1) (ValueIdx.ix1 i)
      = Tbl d L m hu ((LoadRect.whole S512).idx (idxAt (![broadcast S16 W] : Fin 1 → IVec S16 32) hi1 (ValueIdx.ix1 i))) :=
    h1 _
  -- the second gather reads the delta table's row named by that entry, at the cell's column
  have hgather : (loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)
      = m (dLoc d) (ValueIdx.ix2 ⟨(Tbl d L m hu ((LoadRect.whole S512).idx (idxAt (![broadcast S16 W] : Fin 1 → IVec S16 32) hi1 (ValueIdx.ix1 i)))).toNat, ht d _⟩
          (((Rect.unit (s := S256x128) off S1x16.size inb).emb (ValueIdx.ix2 u i)) 1)) := by
    show b3 ((LoadRect.whole S100x128).idx (idxAt (![loadIdx (View.readAt (Elt F) (Memref.whole cc0_scratch1).view (LoadRect.whole S512) b1) ![broadcast S16 W] hi1, col] : Fin 2 → IVec S16 32) hi2 (ValueIdx.ix1 i))) = _
    rw [h3]
    refine congrArg (m (dLoc d)) (funext fun a => Fin.ext ?_)
    rw [LoadRect.idx_apply]
    match a with
    | ⟨0, _⟩ =>
      show 0 + 1 * ((loadIdx (View.readAt (Elt F) (Memref.whole cc0_scratch1).view (LoadRect.whole S512) b1) ![broadcast S16 W] hi1) (ValueIdx.ix1 i)).toNat = (Tbl d L m hu _).toNat
      rw [hdv]
      omega
    | ⟨1, _⟩ =>
      show 0 + 1 * (col (ValueIdx.ix1 i)).toNat = (((Rect.unit (s := S256x128) off S1x16.size inb).emb (ValueIdx.ix2 u i)) 1).val
      rw [hcol, hy1]
      show 0 + 1 * (16 * (n % 8) + i.val) = _
      omega
  rw [ValueIdx.shapeCast_a_1a_apply]
  show FloatOps.addf ((shapeCast S16 (View.readAt (Elt F) (Memref.whole cc0_scratch5).view (Rect.unit (s := S256x128) off S1x16.size inb).toLoadRect f) shapeCasts_S1x16_S16) (ValueIdx.ix1 i)) ((loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)) = _
  rw [hload, hgather]
  exact (out_eq d L m hu ht 1 ((Rect.unit (s := S256x128) off S1x16.size inb).emb (ValueIdx.ix2 u i)) _ (by rw [hp0, hy0]; show _ = 256 * 1 + _; omega)).symm

end Cert.Kernel.Body

end
-- ==== Proof.BodyKernel.lean ====
/-
  One tile's task, run once at a symbolic grid position: from the task's operands (its two input chunks and its slice
  of the user indices, a read share of the two tables, its two result chunks) to the same with the result chunks
  holding the specified function.

  The run follows the program: five fetches are issued; once the user indices and the index table have landed, the
  first loop composes the two lookups sixteen rows a trip; once the delta table and a chunk have landed, that chunk's
  loop adds to each of its rows the delta row its delta-set names, eight rows a trip, and the chunk is written out;
  the two write-outs are waited for. Each loop goes by an invariant; a trip's 64 stores are the next 64 cells of an
  eight-row band, each holding input plus delta row on its sixteen columns.
-/
import proofs.«202775_g10411000725526_cont_sun_m_1212_8_alg».proof.Proof.BodyDefsKernel
import proofs.«202775_g10411000725526_cont_sun_m_1212_8_alg».proof.Proof.SkeletonKernelP
import proofs.«202775_g10411000725526_cont_sun_m_1212_8_alg».proof.Proof.ChecksKernel
import proofs.«202775_g10411000725526_cont_sun_m_1212_8_alg».proof.Proof.BodyFacts1Kernel
import proofs.«202775_g10411000725526_cont_sun_m_1212_8_alg».proof.Proof.BodyFacts2Kernel
import proofs.«202775_g10411000725526_cont_sun_m_1212_8_alg».proof.Proof.BandKernel
import proofs.«202775_g10411000725526_cont_sun_m_1212_8_alg».proof.Proof.BodyFacts3Kernel

noncomputable section

namespace Cert.Kernel.Body

open Cert.Kernel Cert.Kernel.Gen Cert.Kernel.GenP Cert.Kernel.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable (d : Dev nD) (L : grid0.Coords) [FloatOps F] (m : (ℓ : Loc nD τ sig) → Buf (Elt F) ℓ) (hu : ∀ d, Spec.UOk (m (uLoc d))) (ht : ∀ d, Spec.TOk (m (tLoc d)))

theorem part_cons4 (lo n : Nat) (hn : n < 64) (hlo : lo + 8 ≤ 256) (Out f : B4 (F := F) d L) (off : Fin 2 → Nat) (h0 : off 0 = lo + n / 8) (h1 : off 1 = 16 * (n % 8)) (inb : ∀ a, off a + S1x16.size a ≤ S256x128.size a) (w : (Rect.unit (s := S256x128) off S1x16.size inb).shape.Idx → Elt F .f32) (hw : ∀ x, w x = Out ((Rect.unit (s := S256x128) off S1x16.size inb).emb x)) (Lp : List (View.Piece (Elt F) S256x128 .f32)) (hg : Part lo n Out f ((Memref.whole cc0_scratch4).view.writes (Elt F) f Lp)) : Part lo (n + 1) Out f ((Memref.whole cc0_scratch4).view.writes (Elt F) f (⟨Rect.unit (s := S256x128) off S1x16.size inb, w⟩ :: Lp)) :=
  part_step4 d L lo n hn hlo Out f _ off h0 h1 inb w hw hg
theorem part_cons5 (lo n : Nat) (hn : n < 64) (hlo : lo + 8 ≤ 256) (Out f : B5 (F := F) d L) (off : Fin 2 → Nat) (h0 : off 0 = lo + n / 8) (h1 : off 1 = 16 * (n % 8)) (inb : ∀ a, off a + S1x16.size a ≤ S256x128.size a) (w : (Rect.unit (s := S256x128) off S1x16.size inb).shape.Idx → Elt F .f32) (hw : ∀ x, w x = Out ((Rect.unit (s := S256x128) off S1x16.size inb).emb x)) (Lp : List (View.Piece (Elt F) S256x128 .f32)) (hg : Part lo n Out f ((Memref.whole cc0_scratch5).view.writes (Elt F) f Lp)) : Part lo (n + 1) Out f ((Memref.whole cc0_scratch5).view.writes (Elt F) f (⟨Rect.unit (s := S256x128) off S1x16.size inb, w⟩ :: Lp)) :=
  part_step5 d L lo n hn hlo Out f _ off h0 h1 inb w hw hg

set_option maxHeartbeats 0 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ tileGo m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xM (Memref.isWhole_whole _) uM (Memref.isWhole_whole _) tM (Memref.isWhole_whole _) dM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12)
          fun _ => iprop(tileTd m hu ht d L q ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨⟨Hx0, Hx1, Hu, Ht, Hd⟩, ⟨%fo0, Ho0⟩, ⟨%fo1, Ho1⟩⟩,
    ⟨⟨%f0, Hs0⟩, ⟨%f1, Hs1⟩, ⟨%f2, Hs2⟩, ⟨%f3, Hs3⟩, ⟨%f4, Hs4⟩, ⟨%f5, Hs5⟩, Hbufs⟩, ⟨Hc6, Hc7, Hc8, Hc9, Hc10, Hc11, Hc12, Hsems⟩, HO⟩
  ihave Hmw := ((K (F := F)).mayWaits_none (thr := V d (cV L) (jV L)) hO) $$ Hlv
  ihave Hx0 := (Entails.of_eq (pts_x0 (F := F) d L _).symm) $$ Hx0
  ihave Hx1 := (Entails.of_eq (pts_x1 (F := F) d L _).symm) $$ Hx1
  ihave Hu := (Entails.of_eq (pts_u (F := F) d L _).symm) $$ Hu
  ihave Ho0 := (Entails.of_eq (pts_o0 (F := F) d L _).symm) $$ Ho0
  ihave Ho1 := (Entails.of_eq (pts_o1 (F := F) d L _).symm) $$ Ho1
  ihave Ht := (Entails.of_eq (pts_t (F := F) d L q _).symm) $$ Ht
  ihave Hd := (Entails.of_eq (pts_d (F := F) d L q _).symm) $$ Hd
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hs5 := (Entails.of_eq (pts_s5 (F := F) d L _).symm) $$ Hs5
  sl_exec
  sl_for (inv1 d L m hu) $$ [Hs0 Hs2 Hs1]
  case region =>
    intro k _
    unfold inv1
    iintro ⟨%a0, %a2, %hfa, Ha0, Ha2, %f, %hf, Hf⟩
    sl_exec (disch := sl_exact Checks.chk1_of _ (lt100_row d L m hu a0 hfa.1 k))
    sl_respell [SparseCore.vectorLoadIdx]
    sl_exec
    sl_step
    iexists a0, a2
    isplitr; · ipureintro; exact hfa
    isplitl [Ha0]; · iexact Ha0
    isplitl [Ha2]; · iexact Ha2
    iexists _
    isplitr
    rotate_left
    · iexact Hf
    · ipureintro; exact low1_step d L m hu a0 a2 f hfa.1 hfa.2 k hf _
  · unfold inv1
    iexists _, _
    isplitr
    · ipureintro; sl_unfold_run_names; exact ⟨fact0_entry d L m f0, fact2_entry d L m f2⟩
    isplitl [Hs0]; · iexact Hs0
    isplitl [Hs2]; · iexact Hs2
    iexists _
    isplitr
    · ipureintro; exact low1_zero d L m hu f1
    · iexact Hs1
  iintro %_ HI
  unfold inv1
  icases HI with ⟨%a0, %a2, %hfa, Hs0, Hs2, %a1, %ha1, Hs1⟩
  have hfa1 : Fact1 d L m hu a1 := fact1_of_low1 d L m hu a1 ha1
  sl_exec
  sl_for (inv2 d L m hu ht) $$ [Hs1 Hs3 Hs4]
  case region =>
    intro k _
    unfold inv2
    iintro ⟨%b1, %b3, %hfb, Hb1, Hb3, %f, %hf, Hf⟩
    repeat (sl_exec (disch := first
      | sl_exact Checks.chkB2 _ (Checks.row2_lt_0 k)
      | sl_exact Checks.chkB3 _ (Checks.row2_lt_1 k)
      | sl_exact Checks.chkB4 _ (Checks.row2_lt_2 k)
      | sl_exact Checks.chkB5 _ (Checks.row2_lt_3 k)
      | sl_exact Checks.chkB6 _ (Checks.row2_lt_4 k)
      | sl_exact Checks.chkB7 _ (Checks.row2_lt_5 k)
      | sl_exact Checks.chkB8 _ (Checks.row2_lt_6 k)
      | sl_exact Checks.chkB9 _ (Checks.row2_lt_7 k)
      | sl_exact Checks.chkD10 _ (lt100_of_fact1 d L m hu ht b1 hfb.1 _ _)
      | sl_exact Checks.chkD11 _ (lt100_of_fact1 d L m hu ht b1 hfb.1 _ _)
      | sl_exact Checks.chkD12 _ (lt100_of_fact1 d L m hu ht b1 hfb.1 _ _)
      | sl_exact Checks.chkD13 _ (lt100_of_fact1 d L m hu ht b1 hfb.1 _ _)
      | sl_exact Checks.chkD14 _ (lt100_of_fact1 d L m hu ht b1 hfb.1 _ _)
      | sl_exact Checks.chkD15 _ (lt100_of_fact1 d L m hu ht b1 hfb.1 _ _)
      | sl_exact Checks.chkD16 _ (lt100_of_fact1 d L m hu ht b1 hfb.1 _ _)
      | sl_exact Checks.chkD17 _ (lt100_of_fact1 d L m hu ht b1 hfb.1 _ _)); sl_respell [SparseCore.vectorLoadIdx])
    sl_exec (disch := first
      | sl_exact Checks.chkB2 _ (Checks.row2_lt_0 k)
      | sl_exact Checks.chkB3 _ (Checks.row2_lt_1 k)
      | sl_exact Checks.chkB4 _ (Checks.row2_lt_2 k)
      | sl_exact Checks.chkB5 _ (Checks.row2_lt_3 k)
      | sl_exact Checks.chkB6 _ (Checks.row2_lt_4 k)
      | sl_exact Checks.chkB7 _ (Checks.row2_lt_5 k)
      | sl_exact Checks.chkB8 _ (Checks.row2_lt_6 k)
      | sl_exact Checks.chkB9 _ (Checks.row2_lt_7 k)
      | sl_exact Checks.chkD10 _ (lt100_of_fact1 d L m hu ht b1 hfb.1 _ _)
      | sl_exact Checks.chkD11 _ (lt100_of_fact1 d L m hu ht b1 hfb.1 _ _)
      | sl_exact Checks.chkD12 _ (lt100_of_fact1 d L m hu ht b1 hfb.1 _ _)
      | sl_exact Checks.chkD13 _ (lt100_of_fact1 d L m hu ht b1 hfb.1 _ _)
      | sl_exact Checks.chkD14 _ (lt100_of_fact1 d L m hu ht b1 hfb.1 _ _)
      | sl_exact Checks.chkD15 _ (lt100_of_fact1 d L m hu ht b1 hfb.1 _ _)
      | sl_exact Checks.chkD16 _ (lt100_of_fact1 d L m hu ht b1 hfb.1 _ _)
      | sl_exact Checks.chkD17 _ (lt100_of_fact1 d L m hu ht b1 hfb.1 _ _))
    sl_step
    iexists b1, b3
    isplitr; · ipureintro; exact hfb
    isplitl [Hb1]; · iexact Hb1
    isplitl [Hb3]; · iexact Hb3
    iexists _
    isplitr
    rotate_left
    · iexact Hf
    · ipureintro
      have hk32 : k.val < 32 := k.isLt
      have hlo : 8 * k.val + 8 ≤ 256 := by omega
      refine low2_of_part d L m hu ht 0 k.val hlo f _ hf ?_
      refine part_cons4 d L (8 * k.val) 63 (by decide) hlo (OutAt d L m hu ht 0) f (k0_off68 k) (by rw [k0_off68_eq]; rfl) (by rw [k0_off68_eq]; rfl) (k0_off68_inb k) _ (pay_ok4 d L m hu ht b1 b3 hfb.1 hfb.2 k f hf 63 (by decide) (k0_off68 k) (by rw [k0_off68_eq]; rfl) (by rw [k0_off68_eq]; rfl) (k0_off68_inb k) _ (Checks.row2_val_7 k) _ Checks.col_val_112 _ _) _ ?_
      refine part_cons4 d L (8 * k.val) 62 (by decide) hlo (OutAt d L m hu ht 0) f (k0_off67 k) (by rw [k0_off67_eq]; rfl) (by rw [k0_off67_eq]; rfl) (k0_off67_inb k) _ (pay_ok4 d L m hu ht b1 b3 hfb.1 hfb.2 k f hf 62 (by decide) (k0_off67 k) (by rw [k0_off67_eq]; rfl) (by rw [k0_off67_eq]; rfl) (k0_off67_inb k) _ (Checks.row2_val_7 k) _ Checks.col_val_96 _ _) _ ?_
      refine part_cons4 d L (8 * k.val) 61 (by decide) hlo (OutAt d L m hu ht 0) f (k0_off66 k) (by rw [k0_off66_eq]; rfl) (by rw [k0_off66_eq]; rfl) (k0_off66_inb k) _ (pay_ok4 d L m hu ht b1 b3 hfb.1 hfb.2 k f hf 61 (by decide) (k0_off66 k) (by rw [k0_off66_eq]; rfl) (by rw [k0_off66_eq]; rfl) (k0_off66_inb k) _ (Checks.row2_val_7 k) _ Checks.col_val_80 _ _) _ ?_
      refine part_cons4 d L (8 * k.val) 60 (by decide) hlo (OutAt d L m hu ht 0) f (k0_off65 k) (by rw [k0_off65_eq]; rfl) (by rw [k0_off65_eq]; rfl) (k0_off65_inb k) _ (pay_ok4 d L m hu ht b1 b3 hfb.1 hfb.2 k f hf 60 (by decide) (k0_off65 k) (by rw [k0_off65_eq]; rfl) (by rw [k0_off65_eq]; rfl) (k0_off65_inb k) _ (Checks.row2_val_7 k) _ Checks.col_val_64 _ _) _ ?_
      refine part_cons4 d L (8 * k.val) 59 (by decide) hlo (OutAt d L m hu ht 0) f (k0_off64 k) (by rw [k0_off64_eq]; rfl) (by rw [k0_off64_eq]; rfl) (k0_off64_inb k) _ (pay_ok4 d L m hu ht b1 b3 hfb.1 hfb.2 k f hf 59 (by decide) (k0_off64 k) (by rw [k0_off64_eq]; rfl) (by rw [k0_off64_eq]; rfl) (k0_off64_inb k) _ (Checks.row2_val_7 k) _ Checks.col_val_48 _ _) _ ?_
      refine part_cons4 d L (8 * k.val) 58 (by decide) hlo (OutAt d L m hu ht 0) f (k0_off63 k) (by rw [k0_off63_eq]; rfl) (by rw [k0_off63_eq]; rfl) (k0_off63_inb k) _ (pay_ok4 d L m hu ht b1 b3 hfb.1 hfb.2 k f hf 58 (by decide) (k0_off63 k) (by rw [k0_off63_eq]; rfl) (by rw [k0_off63_eq]; rfl) (k0_off63_inb k) _ (Checks.row2_val_7 k) _ Checks.col_val_32 _ _) _ ?_
      refine part_cons4 d L (8 * k.val) 57 (by decide) hlo (OutAt d L m hu ht 0) f (k0_off62 k) (by rw [k0_off62_eq]; rfl) (by rw [k0_off62_eq]; rfl) (k0_off62_inb k) _ (pay_ok4 d L m hu ht b1 b3 hfb.1 hfb.2 k f hf 57 (by decide) (k0_off62 k) (by rw [k0_off62_eq]; rfl) (by rw [k0_off62_eq]; rfl) (k0_off62_inb k) _ (Checks.row2_val_7 k) _ Checks.col_val_16 _ _) _ ?_
      refine part_cons4 d L (8 * k.val) 56 (by decide) hlo (OutAt d L m hu ht 0) f (k0_off61 k) (by rw [k0_off61_eq]; rfl) (by rw [k0_off61_eq]; rfl) (k0_off61_inb k) _ (pay_ok4 d L m hu ht b1 b3 hfb.1 hfb.2 k f hf 56 (by decide) (k0_off61 k) (by rw [k0_off61_eq]; rfl) (by rw [k0_off61_eq]; rfl) (k0_off61_inb k) _ (Checks.row2_val_7 k) _ Checks.col_val_0 _ _) _ ?_
      refine part_cons4 d L (8 * k.val) 55 (by decide) hlo (OutAt d L m hu ht 0) f (k0_off60 k) (by rw [k0_off60_eq]; rfl) (by rw [k0_off60_eq]; rfl) (k0_off60_inb k) _ (pay_ok4 d L m hu ht b1 b3 hfb.1 hfb.2 k f hf 55 (by decide) (k0_off60 k) (by rw [k0_off60_eq]; rfl) (by rw [k0_off60_eq]; rfl) (k0_off60_inb k) _ (Checks.row2_val_6 k) _ Checks.col_val_112 _ _) _ ?_
      refine part_cons4 d L (8 * k.val) 54 (by decide) hlo (OutAt d L m hu ht 0) f (k0_off59 k) (by rw [k0_off59_eq]; rfl) (by rw [k0_off59_eq]; rfl) (k0_off59_inb k) _ (pay_ok4 d L m hu ht b1 b3 hfb.1 hfb.2 k f hf 54 (by decide) (k0_off59 k) (by rw [k0_off59_eq]; rfl) (by rw [k0_off59_eq]; rfl) (k0_off59_inb k) _ (Checks.row2_val_6 k) _ Checks.col_val_96 _ _) _ ?_
      refine part_cons4 d L (8 * k.val) 53 (by decide) hlo (OutAt d L m hu ht 0) f (k0_off58 k) (by rw [k0_off58_eq]; rfl) (by rw [k0_off58_eq]; rfl) (k0_off58_inb k) _ (pay_ok4 d L m hu ht b1 b3 hfb.1 hfb.2 k f hf 53 (by decide) (k0_off58 k) (by rw [k0_off58_eq]; rfl) (by rw [k0_off58_eq]; rfl) (k0_off58_inb k) _ (Checks.row2_val_6 k) _ Checks.col_val_80 _ _) _ ?_
      refine part_cons4 d L (8 * k.val) 52 (by decide) hlo (OutAt d L m hu ht 0) f (k0_off57 k) (by rw [k0_off57_eq]; rfl) (by rw [k0_off57_eq]; rfl) (k0_off57_inb k) _ (pay_ok4 d L m hu ht b1 b3 hfb.1 hfb.2 k f hf 52 (by decide) (k0_off57 k) (by rw [k0_off57_eq]; rfl) (by rw [k0_off57_eq]; rfl) (k0_off57_inb k) _ (Checks.row2_val_6 k) _ Checks.col_val_64 _ _) _ ?_
      refine part_cons4 d L (8 * k.val) 51 (by decide) hlo (OutAt d L m hu ht 0) f (k0_off56 k) (by rw [k0_off56_eq]; rfl) (by rw [k0_off56_eq]; rfl) (k0_off56_inb k) _ (pay_ok4 d L m hu ht b1 b3 hfb.1 hfb.2 k f hf 51 (by decide) (k0_off56 k) (by rw [k0_off56_eq]; rfl) (by rw [k0_off56_eq]; rfl) (k0_off56_inb k) _ (Checks.row2_val_6 k) _ Checks.col_val_48 _ _) _ ?_
      refine part_cons4 d L (8 * k.val) 50 (by decide) hlo (OutAt d L m hu ht 0) f (k0_off55 k) (by rw [k0_off55_eq]; rfl) (by rw [k0_off55_eq]; rfl) (k0_off55_inb k) _ (pay_ok4 d L m hu ht b1 b3 hfb.1 hfb.2 k f hf 50 (by decide) (k0_off55 k) (by rw [k0_off55_eq]; rfl) (by rw [k0_off55_eq]; rfl) (k0_off55_inb k) _ (Checks.row2_val_6 k) _ Checks.col_val_32 _ _) _ ?_
      refine part_cons4 d L (8 * k.val) 49 (by decide) hlo (OutAt d L m hu ht 0) f (k0_off54 k) (by rw [k0_off54_eq]; rfl) (by rw [k0_off54_eq]; rfl) (k0_off54_inb k) _ (pay_ok4 d L m hu ht b1 b3 hfb.1 hfb.2 k f hf 49 (by decide) (k0_off54 k) (by rw [k0_off54_eq]; rfl) (by rw [k0_off54_eq]; rfl) (k0_off54_inb k) _ (Checks.row2_val_6 k) _ Checks.col_val_16 _ _) _ ?_
      refine part_cons4 d L (8 * k.val) 48 (by decide) hlo (OutAt d L m hu ht 0) f (k0_off53 k) (by rw [k0_off53_eq]; rfl) (by rw [k0_off53_eq]; rfl) (k0_off53_inb k) _ (pay_ok4 d L m hu ht b1 b3 hfb.1 hfb.2 k f hf 48 (by decide) (k0_off53 k) (by rw [k0_off53_eq]; rfl) (by rw [k0_off53_eq]; rfl) (k0_off53_inb k) _ (Checks.row2_val_6 k) _ Checks.col_val_0 _ _) _ ?_
      refine part_cons4 d L (8 * k.val) 47 (by decide) hlo (OutAt d L m hu ht 0) f (k0_off52 k) (by rw [k0_off52_eq]; rfl) (by rw [k0_off52_eq]; rfl) (k0_off52_inb k) _ (pay_ok4 d L m hu ht b1 b3 hfb.1 hfb.2 k f hf 47 (by decide) (k0_off52 k) (by rw [k0_off52_eq]; rfl) (by rw [k0_off52_eq]; rfl) (k0_off52_inb k) _ (Checks.row2_val_5 k) _ Checks.col_val_112 _ _) _ ?_
      refine part_cons4 d L (8 * k.val) 46 (by decide) hlo (OutAt d L m hu ht 0) f (k0_off51 k) (by rw [k0_off51_eq]; rfl) (by rw [k0_off51_eq]; rfl) (k0_off51_inb k) _ (pay_ok4 d L m hu ht b1 b3 hfb.1 hfb.2 k f hf 46 (by decide) (k0_off51 k) (by rw [k0_off51_eq]; rfl) (by rw [k0_off51_eq]; rfl) (k0_off51_inb k) _ (Checks.row2_val_5 k) _ Checks.col_val_96 _ _) _ ?_
      refine part_cons4 d L (8 * k.val) 45 (by decide) hlo (OutAt d L m hu ht 0) f (k0_off50 k) (by rw [k0_off50_eq]; rfl) (by rw [k0_off50_eq]; rfl) (k0_off50_inb k) _ (pay_ok4 d L m hu ht b1 b3 hfb.1 hfb.2 k f hf 45 (by decide) (k0_off50 k) (by rw [k0_off50_eq]; rfl) (by rw [k0_off50_eq]; rfl) (k0_off50_inb k) _ (Checks.row2_val_5 k) _ Checks.col_val_80 _ _) _ ?_
      refine part_cons4 d L (8 * k.val) 44 (by decide) hlo (OutAt d L m hu ht 0) f (k0_off49 k) (by rw [k0_off49_eq]; rfl) (by rw [k0_off49_eq]; rfl) (k0_off49_inb k) _ (pay_ok4 d L m hu ht b1 b3 hfb.1 hfb.2 k f hf 44 (by decide) (k0_off49 k) (by rw [k0_off49_eq]; rfl) (by rw [k0_off49_eq]; rfl) (k0_off49_inb k) _ (Checks.row2_val_5 k) _ Checks.col_val_64 _ _) _ ?_
      refine part_cons4 d L (8 * k.val) 43 (by decide) hlo (OutAt d L m hu ht 0) f (k0_off48 k) (by rw [k0_off48_eq]; rfl) (by rw [k0_off48_eq]; rfl) (k0_off48_inb k) _ (pay_ok4 d L m hu ht b1 b3 hfb.1 hfb.2 k f hf 43 (by decide) (k0_off48 k) (by rw [k0_off48_eq]; rfl) (by rw [k0_off48_eq]; rfl) (k0_off48_inb k) _ (Checks.row2_val_5 k) _ Checks.col_val_48 _ _) _ ?_
      refine part_cons4 d L (8 * k.val) 42 (by decide) hlo (OutAt d L m hu ht 0) f (k0_off47 k) (by rw [k0_off47_eq]; rfl) (by rw [k0_off47_eq]; rfl) (k0_off47_inb k) _ (pay_ok4 d L m hu ht b1 b3 hfb.1 hfb.2 k f hf 42 (by decide) (k0_off47 k) (by rw [k0_off47_eq]; rfl) (by rw [k0_off47_eq]; rfl) (k0_off47_inb k) _ (Checks.row2_val_5 k) _ Checks.col_val_32 _ _) _ ?_
      refine part_cons4 d L (8 * k.val) 41 (by decide) hlo (OutAt d L m hu ht 0) f (k0_off46 k) (by rw [k0_off46_eq]; rfl) (by rw [k0_off46_eq]; rfl) (k0_off46_inb k) _ (pay_ok4 d L m hu ht b1 b3 hfb.1 hfb.2 k f hf 41 (by decide) (k0_off46 k) (by rw [k0_off46_eq]; rfl) (by rw [k0_off46_eq]; rfl) (k0_off46_inb k) _ (Checks.row2_val_5 k) _ Checks.col_val_16 _ _) _ ?_
      refine part_cons4 d L (8 * k.val) 40 (by decide) hlo (OutAt d L m hu ht 0) f (k0_off45 k) (by rw [k0_off45_eq]; rfl) (by rw [k0_off45_eq]; rfl) (k0_off45_inb k) _ (pay_ok4 d L m hu ht b1 b3 hfb.1 hfb.2 k f hf 40 (by decide) (k0_off45 k) (by rw [k0_off45_eq]; rfl) (by rw [k0_off45_eq]; rfl) (k0_off45_inb k) _ (Checks.row2_val_5 k) _ Checks.col_val_0 _ _) _ ?_
      refine part_cons4 d L (8 * k.val) 39 (by decide) hlo (OutAt d L m hu ht 0) f (k0_off44 k) (by rw [k0_off44_eq]; rfl) (by rw [k0_off44_eq]; rfl) (k0_off44_inb k) _ (pay_ok4 d L m hu ht b1 b3 hfb.1 hfb.2 k f hf 39 (by decide) (k0_off44 k) (by rw [k0_off44_eq]; rfl) (by rw [k0_off44_eq]; rfl) (k0_off44_inb k) _ (Checks.row2_val_4 k) _ Checks.col_val_112 _ _) _ ?_
      refine part_cons4 d L (8 * k.val) 38 (by decide) hlo (OutAt d L m hu ht 0) f (k0_off43 k) (by rw [k0_off43_eq]; rfl) (by rw [k0_off43_eq]; rfl) (k0_off43_inb k) _ (pay_ok4 d L m hu ht b1 b3 hfb.1 hfb.2 k f hf 38 (by decide) (k0_off43 k) (by rw [k0_off43_eq]; rfl) (by rw [k0_off43_eq]; rfl) (k0_off43_inb k) _ (Checks.row2_val_4 k) _ Checks.col_val_96 _ _) _ ?_
      refine part_cons4 d L (8 * k.val) 37 (by decide) hlo (OutAt d L m hu ht 0) f (k0_off42 k) (by rw [k0_off42_eq]; rfl) (by rw [k0_off42_eq]; rfl) (k0_off42_inb k) _ (pay_ok4 d L m hu ht b1 b3 hfb.1 hfb.2 k f hf 37 (by decide) (k0_off42 k) (by rw [k0_off42_eq]; rfl) (by rw [k0_off42_eq]; rfl) (k0_off42_inb k) _ (Checks.row2_val_4 k) _ Checks.col_val_80 _ _) _ ?_
      refine part_cons4 d L (8 * k.val) 36 (by decide) hlo (OutAt d L m hu ht 0) f (k0_off41 k) (by rw [k0_off41_eq]; rfl) (by rw [k0_off41_eq]; rfl) (k0_off41_inb k) _ (pay_ok4 d L m hu ht b1 b3 hfb.1 hfb.2 k f hf 36 (by decide) (k0_off41 k) (by rw [k0_off41_eq]; rfl) (by rw [k0_off41_eq]; rfl) (k0_off41_inb k) _ (Checks.row2_val_4 k) _ Checks.col_val_64 _ _) _ ?_
      refine part_cons4 d L (8 * k.val) 35 (by decide) hlo (OutAt d L m hu ht 0) f (k0_off40 k) (by rw [k0_off40_eq]; rfl) (by rw [k0_off40_eq]; rfl) (k0_off40_inb k) _ (pay_ok4 d L m hu ht b1 b3 hfb.1 hfb.2 k f hf 35 (by decide) (k0_off40 k) (by rw [k0_off40_eq]; rfl) (by rw [k0_off40_eq]; rfl) (k0_off40_inb k) _ (Checks.row2_val_4 k) _ Checks.col_val_48 _ _) _ ?_
      refine part_cons4 d L (8 * k.val) 34 (by decide) hlo (OutAt d L m hu ht 0) f (k0_off39 k) (by rw [k0_off39_eq]; rfl) (by rw [k0_off39_eq]; rfl) (k0_off39_inb k) _ (pay_ok4 d L m hu ht b1 b3 hfb.1 hfb.2 k f hf 34 (by decide) (k0_off39 k) (by rw [k0_off39_eq]; rfl) (by rw [k0_off39_eq]; rfl) (k0_off39_inb k) _ (Checks.row2_val_4 k) _ Checks.col_val_32 _ _) _ ?_
      refine part_cons4 d L (8 * k.val) 33 (by decide) hlo (OutAt d L m hu ht 0) f (k0_off38 k) (by rw [k0_off38_eq]; rfl) (by rw [k0_off38_eq]; rfl) (k0_off38_inb k) _ (pay_ok4 d L m hu ht b1 b3 hfb.1 hfb.2 k f hf 33 (by decide) (k0_off38 k) (by rw [k0_off38_eq]; rfl) (by rw [k0_off38_eq]; rfl) (k0_off38_inb k) _ (Checks.row2_val_4 k) _ Checks.col_val_16 _ _) _ ?_
      refine part_cons4 d L (8 * k.val) 32 (by decide) hlo (OutAt d L m hu ht 0) f (k0_off37 k) (by rw [k0_off37_eq]; rfl) (by rw [k0_off37_eq]; rfl) (k0_off37_inb k) _ (pay_ok4 d L m hu ht b1 b3 hfb.1 hfb.2 k f hf 32 (by decide) (k0_off37 k) (by rw [k0_off37_eq]; rfl) (by rw [k0_off37_eq]; rfl) (k0_off37_inb k) _ (Checks.row2_val_4 k) _ Checks.col_val_0 _ _) _ ?_
      refine part_cons4 d L (8 * k.val) 31 (by decide) hlo (OutAt d L m hu ht 0) f (k0_off36 k) (by rw [k0_off36_eq]; rfl) (by rw [k0_off36_eq]; rfl) (k0_off36_inb k) _ (pay_ok4 d L m hu ht b1 b3 hfb.1 hfb.2 k f hf 31 (by decide) (k0_off36 k) (by rw [k0_off36_eq]; rfl) (by rw [k0_off36_eq]; rfl) (k0_off36_inb k) _ (Checks.row2_val_3 k) _ Checks.col_val_112 _ _) _ ?_
      refine part_cons4 d L (8 * k.val) 30 (by decide) hlo (OutAt d L m hu ht 0) f (k0_off35 k) (by rw [k0_off35_eq]; rfl) (by rw [k0_off35_eq]; rfl) (k0_off35_inb k) _ (pay_ok4 d L m hu ht b1 b3 hfb.1 hfb.2 k f hf 30 (by decide) (k0_off35 k) (by rw [k0_off35_eq]; rfl) (by rw [k0_off35_eq]; rfl) (k0_off35_inb k) _ (Checks.row2_val_3 k) _ Checks.col_val_96 _ _) _ ?_
      refine part_cons4 d L (8 * k.val) 29 (by decide) hlo (OutAt d L m hu ht 0) f (k0_off34 k) (by rw [k0_off34_eq]; rfl) (by rw [k0_off34_eq]; rfl) (k0_off34_inb k) _ (pay_ok4 d L m hu ht b1 b3 hfb.1 hfb.2 k f hf 29 (by decide) (k0_off34 k) (by rw [k0_off34_eq]; rfl) (by rw [k0_off34_eq]; rfl) (k0_off34_inb k) _ (Checks.row2_val_3 k) _ Checks.col_val_80 _ _) _ ?_
      refine part_cons4 d L (8 * k.val) 28 (by decide) hlo (OutAt d L m hu ht 0) f (k0_off33 k) (by rw [k0_off33_eq]; rfl) (by rw [k0_off33_eq]; rfl) (k0_off33_inb k) _ (pay_ok4 d L m hu ht b1 b3 hfb.1 hfb.2 k f hf 28 (by decide) (k0_off33 k) (by rw [k0_off33_eq]; rfl) (by rw [k0_off33_eq]; rfl) (k0_off33_inb k) _ (Checks.row2_val_3 k) _ Checks.col_val_64 _ _) _ ?_
      refine part_cons4 d L (8 * k.val) 27 (by decide) hlo (OutAt d L m hu ht 0) f (k0_off32 k) (by rw [k0_off32_eq]; rfl) (by rw [k0_off32_eq]; rfl) (k0_off32_inb k) _ (pay_ok4 d L m hu ht b1 b3 hfb.1 hfb.2 k f hf 27 (by decide) (k0_off32 k) (by rw [k0_off32_eq]; rfl) (by rw [k0_off32_eq]; rfl) (k0_off32_inb k) _ (Checks.row2_val_3 k) _ Checks.col_val_48 _ _) _ ?_
      refine part_cons4 d L (8 * k.val) 26 (by decide) hlo (OutAt d L m hu ht 0) f (k0_off31 k) (by rw [k0_off31_eq]; rfl) (by rw [k0_off31_eq]; rfl) (k0_off31_inb k) _ (pay_ok4 d L m hu ht b1 b3 hfb.1 hfb.2 k f hf 26 (by decide) (k0_off31 k) (by rw [k0_off31_eq]; rfl) (by rw [k0_off31_eq]; rfl) (k0_off31_inb k) _ (Checks.row2_val_3 k) _ Checks.col_val_32 _ _) _ ?_
      refine part_cons4 d L (8 * k.val) 25 (by decide) hlo (OutAt d L m hu ht 0) f (k0_off30 k) (by rw [k0_off30_eq]; rfl) (by rw [k0_off30_eq]; rfl) (k0_off30_inb k) _ (pay_ok4 d L m hu ht b1 b3 hfb.1 hfb.2 k f hf 25 (by decide) (k0_off30 k) (by rw [k0_off30_eq]; rfl) (by rw [k0_off30_eq]; rfl) (k0_off30_inb k) _ (Checks.row2_val_3 k) _ Checks.col_val_16 _ _) _ ?_
      refine part_cons4 d L (8 * k.val) 24 (by decide) hlo (OutAt d L m hu ht 0) f (k0_off29 k) (by rw [k0_off29_eq]; rfl) (by rw [k0_off29_eq]; rfl) (k0_off29_inb k) _ (pay_ok4 d L m hu ht b1 b3 hfb.1 hfb.2 k f hf 24 (by decide) (k0_off29 k) (by rw [k0_off29_eq]; rfl) (by rw [k0_off29_eq]; rfl) (k0_off29_inb k) _ (Checks.row2_val_3 k) _ Checks.col_val_0 _ _) _ ?_
      refine part_cons4 d L (8 * k.val) 23 (by decide) hlo (OutAt d L m hu ht 0) f (k0_off28 k) (by rw [k0_off28_eq]; rfl) (by rw [k0_off28_eq]; rfl) (k0_off28_inb k) _ (pay_ok4 d L m hu ht b1 b3 hfb.1 hfb.2 k f hf 23 (by decide) (k0_off28 k) (by rw [k0_off28_eq]; rfl) (by rw [k0_off28_eq]; rfl) (k0_off28_inb k) _ (Checks.row2_val_2 k) _ Checks.col_val_112 _ _) _ ?_
      refine part_cons4 d L (8 * k.val) 22 (by decide) hlo (OutAt d L m hu ht 0) f (k0_off27 k) (by rw [k0_off27_eq]; rfl) (by rw [k0_off27_eq]; rfl) (k0_off27_inb k) _ (pay_ok4 d L m hu ht b1 b3 hfb.1 hfb.2 k f hf 22 (by decide) (k0_off27 k) (by rw [k0_off27_eq]; rfl) (by rw [k0_off27_eq]; rfl) (k0_off27_inb k) _ (Checks.row2_val_2 k) _ Checks.col_val_96 _ _) _ ?_
      refine part_cons4 d L (8 * k.val) 21 (by decide) hlo (OutAt d L m hu ht 0) f (k0_off26 k) (by rw [k0_off26_eq]; rfl) (by rw [k0_off26_eq]; rfl) (k0_off26_inb k) _ (pay_ok4 d L m hu ht b1 b3 hfb.1 hfb.2 k f hf 21 (by decide) (k0_off26 k) (by rw [k0_off26_eq]; rfl) (by rw [k0_off26_eq]; rfl) (k0_off26_inb k) _ (Checks.row2_val_2 k) _ Checks.col_val_80 _ _) _ ?_
      refine part_cons4 d L (8 * k.val) 20 (by decide) hlo (OutAt d L m hu ht 0) f (k0_off25 k) (by rw [k0_off25_eq]; rfl) (by rw [k0_off25_eq]; rfl) (k0_off25_inb k) _ (pay_ok4 d L m hu ht b1 b3 hfb.1 hfb.2 k f hf 20 (by decide) (k0_off25 k) (by rw [k0_off25_eq]; rfl) (by rw [k0_off25_eq]; rfl) (k0_off25_inb k) _ (Checks.row2_val_2 k) _ Checks.col_val_64 _ _) _ ?_
      refine part_cons4 d L (8 * k.val) 19 (by decide) hlo (OutAt d L m hu ht 0) f (k0_off24 k) (by rw [k0_off24_eq]; rfl) (by rw [k0_off24_eq]; rfl) (k0_off24_inb k) _ (pay_ok4 d L m hu ht b1 b3 hfb.1 hfb.2 k f hf 19 (by decide) (k0_off24 k) (by rw [k0_off24_eq]; rfl) (by rw [k0_off24_eq]; rfl) (k0_off24_inb k) _ (Checks.row2_val_2 k) _ Checks.col_val_48 _ _) _ ?_
      refine part_cons4 d L (8 * k.val) 18 (by decide) hlo (OutAt d L m hu ht 0) f (k0_off23 k) (by rw [k0_off23_eq]; rfl) (by rw [k0_off23_eq]; rfl) (k0_off23_inb k) _ (pay_ok4 d L m hu ht b1 b3 hfb.1 hfb.2 k f hf 18 (by decide) (k0_off23 k) (by rw [k0_off23_eq]; rfl) (by rw [k0_off23_eq]; rfl) (k0_off23_inb k) _ (Checks.row2_val_2 k) _ Checks.col_val_32 _ _) _ ?_
      refine part_cons4 d L (8 * k.val) 17 (by decide) hlo (OutAt d L m hu ht 0) f (k0_off22 k) (by rw [k0_off22_eq]; rfl) (by rw [k0_off22_eq]; rfl) (k0_off22_inb k) _ (pay_ok4 d L m hu ht b1 b3 hfb.1 hfb.2 k f hf 17 (by decide) (k0_off22 k) (by rw [k0_off22_eq]; rfl) (by rw [k0_off22_eq]; rfl) (k0_off22_inb k) _ (Checks.row2_val_2 k) _ Checks.col_val_16 _ _) _ ?_
      refine part_cons4 d L (8 * k.val) 16 (by decide) hlo (OutAt d L m hu ht 0) f (k0_off21 k) (by rw [k0_off21_eq]; rfl) (by rw [k0_off21_eq]; rfl) (k0_off21_inb k) _ (pay_ok4 d L m hu ht b1 b3 hfb.1 hfb.2 k f hf 16 (by decide) (k0_off21 k) (by rw [k0_off21_eq]; rfl) (by rw [k0_off21_eq]; rfl) (k0_off21_inb k) _ (Checks.row2_val_2 k) _ Checks.col_val_0 _ _) _ ?_
      refine part_cons4 d L (8 * k.val) 15 (by decide) hlo (OutAt d L m hu ht 0) f (k0_off20 k) (by rw [k0_off20_eq]; rfl) (by rw [k0_off20_eq]; rfl) (k0_off20_inb k) _ (pay_ok4 d L m hu ht b1 b3 hfb.1 hfb.2 k f hf 15 (by decide) (k0_off20 k) (by rw [k0_off20_eq]; rfl) (by rw [k0_off20_eq]; rfl) (k0_off20_inb k) _ (Checks.row2_val_1 k) _ Checks.col_val_112 _ _) _ ?_
      refine part_cons4 d L (8 * k.val) 14 (by decide) hlo (OutAt d L m hu ht 0) f (k0_off19 k) (by rw [k0_off19_eq]; rfl) (by rw [k0_off19_eq]; rfl) (k0_off19_inb k) _ (pay_ok4 d L m hu ht b1 b3 hfb.1 hfb.2 k f hf 14 (by decide) (k0_off19 k) (by rw [k0_off19_eq]; rfl) (by rw [k0_off19_eq]; rfl) (k0_off19_inb k) _ (Checks.row2_val_1 k) _ Checks.col_val_96 _ _) _ ?_
      refine part_cons4 d L (8 * k.val) 13 (by decide) hlo (OutAt d L m hu ht 0) f (k0_off18 k) (by rw [k0_off18_eq]; rfl) (by rw [k0_off18_eq]; rfl) (k0_off18_inb k) _ (pay_ok4 d L m hu ht b1 b3 hfb.1 hfb.2 k f hf 13 (by decide) (k0_off18 k) (by rw [k0_off18_eq]; rfl) (by rw [k0_off18_eq]; rfl) (k0_off18_inb k) _ (Checks.row2_val_1 k) _ Checks.col_val_80 _ _) _ ?_
      refine part_cons4 d L (8 * k.val) 12 (by decide) hlo (OutAt d L m hu ht 0) f (k0_off17 k) (by rw [k0_off17_eq]; rfl) (by rw [k0_off17_eq]; rfl) (k0_off17_inb k) _ (pay_ok4 d L m hu ht b1 b3 hfb.1 hfb.2 k f hf 12 (by decide) (k0_off17 k) (by rw [k0_off17_eq]; rfl) (by rw [k0_off17_eq]; rfl) (k0_off17_inb k) _ (Checks.row2_val_1 k) _ Checks.col_val_64 _ _) _ ?_
      refine part_cons4 d L (8 * k.val) 11 (by decide) hlo (OutAt d L m hu ht 0) f (k0_off16 k) (by rw [k0_off16_eq]; rfl) (by rw [k0_off16_eq]; rfl) (k0_off16_inb k) _ (pay_ok4 d L m hu ht b1 b3 hfb.1 hfb.2 k f hf 11 (by decide) (k0_off16 k) (by rw [k0_off16_eq]; rfl) (by rw [k0_off16_eq]; rfl) (k0_off16_inb k) _ (Checks.row2_val_1 k) _ Checks.col_val_48 _ _) _ ?_
      refine part_cons4 d L (8 * k.val) 10 (by decide) hlo (OutAt d L m hu ht 0) f (k0_off15 k) (by rw [k0_off15_eq]; rfl) (by rw [k0_off15_eq]; rfl) (k0_off15_inb k) _ (pay_ok4 d L m hu ht b1 b3 hfb.1 hfb.2 k f hf 10 (by decide) (k0_off15 k) (by rw [k0_off15_eq]; rfl) (by rw [k0_off15_eq]; rfl) (k0_off15_inb k) _ (Checks.row2_val_1 k) _ Checks.col_val_32 _ _) _ ?_
      refine part_cons4 d L (8 * k.val) 9 (by decide) hlo (OutAt d L m hu ht 0) f (k0_off14 k) (by rw [k0_off14_eq]; rfl) (by rw [k0_off14_eq]; rfl) (k0_off14_inb k) _ (pay_ok4 d L m hu ht b1 b3 hfb.1 hfb.2 k f hf 9 (by decide) (k0_off14 k) (by rw [k0_off14_eq]; rfl) (by rw [k0_off14_eq]; rfl) (k0_off14_inb k) _ (Checks.row2_val_1 k) _ Checks.col_val_16 _ _) _ ?_
      refine part_cons4 d L (8 * k.val) 8 (by decide) hlo (OutAt d L m hu ht 0) f (k0_off13 k) (by rw [k0_off13_eq]; rfl) (by rw [k0_off13_eq]; rfl) (k0_off13_inb k) _ (pay_ok4 d L m hu ht b1 b3 hfb.1 hfb.2 k f hf 8 (by decide) (k0_off13 k) (by rw [k0_off13_eq]; rfl) (by rw [k0_off13_eq]; rfl) (k0_off13_inb k) _ (Checks.row2_val_1 k) _ Checks.col_val_0 _ _) _ ?_
      refine part_cons4 d L (8 * k.val) 7 (by decide) hlo (OutAt d L m hu ht 0) f (k0_off12 k) (by rw [k0_off12_eq]; rfl) (by rw [k0_off12_eq]; rfl) (k0_off12_inb k) _ (pay_ok4 d L m hu ht b1 b3 hfb.1 hfb.2 k f hf 7 (by decide) (k0_off12 k) (by rw [k0_off12_eq]; rfl) (by rw [k0_off12_eq]; rfl) (k0_off12_inb k) _ (Checks.row2_val_0 k) _ Checks.col_val_112 _ _) _ ?_
      refine part_cons4 d L (8 * k.val) 6 (by decide) hlo (OutAt d L m hu ht 0) f (k0_off11 k) (by rw [k0_off11_eq]; rfl) (by rw [k0_off11_eq]; rfl) (k0_off11_inb k) _ (pay_ok4 d L m hu ht b1 b3 hfb.1 hfb.2 k f hf 6 (by decide) (k0_off11 k) (by rw [k0_off11_eq]; rfl) (by rw [k0_off11_eq]; rfl) (k0_off11_inb k) _ (Checks.row2_val_0 k) _ Checks.col_val_96 _ _) _ ?_
      refine part_cons4 d L (8 * k.val) 5 (by decide) hlo (OutAt d L m hu ht 0) f (k0_off10 k) (by rw [k0_off10_eq]; rfl) (by rw [k0_off10_eq]; rfl) (k0_off10_inb k) _ (pay_ok4 d L m hu ht b1 b3 hfb.1 hfb.2 k f hf 5 (by decide) (k0_off10 k) (by rw [k0_off10_eq]; rfl) (by rw [k0_off10_eq]; rfl) (k0_off10_inb k) _ (Checks.row2_val_0 k) _ Checks.col_val_80 _ _) _ ?_
      refine part_cons4 d L (8 * k.val) 4 (by decide) hlo (OutAt d L m hu ht 0) f (k0_off9 k) (by rw [k0_off9_eq]; rfl) (by rw [k0_off9_eq]; rfl) (k0_off9_inb k) _ (pay_ok4 d L m hu ht b1 b3 hfb.1 hfb.2 k f hf 4 (by decide) (k0_off9 k) (by rw [k0_off9_eq]; rfl) (by rw [k0_off9_eq]; rfl) (k0_off9_inb k) _ (Checks.row2_val_0 k) _ Checks.col_val_64 _ _) _ ?_
      refine part_cons4 d L (8 * k.val) 3 (by decide) hlo (OutAt d L m hu ht 0) f (k0_off8 k) (by rw [k0_off8_eq]; rfl) (by rw [k0_off8_eq]; rfl) (k0_off8_inb k) _ (pay_ok4 d L m hu ht b1 b3 hfb.1 hfb.2 k f hf 3 (by decide) (k0_off8 k) (by rw [k0_off8_eq]; rfl) (by rw [k0_off8_eq]; rfl) (k0_off8_inb k) _ (Checks.row2_val_0 k) _ Checks.col_val_48 _ _) _ ?_
      refine part_cons4 d L (8 * k.val) 2 (by decide) hlo (OutAt d L m hu ht 0) f (k0_off7 k) (by rw [k0_off7_eq]; rfl) (by rw [k0_off7_eq]; rfl) (k0_off7_inb k) _ (pay_ok4 d L m hu ht b1 b3 hfb.1 hfb.2 k f hf 2 (by decide) (k0_off7 k) (by rw [k0_off7_eq]; rfl) (by rw [k0_off7_eq]; rfl) (k0_off7_inb k) _ (Checks.row2_val_0 k) _ Checks.col_val_32 _ _) _ ?_
      refine part_cons4 d L (8 * k.val) 1 (by decide) hlo (OutAt d L m hu ht 0) f (k0_off6 k) (by rw [k0_off6_eq]; rfl) (by rw [k0_off6_eq]; rfl) (k0_off6_inb k) _ (pay_ok4 d L m hu ht b1 b3 hfb.1 hfb.2 k f hf 1 (by decide) (k0_off6 k) (by rw [k0_off6_eq]; rfl) (by rw [k0_off6_eq]; rfl) (k0_off6_inb k) _ (Checks.row2_val_0 k) _ Checks.col_val_16 _ _) _ ?_
      refine part_cons4 d L (8 * k.val) 0 (by decide) hlo (OutAt d L m hu ht 0) f (k0_off5 k) (by rw [k0_off5_eq]; rfl) (by rw [k0_off5_eq]; rfl) (k0_off5_inb k) _ (pay_ok4 d L m hu ht b1 b3 hfb.1 hfb.2 k f hf 0 (by decide) (k0_off5 k) (by rw [k0_off5_eq]; rfl) (by rw [k0_off5_eq]; rfl) (k0_off5_inb k) _ (Checks.row2_val_0 k) _ Checks.col_val_0 _ _) _ ?_
      exact part_zero _ _ _
  · unfold inv2
    iexists _, _
    isplitr
    · ipureintro; sl_unfold_run_names; exact ⟨hfa1, fact3_entry d L m f3⟩
    isplitl [Hs1]; · iexact Hs1
    isplitl [Hs3]; · iexact Hs3
    iexists _
    isplitr
    · ipureintro; sl_unfold_run_names; exact low2_zero d L m hu ht 0 _ (in_entry4 d L m f4)
    · iexact Hs4
  iintro %_ HI
  unfold inv2
  icases HI with ⟨%b1, %b3, %hfb2, Hs1, Hs3, %g4, %hg4, Hs4⟩
  sl_exec
  sl_for (inv3 d L m hu ht) $$ [Hs1 Hs3 Hs5]
  case region =>
    intro k _
    unfold inv3
    iintro ⟨%b1', %b3', %hfb, Hb1, Hb3, %f, %hf, Hf⟩
    repeat (sl_exec (disch := first
      | sl_exact Checks.chkB18 _ (Checks.row3_lt_0 k)
      | sl_exact Checks.chkB19 _ (Checks.row3_lt_1 k)
      | sl_exact Checks.chkB20 _ (Checks.row3_lt_2 k)
      | sl_exact Checks.chkB21 _ (Checks.row3_lt_3 k)
      | sl_exact Checks.chkB22 _ (Checks.row3_lt_4 k)
      | sl_exact Checks.chkB23 _ (Checks.row3_lt_5 k)
      | sl_exact Checks.chkB24 _ (Checks.row3_lt_6 k)
      | sl_exact Checks.chkB25 _ (Checks.row3_lt_7 k)
      | sl_exact Checks.chkD26 _ (lt100_of_fact1 d L m hu ht b1' hfb.1 _ _)
      | sl_exact Checks.chkD27 _ (lt100_of_fact1 d L m hu ht b1' hfb.1 _ _)
      | sl_exact Checks.chkD28 _ (lt100_of_fact1 d L m hu ht b1' hfb.1 _ _)
      | sl_exact Checks.chkD29 _ (lt100_of_fact1 d L m hu ht b1' hfb.1 _ _)
      | sl_exact Checks.chkD30 _ (lt100_of_fact1 d L m hu ht b1' hfb.1 _ _)
      | sl_exact Checks.chkD31 _ (lt100_of_fact1 d L m hu ht b1' hfb.1 _ _)
      | sl_exact Checks.chkD32 _ (lt100_of_fact1 d L m hu ht b1' hfb.1 _ _)
      | sl_exact Checks.chkD33 _ (lt100_of_fact1 d L m hu ht b1' hfb.1 _ _)); sl_respell [SparseCore.vectorLoadIdx])
    sl_exec (disch := first
      | sl_exact Checks.chkB18 _ (Checks.row3_lt_0 k)
      | sl_exact Checks.chkB19 _ (Checks.row3_lt_1 k)
      | sl_exact Checks.chkB20 _ (Checks.row3_lt_2 k)
      | sl_exact Checks.chkB21 _ (Checks.row3_lt_3 k)
      | sl_exact Checks.chkB22 _ (Checks.row3_lt_4 k)
      | sl_exact Checks.chkB23 _ (Checks.row3_lt_5 k)
      | sl_exact Checks.chkB24 _ (Checks.row3_lt_6 k)
      | sl_exact Checks.chkB25 _ (Checks.row3_lt_7 k)
      | sl_exact Checks.chkD26 _ (lt100_of_fact1 d L m hu ht b1' hfb.1 _ _)
      | sl_exact Checks.chkD27 _ (lt100_of_fact1 d L m hu ht b1' hfb.1 _ _)
      | sl_exact Checks.chkD28 _ (lt100_of_fact1 d L m hu ht b1' hfb.1 _ _)
      | sl_exact Checks.chkD29 _ (lt100_of_fact1 d L m hu ht b1' hfb.1 _ _)
      | sl_exact Checks.chkD30 _ (lt100_of_fact1 d L m hu ht b1' hfb.1 _ _)
      | sl_exact Checks.chkD31 _ (lt100_of_fact1 d L m hu ht b1' hfb.1 _ _)
      | sl_exact Checks.chkD32 _ (lt100_of_fact1 d L m hu ht b1' hfb.1 _ _)
      | sl_exact Checks.chkD33 _ (lt100_of_fact1 d L m hu ht b1' hfb.1 _ _))
    sl_step
    iexists b1', b3'
    isplitr; · ipureintro; exact hfb
    isplitl [Hb1]; · iexact Hb1
    isplitl [Hb3]; · iexact Hb3
    iexists _
    isplitr
    rotate_left
    · iexact Hf
    · ipureintro
      have hk32 : k.val < 32 := k.isLt
      have hlo : 8 * k.val + 8 ≤ 256 := by omega
      refine low3_of_part d L m hu ht k.val hlo f _ hf ?_
      refine part_cons5 d L (8 * k.val) 63 (by decide) hlo (OutAt d L m hu ht 1) f (k0_off133 k) (by rw [k0_off133_eq]; rfl) (by rw [k0_off133_eq]; rfl) (k0_off133_inb k) _ (pay_ok5 d L m hu ht b1' b3' hfb.1 hfb.2 k f hf 63 (by decide) (k0_off133 k) (by rw [k0_off133_eq]; rfl) (by rw [k0_off133_eq]; rfl) (k0_off133_inb k) _ (Checks.row3_val_7 k) _ Checks.col_val_112 _ _) _ ?_
      refine part_cons5 d L (8 * k.val) 62 (by decide) hlo (OutAt d L m hu ht 1) f (k0_off132 k) (by rw [k0_off132_eq]; rfl) (by rw [k0_off132_eq]; rfl) (k0_off132_inb k) _ (pay_ok5 d L m hu ht b1' b3' hfb.1 hfb.2 k f hf 62 (by decide) (k0_off132 k) (by rw [k0_off132_eq]; rfl) (by rw [k0_off132_eq]; rfl) (k0_off132_inb k) _ (Checks.row3_val_7 k) _ Checks.col_val_96 _ _) _ ?_
      refine part_cons5 d L (8 * k.val) 61 (by decide) hlo (OutAt d L m hu ht 1) f (k0_off131 k) (by rw [k0_off131_eq]; rfl) (by rw [k0_off131_eq]; rfl) (k0_off131_inb k) _ (pay_ok5 d L m hu ht b1' b3' hfb.1 hfb.2 k f hf 61 (by decide) (k0_off131 k) (by rw [k0_off131_eq]; rfl) (by rw [k0_off131_eq]; rfl) (k0_off131_inb k) _ (Checks.row3_val_7 k) _ Checks.col_val_80 _ _) _ ?_
      refine part_cons5 d L (8 * k.val) 60 (by decide) hlo (OutAt d L m hu ht 1) f (k0_off130 k) (by rw [k0_off130_eq]; rfl) (by rw [k0_off130_eq]; rfl) (k0_off130_inb k) _ (pay_ok5 d L m hu ht b1' b3' hfb.1 hfb.2 k f hf 60 (by decide) (k0_off130 k) (by rw [k0_off130_eq]; rfl) (by rw [k0_off130_eq]; rfl) (k0_off130_inb k) _ (Checks.row3_val_7 k) _ Checks.col_val_64 _ _) _ ?_
      refine part_cons5 d L (8 * k.val) 59 (by decide) hlo (OutAt d L m hu ht 1) f (k0_off129 k) (by rw [k0_off129_eq]; rfl) (by rw [k0_off129_eq]; rfl) (k0_off129_inb k) _ (pay_ok5 d L m hu ht b1' b3' hfb.1 hfb.2 k f hf 59 (by decide) (k0_off129 k) (by rw [k0_off129_eq]; rfl) (by rw [k0_off129_eq]; rfl) (k0_off129_inb k) _ (Checks.row3_val_7 k) _ Checks.col_val_48 _ _) _ ?_
      refine part_cons5 d L (8 * k.val) 58 (by decide) hlo (OutAt d L m hu ht 1) f (k0_off128 k) (by rw [k0_off128_eq]; rfl) (by rw [k0_off128_eq]; rfl) (k0_off128_inb k) _ (pay_ok5 d L m hu ht b1' b3' hfb.1 hfb.2 k f hf 58 (by decide) (k0_off128 k) (by rw [k0_off128_eq]; rfl) (by rw [k0_off128_eq]; rfl) (k0_off128_inb k) _ (Checks.row3_val_7 k) _ Checks.col_val_32 _ _) _ ?_
      refine part_cons5 d L (8 * k.val) 57 (by decide) hlo (OutAt d L m hu ht 1) f (k0_off127 k) (by rw [k0_off127_eq]; rfl) (by rw [k0_off127_eq]; rfl) (k0_off127_inb k) _ (pay_ok5 d L m hu ht b1' b3' hfb.1 hfb.2 k f hf 57 (by decide) (k0_off127 k) (by rw [k0_off127_eq]; rfl) (by rw [k0_off127_eq]; rfl) (k0_off127_inb k) _ (Checks.row3_val_7 k) _ Checks.col_val_16 _ _) _ ?_
      refine part_cons5 d L (8 * k.val) 56 (by decide) hlo (OutAt d L m hu ht 1) f (k0_off126 k) (by rw [k0_off126_eq]; rfl) (by rw [k0_off126_eq]; rfl) (k0_off126_inb k) _ (pay_ok5 d L m hu ht b1' b3' hfb.1 hfb.2 k f hf 56 (by decide) (k0_off126 k) (by rw [k0_off126_eq]; rfl) (by rw [k0_off126_eq]; rfl) (k0_off126_inb k) _ (Checks.row3_val_7 k) _ Checks.col_val_0 _ _) _ ?_
      refine part_cons5 d L (8 * k.val) 55 (by decide) hlo (OutAt d L m hu ht 1) f (k0_off125 k) (by rw [k0_off125_eq]; rfl) (by rw [k0_off125_eq]; rfl) (k0_off125_inb k) _ (pay_ok5 d L m hu ht b1' b3' hfb.1 hfb.2 k f hf 55 (by decide) (k0_off125 k) (by rw [k0_off125_eq]; rfl) (by rw [k0_off125_eq]; rfl) (k0_off125_inb k) _ (Checks.row3_val_6 k) _ Checks.col_val_112 _ _) _ ?_
      refine part_cons5 d L (8 * k.val) 54 (by decide) hlo (OutAt d L m hu ht 1) f (k0_off124 k) (by rw [k0_off124_eq]; rfl) (by rw [k0_off124_eq]; rfl) (k0_off124_inb k) _ (pay_ok5 d L m hu ht b1' b3' hfb.1 hfb.2 k f hf 54 (by decide) (k0_off124 k) (by rw [k0_off124_eq]; rfl) (by rw [k0_off124_eq]; rfl) (k0_off124_inb k) _ (Checks.row3_val_6 k) _ Checks.col_val_96 _ _) _ ?_
      refine part_cons5 d L (8 * k.val) 53 (by decide) hlo (OutAt d L m hu ht 1) f (k0_off123 k) (by rw [k0_off123_eq]; rfl) (by rw [k0_off123_eq]; rfl) (k0_off123_inb k) _ (pay_ok5 d L m hu ht b1' b3' hfb.1 hfb.2 k f hf 53 (by decide) (k0_off123 k) (by rw [k0_off123_eq]; rfl) (by rw [k0_off123_eq]; rfl) (k0_off123_inb k) _ (Checks.row3_val_6 k) _ Checks.col_val_80 _ _) _ ?_
      refine part_cons5 d L (8 * k.val) 52 (by decide) hlo (OutAt d L m hu ht 1) f (k0_off122 k) (by rw [k0_off122_eq]; rfl) (by rw [k0_off122_eq]; rfl) (k0_off122_inb k) _ (pay_ok5 d L m hu ht b1' b3' hfb.1 hfb.2 k f hf 52 (by decide) (k0_off122 k) (by rw [k0_off122_eq]; rfl) (by rw [k0_off122_eq]; rfl) (k0_off122_inb k) _ (Checks.row3_val_6 k) _ Checks.col_val_64 _ _) _ ?_
      refine part_cons5 d L (8 * k.val) 51 (by decide) hlo (OutAt d L m hu ht 1) f (k0_off121 k) (by rw [k0_off121_eq]; rfl) (by rw [k0_off121_eq]; rfl) (k0_off121_inb k) _ (pay_ok5 d L m hu ht b1' b3' hfb.1 hfb.2 k f hf 51 (by decide) (k0_off121 k) (by rw [k0_off121_eq]; rfl) (by rw [k0_off121_eq]; rfl) (k0_off121_inb k) _ (Checks.row3_val_6 k) _ Checks.col_val_48 _ _) _ ?_
      refine part_cons5 d L (8 * k.val) 50 (by decide) hlo (OutAt d L m hu ht 1) f (k0_off120 k) (by rw [k0_off120_eq]; rfl) (by rw [k0_off120_eq]; rfl) (k0_off120_inb k) _ (pay_ok5 d L m hu ht b1' b3' hfb.1 hfb.2 k f hf 50 (by decide) (k0_off120 k) (by rw [k0_off120_eq]; rfl) (by rw [k0_off120_eq]; rfl) (k0_off120_inb k) _ (Checks.row3_val_6 k) _ Checks.col_val_32 _ _) _ ?_
      refine part_cons5 d L (8 * k.val) 49 (by decide) hlo (OutAt d L m hu ht 1) f (k0_off119 k) (by rw [k0_off119_eq]; rfl) (by rw [k0_off119_eq]; rfl) (k0_off119_inb k) _ (pay_ok5 d L m hu ht b1' b3' hfb.1 hfb.2 k f hf 49 (by decide) (k0_off119 k) (by rw [k0_off119_eq]; rfl) (by rw [k0_off119_eq]; rfl) (k0_off119_inb k) _ (Checks.row3_val_6 k) _ Checks.col_val_16 _ _) _ ?_
      refine part_cons5 d L (8 * k.val) 48 (by decide) hlo (OutAt d L m hu ht 1) f (k0_off118 k) (by rw [k0_off118_eq]; rfl) (by rw [k0_off118_eq]; rfl) (k0_off118_inb k) _ (pay_ok5 d L m hu ht b1' b3' hfb.1 hfb.2 k f hf 48 (by decide) (k0_off118 k) (by rw [k0_off118_eq]; rfl) (by rw [k0_off118_eq]; rfl) (k0_off118_inb k) _ (Checks.row3_val_6 k) _ Checks.col_val_0 _ _) _ ?_
      refine part_cons5 d L (8 * k.val) 47 (by decide) hlo (OutAt d L m hu ht 1) f (k0_off117 k) (by rw [k0_off117_eq]; rfl) (by rw [k0_off117_eq]; rfl) (k0_off117_inb k) _ (pay_ok5 d L m hu ht b1' b3' hfb.1 hfb.2 k f hf 47 (by decide) (k0_off117 k) (by rw [k0_off117_eq]; rfl) (by rw [k0_off117_eq]; rfl) (k0_off117_inb k) _ (Checks.row3_val_5 k) _ Checks.col_val_112 _ _) _ ?_
      refine part_cons5 d L (8 * k.val) 46 (by decide) hlo (OutAt d L m hu ht 1) f (k0_off116 k) (by rw [k0_off116_eq]; rfl) (by rw [k0_off116_eq]; rfl) (k0_off116_inb k) _ (pay_ok5 d L m hu ht b1' b3' hfb.1 hfb.2 k f hf 46 (by decide) (k0_off116 k) (by rw [k0_off116_eq]; rfl) (by rw [k0_off116_eq]; rfl) (k0_off116_inb k) _ (Checks.row3_val_5 k) _ Checks.col_val_96 _ _) _ ?_
      refine part_cons5 d L (8 * k.val) 45 (by decide) hlo (OutAt d L m hu ht 1) f (k0_off115 k) (by rw [k0_off115_eq]; rfl) (by rw [k0_off115_eq]; rfl) (k0_off115_inb k) _ (pay_ok5 d L m hu ht b1' b3' hfb.1 hfb.2 k f hf 45 (by decide) (k0_off115 k) (by rw [k0_off115_eq]; rfl) (by rw [k0_off115_eq]; rfl) (k0_off115_inb k) _ (Checks.row3_val_5 k) _ Checks.col_val_80 _ _) _ ?_
      refine part_cons5 d L (8 * k.val) 44 (by decide) hlo (OutAt d L m hu ht 1) f (k0_off114 k) (by rw [k0_off114_eq]; rfl) (by rw [k0_off114_eq]; rfl) (k0_off114_inb k) _ (pay_ok5 d L m hu ht b1' b3' hfb.1 hfb.2 k f hf 44 (by decide) (k0_off114 k) (by rw [k0_off114_eq]; rfl) (by rw [k0_off114_eq]; rfl) (k0_off114_inb k) _ (Checks.row3_val_5 k) _ Checks.col_val_64 _ _) _ ?_
      refine part_cons5 d L (8 * k.val) 43 (by decide) hlo (OutAt d L m hu ht 1) f (k0_off113 k) (by rw [k0_off113_eq]; rfl) (by rw [k0_off113_eq]; rfl) (k0_off113_inb k) _ (pay_ok5 d L m hu ht b1' b3' hfb.1 hfb.2 k f hf 43 (by decide) (k0_off113 k) (by rw [k0_off113_eq]; rfl) (by rw [k0_off113_eq]; rfl) (k0_off113_inb k) _ (Checks.row3_val_5 k) _ Checks.col_val_48 _ _) _ ?_
      refine part_cons5 d L (8 * k.val) 42 (by decide) hlo (OutAt d L m hu ht 1) f (k0_off112 k) (by rw [k0_off112_eq]; rfl) (by rw [k0_off112_eq]; rfl) (k0_off112_inb k) _ (pay_ok5 d L m hu ht b1' b3' hfb.1 hfb.2 k f hf 42 (by decide) (k0_off112 k) (by rw [k0_off112_eq]; rfl) (by rw [k0_off112_eq]; rfl) (k0_off112_inb k) _ (Checks.row3_val_5 k) _ Checks.col_val_32 _ _) _ ?_
      refine part_cons5 d L (8 * k.val) 41 (by decide) hlo (OutAt d L m hu ht 1) f (k0_off111 k) (by rw [k0_off111_eq]; rfl) (by rw [k0_off111_eq]; rfl) (k0_off111_inb k) _ (pay_ok5 d L m hu ht b1' b3' hfb.1 hfb.2 k f hf 41 (by decide) (k0_off111 k) (by rw [k0_off111_eq]; rfl) (by rw [k0_off111_eq]; rfl) (k0_off111_inb k) _ (Checks.row3_val_5 k) _ Checks.col_val_16 _ _) _ ?_
      refine part_cons5 d L (8 * k.val) 40 (by decide) hlo (OutAt d L m hu ht 1) f (k0_off110 k) (by rw [k0_off110_eq]; rfl) (by rw [k0_off110_eq]; rfl) (k0_off110_inb k) _ (pay_ok5 d L m hu ht b1' b3' hfb.1 hfb.2 k f hf 40 (by decide) (k0_off110 k) (by rw [k0_off110_eq]; rfl) (by rw [k0_off110_eq]; rfl) (k0_off110_inb k) _ (Checks.row3_val_5 k) _ Checks.col_val_0 _ _) _ ?_
      refine part_cons5 d L (8 * k.val) 39 (by decide) hlo (OutAt d L m hu ht 1) f (k0_off109 k) (by rw [k0_off109_eq]; rfl) (by rw [k0_off109_eq]; rfl) (k0_off109_inb k) _ (pay_ok5 d L m hu ht b1' b3' hfb.1 hfb.2 k f hf 39 (by decide) (k0_off109 k) (by rw [k0_off109_eq]; rfl) (by rw [k0_off109_eq]; rfl) (k0_off109_inb k) _ (Checks.row3_val_4 k) _ Checks.col_val_112 _ _) _ ?_
      refine part_cons5 d L (8 * k.val) 38 (by decide) hlo (OutAt d L m hu ht 1) f (k0_off108 k) (by rw [k0_off108_eq]; rfl) (by rw [k0_off108_eq]; rfl) (k0_off108_inb k) _ (pay_ok5 d L m hu ht b1' b3' hfb.1 hfb.2 k f hf 38 (by decide) (k0_off108 k) (by rw [k0_off108_eq]; rfl) (by rw [k0_off108_eq]; rfl) (k0_off108_inb k) _ (Checks.row3_val_4 k) _ Checks.col_val_96 _ _) _ ?_
      refine part_cons5 d L (8 * k.val) 37 (by decide) hlo (OutAt d L m hu ht 1) f (k0_off107 k) (by rw [k0_off107_eq]; rfl) (by rw [k0_off107_eq]; rfl) (k0_off107_inb k) _ (pay_ok5 d L m hu ht b1' b3' hfb.1 hfb.2 k f hf 37 (by decide) (k0_off107 k) (by rw [k0_off107_eq]; rfl) (by rw [k0_off107_eq]; rfl) (k0_off107_inb k) _ (Checks.row3_val_4 k) _ Checks.col_val_80 _ _) _ ?_
      refine part_cons5 d L (8 * k.val) 36 (by decide) hlo (OutAt d L m hu ht 1) f (k0_off106 k) (by rw [k0_off106_eq]; rfl) (by rw [k0_off106_eq]; rfl) (k0_off106_inb k) _ (pay_ok5 d L m hu ht b1' b3' hfb.1 hfb.2 k f hf 36 (by decide) (k0_off106 k) (by rw [k0_off106_eq]; rfl) (by rw [k0_off106_eq]; rfl) (k0_off106_inb k) _ (Checks.row3_val_4 k) _ Checks.col_val_64 _ _) _ ?_
      refine part_cons5 d L (8 * k.val) 35 (by decide) hlo (OutAt d L m hu ht 1) f (k0_off105 k) (by rw [k0_off105_eq]; rfl) (by rw [k0_off105_eq]; rfl) (k0_off105_inb k) _ (pay_ok5 d L m hu ht b1' b3' hfb.1 hfb.2 k f hf 35 (by decide) (k0_off105 k) (by rw [k0_off105_eq]; rfl) (by rw [k0_off105_eq]; rfl) (k0_off105_inb k) _ (Checks.row3_val_4 k) _ Checks.col_val_48 _ _) _ ?_
      refine part_cons5 d L (8 * k.val) 34 (by decide) hlo (OutAt d L m hu ht 1) f (k0_off104 k) (by rw [k0_off104_eq]; rfl) (by rw [k0_off104_eq]; rfl) (k0_off104_inb k) _ (pay_ok5 d L m hu ht b1' b3' hfb.1 hfb.2 k f hf 34 (by decide) (k0_off104 k) (by rw [k0_off104_eq]; rfl) (by rw [k0_off104_eq]; rfl) (k0_off104_inb k) _ (Checks.row3_val_4 k) _ Checks.col_val_32 _ _) _ ?_
      refine part_cons5 d L (8 * k.val) 33 (by decide) hlo (OutAt d L m hu ht 1) f (k0_off103 k) (by rw [k0_off103_eq]; rfl) (by rw [k0_off103_eq]; rfl) (k0_off103_inb k) _ (pay_ok5 d L m hu ht b1' b3' hfb.1 hfb.2 k f hf 33 (by decide) (k0_off103 k) (by rw [k0_off103_eq]; rfl) (by rw [k0_off103_eq]; rfl) (k0_off103_inb k) _ (Checks.row3_val_4 k) _ Checks.col_val_16 _ _) _ ?_
      refine part_cons5 d L (8 * k.val) 32 (by decide) hlo (OutAt d L m hu ht 1) f (k0_off102 k) (by rw [k0_off102_eq]; rfl) (by rw [k0_off102_eq]; rfl) (k0_off102_inb k) _ (pay_ok5 d L m hu ht b1' b3' hfb.1 hfb.2 k f hf 32 (by decide) (k0_off102 k) (by rw [k0_off102_eq]; rfl) (by rw [k0_off102_eq]; rfl) (k0_off102_inb k) _ (Checks.row3_val_4 k) _ Checks.col_val_0 _ _) _ ?_
      refine part_cons5 d L (8 * k.val) 31 (by decide) hlo (OutAt d L m hu ht 1) f (k0_off101 k) (by rw [k0_off101_eq]; rfl) (by rw [k0_off101_eq]; rfl) (k0_off101_inb k) _ (pay_ok5 d L m hu ht b1' b3' hfb.1 hfb.2 k f hf 31 (by decide) (k0_off101 k) (by rw [k0_off101_eq]; rfl) (by rw [k0_off101_eq]; rfl) (k0_off101_inb k) _ (Checks.row3_val_3 k) _ Checks.col_val_112 _ _) _ ?_
      refine part_cons5 d L (8 * k.val) 30 (by decide) hlo (OutAt d L m hu ht 1) f (k0_off100 k) (by rw [k0_off100_eq]; rfl) (by rw [k0_off100_eq]; rfl) (k0_off100_inb k) _ (pay_ok5 d L m hu ht b1' b3' hfb.1 hfb.2 k f hf 30 (by decide) (k0_off100 k) (by rw [k0_off100_eq]; rfl) (by rw [k0_off100_eq]; rfl) (k0_off100_inb k) _ (Checks.row3_val_3 k) _ Checks.col_val_96 _ _) _ ?_
      refine part_cons5 d L (8 * k.val) 29 (by decide) hlo (OutAt d L m hu ht 1) f (k0_off99 k) (by rw [k0_off99_eq]; rfl) (by rw [k0_off99_eq]; rfl) (k0_off99_inb k) _ (pay_ok5 d L m hu ht b1' b3' hfb.1 hfb.2 k f hf 29 (by decide) (k0_off99 k) (by rw [k0_off99_eq]; rfl) (by rw [k0_off99_eq]; rfl) (k0_off99_inb k) _ (Checks.row3_val_3 k) _ Checks.col_val_80 _ _) _ ?_
      refine part_cons5 d L (8 * k.val) 28 (by decide) hlo (OutAt d L m hu ht 1) f (k0_off98 k) (by rw [k0_off98_eq]; rfl) (by rw [k0_off98_eq]; rfl) (k0_off98_inb k) _ (pay_ok5 d L m hu ht b1' b3' hfb.1 hfb.2 k f hf 28 (by decide) (k0_off98 k) (by rw [k0_off98_eq]; rfl) (by rw [k0_off98_eq]; rfl) (k0_off98_inb k) _ (Checks.row3_val_3 k) _ Checks.col_val_64 _ _) _ ?_
      refine part_cons5 d L (8 * k.val) 27 (by decide) hlo (OutAt d L m hu ht 1) f (k0_off97 k) (by rw [k0_off97_eq]; rfl) (by rw [k0_off97_eq]; rfl) (k0_off97_inb k) _ (pay_ok5 d L m hu ht b1' b3' hfb.1 hfb.2 k f hf 27 (by decide) (k0_off97 k) (by rw [k0_off97_eq]; rfl) (by rw [k0_off97_eq]; rfl) (k0_off97_inb k) _ (Checks.row3_val_3 k) _ Checks.col_val_48 _ _) _ ?_
      refine part_cons5 d L (8 * k.val) 26 (by decide) hlo (OutAt d L m hu ht 1) f (k0_off96 k) (by rw [k0_off96_eq]; rfl) (by rw [k0_off96_eq]; rfl) (k0_off96_inb k) _ (pay_ok5 d L m hu ht b1' b3' hfb.1 hfb.2 k f hf 26 (by decide) (k0_off96 k) (by rw [k0_off96_eq]; rfl) (by rw [k0_off96_eq]; rfl) (k0_off96_inb k) _ (Checks.row3_val_3 k) _ Checks.col_val_32 _ _) _ ?_
      refine part_cons5 d L (8 * k.val) 25 (by decide) hlo (OutAt d L m hu ht 1) f (k0_off95 k) (by rw [k0_off95_eq]; rfl) (by rw [k0_off95_eq]; rfl) (k0_off95_inb k) _ (pay_ok5 d L m hu ht b1' b3' hfb.1 hfb.2 k f hf 25 (by decide) (k0_off95 k) (by rw [k0_off95_eq]; rfl) (by rw [k0_off95_eq]; rfl) (k0_off95_inb k) _ (Checks.row3_val_3 k) _ Checks.col_val_16 _ _) _ ?_
      refine part_cons5 d L (8 * k.val) 24 (by decide) hlo (OutAt d L m hu ht 1) f (k0_off94 k) (by rw [k0_off94_eq]; rfl) (by rw [k0_off94_eq]; rfl) (k0_off94_inb k) _ (pay_ok5 d L m hu ht b1' b3' hfb.1 hfb.2 k f hf 24 (by decide) (k0_off94 k) (by rw [k0_off94_eq]; rfl) (by rw [k0_off94_eq]; rfl) (k0_off94_inb k) _ (Checks.row3_val_3 k) _ Checks.col_val_0 _ _) _ ?_
      refine part_cons5 d L (8 * k.val) 23 (by decide) hlo (OutAt d L m hu ht 1) f (k0_off93 k) (by rw [k0_off93_eq]; rfl) (by rw [k0_off93_eq]; rfl) (k0_off93_inb k) _ (pay_ok5 d L m hu ht b1' b3' hfb.1 hfb.2 k f hf 23 (by decide) (k0_off93 k) (by rw [k0_off93_eq]; rfl) (by rw [k0_off93_eq]; rfl) (k0_off93_inb k) _ (Checks.row3_val_2 k) _ Checks.col_val_112 _ _) _ ?_
      refine part_cons5 d L (8 * k.val) 22 (by decide) hlo (OutAt d L m hu ht 1) f (k0_off92 k) (by rw [k0_off92_eq]; rfl) (by rw [k0_off92_eq]; rfl) (k0_off92_inb k) _ (pay_ok5 d L m hu ht b1' b3' hfb.1 hfb.2 k f hf 22 (by decide) (k0_off92 k) (by rw [k0_off92_eq]; rfl) (by rw [k0_off92_eq]; rfl) (k0_off92_inb k) _ (Checks.row3_val_2 k) _ Checks.col_val_96 _ _) _ ?_
      refine part_cons5 d L (8 * k.val) 21 (by decide) hlo (OutAt d L m hu ht 1) f (k0_off91 k) (by rw [k0_off91_eq]; rfl) (by rw [k0_off91_eq]; rfl) (k0_off91_inb k) _ (pay_ok5 d L m hu ht b1' b3' hfb.1 hfb.2 k f hf 21 (by decide) (k0_off91 k) (by rw [k0_off91_eq]; rfl) (by rw [k0_off91_eq]; rfl) (k0_off91_inb k) _ (Checks.row3_val_2 k) _ Checks.col_val_80 _ _) _ ?_
      refine part_cons5 d L (8 * k.val) 20 (by decide) hlo (OutAt d L m hu ht 1) f (k0_off90 k) (by rw [k0_off90_eq]; rfl) (by rw [k0_off90_eq]; rfl) (k0_off90_inb k) _ (pay_ok5 d L m hu ht b1' b3' hfb.1 hfb.2 k f hf 20 (by decide) (k0_off90 k) (by rw [k0_off90_eq]; rfl) (by rw [k0_off90_eq]; rfl) (k0_off90_inb k) _ (Checks.row3_val_2 k) _ Checks.col_val_64 _ _) _ ?_
      refine part_cons5 d L (8 * k.val) 19 (by decide) hlo (OutAt d L m hu ht 1) f (k0_off89 k) (by rw [k0_off89_eq]; rfl) (by rw [k0_off89_eq]; rfl) (k0_off89_inb k) _ (pay_ok5 d L m hu ht b1' b3' hfb.1 hfb.2 k f hf 19 (by decide) (k0_off89 k) (by rw [k0_off89_eq]; rfl) (by rw [k0_off89_eq]; rfl) (k0_off89_inb k) _ (Checks.row3_val_2 k) _ Checks.col_val_48 _ _) _ ?_
      refine part_cons5 d L (8 * k.val) 18 (by decide) hlo (OutAt d L m hu ht 1) f (k0_off88 k) (by rw [k0_off88_eq]; rfl) (by rw [k0_off88_eq]; rfl) (k0_off88_inb k) _ (pay_ok5 d L m hu ht b1' b3' hfb.1 hfb.2 k f hf 18 (by decide) (k0_off88 k) (by rw [k0_off88_eq]; rfl) (by rw [k0_off88_eq]; rfl) (k0_off88_inb k) _ (Checks.row3_val_2 k) _ Checks.col_val_32 _ _) _ ?_
      refine part_cons5 d L (8 * k.val) 17 (by decide) hlo (OutAt d L m hu ht 1) f (k0_off87 k) (by rw [k0_off87_eq]; rfl) (by rw [k0_off87_eq]; rfl) (k0_off87_inb k) _ (pay_ok5 d L m hu ht b1' b3' hfb.1 hfb.2 k f hf 17 (by decide) (k0_off87 k) (by rw [k0_off87_eq]; rfl) (by rw [k0_off87_eq]; rfl) (k0_off87_inb k) _ (Checks.row3_val_2 k) _ Checks.col_val_16 _ _) _ ?_
      refine part_cons5 d L (8 * k.val) 16 (by decide) hlo (OutAt d L m hu ht 1) f (k0_off86 k) (by rw [k0_off86_eq]; rfl) (by rw [k0_off86_eq]; rfl) (k0_off86_inb k) _ (pay_ok5 d L m hu ht b1' b3' hfb.1 hfb.2 k f hf 16 (by decide) (k0_off86 k) (by rw [k0_off86_eq]; rfl) (by rw [k0_off86_eq]; rfl) (k0_off86_inb k) _ (Checks.row3_val_2 k) _ Checks.col_val_0 _ _) _ ?_
      refine part_cons5 d L (8 * k.val) 15 (by decide) hlo (OutAt d L m hu ht 1) f (k0_off85 k) (by rw [k0_off85_eq]; rfl) (by rw [k0_off85_eq]; rfl) (k0_off85_inb k) _ (pay_ok5 d L m hu ht b1' b3' hfb.1 hfb.2 k f hf 15 (by decide) (k0_off85 k) (by rw [k0_off85_eq]; rfl) (by rw [k0_off85_eq]; rfl) (k0_off85_inb k) _ (Checks.row3_val_1 k) _ Checks.col_val_112 _ _) _ ?_
      refine part_cons5 d L (8 * k.val) 14 (by decide) hlo (OutAt d L m hu ht 1) f (k0_off84 k) (by rw [k0_off84_eq]; rfl) (by rw [k0_off84_eq]; rfl) (k0_off84_inb k) _ (pay_ok5 d L m hu ht b1' b3' hfb.1 hfb.2 k f hf 14 (by decide) (k0_off84 k) (by rw [k0_off84_eq]; rfl) (by rw [k0_off84_eq]; rfl) (k0_off84_inb k) _ (Checks.row3_val_1 k) _ Checks.col_val_96 _ _) _ ?_
      refine part_cons5 d L (8 * k.val) 13 (by decide) hlo (OutAt d L m hu ht 1) f (k0_off83 k) (by rw [k0_off83_eq]; rfl) (by rw [k0_off83_eq]; rfl) (k0_off83_inb k) _ (pay_ok5 d L m hu ht b1' b3' hfb.1 hfb.2 k f hf 13 (by decide) (k0_off83 k) (by rw [k0_off83_eq]; rfl) (by rw [k0_off83_eq]; rfl) (k0_off83_inb k) _ (Checks.row3_val_1 k) _ Checks.col_val_80 _ _) _ ?_
      refine part_cons5 d L (8 * k.val) 12 (by decide) hlo (OutAt d L m hu ht 1) f (k0_off82 k) (by rw [k0_off82_eq]; rfl) (by rw [k0_off82_eq]; rfl) (k0_off82_inb k) _ (pay_ok5 d L m hu ht b1' b3' hfb.1 hfb.2 k f hf 12 (by decide) (k0_off82 k) (by rw [k0_off82_eq]; rfl) (by rw [k0_off82_eq]; rfl) (k0_off82_inb k) _ (Checks.row3_val_1 k) _ Checks.col_val_64 _ _) _ ?_
      refine part_cons5 d L (8 * k.val) 11 (by decide) hlo (OutAt d L m hu ht 1) f (k0_off81 k) (by rw [k0_off81_eq]; rfl) (by rw [k0_off81_eq]; rfl) (k0_off81_inb k) _ (pay_ok5 d L m hu ht b1' b3' hfb.1 hfb.2 k f hf 11 (by decide) (k0_off81 k) (by rw [k0_off81_eq]; rfl) (by rw [k0_off81_eq]; rfl) (k0_off81_inb k) _ (Checks.row3_val_1 k) _ Checks.col_val_48 _ _) _ ?_
      refine part_cons5 d L (8 * k.val) 10 (by decide) hlo (OutAt d L m hu ht 1) f (k0_off80 k) (by rw [k0_off80_eq]; rfl) (by rw [k0_off80_eq]; rfl) (k0_off80_inb k) _ (pay_ok5 d L m hu ht b1' b3' hfb.1 hfb.2 k f hf 10 (by decide) (k0_off80 k) (by rw [k0_off80_eq]; rfl) (by rw [k0_off80_eq]; rfl) (k0_off80_inb k) _ (Checks.row3_val_1 k) _ Checks.col_val_32 _ _) _ ?_
      refine part_cons5 d L (8 * k.val) 9 (by decide) hlo (OutAt d L m hu ht 1) f (k0_off79 k) (by rw [k0_off79_eq]; rfl) (by rw [k0_off79_eq]; rfl) (k0_off79_inb k) _ (pay_ok5 d L m hu ht b1' b3' hfb.1 hfb.2 k f hf 9 (by decide) (k0_off79 k) (by rw [k0_off79_eq]; rfl) (by rw [k0_off79_eq]; rfl) (k0_off79_inb k) _ (Checks.row3_val_1 k) _ Checks.col_val_16 _ _) _ ?_
      refine part_cons5 d L (8 * k.val) 8 (by decide) hlo (OutAt d L m hu ht 1) f (k0_off78 k) (by rw [k0_off78_eq]; rfl) (by rw [k0_off78_eq]; rfl) (k0_off78_inb k) _ (pay_ok5 d L m hu ht b1' b3' hfb.1 hfb.2 k f hf 8 (by decide) (k0_off78 k) (by rw [k0_off78_eq]; rfl) (by rw [k0_off78_eq]; rfl) (k0_off78_inb k) _ (Checks.row3_val_1 k) _ Checks.col_val_0 _ _) _ ?_
      refine part_cons5 d L (8 * k.val) 7 (by decide) hlo (OutAt d L m hu ht 1) f (k0_off77 k) (by rw [k0_off77_eq]; rfl) (by rw [k0_off77_eq]; rfl) (k0_off77_inb k) _ (pay_ok5 d L m hu ht b1' b3' hfb.1 hfb.2 k f hf 7 (by decide) (k0_off77 k) (by rw [k0_off77_eq]; rfl) (by rw [k0_off77_eq]; rfl) (k0_off77_inb k) _ (Checks.row3_val_0 k) _ Checks.col_val_112 _ _) _ ?_
      refine part_cons5 d L (8 * k.val) 6 (by decide) hlo (OutAt d L m hu ht 1) f (k0_off76 k) (by rw [k0_off76_eq]; rfl) (by rw [k0_off76_eq]; rfl) (k0_off76_inb k) _ (pay_ok5 d L m hu ht b1' b3' hfb.1 hfb.2 k f hf 6 (by decide) (k0_off76 k) (by rw [k0_off76_eq]; rfl) (by rw [k0_off76_eq]; rfl) (k0_off76_inb k) _ (Checks.row3_val_0 k) _ Checks.col_val_96 _ _) _ ?_
      refine part_cons5 d L (8 * k.val) 5 (by decide) hlo (OutAt d L m hu ht 1) f (k0_off75 k) (by rw [k0_off75_eq]; rfl) (by rw [k0_off75_eq]; rfl) (k0_off75_inb k) _ (pay_ok5 d L m hu ht b1' b3' hfb.1 hfb.2 k f hf 5 (by decide) (k0_off75 k) (by rw [k0_off75_eq]; rfl) (by rw [k0_off75_eq]; rfl) (k0_off75_inb k) _ (Checks.row3_val_0 k) _ Checks.col_val_80 _ _) _ ?_
      refine part_cons5 d L (8 * k.val) 4 (by decide) hlo (OutAt d L m hu ht 1) f (k0_off74 k) (by rw [k0_off74_eq]; rfl) (by rw [k0_off74_eq]; rfl) (k0_off74_inb k) _ (pay_ok5 d L m hu ht b1' b3' hfb.1 hfb.2 k f hf 4 (by decide) (k0_off74 k) (by rw [k0_off74_eq]; rfl) (by rw [k0_off74_eq]; rfl) (k0_off74_inb k) _ (Checks.row3_val_0 k) _ Checks.col_val_64 _ _) _ ?_
      refine part_cons5 d L (8 * k.val) 3 (by decide) hlo (OutAt d L m hu ht 1) f (k0_off73 k) (by rw [k0_off73_eq]; rfl) (by rw [k0_off73_eq]; rfl) (k0_off73_inb k) _ (pay_ok5 d L m hu ht b1' b3' hfb.1 hfb.2 k f hf 3 (by decide) (k0_off73 k) (by rw [k0_off73_eq]; rfl) (by rw [k0_off73_eq]; rfl) (k0_off73_inb k) _ (Checks.row3_val_0 k) _ Checks.col_val_48 _ _) _ ?_
      refine part_cons5 d L (8 * k.val) 2 (by decide) hlo (OutAt d L m hu ht 1) f (k0_off72 k) (by rw [k0_off72_eq]; rfl) (by rw [k0_off72_eq]; rfl) (k0_off72_inb k) _ (pay_ok5 d L m hu ht b1' b3' hfb.1 hfb.2 k f hf 2 (by decide) (k0_off72 k) (by rw [k0_off72_eq]; rfl) (by rw [k0_off72_eq]; rfl) (k0_off72_inb k) _ (Checks.row3_val_0 k) _ Checks.col_val_32 _ _) _ ?_
      refine part_cons5 d L (8 * k.val) 1 (by decide) hlo (OutAt d L m hu ht 1) f (k0_off71 k) (by rw [k0_off71_eq]; rfl) (by rw [k0_off71_eq]; rfl) (k0_off71_inb k) _ (pay_ok5 d L m hu ht b1' b3' hfb.1 hfb.2 k f hf 1 (by decide) (k0_off71 k) (by rw [k0_off71_eq]; rfl) (by rw [k0_off71_eq]; rfl) (k0_off71_inb k) _ (Checks.row3_val_0 k) _ Checks.col_val_16 _ _) _ ?_
      refine part_cons5 d L (8 * k.val) 0 (by decide) hlo (OutAt d L m hu ht 1) f (k0_off70 k) (by rw [k0_off70_eq]; rfl) (by rw [k0_off70_eq]; rfl) (k0_off70_inb k) _ (pay_ok5 d L m hu ht b1' b3' hfb.1 hfb.2 k f hf 0 (by decide) (k0_off70 k) (by rw [k0_off70_eq]; rfl) (by rw [k0_off70_eq]; rfl) (k0_off70_inb k) _ (Checks.row3_val_0 k) _ Checks.col_val_0 _ _) _ ?_
      exact part_zero _ _ _
  · unfold inv3
    iexists _, _
    isplitr
    · ipureintro; exact hfb2
    isplitl [Hs1]; · iexact Hs1
    isplitl [Hs3]; · iexact Hs3
    iexists _
    isplitr
    · ipureintro; sl_unfold_run_names; exact low3_zero d L m hu ht _ (in_entry5 d L m f5)
    · iexact Hs5
  iintro %_ HI
  unfold inv3
  icases HI with ⟨%c1, %c3, %hfc, Hs1, Hs3, %g5, %hg5, Hs5⟩
  sl_exec
  sl_step
  have h32a : Scf.trips k0_t2_loop.lb k0_t2_loop.ub k0_t2_loop.st = 32 := by decide +kernel
  have h32b : Scf.trips k0_t3_loop.lb k0_t3_loop.ub k0_t3_loop.st = 32 := by decide +kernel
  rw [h32a] at hg4
  rw [h32b] at hg5
  sl_unfold_run_names
  ihave Ho0 := (Entails.of_eq ((pts_o0 (F := F) d L _).trans (pointsTo_congr (out_block0' d L m hu ht fo0 g4 hg4 (ReadAs.same.apply (View.read (Elt F) (Memref.whole cc0_scratch4).view g4)) (fun _ => rfl))))) $$ Ho0
  ihave Ho1 := (Entails.of_eq ((pts_o1 (F := F) d L _).trans (pointsTo_congr (out_block1' d L m hu ht fo1 g5 hg5 (ReadAs.same.apply (View.read (Elt F) (Memref.whole cc0_scratch5).view g5)) (fun _ => rfl))))) $$ Ho1
  isplitl [Hx0 Hx1 Hu Ht Hd Ho0 Ho1]
  · isplitl [Hx0 Hx1 Hu Ht Hd]
    · isplitl [Hx0]; · iapply (Entails.of_eq (pts_x0 (F := F) d L _)); iexact Hx0
      isplitl [Hx1]; · iapply (Entails.of_eq (pts_x1 (F := F) d L _)); iexact Hx1
      isplitl [Hu]; · iapply (Entails.of_eq (pts_u (F := F) d L _)); iexact Hu
      isplitl [Ht]; · iapply (Entails.of_eq (pts_t (F := F) d L q _)); iexact Ht
      iapply (Entails.of_eq (pts_d (F := F) d L q _)); iexact Hd
    isplitl [Ho0]; · iexact Ho0
    iexact Ho1
  isplitl [Hs0 Hs1 Hs2 Hs3 Hs4 Hs5 Hbufs]
  ·
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hc6 Hc7 Hc8 Hc9 Hc10 Hc11 Hc12 Hsems]
  ·
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    iexact Hsems
  iexists _
  isplitr
  rotate_left
  · iexact HO
  · ipureintro
    intro p hp
    simp only [Finset.mem_insert] at hp
    rcases hp with rfl | rfl | rfl | rfl | rfl | rfl | rfl | hp
    all_goals first | exact .inr rfl | exact .inl hp

end Cert.Kernel.Body

end
-- ==== Proof.ChecksKernelIdeal.lean ====
/-
  The in-range checks a task's body assumes, as pure facts.

  The body indexes its scratch arrays through vectors of words and assumes, before each indexed load, that every word
  names an element: a row of the composed index list (512 entries), an entry of the index table or a row of the delta
  table (100), a column (128). The rows it broadcasts are `base + 8 k + c` for trip `k < 32` of a loop and `c < 8`, with
  `base` 0 or 256: below 512. The columns are the lane number `0 … 15` plus a multiple of 16 up to 112: below 128. The
  looked-up words are below 100 when the tables' entries are (a hypothesis here).
-/
import proofs.«202775_g10411000725526_cont_sun_m_1212_8_alg».proof.KernelIdeal
import proofs.«202775_g10411000725526_cont_sun_m_1212_8_alg».proof.Proof.Gen.KernelIdeal
import proofs.«202775_g10411000725526_cont_sun_m_1212_8_alg».proof.Proof.SkeletonKernelIdealP

namespace Cert.KernelIdeal.Checks

open Cert.KernelIdeal Cert.KernelIdeal.Gen Cert.KernelIdeal.GenP

open Idealize.ShloMosaic

/-- The lane numbers `0 … 15`, as the body makes them. -/
local notation "v14" => iota Kind.scVector S16 32 [0] iota_S16_d0_w32_scVector

/-! ## The broadcast rows: `base + 8 k + c < 512` -/

theorem row2_lt_0 (k : Fin k0_t2_loop.trips) :
    (Scalar.addi (Scalar.addi 0#32 (Scalar.muli (Scf.iv 0#32 1#32 k) 8#32)) 0#32).toNat < 512 := by revert k; decide +kernel
theorem row2_lt_1 (k : Fin k0_t2_loop.trips) :
    (Scalar.addi (Scalar.addi 0#32 (Scalar.muli (Scf.iv 0#32 1#32 k) 8#32)) 1#32).toNat < 512 := by revert k; decide +kernel
theorem row2_lt_2 (k : Fin k0_t2_loop.trips) :
    (Scalar.addi (Scalar.addi 0#32 (Scalar.muli (Scf.iv 0#32 1#32 k) 8#32)) 2#32).toNat < 512 := by revert k; decide +kernel
theorem row2_lt_3 (k : Fin k0_t2_loop.trips) :
    (Scalar.addi (Scalar.addi 0#32 (Scalar.muli (Scf.iv 0#32 1#32 k) 8#32)) 3#32).toNat < 512 := by revert k; decide +kernel
theorem row2_lt_4 (k : Fin k0_t2_loop.trips) :
    (Scalar.addi (Scalar.addi 0#32 (Scalar.muli (Scf.iv 0#32 1#32 k) 8#32)) 4#32).toNat < 512 := by revert k; decide +kernel
theorem row2_lt_5 (k : Fin k0_t2_loop.trips) :
    (Scalar.addi (Scalar.addi 0#32 (Scalar.muli (Scf.iv 0#32 1#32 k) 8#32)) 5#32).toNat < 512 := by revert k; decide +kernel
theorem row2_lt_6 (k : Fin k0_t2_loop.trips) :
    (Scalar.addi (Scalar.addi 0#32 (Scalar.muli (Scf.iv 0#32 1#32 k) 8#32)) 6#32).toNat < 512 := by revert k; decide +kernel
theorem row2_lt_7 (k : Fin k0_t2_loop.trips) :
    (Scalar.addi (Scalar.addi 0#32 (Scalar.muli (Scf.iv 0#32 1#32 k) 8#32)) 7#32).toNat < 512 := by revert k; decide +kernel
theorem row3_lt_0 (k : Fin k0_t3_loop.trips) :
    (Scalar.addi (Scalar.addi 256#32 (Scalar.muli (Scf.iv 0#32 1#32 k) 8#32)) 0#32).toNat < 512 := by revert k; decide +kernel
theorem row3_lt_1 (k : Fin k0_t3_loop.trips) :
    (Scalar.addi (Scalar.addi 256#32 (Scalar.muli (Scf.iv 0#32 1#32 k) 8#32)) 1#32).toNat < 512 := by revert k; decide +kernel
theorem row3_lt_2 (k : Fin k0_t3_loop.trips) :
    (Scalar.addi (Scalar.addi 256#32 (Scalar.muli (Scf.iv 0#32 1#32 k) 8#32)) 2#32).toNat < 512 := by revert k; decide +kernel
theorem row3_lt_3 (k : Fin k0_t3_loop.trips) :
    (Scalar.addi (Scalar.addi 256#32 (Scalar.muli (Scf.iv 0#32 1#32 k) 8#32)) 3#32).toNat < 512 := by revert k; decide +kernel
theorem row3_lt_4 (k : Fin k0_t3_loop.trips) :
    (Scalar.addi (Scalar.addi 256#32 (Scalar.muli (Scf.iv 0#32 1#32 k) 8#32)) 4#32).toNat < 512 := by revert k; decide +kernel
theorem row3_lt_5 (k : Fin k0_t3_loop.trips) :
    (Scalar.addi (Scalar.addi 256#32 (Scalar.muli (Scf.iv 0#32 1#32 k) 8#32)) 5#32).toNat < 512 := by revert k; decide +kernel
theorem row3_lt_6 (k : Fin k0_t3_loop.trips) :
    (Scalar.addi (Scalar.addi 256#32 (Scalar.muli (Scf.iv 0#32 1#32 k) 8#32)) 6#32).toNat < 512 := by revert k; decide +kernel
theorem row3_lt_7 (k : Fin k0_t3_loop.trips) :
    (Scalar.addi (Scalar.addi 256#32 (Scalar.muli (Scf.iv 0#32 1#32 k) 8#32)) 7#32).toNat < 512 := by revert k; decide +kernel

/-- A broadcast word below 512 names an entry of the composed index list: the body of the checks before the row
    look-ups. -/
theorem chkB (w : BitVec 32) (h : w.toNat < 512) : ∀ a x, ((![broadcast S16 w] : Fin 1 → IVec S16 32) a x).toNat < S512.size a := by
  intro a x
  match a with
  | 0 => exact h

/-! ## The columns: lane number plus a multiple of 16, below 128 -/

theorem col_lt_0 : ∀ x : S16.Idx, ((addi v14 (broadcast S16 0#32)) x).toNat < 128 := by decide +kernel
theorem col_lt_16 : ∀ x : S16.Idx, ((addi v14 (broadcast S16 16#32)) x).toNat < 128 := by decide +kernel
theorem col_lt_32 : ∀ x : S16.Idx, ((addi v14 (broadcast S16 32#32)) x).toNat < 128 := by decide +kernel
theorem col_lt_48 : ∀ x : S16.Idx, ((addi v14 (broadcast S16 48#32)) x).toNat < 128 := by decide +kernel
theorem col_lt_64 : ∀ x : S16.Idx, ((addi v14 (broadcast S16 64#32)) x).toNat < 128 := by decide +kernel
theorem col_lt_80 : ∀ x : S16.Idx, ((addi v14 (broadcast S16 80#32)) x).toNat < 128 := by decide +kernel
theorem col_lt_96 : ∀ x : S16.Idx, ((addi v14 (broadcast S16 96#32)) x).toNat < 128 := by decide +kernel
theorem col_lt_112 : ∀ x : S16.Idx, ((k0_pay1 v14) x).toNat < 128 := by decide +kernel

/-! ## The looked-up words -/

/-- A pair of index vectors, the first below 100 and the second below 128, names elements of the delta table. -/
theorem pair_lt (v c : IVec S16 32) (hv : ∀ x, (v x).toNat < 100) (hc : ∀ x, (c x).toNat < 128) :
    ∀ a x, ((![v, c] : Fin 2 → IVec S16 32) a x).toNat < S100x128.size a := by
  intro a x
  match a with
  | 0 => exact hv x
  | 1 => exact hc x

/-- The eight facts a check before the delta look-ups states, over the eight column vectors. -/
theorem chkD_body (v : IVec S16 32) (hv : ∀ x, (v x).toNat < 100) :
    (∀ a x, ((![v, addi v14 (broadcast S16 0#32)] : Fin 2 → IVec S16 32) a x).toNat < S100x128.size a) ∧
    (∀ a x, ((![v, addi v14 (broadcast S16 16#32)] : Fin 2 → IVec S16 32) a x).toNat < S100x128.size a) ∧
    (∀ a x, ((![v, addi v14 (broadcast S16 32#32)] : Fin 2 → IVec S16 32) a x).toNat < S100x128.size a) ∧
    (∀ a x, ((![v, addi v14 (broadcast S16 48#32)] : Fin 2 → IVec S16 32) a x).toNat < S100x128.size a) ∧
    (∀ a x, ((![v, addi v14 (broadcast S16 64#32)] : Fin 2 → IVec S16 32) a x).toNat < S100x128.size a) ∧
    (∀ a x, ((![v, addi v14 (broadcast S16 80#32)] : Fin 2 → IVec S16 32) a x).toNat < S100x128.size a) ∧
    (∀ a x, ((![v, addi v14 (broadcast S16 96#32)] : Fin 2 → IVec S16 32) a x).toNat < S100x128.size a) ∧
    (∀ a x, ((![v, k0_pay1 v14] : Fin 2 → IVec S16 32) a x).toNat < S100x128.size a) :=
  ⟨pair_lt v _ hv col_lt_0, pair_lt v _ hv col_lt_16, pair_lt v _ hv col_lt_32, pair_lt v _ hv col_lt_48,
    pair_lt v _ hv col_lt_64, pair_lt v _ hv col_lt_80, pair_lt v _ hv col_lt_96, pair_lt v _ hv col_lt_112⟩

theorem chkD10 (v : IVec S16 32) (hv : ∀ x, (v x).toNat < 100) :
    k0_chk10 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD11 (v : IVec S16 32) (hv : ∀ x, (v x).toNat < 100) :
    k0_chk11 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD12 (v : IVec S16 32) (hv : ∀ x, (v x).toNat < 100) :
    k0_chk12 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD13 (v : IVec S16 32) (hv : ∀ x, (v x).toNat < 100) :
    k0_chk13 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD14 (v : IVec S16 32) (hv : ∀ x, (v x).toNat < 100) :
    k0_chk14 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD15 (v : IVec S16 32) (hv : ∀ x, (v x).toNat < 100) :
    k0_chk15 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD16 (v : IVec S16 32) (hv : ∀ x, (v x).toNat < 100) :
    k0_chk16 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD17 (v : IVec S16 32) (hv : ∀ x, (v x).toNat < 100) :
    k0_chk17 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD26 (v : IVec S16 32) (hv : ∀ x, (v x).toNat < 100) :
    k0_chk26 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD27 (v : IVec S16 32) (hv : ∀ x, (v x).toNat < 100) :
    k0_chk27 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD28 (v : IVec S16 32) (hv : ∀ x, (v x).toNat < 100) :
    k0_chk28 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD29 (v : IVec S16 32) (hv : ∀ x, (v x).toNat < 100) :
    k0_chk29 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD30 (v : IVec S16 32) (hv : ∀ x, (v x).toNat < 100) :
    k0_chk30 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD31 (v : IVec S16 32) (hv : ∀ x, (v x).toNat < 100) :
    k0_chk31 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD32 (v : IVec S16 32) (hv : ∀ x, (v x).toNat < 100) :
    k0_chk32 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv
theorem chkD33 (v : IVec S16 32) (hv : ∀ x, (v x).toNat < 100) :
    k0_chk33 (addi v14 (broadcast S16 0#32)) (addi v14 (broadcast S16 16#32)) (addi v14 (broadcast S16 32#32)) (addi v14 (broadcast S16 48#32))
      (addi v14 (broadcast S16 64#32)) (addi v14 (broadcast S16 80#32)) (addi v14 (broadcast S16 96#32)) (k0_pay1 v14) v := chkD_body v hv

/-- Words below 100 name entries of the index table: the check before the composing look-up. -/
theorem chk1_of (v : IVec S16 32) (hv : ∀ x, (v x).toNat < 100) : k0_chk1 v := by
  intro a x
  match a with
  | 0 => exact hv x

/-- The row checks at a broadcast, all sixteen by the one fact. -/
theorem chkB2 (w : BitVec 32) (h : w.toNat < 512) : k0_chk2 (broadcast S16 w) := chkB w h
theorem chkB3 (w : BitVec 32) (h : w.toNat < 512) : k0_chk3 (broadcast S16 w) := chkB w h
theorem chkB4 (w : BitVec 32) (h : w.toNat < 512) : k0_chk4 (broadcast S16 w) := chkB w h
theorem chkB5 (w : BitVec 32) (h : w.toNat < 512) : k0_chk5 (broadcast S16 w) := chkB w h
theorem chkB6 (w : BitVec 32) (h : w.toNat < 512) : k0_chk6 (broadcast S16 w) := chkB w h
theorem chkB7 (w : BitVec 32) (h : w.toNat < 512) : k0_chk7 (broadcast S16 w) := chkB w h
theorem chkB8 (w : BitVec 32) (h : w.toNat < 512) : k0_chk8 (broadcast S16 w) := chkB w h
theorem chkB9 (w : BitVec 32) (h : w.toNat < 512) : k0_chk9 (broadcast S16 w) := chkB w h
theorem chkB18 (w : BitVec 32) (h : w.toNat < 512) : k0_chk18 (broadcast S16 w) := chkB w h
theorem chkB19 (w : BitVec 32) (h : w.toNat < 512) : k0_chk19 (broadcast S16 w) := chkB w h
theorem chkB20 (w : BitVec 32) (h : w.toNat < 512) : k0_chk20 (broadcast S16 w) := chkB w h
theorem chkB21 (w : BitVec 32) (h : w.toNat < 512) : k0_chk21 (broadcast S16 w) := chkB w h
theorem chkB22 (w : BitVec 32) (h : w.toNat < 512) : k0_chk22 (broadcast S16 w) := chkB w h
theorem chkB23 (w : BitVec 32) (h : w.toNat < 512) : k0_chk23 (broadcast S16 w) := chkB w h
theorem chkB24 (w : BitVec 32) (h : w.toNat < 512) : k0_chk24 (broadcast S16 w) := chkB w h
theorem chkB25 (w : BitVec 32) (h : w.toNat < 512) : k0_chk25 (broadcast S16 w) := chkB w h

/-! ## The same words' values -/

theorem row2_val_0 (k : Fin k0_t2_loop.trips) :
    (Scalar.addi (Scalar.addi 0#32 (Scalar.muli (Scf.iv 0#32 1#32 k) 8#32)) 0#32).toNat = 8 * k.val + 0 := by revert k; decide +kernel
theorem row2_val_1 (k : Fin k0_t2_loop.trips) :
    (Scalar.addi (Scalar.addi 0#32 (Scalar.muli (Scf.iv 0#32 1#32 k) 8#32)) 1#32).toNat = 8 * k.val + 1 := by revert k; decide +kernel
theorem row2_val_2 (k : Fin k0_t2_loop.trips) :
    (Scalar.addi (Scalar.addi 0#32 (Scalar.muli (Scf.iv 0#32 1#32 k) 8#32)) 2#32).toNat = 8 * k.val + 2 := by revert k; decide +kernel
theorem row2_val_3 (k : Fin k0_t2_loop.trips) :
    (Scalar.addi (Scalar.addi 0#32 (Scalar.muli (Scf.iv 0#32 1#32 k) 8#32)) 3#32).toNat = 8 * k.val + 3 := by revert k; decide +kernel
theorem row2_val_4 (k : Fin k0_t2_loop.trips) :
    (Scalar.addi (Scalar.addi 0#32 (Scalar.muli (Scf.iv 0#32 1#32 k) 8#32)) 4#32).toNat = 8 * k.val + 4 := by revert k; decide +kernel
theorem row2_val_5 (k : Fin k0_t2_loop.trips) :
    (Scalar.addi (Scalar.addi 0#32 (Scalar.muli (Scf.iv 0#32 1#32 k) 8#32)) 5#32).toNat = 8 * k.val + 5 := by revert k; decide +kernel
theorem row2_val_6 (k : Fin k0_t2_loop.trips) :
    (Scalar.addi (Scalar.addi 0#32 (Scalar.muli (Scf.iv 0#32 1#32 k) 8#32)) 6#32).toNat = 8 * k.val + 6 := by revert k; decide +kernel
theorem row2_val_7 (k : Fin k0_t2_loop.trips) :
    (Scalar.addi (Scalar.addi 0#32 (Scalar.muli (Scf.iv 0#32 1#32 k) 8#32)) 7#32).toNat = 8 * k.val + 7 := by revert k; decide +kernel
theorem row3_val_0 (k : Fin k0_t3_loop.trips) :
    (Scalar.addi (Scalar.addi 256#32 (Scalar.muli (Scf.iv 0#32 1#32 k) 8#32)) 0#32).toNat = 256 + 8 * k.val + 0 := by revert k; decide +kernel
theorem row3_val_1 (k : Fin k0_t3_loop.trips) :
    (Scalar.addi (Scalar.addi 256#32 (Scalar.muli (Scf.iv 0#32 1#32 k) 8#32)) 1#32).toNat = 256 + 8 * k.val + 1 := by revert k; decide +kernel
theorem row3_val_2 (k : Fin k0_t3_loop.trips) :
    (Scalar.addi (Scalar.addi 256#32 (Scalar.muli (Scf.iv 0#32 1#32 k) 8#32)) 2#32).toNat = 256 + 8 * k.val + 2 := by revert k; decide +kernel
theorem row3_val_3 (k : Fin k0_t3_loop.trips) :
    (Scalar.addi (Scalar.addi 256#32 (Scalar.muli (Scf.iv 0#32 1#32 k) 8#32)) 3#32).toNat = 256 + 8 * k.val + 3 := by revert k; decide +kernel
theorem row3_val_4 (k : Fin k0_t3_loop.trips) :
    (Scalar.addi (Scalar.addi 256#32 (Scalar.muli (Scf.iv 0#32 1#32 k) 8#32)) 4#32).toNat = 256 + 8 * k.val + 4 := by revert k; decide +kernel
theorem row3_val_5 (k : Fin k0_t3_loop.trips) :
    (Scalar.addi (Scalar.addi 256#32 (Scalar.muli (Scf.iv 0#32 1#32 k) 8#32)) 5#32).toNat = 256 + 8 * k.val + 5 := by revert k; decide +kernel
theorem row3_val_6 (k : Fin k0_t3_loop.trips) :
    (Scalar.addi (Scalar.addi 256#32 (Scalar.muli (Scf.iv 0#32 1#32 k) 8#32)) 6#32).toNat = 256 + 8 * k.val + 6 := by revert k; decide +kernel
theorem row3_val_7 (k : Fin k0_t3_loop.trips) :
    (Scalar.addi (Scalar.addi 256#32 (Scalar.muli (Scf.iv 0#32 1#32 k) 8#32)) 7#32).toNat = 256 + 8 * k.val + 7 := by revert k; decide +kernel
theorem col_val_0 : ∀ x : S16.Idx, ((addi v14 (broadcast S16 0#32)) x).toNat = 0 + (x 0).val := by decide +kernel
theorem col_val_16 : ∀ x : S16.Idx, ((addi v14 (broadcast S16 16#32)) x).toNat = 16 + (x 0).val := by decide +kernel
theorem col_val_32 : ∀ x : S16.Idx, ((addi v14 (broadcast S16 32#32)) x).toNat = 32 + (x 0).val := by decide +kernel
theorem col_val_48 : ∀ x : S16.Idx, ((addi v14 (broadcast S16 48#32)) x).toNat = 48 + (x 0).val := by decide +kernel
theorem col_val_64 : ∀ x : S16.Idx, ((addi v14 (broadcast S16 64#32)) x).toNat = 64 + (x 0).val := by decide +kernel
theorem col_val_80 : ∀ x : S16.Idx, ((addi v14 (broadcast S16 80#32)) x).toNat = 80 + (x 0).val := by decide +kernel
theorem col_val_96 : ∀ x : S16.Idx, ((addi v14 (broadcast S16 96#32)) x).toNat = 96 + (x 0).val := by decide +kernel
theorem col_val_112 : ∀ x : S16.Idx, ((k0_pay1 v14) x).toNat = 112 + (x 0).val := by decide +kernel

/-- Each chunk's loop makes 32 trips. -/
theorem trips2 : k0_t2_loop.trips = 32 := by decide +kernel
theorem trips3 : k0_t3_loop.trips = 32 := by decide +kernel
theorem trips2' : Scf.trips k0_t2_loop.lb k0_t2_loop.ub k0_t2_loop.st = 32 := trips2
theorem trips3' : Scf.trips k0_t3_loop.lb k0_t3_loop.ub k0_t3_loop.st = 32 := trips3

end Cert.KernelIdeal.Checks
-- ==== Proof.BodyFacts1KernelIdeal.lean ====
/-
  Pure facts about one tile's task, for the proof of its body: what the fetched scratches hold, what a trip of the
  first loop (the composition of the two lookups) adds to its invariant, and the range facts the two indexed loads ask.

  The task's user indices are a slice of the launch array, so each is below 100 by the first range fact, and names an
  entry of the index table; that entry is below 100 by the second, and names a row of the delta table. A trip of the
  first loop reads sixteen user indices, looks each up in the index table, and stores the sixteen entries at the same
  sixteen places of the composed array: entries `[16 k, 16 k + 16)` then hold the composed lookup, and the entries
  below them are untouched.
-/
import proofs.«202775_g10411000725526_cont_sun_m_1212_8_alg».proof.Proof.BodyDefsKernelIdeal

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## The sixteen places a trip of the first loop reads and writes -/

/-- Place `x` of trip `k`'s sixteen, as an index of the 512. -/
def rowAt (k : Fin k0_t1_loop.trips) (x : S16.Idx) : S512.Idx := (Rect.unit (s := S512) (k0_off3 k) S16.size (k0_off3_inb k)).toLoadRect.idx x

theorem rowAt_val (k : Fin k0_t1_loop.trips) (x : S16.Idx) : ((rowAt k x) 0).val = 16 * k.val + (x 0).val := by
  unfold rowAt
  rw [LoadRect.idx_apply]
  show (k0_off3 k) 0 + 1 * (x 0).val = _
  rw [k0_off3_eq k]
  show 16 * k.val + 1 * (x 0).val = _
  omega

/-- The store's rectangle places `x` at the same index. -/
theorem emb4_eq (k : Fin k0_t1_loop.trips) (x : S16.Idx) : (Rect.unit (s := S512) (k0_off4 k) S16.size (k0_off4_inb k)).emb x = rowAt k x := by
  funext a
  obtain rfl : a = 0 := Subsingleton.elim _ _
  refine Fin.ext ?_
  rw [rowAt_val, Rect.emb_apply]
  show (k0_off4 k) 0 + 1 * (x 0).val = _
  rw [k0_off4_eq k]
  show 16 * k.val + 1 * (x 0).val = _
  omega

/-- What the load of the sixteen user indices reads, under the entry fact. -/
theorem row_read (a0 : B0 (F := F) d L) (h0 : Fact0 d L m a0) (k : Fin k0_t1_loop.trips) (x : S16.Idx) :
    (View.readAt (Elt F) (Memref.whole cc0_scratch0).view (Rect.unit (s := S512) (k0_off3 k) S16.size (k0_off3_inb k)).toLoadRect a0) x = m (uLoc d) ((uS L).view.emb (rowAt k x)) :=
  h0 (rowAt k x)

/-! ## (1) The sixteen user indices are below 100 -/

include hu in
theorem lt100_row (a0 : B0 (F := F) d L) (h0 : Fact0 d L m a0) (k : Fin k0_t1_loop.trips) :
    ∀ x, ((View.readAt (Elt F) (Memref.whole cc0_scratch0).view (Rect.unit (s := S512) (k0_off3 k) S16.size (k0_off3_inb k)).toLoadRect a0) x).toNat < 100 := by
  intro x
  rw [row_read d L m a0 h0 k x]
  exact hu d _

/-! ## (2) A trip of the first loop -/

theorem low1_step (a0 : B0 (F := F) d L) (a2 : B2 (F := F) d L) (f : B1 (F := F) d L) (h0 : Fact0 d L m a0) (h2 : Fact2 d L m a2)
    (k : Fin k0_t1_loop.trips) (hf : Low1 d L m hu k.val f)
    (h : ∀ a x, ((![View.readAt (Elt F) (Memref.whole cc0_scratch0).view (Rect.unit (s := S512) (k0_off3 k) S16.size (k0_off3_inb k)).toLoadRect a0] : Fin 1 → IVec S16 32) a x).toNat < S100.size a) :
    Low1 d L m hu (k.val + 1) ((Memref.whole cc0_scratch1).view.writes (Elt F) f [⟨(Rect.unit (s := S512) (k0_off4 k) S16.size (k0_off4_inb k)), loadIdx (View.readAt (Elt F) (Memref.whole cc0_scratch2).view (LoadRect.whole S100) a2) ![View.readAt (Elt F) (Memref.whole cc0_scratch0).view (Rect.unit (s := S512) (k0_off3 k) S16.size (k0_off3_inb k)).toLoadRect a0] h⟩]) := by
  intro p hp
  by_cases hlo : (p 0).val < 16 * k.val
  · -- below the trip's sixteen: no piece covers `p`
    have hnot : ∀ q ∈ ([⟨(Rect.unit (s := S512) (k0_off4 k) S16.size (k0_off4_inb k)), loadIdx (View.readAt (Elt F) (Memref.whole cc0_scratch2).view (LoadRect.whole S100) a2) ![View.readAt (Elt F) (Memref.whole cc0_scratch0).view (Rect.unit (s := S512) (k0_off3 k) S16.size (k0_off3_inb k)).toLoadRect a0] h⟩] : List (View.Piece (Elt F) S512 .i32)), p ∉ q.1.set := by
      intro q hq
      obtain rfl := List.mem_singleton.mp hq
      intro hmem
      have hmem' : p ∈ (Rect.unit (s := S512) (k0_off4 k) S16.size (k0_off4_inb k)).set := hmem
      have h00 := (Rect.mem_set_unit.mp hmem' 0).1
      rw [k0_off4_eq k] at h00
      have : 16 * k.val ≤ (p 0).val := h00
      omega
    exact (View.read_writes_apply_of_forall_not_mem (Memref.whole cc0_scratch1).view f p _ hnot).trans (hf p hlo)
  · -- one of the trip's sixteen
    have hx : (p 0).val - 16 * k.val < 16 := by omega
    obtain ⟨x, rfl⟩ : ∃ x : S16.Idx, rowAt k x = p := by
      refine ⟨ValueIdx.ix1 ⟨(p 0).val - 16 * k.val, hx⟩, ?_⟩
      funext a
      obtain rfl : a = 0 := Subsingleton.elim _ _
      refine Fin.ext ?_
      rw [rowAt_val]
      show 16 * k.val + ((p 0).val - 16 * k.val) = (p 0).val
      omega
    rw [← emb4_eq k x]
    refine (View.read_writes_cons_emb (Memref.whole cc0_scratch1).view f (Rect.unit (s := S512) (k0_off4 k) S16.size (k0_off4_inb k)) _ [] x).trans ?_
    show a2 ((LoadRect.whole S100).idx (idxAt ![View.readAt (Elt F) (Memref.whole cc0_scratch0).view (Rect.unit (s := S512) (k0_off3 k) S16.size (k0_off3_inb k)).toLoadRect a0] h x)) = _
    rw [h2, emb4_eq k x]
    unfold Tbl
    refine congrArg (m (tLoc d)) (funext fun a => ?_)
    obtain rfl : a = 0 := Subsingleton.elim _ _
    refine Fin.ext ?_
    rw [LoadRect.idx_apply]
    show 0 + 1 * ((View.readAt (Elt F) (Memref.whole cc0_scratch0).view (Rect.unit (s := S512) (k0_off3 k) S16.size (k0_off3_inb k)).toLoadRect a0) x).toNat = (m (uLoc d) ((uS L).view.emb (rowAt k x))).toNat
    rw [row_read d L m a0 h0 k x]
    omega

/-! ## (3) The first loop's invariant at its ends -/

theorem low1_zero (f : B1 (F := F) d L) : Low1 d L m hu 0 f := fun p hp => absurd hp (by omega)

theorem fact1_of_low1 (f : B1 (F := F) d L) (h : Low1 d L m hu (Scf.trips k0_t1_loop.lb k0_t1_loop.ub k0_t1_loop.st) f) :
    Fact1 d L m hu f := by
  intro p
  refine h p ?_
  have e : Scf.trips k0_t1_loop.lb k0_t1_loop.ub k0_t1_loop.st = 32 := by decide
  rw [e]
  have : (p 0).val < 512 := (p 0).isLt
  omega

/-! ## (4) The composed indices are below 100 -/

include ht in
theorem lt100_of_fact1 (b1 : B1 (F := F) d L) (h1 : Fact1 d L m hu b1) {t : Shape} (idxs : Fin 1 → IVec t 32)
    (h : ∀ a x, (idxs a x).toNat < S512.size a) :
    ∀ x, ((loadIdx (View.readAt (Elt F) (Memref.whole cc0_scratch1).view (LoadRect.whole S512) b1) idxs h) x).toNat < 100 := by
  intro x
  show (b1 ((LoadRect.whole S512).idx (idxAt idxs h x))).toNat < 100
  rw [h1]
  exact ht d _

/-! ## (5) The fetched scratches hold the launch arrays' entries -/

theorem fact0_entry (f0 : B0 (F := F) d L) :
    Fact0 d L m (View.write (Elt F) (Memref.whole cc0_scratch0).view f0 ((uS L).view.read (Elt F) (m (uLoc d))) Finset.univ) := by
  intro p
  rw [View.write_whole_univ]
  exact (View.read_apply _ _).trans (cast_eq _ _)

theorem fact2_entry (f2 : B2 (F := F) d L) :
    Fact2 d L m (View.write (Elt F) (Memref.whole cc0_scratch2).view f2 ((tM).view.read (Elt F) (m (tLoc d))) Finset.univ) := by
  intro p
  rw [View.write_whole_univ]
  exact (View.read_apply _ _).trans (cast_eq _ _)

theorem fact3_entry (f3 : B3 (F := F) d L) :
    Fact3 d L m (View.write (Elt F) (Memref.whole cc0_scratch3).view f3 ((dM).view.read (Elt F) (m (dLoc d))) Finset.univ) := by
  intro y
  rw [View.write_whole_univ]
  exact (View.read_apply _ _).trans (cast_eq _ _)

end Cert.KernelIdeal.Body

end
-- ==== Proof.BodyFacts2KernelIdeal.lean ====
/-
  Pure facts about one tile's task, continued: what the two fetched input chunks hold, what the specified result is at a
  cell of a chunk, and that a chunk's buffer, once its loop has run, written back through the chunk's slice of the
  result array leaves the specified result there.

  A task at grid position `L` owns rows `[1024 L₁ + 512 L₀, 1024 L₁ + 512 L₀ + 512)`, chunk `r` of it the 256 rows
  from `256 r` on: cell `(a, b)` of a chunk's slice of a `[16384, 128]` array is the array's cell
  `(1024 L₁ + 512 L₀ + 256 r + a, b)`, and entry `p` of the task's slice of the user indices is the array's entry
  `1024 L₁ + 512 L₀ + p`. The specified result at a row is the input there plus the delta table's row named by the
  index table's entry at that row's user index.
-/
import proofs.«202775_g10411000725526_cont_sun_m_1212_8_alg».proof.Proof.BodyDefsKernelIdeal
import proofs.«202775_g10411000725526_cont_sun_m_1212_8_alg».proof.Proof.BodyFacts1KernelIdeal

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## The slices' cells in the whole arrays -/

/-- The first row of the task's chunk `r`. -/
abbrev chunkBase (L : grid0.Coords) (r : Fin 2) : Nat := 1024 * (L 1).val + 512 * (L 0).val + 256 * r.val

theorem chunkBase_lt (r : Fin 2) (y : S256x128.Idx) : chunkBase L r + (y 0).val < 16384 := by
  have h1 : (L 1).val < 16 := (L 1).isLt
  have h0 : (L 0).val < 2 := (L 0).isLt
  have hy : (y 0).val < 256 := (y 0).isLt
  have := r.isLt
  show 1024 * (L 1).val + 512 * (L 0).val + 256 * r.val + (y 0).val < 16384
  omega

/-- A 256-row block of a `[16384, 128]` array at rows from `base` on, all columns: its cell `(a, b)` is the array's
    `(base + a, b)`. -/
theorem emb_chunk (base : Nat) (off : Fin 2 → Nat) (inb : ∀ a, off a + S256x128.size a ≤ S16384x128.size a)
    (hoff : off = ![base, 0]) (y : S256x128.Idx) (hb : base + (y 0).val < 16384) :
    (Rect.unit (s := S16384x128) off S256x128.size inb).emb y = ValueIdx.ix2 ⟨base + (y 0).val, hb⟩ (y 1) := by
  subst hoff
  funext a
  refine Fin.ext ?_
  rw [Rect.emb_apply]
  match a with
  | ⟨0, _⟩ =>
    show base + 1 * (y 0).val = base + (y 0).val
    omega
  | ⟨1, _⟩ =>
    show 0 + 1 * (y 1).val = (y 1).val
    omega

/-- Entry `p` of the task's slice of the user indices is the array's entry `1024 L₁ + 512 L₀ + p`. -/
theorem emb_u (p : S512.Idx) (hb : 1024 * (L 1).val + 512 * (L 0).val + (p 0).val < 16384) :
    (uS L).view.emb p = ValueIdx.ix1 ⟨1024 * (L 1).val + 512 * (L 0).val + (p 0).val, hb⟩ := by
  have key : ∀ a : Fin 1, ((Rect.unit (s := S16384) (k0_off1 L) S512.size (k0_off1_inb L)).emb p a : Nat)
      = ((ValueIdx.ix1 ⟨1024 * (L 1).val + 512 * (L 0).val + (p 0).val, hb⟩ : S16384.Idx) a : Nat) := fun a => by
    obtain rfl : a = 0 := Subsingleton.elim _ _
    rw [Rect.emb_apply]
    show (k0_off1 L) 0 + 1 * (p 0).val = 1024 * (L 1).val + 512 * (L 0).val + (p 0).val
    rw [k0_off1_eq L]
    show 1024 * (L 1).val + 512 * (L 0).val + 1 * (p 0).val = _
    omega
  exact funext fun a => Fin.ext (key a)

/-! ## (6) The fetched input chunks -/

theorem in_entry4 (f4 : B4 (F := F) d L) :
    ∀ y, (View.write (Elt F) (Memref.whole cc0_scratch4).view f4 ((xS0 L).view.read (Elt F) (m (xLoc d))) Finset.univ) y = InAt d L m 0 y := by
  intro y
  rw [View.write_whole_univ]
  refine (View.read_apply _ _).trans ((cast_eq _ _).trans ?_)
  unfold InAt
  exact congrArg (m (xLoc d)) (emb_chunk (chunkBase L 0) _ _ (k0_off2_eq L 0) y (chunkBase_lt L 0 y))

theorem in_entry5 (f5 : B5 (F := F) d L) :
    ∀ y, (View.write (Elt F) (Memref.whole cc0_scratch5).view f5 ((xS1 L).view.read (Elt F) (m (xLoc d))) Finset.univ) y = InAt d L m 1 y := by
  intro y
  rw [View.write_whole_univ]
  refine (View.read_apply _ _).trans ((cast_eq _ _).trans ?_)
  unfold InAt
  exact congrArg (m (xLoc d)) (emb_chunk (chunkBase L 1) _ _ (k0_off2_eq L 1) y (chunkBase_lt L 1 y))

/-! ## (7) The specified result at a chunk's cell -/

theorem out_eq (r : Fin 2) (y : S256x128.Idx) (p : S512.Idx) (hp : (p 0).val = 256 * r.val + (y 0).val) :
    OutAt d L m hu ht r y
      = FloatOps.addf (InAt d L m r y) (m (dLoc d) (ValueIdx.ix2 ⟨(Tbl d L m hu p).toNat, ht d _⟩ (y 1))) := by
  have hN : chunkBase L r + (y 0).val < 16384 := chunkBase_lt L r y
  have hb : 1024 * (L 1).val + 512 * (L 0).val + (p 0).val < 16384 := by
    have : chunkBase L r + (y 0).val = 1024 * (L 1).val + 512 * (L 0).val + (p 0).val := by
      show 1024 * (L 1).val + 512 * (L 0).val + 256 * r.val + (y 0).val = _
      omega
    omega
  have hemb : (uS L).view.emb p = ValueIdx.ix1 (⟨chunkBase L r + (y 0).val, hN⟩ : Fin 16384) := by
    rw [emb_u L p hb]
    refine congrArg ValueIdx.ix1 (Fin.ext ?_)
    show 1024 * (L 1).val + 512 * (L 0).val + (p 0).val = 1024 * (L 1).val + 512 * (L 0).val + 256 * r.val + (y 0).val
    omega
  have hT : Tbl d L m hu p = Spec.setOf (m (uLoc d)) (m (tLoc d)) (hu d) ⟨chunkBase L r + (y 0).val, hN⟩ := by
    unfold Tbl Spec.setOf
    exact congrArg (m (tLoc d)) (congrArg ValueIdx.ix1 (Fin.ext (congrArg BitVec.toNat (congrArg (m (uLoc d)) hemb))))
  unfold OutAt InAt
  refine (Spec.outFn_apply (m (xLoc d)) (m (uLoc d)) (m (tLoc d)) (m (dLoc d)) (hu d) (ht d) ⟨chunkBase L r + (y 0).val, hN⟩ (y 1)).trans ?_
  refine congrArg (FloatOps.addf _) (congrArg (m (dLoc d)) (congrArg (fun a => ValueIdx.ix2 a (y 1)) (Fin.ext ?_)))
  exact congrArg BitVec.toNat hT.symm

/-! ## (8) The chunks written back -/

theorem out_block0 (fo0 : Buf (Elt F) (oLoc d)) (g4 : B4 (F := F) d L) (hg : Low2 d L m hu ht 0 32 g4) :
    ∀ i ∈ (oS0 L).view.set, ((oS0 L).view.write (Elt F) fo0 ((Memref.whole cc0_scratch4).view.read (Elt F) g4) Finset.univ) i = G m hu ht d i := by
  intro i hi
  obtain ⟨y, -, rfl⟩ := Finset.mem_map.mp (show i ∈ Finset.univ.map (oS0 L).view.emb from hi)
  rw [View.write_emb_of_mem _ _ (Finset.mem_univ y)]
  refine (cast_eq _ _).trans ?_
  have hy : (y 0).val < 8 * 32 := (y 0).isLt
  refine ((hg y).1 hy).trans ?_
  unfold OutAt
  exact congrArg (G m hu ht d) (emb_chunk (chunkBase L 0) _ _ (k0_off69_eq L 0) y (chunkBase_lt L 0 y)).symm

theorem out_block1 (fo1 : Buf (Elt F) (oLoc d)) (g5 : B5 (F := F) d L) (hg : Low3 d L m hu ht 32 g5) :
    ∀ i ∈ (oS1 L).view.set, ((oS1 L).view.write (Elt F) fo1 ((Memref.whole cc0_scratch5).view.read (Elt F) g5) Finset.univ) i = G m hu ht d i := by
  intro i hi
  obtain ⟨y, -, rfl⟩ := Finset.mem_map.mp (show i ∈ Finset.univ.map (oS1 L).view.emb from hi)
  rw [View.write_emb_of_mem _ _ (Finset.mem_univ y)]
  refine (cast_eq _ _).trans ?_
  have hy : (y 0).val < 8 * 32 := (y 0).isLt
  refine ((hg y).1 hy).trans ?_
  unfold OutAt
  exact congrArg (G m hu ht d) (emb_chunk (chunkBase L 1) _ _ (k0_off69_eq L 1) y (chunkBase_lt L 1 y)).symm

/-! ## (8′) The same with the chunk written back as one piece of a list of writes, the payload any term equal to the buffer -/

theorem out_block0' (fo0 : Buf (Elt F) (oLoc d)) (g4 : B4 (F := F) d L) (hg : Low2 d L m hu ht 0 32 g4)
    (w : (Rect.whole S256x128).shape.Idx → Elt F .f32) (hw : ∀ y, w y = g4 y) :
    ∀ i ∈ (oS0 L).view.set, ((oS0 L).view.writes (Elt F) fo0 [⟨Rect.whole S256x128, w⟩]) i = G m hu ht d i := by
  intro i hi
  obtain ⟨y, -, rfl⟩ := Finset.mem_map.mp (show i ∈ Finset.univ.map (oS0 L).view.emb from hi)
  have e : ((oS0 L).view.slice (Rect.whole S256x128)).emb y = (oS0 L).view.emb y :=
    congrArg (oS0 L).view.emb (Rect.emb_whole_apply S256x128 y)
  have key : ((oS0 L).view.writes (Elt F) fo0 [⟨Rect.whole S256x128, w⟩]) ((oS0 L).view.emb y) = w y := by
    rw [← e]
    exact (View.write_emb_of_mem (v := (oS0 L).view.slice (Rect.whole S256x128)) fo0 w (Finset.mem_univ y)).trans (cast_eq _ _)
  have hy : (y 0).val < 8 * 32 := (y 0).isLt
  refine key.trans ((hw y).trans (((hg y).1 hy).trans ?_))
  unfold OutAt
  exact congrArg (G m hu ht d) (emb_chunk (chunkBase L 0) _ _ (k0_off69_eq L 0) y (chunkBase_lt L 0 y)).symm

theorem out_block1' (fo1 : Buf (Elt F) (oLoc d)) (g5 : B5 (F := F) d L) (hg : Low3 d L m hu ht 32 g5)
    (w : (Rect.whole S256x128).shape.Idx → Elt F .f32) (hw : ∀ y, w y = g5 y) :
    ∀ i ∈ (oS1 L).view.set, ((oS1 L).view.writes (Elt F) fo1 [⟨Rect.whole S256x128, w⟩]) i = G m hu ht d i := by
  intro i hi
  obtain ⟨y, -, rfl⟩ := Finset.mem_map.mp (show i ∈ Finset.univ.map (oS1 L).view.emb from hi)
  have e : ((oS1 L).view.slice (Rect.whole S256x128)).emb y = (oS1 L).view.emb y :=
    congrArg (oS1 L).view.emb (Rect.emb_whole_apply S256x128 y)
  have key : ((oS1 L).view.writes (Elt F) fo1 [⟨Rect.whole S256x128, w⟩]) ((oS1 L).view.emb y) = w y := by
    rw [← e]
    exact (View.write_emb_of_mem (v := (oS1 L).view.slice (Rect.whole S256x128)) fo1 w (Finset.mem_univ y)).trans (cast_eq _ _)
  have hy : (y 0).val < 8 * 32 := (y 0).isLt
  refine key.trans ((hw y).trans (((hg y).1 hy).trans ?_))
  unfold OutAt
  exact congrArg (G m hu ht d) (emb_chunk (chunkBase L 1) _ _ (k0_off69_eq L 1) y (chunkBase_lt L 1 y)).symm

end Cert.KernelIdeal.Body

end
-- ==== Proof.BandKernelIdeal.lean ====
/-
  One trip of a chunk's loop, as a fact about the chunk's buffer.

  A trip works on a band of eight rows `[lo, lo + 8)` of the 256 x 128 buffer, in 64 stores: store number `n` (in program
  order) writes row `lo + n / 8`, columns `[16 (n % 8), 16 (n % 8) + 16)` — cell `n` of the band, the cells numbered row by
  row, eight to a row. `Part lo n Out f g` says where the buffer stands after the first `n` stores: the first `n` cells
  of the band hold `Out`, everything else what it held before the trip (`f`). One store takes `Part … n` to
  `Part … (n + 1)` (`part_step4`, `part_step5`: an element under the store's rectangle reads the payload, any other is
  untouched); after all 64 the band holds `Out`, which moves a loop's invariant from `k` trips to `k + 1`
  (`low2_of_part`, `low3_of_part`).
-/
import proofs.«202775_g10411000725526_cont_sun_m_1212_8_alg».proof.Proof.BodyDefsKernelIdeal

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

/-! ## The band and its cells -/

/-- Row `y 0` lies in the band of eight rows from `lo`. -/
def inBand (lo : Nat) (y : S256x128.Idx) : Prop := lo ≤ (y 0).val ∧ (y 0).val < lo + 8
/-- The number of the cell of the band that `y` lies in: eight cells of sixteen columns to a row. -/
def cellOf (lo : Nat) (y : S256x128.Idx) : Nat := 8 * ((y 0).val - lo) + (y 1).val / 16

/-- After the first `n` stores of a trip: the first `n` cells of the band hold `Out`, everything else what it held. -/
def Part (lo n : Nat) (Out f g : S256x128.Idx → Elt F .f32) : Prop :=
  ∀ y, (inBand lo y ∧ cellOf lo y < n → g y = Out y) ∧ (¬ (inBand lo y ∧ cellOf lo y < n) → g y = f y)

theorem part_zero (lo : Nat) (Out f : S256x128.Idx → Elt F .f32) : Part lo 0 Out f f :=
  fun _ => ⟨fun h => absurd h.2 (Nat.not_lt_zero _), fun _ => rfl⟩

/-- The rectangle of store number `n` of the band is cell `n`. -/
theorem mem_cell (lo n : Nat) (hn : n < 64) (off : Fin 2 → Nat) (h0 : off 0 = lo + n / 8) (h1 : off 1 = 16 * (n % 8))
    (inb : ∀ a, off a + S1x16.size a ≤ S256x128.size a) (y : S256x128.Idx) :
    y ∈ (Rect.unit (s := S256x128) off S1x16.size inb).set ↔ (inBand lo y ∧ cellOf lo y = n) := by
  rw [Rect.mem_set_unit]
  have hy1 : (y 1).val < 128 := (y 1).isLt
  unfold inBand cellOf
  constructor
  · intro h
    have g0 : off 0 ≤ (y 0).val ∧ (y 0).val < off 0 + 1 := h 0
    have g1 : off 1 ≤ (y 1).val ∧ (y 1).val < off 1 + 16 := h 1
    rw [h0] at g0; rw [h1] at g1
    omega
  · rintro ⟨⟨hlo1, hlo2⟩, hc⟩ a
    match a with
    | 0 => rw [h0]; show _ ≤ (y 0).val ∧ (y 0).val < _ + 1; omega
    | 1 => rw [h1]; show _ ≤ (y 1).val ∧ (y 1).val < _ + 16; omega

/-- One store: from `n` cells done to `n + 1`, in the buffer of scratch 4. -/
theorem part_step4 (lo n : Nat) (hn : n < 64) (hlo : lo + 8 ≤ 256) (Out f g : B4 (F := F) d L) (off : Fin 2 → Nat)
    (h0 : off 0 = lo + n / 8) (h1 : off 1 = 16 * (n % 8)) (inb : ∀ a, off a + S1x16.size a ≤ S256x128.size a)
    (w : (Rect.unit (s := S256x128) off S1x16.size inb).shape.Idx → Elt F .f32)
    (hw : ∀ x, w x = Out ((Rect.unit (s := S256x128) off S1x16.size inb).emb x)) (hg : Part lo n Out f g) :
    Part lo (n + 1) Out f ((Memref.whole cc0_scratch4).view.writes (Elt F) g [⟨Rect.unit (s := S256x128) off S1x16.size inb, w⟩]) := by
  intro y
  have hmem := mem_cell lo n hn off h0 h1 inb y
  by_cases hy : y ∈ (Rect.unit (s := S256x128) off S1x16.size inb).set
  · have hc := hmem.mp hy
    obtain ⟨x, hx⟩ : ∃ x, (Rect.unit (s := S256x128) off S1x16.size inb).emb x = y :=
      (Rect.unit (s := S256x128) off S1x16.size inb).exists_idx_of_mem hy
    have e : ((Memref.whole cc0_scratch4).view.writes (Elt F) g [⟨Rect.unit (s := S256x128) off S1x16.size inb, w⟩]) y = Out y := by
      rw [← hx, ← hw x]
      exact View.read_writes_cons_emb (Memref.whole cc0_scratch4).view g (Rect.unit (s := S256x128) off S1x16.size inb) w [] x
    exact ⟨fun _ => e, fun hneg => absurd ⟨hc.1, by omega⟩ hneg⟩
  · have e : ((Memref.whole cc0_scratch4).view.writes (Elt F) g [⟨Rect.unit (s := S256x128) off S1x16.size inb, w⟩]) y = g y :=
      View.read_writes_apply_of_forall_not_mem (Memref.whole cc0_scratch4).view g y [⟨Rect.unit (s := S256x128) off S1x16.size inb, w⟩]
        (fun p hp => by rw [List.mem_singleton] at hp; subst hp; exact hy)
    have hne : inBand lo y → cellOf lo y ≠ n := fun hb hcn => hy (hmem.mpr ⟨hb, hcn⟩)
    constructor
    · rintro ⟨hb, hc⟩
      rw [e]; exact (hg y).1 ⟨hb, by have := hne hb; omega⟩
    · intro hneg
      rw [e]; exact (hg y).2 fun ⟨hb, hc⟩ => hneg ⟨hb, by omega⟩

/-- One store: from `n` cells done to `n + 1`, in the buffer of scratch 5. -/
theorem part_step5 (lo n : Nat) (hn : n < 64) (hlo : lo + 8 ≤ 256) (Out f g : B5 (F := F) d L) (off : Fin 2 → Nat)
    (h0 : off 0 = lo + n / 8) (h1 : off 1 = 16 * (n % 8)) (inb : ∀ a, off a + S1x16.size a ≤ S256x128.size a)
    (w : (Rect.unit (s := S256x128) off S1x16.size inb).shape.Idx → Elt F .f32)
    (hw : ∀ x, w x = Out ((Rect.unit (s := S256x128) off S1x16.size inb).emb x)) (hg : Part lo n Out f g) :
    Part lo (n + 1) Out f ((Memref.whole cc0_scratch5).view.writes (Elt F) g [⟨Rect.unit (s := S256x128) off S1x16.size inb, w⟩]) := by
  intro y
  have hmem := mem_cell lo n hn off h0 h1 inb y
  by_cases hy : y ∈ (Rect.unit (s := S256x128) off S1x16.size inb).set
  · have hc := hmem.mp hy
    obtain ⟨x, hx⟩ : ∃ x, (Rect.unit (s := S256x128) off S1x16.size inb).emb x = y :=
      (Rect.unit (s := S256x128) off S1x16.size inb).exists_idx_of_mem hy
    have e : ((Memref.whole cc0_scratch5).view.writes (Elt F) g [⟨Rect.unit (s := S256x128) off S1x16.size inb, w⟩]) y = Out y := by
      rw [← hx, ← hw x]
      exact View.read_writes_cons_emb (Memref.whole cc0_scratch5).view g (Rect.unit (s := S256x128) off S1x16.size inb) w [] x
    exact ⟨fun _ => e, fun hneg => absurd ⟨hc.1, by omega⟩ hneg⟩
  · have e : ((Memref.whole cc0_scratch5).view.writes (Elt F) g [⟨Rect.unit (s := S256x128) off S1x16.size inb, w⟩]) y = g y :=
      View.read_writes_apply_of_forall_not_mem (Memref.whole cc0_scratch5).view g y [⟨Rect.unit (s := S256x128) off S1x16.size inb, w⟩]
        (fun p hp => by rw [List.mem_singleton] at hp; subst hp; exact hy)
    have hne : inBand lo y → cellOf lo y ≠ n := fun hb hcn => hy (hmem.mpr ⟨hb, hcn⟩)
    constructor
    · rintro ⟨hb, hc⟩
      rw [e]; exact (hg y).1 ⟨hb, by have := hne hb; omega⟩
    · intro hneg
      rw [e]; exact (hg y).2 fun ⟨hb, hc⟩ => hneg ⟨hb, by omega⟩

/-! ## A whole trip moves the loop's invariant on -/

variable [FloatOps F] (m : (ℓ : Loc nD τ sig) → Buf (Elt F) ℓ) (hu : ∀ d, Spec.UOk (m (uLoc d))) (ht : ∀ d, Spec.TOk (m (tLoc d)))

/-- The band of trip `k` has 64 cells: an element of it lies in one of them. -/
theorem cellOf_lt (k : Nat) (y : S256x128.Idx) (h : inBand (8 * k) y) : cellOf (8 * k) y < 64 := by
  have hy1 : (y 1).val < 128 := (y 1).isLt
  unfold inBand at h; unfold cellOf; omega

theorem low2_of_part (r : Fin 2) (k : Nat) (hk : 8 * k + 8 ≤ 256) (f g : B4 (F := F) d L) (hf : Low2 d L m hu ht r k f)
    (hg : Part (8 * k) 64 (OutAt d L m hu ht r) f g) : Low2 d L m hu ht r (k + 1) g := by
  intro y
  by_cases hb : inBand (8 * k) y
  · have e := (hg y).1 ⟨hb, cellOf_lt k y hb⟩
    unfold inBand at hb
    exact ⟨fun _ => e, fun h => by omega⟩
  · have e := (hg y).2 fun h => hb h.1
    unfold inBand at hb
    exact ⟨fun h => e.trans ((hf y).1 (by omega)), fun h => e.trans ((hf y).2 (by omega))⟩

theorem low3_of_part (k : Nat) (hk : 8 * k + 8 ≤ 256) (f g : B5 (F := F) d L) (hf : Low3 d L m hu ht k f)
    (hg : Part (8 * k) 64 (OutAt d L m hu ht 1) f g) : Low3 d L m hu ht (k + 1) g := by
  intro y
  by_cases hb : inBand (8 * k) y
  · have e := (hg y).1 ⟨hb, cellOf_lt k y hb⟩
    unfold inBand at hb
    exact ⟨fun _ => e, fun h => by omega⟩
  · have e := (hg y).2 fun h => hb h.1
    unfold inBand at hb
    exact ⟨fun h => e.trans ((hf y).1 (by omega)), fun h => e.trans ((hf y).2 (by omega))⟩

/-- At a loop's entry the buffer holds the input chunk: no row done. -/
theorem low2_zero (r : Fin 2) (f : B4 (F := F) d L) (hf : ∀ y, f y = InAt d L m r y) : Low2 d L m hu ht r 0 f :=
  fun y => ⟨fun h => absurd h (by omega), fun _ => hf y⟩
theorem low3_zero (f : B5 (F := F) d L) (hf : ∀ y, f y = InAt d L m 1 y) : Low3 d L m hu ht 0 f :=
  fun y => ⟨fun h => absurd h (by omega), fun _ => hf y⟩

end Cert.KernelIdeal.Body

end
-- ==== Proof.BodyFacts3KernelIdeal.lean ====
/-
  The one fact a trip of a chunk's loop turns on: what each of its 64 stores writes is the specified result at the cells it
  writes.

  A trip handles eight rows of the chunk, each in eight stores of sixteen lanes. A store reads sixteen cells of the
  chunk's buffer — which still hold the input there, since this trip is the first to write the row —, looks up the
  row's delta-set in the composed index array (every lane the same row), gathers sixteen cells of that row of the delta
  table at the store's own columns, and writes the sum back to the same sixteen cells. Lane `i` of store `n` of trip
  `k` is cell `(8 k + n / 8, 16 (n mod 8) + i)` of the chunk; the sum there is the input plus the delta table's entry at
  the row's delta-set and that column, which is the specified result.
-/
import proofs.«202775_g10411000725526_cont_sun_m_1212_8_alg».proof.Proof.BodyDefsKernelIdeal
import proofs.«202775_g10411000725526_cont_sun_m_1212_8_alg».proof.Proof.BodyFacts1KernelIdeal
import proofs.«202775_g10411000725526_cont_sun_m_1212_8_alg».proof.Proof.BodyFacts2KernelIdeal
import Idealize.ShloMosaic.Lib.ValueLayout

noncomputable section

namespace Cert.KernelIdeal.Body

open Cert.KernelIdeal Cert.KernelIdeal.Gen Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

variable (d : Dev nD) (L : grid0.Coords)

variable [FloatOps F] (m : (ℓ : Loc nD τ sig) → Buf (Elt F) ℓ) (hu : ∀ d, Spec.UOk (m (uLoc d))) (ht : ∀ d, Spec.TOk (m (tLoc d)))

/-! ## A store of the first chunk's loop -/

theorem pay_ok4 (b1 : B1 (F := F) d L) (b3 : B3 (F := F) d L) (h1 : Fact1 d L m hu b1) (h3 : Fact3 d L m b3)
    (k : Fin k0_t2_loop.trips) (f : B4 (F := F) d L) (hf : Low2 d L m hu ht 0 k.val f) (n : Nat) (hn : n < 64)
    (off : Fin 2 → Nat) (h0 : off 0 = 8 * k.val + n / 8) (h1' : off 1 = 16 * (n % 8))
    (inb : ∀ a, off a + S1x16.size a ≤ S256x128.size a) (W : BitVec 32) (hW : W.toNat = 8 * k.val + n / 8)
    (col : IVec S16 32) (hcol : ∀ x : S16.Idx, (col x).toNat = 16 * (n % 8) + (x 0).val)
    (hi1 : ∀ a x, ((![broadcast S16 W] : Fin 1 → IVec S16 32) a x).toNat < S512.size a)
    (hi2 : ∀ a x, ((![loadIdx (View.readAt (Elt F) (Memref.whole cc0_scratch1).view (LoadRect.whole S512) b1) ![broadcast S16 W] hi1, col] : Fin 2 → IVec S16 32) a x).toNat < S100x128.size a) :
    ∀ x, (shapeCast S1x16 (addf (shapeCast S16 (View.readAt (Elt F) (Memref.whole cc0_scratch4).view (Rect.unit (s := S256x128) off S1x16.size inb).toLoadRect f) shapeCasts_S1x16_S16) (loadIdx (View.readAt (Elt F) (Memref.whole cc0_scratch3).view (LoadRect.whole S100x128) b3) ![loadIdx (View.readAt (Elt F) (Memref.whole cc0_scratch1).view (LoadRect.whole S512) b1) ![broadcast S16 W] hi1, col] hi2)) shapeCasts_S16_S1x16) x
      = OutAt d L m hu ht 0 ((Rect.unit (s := S256x128) off S1x16.size inb).emb x) := by
  intro x
  obtain ⟨u, i, rfl⟩ : ∃ (u : Fin 1) (i : Fin 16), x = ValueIdx.ix2 u i := ⟨(x 0 : Fin 1), (x 1 : Fin 16), ValueIdx.eq_ix2 x⟩
  have hu0 : u.val = 0 := by omega
  -- the cell of the chunk's buffer this lane of the store names
  have hy0 : (((Rect.unit (s := S256x128) off S1x16.size inb).emb (ValueIdx.ix2 u i)) 0).val = 8 * k.val + n / 8 := by
    rw [Rect.emb_apply]
    show off 0 + 1 * u.val = _
    rw [h0, hu0]
    omega
  have hy1 : (((Rect.unit (s := S256x128) off S1x16.size inb).emb (ValueIdx.ix2 u i)) 1).val = 16 * (n % 8) + i.val := by
    rw [Rect.emb_apply]
    show off 1 + 1 * i.val = _
    rw [h1']
    omega
  -- the load of the trip's buffer at the store's own rectangle reads that cell: still the input there
  have hload : (shapeCast S16 (View.readAt (Elt F) (Memref.whole cc0_scratch4).view (Rect.unit (s := S256x128) off S1x16.size inb).toLoadRect f) shapeCasts_S1x16_S16) (ValueIdx.ix1 i) = InAt d L m 0 ((Rect.unit (s := S256x128) off S1x16.size inb).emb (ValueIdx.ix2 u i)) := by
    rw [ValueIdx.shapeCast_1a_a_apply]
    show f ((Rect.unit (s := S256x128) off S1x16.size inb).toLoadRect.idx (ValueIdx.ix2 (0 : Fin 1) i)) = _
    have hidx : (Rect.unit (s := S256x128) off S1x16.size inb).toLoadRect.idx (ValueIdx.ix2 (0 : Fin 1) i) = (Rect.unit (s := S256x128) off S1x16.size inb).emb (ValueIdx.ix2 u i) := by
      funext a
      refine Fin.ext ?_
      rw [LoadRect.idx_apply, Rect.emb_apply]
      match a with
      | ⟨0, _⟩ =>
        show off 0 + 1 * 0 = off 0 + 1 * u.val
        rw [hu0]
      | ⟨1, _⟩ => rfl
    rw [hidx]
    exact (hf _).2 (by rw [hy0]; omega)
  -- the row of the task's 512 the first gather names, and what it reads there
  have hp0 : (((LoadRect.whole S512).idx (idxAt (![broadcast S16 W] : Fin 1 → IVec S16 32) hi1 (ValueIdx.ix1 i))) 0).val = 8 * k.val + n / 8 := by
    rw [LoadRect.idx_apply]
    show 0 + 1 * W.toNat = _
    rw [hW]
    omega
  have hdv : (loadIdx (View.readAt (Elt F) (Memref.whole cc0_scratch1).view (LoadRect.whole S512) b1) ![broadcast S16 W] hi1) (ValueIdx.ix1 i)
      = Tbl d L m hu ((LoadRect.whole S512).idx (idxAt (![broadcast S16 W] : Fin 1 → IVec S16 32) hi1 (ValueIdx.ix1 i))) :=
    h1 _
  -- the second gather reads the delta table's row named by that entry, at the cell's column
  have hgather : (loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)
      = m (dLoc d) (ValueIdx.ix2 ⟨(Tbl d L m hu ((LoadRect.whole S512).idx (idxAt (![broadcast S16 W] : Fin 1 → IVec S16 32) hi1 (ValueIdx.ix1 i)))).toNat, ht d _⟩
          (((Rect.unit (s := S256x128) off S1x16.size inb).emb (ValueIdx.ix2 u i)) 1)) := by
    show b3 ((LoadRect.whole S100x128).idx (idxAt (![loadIdx (View.readAt (Elt F) (Memref.whole cc0_scratch1).view (LoadRect.whole S512) b1) ![broadcast S16 W] hi1, col] : Fin 2 → IVec S16 32) hi2 (ValueIdx.ix1 i))) = _
    rw [h3]
    refine congrArg (m (dLoc d)) (funext fun a => Fin.ext ?_)
    rw [LoadRect.idx_apply]
    match a with
    | ⟨0, _⟩ =>
      show 0 + 1 * ((loadIdx (View.readAt (Elt F) (Memref.whole cc0_scratch1).view (LoadRect.whole S512) b1) ![broadcast S16 W] hi1) (ValueIdx.ix1 i)).toNat = (Tbl d L m hu _).toNat
      rw [hdv]
      omega
    | ⟨1, _⟩ =>
      show 0 + 1 * (col (ValueIdx.ix1 i)).toNat = (((Rect.unit (s := S256x128) off S1x16.size inb).emb (ValueIdx.ix2 u i)) 1).val
      rw [hcol, hy1]
      show 0 + 1 * (16 * (n % 8) + i.val) = _
      omega
  rw [ValueIdx.shapeCast_a_1a_apply]
  show FloatOps.addf ((shapeCast S16 (View.readAt (Elt F) (Memref.whole cc0_scratch4).view (Rect.unit (s := S256x128) off S1x16.size inb).toLoadRect f) shapeCasts_S1x16_S16) (ValueIdx.ix1 i)) ((loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)) = _
  rw [hload, hgather]
  exact (out_eq d L m hu ht 0 ((Rect.unit (s := S256x128) off S1x16.size inb).emb (ValueIdx.ix2 u i)) _ (by rw [hp0, hy0]; show _ = 256 * 0 + _; omega)).symm

/-! ## A store of the second chunk's loop

The same store over the second chunk: its rows are the task's rows from 256 on, so the row the lookup names is
`256 + 8 k + n / 8` of the task's 512. -/

theorem pay_ok5 (b1 : B1 (F := F) d L) (b3 : B3 (F := F) d L) (h1 : Fact1 d L m hu b1) (h3 : Fact3 d L m b3)
    (k : Fin k0_t3_loop.trips) (f : B5 (F := F) d L) (hf : Low3 d L m hu ht k.val f) (n : Nat) (hn : n < 64)
    (off : Fin 2 → Nat) (h0 : off 0 = 8 * k.val + n / 8) (h1' : off 1 = 16 * (n % 8))
    (inb : ∀ a, off a + S1x16.size a ≤ S256x128.size a) (W : BitVec 32) (hW : W.toNat = 256 + 8 * k.val + n / 8)
    (col : IVec S16 32) (hcol : ∀ x : S16.Idx, (col x).toNat = 16 * (n % 8) + (x 0).val)
    (hi1 : ∀ a x, ((![broadcast S16 W] : Fin 1 → IVec S16 32) a x).toNat < S512.size a)
    (hi2 : ∀ a x, ((![loadIdx (View.readAt (Elt F) (Memref.whole cc0_scratch1).view (LoadRect.whole S512) b1) ![broadcast S16 W] hi1, col] : Fin 2 → IVec S16 32) a x).toNat < S100x128.size a) :
    ∀ x, (shapeCast S1x16 (addf (shapeCast S16 (View.readAt (Elt F) (Memref.whole cc0_scratch5).view (Rect.unit (s := S256x128) off S1x16.size inb).toLoadRect f) shapeCasts_S1x16_S16) (loadIdx (View.readAt (Elt F) (Memref.whole cc0_scratch3).view (LoadRect.whole S100x128) b3) ![loadIdx (View.readAt (Elt F) (Memref.whole cc0_scratch1).view (LoadRect.whole S512) b1) ![broadcast S16 W] hi1, col] hi2)) shapeCasts_S16_S1x16) x
      = OutAt d L m hu ht 1 ((Rect.unit (s := S256x128) off S1x16.size inb).emb x) := by
  intro x
  obtain ⟨u, i, rfl⟩ : ∃ (u : Fin 1) (i : Fin 16), x = ValueIdx.ix2 u i := ⟨(x 0 : Fin 1), (x 1 : Fin 16), ValueIdx.eq_ix2 x⟩
  have hu0 : u.val = 0 := by omega
  -- the cell of the chunk's buffer this lane of the store names
  have hy0 : (((Rect.unit (s := S256x128) off S1x16.size inb).emb (ValueIdx.ix2 u i)) 0).val = 8 * k.val + n / 8 := by
    rw [Rect.emb_apply]
    show off 0 + 1 * u.val = _
    rw [h0, hu0]
    omega
  have hy1 : (((Rect.unit (s := S256x128) off S1x16.size inb).emb (ValueIdx.ix2 u i)) 1).val = 16 * (n % 8) + i.val := by
    rw [Rect.emb_apply]
    show off 1 + 1 * i.val = _
    rw [h1']
    omega
  -- the load of the trip's buffer at the store's own rectangle reads that cell: still the input there
  have hload : (shapeCast S16 (View.readAt (Elt F) (Memref.whole cc0_scratch5).view (Rect.unit (s := S256x128) off S1x16.size inb).toLoadRect f) shapeCasts_S1x16_S16) (ValueIdx.ix1 i) = InAt d L m 1 ((Rect.unit (s := S256x128) off S1x16.size inb).emb (ValueIdx.ix2 u i)) := by
    rw [ValueIdx.shapeCast_1a_a_apply]
    show f ((Rect.unit (s := S256x128) off S1x16.size inb).toLoadRect.idx (ValueIdx.ix2 (0 : Fin 1) i)) = _
    have hidx : (Rect.unit (s := S256x128) off S1x16.size inb).toLoadRect.idx (ValueIdx.ix2 (0 : Fin 1) i) = (Rect.unit (s := S256x128) off S1x16.size inb).emb (ValueIdx.ix2 u i) := by
      funext a
      refine Fin.ext ?_
      rw [LoadRect.idx_apply, Rect.emb_apply]
      match a with
      | ⟨0, _⟩ =>
        show off 0 + 1 * 0 = off 0 + 1 * u.val
        rw [hu0]
      | ⟨1, _⟩ => rfl
    rw [hidx]
    exact (hf _).2 (by rw [hy0]; omega)
  -- the row of the task's 512 the first gather names, and what it reads there
  have hp0 : (((LoadRect.whole S512).idx (idxAt (![broadcast S16 W] : Fin 1 → IVec S16 32) hi1 (ValueIdx.ix1 i))) 0).val = 256 + 8 * k.val + n / 8 := by
    rw [LoadRect.idx_apply]
    show 0 + 1 * W.toNat = _
    rw [hW]
    omega
  have hdv : (loadIdx (View.readAt (Elt F) (Memref.whole cc0_scratch1).view (LoadRect.whole S512) b1) ![broadcast S16 W] hi1) (ValueIdx.ix1 i)
      = Tbl d L m hu ((LoadRect.whole S512).idx (idxAt (![broadcast S16 W] : Fin 1 → IVec S16 32) hi1 (ValueIdx.ix1 i))) :=
    h1 _
  -- the second gather reads the delta table's row named by that entry, at the cell's column
  have hgather : (loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)
      = m (dLoc d) (ValueIdx.ix2 ⟨(Tbl d L m hu ((LoadRect.whole S512).idx (idxAt (![broadcast S16 W] : Fin 1 → IVec S16 32) hi1 (ValueIdx.ix1 i)))).toNat, ht d _⟩
          (((Rect.unit (s := S256x128) off S1x16.size inb).emb (ValueIdx.ix2 u i)) 1)) := by
    show b3 ((LoadRect.whole S100x128).idx (idxAt (![loadIdx (View.readAt (Elt F) (Memref.whole cc0_scratch1).view (LoadRect.whole S512) b1) ![broadcast S16 W] hi1, col] : Fin 2 → IVec S16 32) hi2 (ValueIdx.ix1 i))) = _
    rw [h3]
    refine congrArg (m (dLoc d)) (funext fun a => Fin.ext ?_)
    rw [LoadRect.idx_apply]
    match a with
    | ⟨0, _⟩ =>
      show 0 + 1 * ((loadIdx (View.readAt (Elt F) (Memref.whole cc0_scratch1).view (LoadRect.whole S512) b1) ![broadcast S16 W] hi1) (ValueIdx.ix1 i)).toNat = (Tbl d L m hu _).toNat
      rw [hdv]
      omega
    | ⟨1, _⟩ =>
      show 0 + 1 * (col (ValueIdx.ix1 i)).toNat = (((Rect.unit (s := S256x128) off S1x16.size inb).emb (ValueIdx.ix2 u i)) 1).val
      rw [hcol, hy1]
      show 0 + 1 * (16 * (n % 8) + i.val) = _
      omega
  rw [ValueIdx.shapeCast_a_1a_apply]
  show FloatOps.addf ((shapeCast S16 (View.readAt (Elt F) (Memref.whole cc0_scratch5).view (Rect.unit (s := S256x128) off S1x16.size inb).toLoadRect f) shapeCasts_S1x16_S16) (ValueIdx.ix1 i)) ((loadIdx (View.readAt (Elt F) (Memref.whole cc0_scratch3).view (LoadRect.whole S100x128) b3) ![loadIdx (View.readAt (Elt F) (Memref.whole cc0_scratch1).view (LoadRect.whole S512) b1) ![broadcast S16 W] hi1, col] hi2) (ValueIdx.ix1 i)) = _
  rw [hload, hgather]
  exact (out_eq d L m hu ht 1 ((Rect.unit (s := S256x128) off S1x16.size inb).emb (ValueIdx.ix2 u i)) _ (by rw [hp0, hy0]; show _ = 256 * 1 + _; omega)).symm

end Cert.KernelIdeal.Body

end
-- ==== Proof.BodyKernelIdeal.lean ====
/-
  One tile's task, run once at a symbolic grid position: from the task's operands (its two input chunks and its slice
  of the user indices, a read share of the two tables, its two result chunks) to the same with the result chunks
  holding the specified function.

  The run follows the program: five fetches are issued; once the user indices and the index table have landed, the
  first loop composes the two lookups sixteen rows a trip; once the delta table and a chunk have landed, that chunk's
  loop adds to each of its rows the delta row its delta-set names, eight rows a trip, and the chunk is written out;
  the two write-outs are waited for. Each loop goes by an invariant; a trip's 64 stores are the next 64 cells of an
  eight-row band, each holding input plus delta row on its sixteen columns.
-/
import proofs.«202775_g10411000725526_cont_sun_m_1212_8_alg».proof.Proof.BodyDefsKernelIdeal
import proofs.«202775_g10411000725526_cont_sun_m_1212_8_alg».proof.Proof.SkeletonKernelIdealP
import proofs.«202775_g10411000725526_cont_sun_m_1212_8_alg».proof.Proof.ChecksKernelIdeal
import proofs.«202775_g10411000725526_cont_sun_m_1212_8_alg».proof.Proof.BodyFacts1KernelIdeal
import proofs.«202775_g10411000725526_cont_sun_m_1212_8_alg».proof.Proof.BodyFacts2KernelIdeal
import proofs.«202775_g10411000725526_cont_sun_m_1212_8_alg».proof.Proof.BandKernelIdeal
import proofs.«202775_g10411000725526_cont_sun_m_1212_8_alg».proof.Proof.BodyFacts3KernelIdeal

noncomputable section

namespace Cert.KernelIdeal.Body

open Cert.KernelIdeal Cert.KernelIdeal.Gen Cert.KernelIdeal.GenP Cert.KernelIdeal.Iface

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

variable (d : Dev nD) (L : grid0.Coords) [FloatOps F] (m : (ℓ : Loc nD τ sig) → Buf (Elt F) ℓ) (hu : ∀ d, Spec.UOk (m (uLoc d))) (ht : ∀ d, Spec.TOk (m (tLoc d)))

theorem part_cons4 (lo n : Nat) (hn : n < 64) (hlo : lo + 8 ≤ 256) (Out f : B4 (F := F) d L) (off : Fin 2 → Nat) (h0 : off 0 = lo + n / 8) (h1 : off 1 = 16 * (n % 8)) (inb : ∀ a, off a + S1x16.size a ≤ S256x128.size a) (w : (Rect.unit (s := S256x128) off S1x16.size inb).shape.Idx → Elt F .f32) (hw : ∀ x, w x = Out ((Rect.unit (s := S256x128) off S1x16.size inb).emb x)) (Lp : List (View.Piece (Elt F) S256x128 .f32)) (hg : Part lo n Out f ((Memref.whole cc0_scratch4).view.writes (Elt F) f Lp)) : Part lo (n + 1) Out f ((Memref.whole cc0_scratch4).view.writes (Elt F) f (⟨Rect.unit (s := S256x128) off S1x16.size inb, w⟩ :: Lp)) :=
  part_step4 d L lo n hn hlo Out f _ off h0 h1 inb w hw hg
theorem part_cons5 (lo n : Nat) (hn : n < 64) (hlo : lo + 8 ≤ 256) (Out f : B5 (F := F) d L) (off : Fin 2 → Nat) (h0 : off 0 = lo + n / 8) (h1 : off 1 = 16 * (n % 8)) (inb : ∀ a, off a + S1x16.size a ≤ S256x128.size a) (w : (Rect.unit (s := S256x128) off S1x16.size inb).shape.Idx → Elt F .f32) (hw : ∀ x, w x = Out ((Rect.unit (s := S256x128) off S1x16.size inb).emb x)) (Lp : List (View.Piece (Elt F) S256x128 .f32)) (hg : Part lo n Out f ((Memref.whole cc0_scratch5).view.writes (Elt F) f Lp)) : Part lo (n + 1) Out f ((Memref.whole cc0_scratch5).view.writes (Elt F) f (⟨Rect.unit (s := S256x128) off S1x16.size inb, w⟩ :: Lp)) :=
  part_step5 d L lo n hn hlo Out f _ off h0 h1 inb w hw hg

set_option maxHeartbeats 0 in
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ tileGo m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L xM (Memref.isWhole_whole _) uM (Memref.isWhole_whole _) tM (Memref.isWhole_whole _) dM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12)
          fun _ => iprop(tileTd m hu ht d L q ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨⟨Hx0, Hx1, Hu, Ht, Hd⟩, ⟨%fo0, Ho0⟩, ⟨%fo1, Ho1⟩⟩,
    ⟨⟨%f0, Hs0⟩, ⟨%f1, Hs1⟩, ⟨%f2, Hs2⟩, ⟨%f3, Hs3⟩, ⟨%f4, Hs4⟩, ⟨%f5, Hs5⟩, Hbufs⟩, ⟨Hc6, Hc7, Hc8, Hc9, Hc10, Hc11, Hc12, Hsems⟩, HO⟩
  ihave Hmw := ((K (F := F)).mayWaits_none (thr := V d (cV L) (jV L)) hO) $$ Hlv
  ihave Hx0 := (Entails.of_eq (pts_x0 (F := F) d L _).symm) $$ Hx0
  ihave Hx1 := (Entails.of_eq (pts_x1 (F := F) d L _).symm) $$ Hx1
  ihave Hu := (Entails.of_eq (pts_u (F := F) d L _).symm) $$ Hu
  ihave Ho0 := (Entails.of_eq (pts_o0 (F := F) d L _).symm) $$ Ho0
  ihave Ho1 := (Entails.of_eq (pts_o1 (F := F) d L _).symm) $$ Ho1
  ihave Ht := (Entails.of_eq (pts_t (F := F) d L q _).symm) $$ Ht
  ihave Hd := (Entails.of_eq (pts_d (F := F) d L q _).symm) $$ Hd
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  ihave Hs5 := (Entails.of_eq (pts_s5 (F := F) d L _).symm) $$ Hs5
  sl_exec
  sl_for (inv1 d L m hu) $$ [Hs0 Hs2 Hs1]
  case region =>
    intro k _
    unfold inv1
    iintro ⟨%a0, %a2, %hfa, Ha0, Ha2, %f, %hf, Hf⟩
    sl_exec (disch := sl_exact Checks.chk1_of _ (lt100_row d L m hu a0 hfa.1 k))
    sl_respell [SparseCore.vectorLoadIdx]
    sl_exec
    sl_step
    iexists a0, a2
    isplitr; · ipureintro; exact hfa
    isplitl [Ha0]; · iexact Ha0
    isplitl [Ha2]; · iexact Ha2
    iexists _
    isplitr
    rotate_left
    · iexact Hf
    · ipureintro; exact low1_step d L m hu a0 a2 f hfa.1 hfa.2 k hf _
  · unfold inv1
    iexists _, _
    isplitr
    · ipureintro; sl_unfold_run_names; exact ⟨fact0_entry d L m f0, fact2_entry d L m f2⟩
    isplitl [Hs0]; · iexact Hs0
    isplitl [Hs2]; · iexact Hs2
    iexists _
    isplitr
    · ipureintro; exact low1_zero d L m hu f1
    · iexact Hs1
  iintro %_ HI
  unfold inv1
  icases HI with ⟨%a0, %a2, %hfa, Hs0, Hs2, %a1, %ha1, Hs1⟩
  have hfa1 : Fact1 d L m hu a1 := fact1_of_low1 d L m hu a1 ha1
  sl_exec
  sl_for (inv2 d L m hu ht) $$ [Hs1 Hs3 Hs4]
  case region =>
    intro k _
    unfold inv2
    iintro ⟨%b1, %b3, %hfb, Hb1, Hb3, %f, %hf, Hf⟩
    repeat (sl_exec (disch := first
      | sl_exact Checks.chkB2 _ (Checks.row2_lt_0 k)
      | sl_exact Checks.chkB3 _ (Checks.row2_lt_1 k)
      | sl_exact Checks.chkB4 _ (Checks.row2_lt_2 k)
      | sl_exact Checks.chkB5 _ (Checks.row2_lt_3 k)
      | sl_exact Checks.chkB6 _ (Checks.row2_lt_4 k)
      | sl_exact Checks.chkB7 _ (Checks.row2_lt_5 k)
      | sl_exact Checks.chkB8 _ (Checks.row2_lt_6 k)
      | sl_exact Checks.chkB9 _ (Checks.row2_lt_7 k)
      | sl_exact Checks.chkD10 _ (lt100_of_fact1 d L m hu ht b1 hfb.1 _ _)
      | sl_exact Checks.chkD11 _ (lt100_of_fact1 d L m hu ht b1 hfb.1 _ _)
      | sl_exact Checks.chkD12 _ (lt100_of_fact1 d L m hu ht b1 hfb.1 _ _)
      | sl_exact Checks.chkD13 _ (lt100_of_fact1 d L m hu ht b1 hfb.1 _ _)
      | sl_exact Checks.chkD14 _ (lt100_of_fact1 d L m hu ht b1 hfb.1 _ _)
      | sl_exact Checks.chkD15 _ (lt100_of_fact1 d L m hu ht b1 hfb.1 _ _)
      | sl_exact Checks.chkD16 _ (lt100_of_fact1 d L m hu ht b1 hfb.1 _ _)
      | sl_exact Checks.chkD17 _ (lt100_of_fact1 d L m hu ht b1 hfb.1 _ _)); sl_respell [SparseCore.vectorLoadIdx])
    sl_exec (disch := first
      | sl_exact Checks.chkB2 _ (Checks.row2_lt_0 k)
      | sl_exact Checks.chkB3 _ (Checks.row2_lt_1 k)
      | sl_exact Checks.chkB4 _ (Checks.row2_lt_2 k)
      | sl_exact Checks.chkB5 _ (Checks.row2_lt_3 k)
      | sl_exact Checks.chkB6 _ (Checks.row2_lt_4 k)
      | sl_exact Checks.chkB7 _ (Checks.row2_lt_5 k)
      | sl_exact Checks.chkB8 _ (Checks.row2_lt_6 k)
      | sl_exact Checks.chkB9 _ (Checks.row2_lt_7 k)
      | sl_exact Checks.chkD10 _ (lt100_of_fact1 d L m hu ht b1 hfb.1 _ _)
      | sl_exact Checks.chkD11 _ (lt100_of_fact1 d L m hu ht b1 hfb.1 _ _)
      | sl_exact Checks.chkD12 _ (lt100_of_fact1 d L m hu ht b1 hfb.1 _ _)
      | sl_exact Checks.chkD13 _ (lt100_of_fact1 d L m hu ht b1 hfb.1 _ _)
      | sl_exact Checks.chkD14 _ (lt100_of_fact1 d L m hu ht b1 hfb.1 _ _)
      | sl_exact Checks.chkD15 _ (lt100_of_fact1 d L m hu ht b1 hfb.1 _ _)
      | sl_exact Checks.chkD16 _ (lt100_of_fact1 d L m hu ht b1 hfb.1 _ _)
      | sl_exact Checks.chkD17 _ (lt100_of_fact1 d L m hu ht b1 hfb.1 _ _))
    sl_step
    iexists b1, b3
    isplitr; · ipureintro; exact hfb
    isplitl [Hb1]; · iexact Hb1
    isplitl [Hb3]; · iexact Hb3
    iexists _
    isplitr
    rotate_left
    · iexact Hf
    · ipureintro
      have hk32 : k.val < 32 := k.isLt
      have hlo : 8 * k.val + 8 ≤ 256 := by omega
      refine low2_of_part d L m hu ht 0 k.val hlo f _ hf ?_
      refine part_cons4 d L (8 * k.val) 63 (by decide) hlo (OutAt d L m hu ht 0) f (k0_off68 k) (by rw [k0_off68_eq]; rfl) (by rw [k0_off68_eq]; rfl) (k0_off68_inb k) _ (pay_ok4 d L m hu ht b1 b3 hfb.1 hfb.2 k f hf 63 (by decide) (k0_off68 k) (by rw [k0_off68_eq]; rfl) (by rw [k0_off68_eq]; rfl) (k0_off68_inb k) _ (Checks.row2_val_7 k) _ Checks.col_val_112 _ _) _ ?_
      refine part_cons4 d L (8 * k.val) 62 (by decide) hlo (OutAt d L m hu ht 0) f (k0_off67 k) (by rw [k0_off67_eq]; rfl) (by rw [k0_off67_eq]; rfl) (k0_off67_inb k) _ (pay_ok4 d L m hu ht b1 b3 hfb.1 hfb.2 k f hf 62 (by decide) (k0_off67 k) (by rw [k0_off67_eq]; rfl) (by rw [k0_off67_eq]; rfl) (k0_off67_inb k) _ (Checks.row2_val_7 k) _ Checks.col_val_96 _ _) _ ?_
      refine part_cons4 d L (8 * k.val) 61 (by decide) hlo (OutAt d L m hu ht 0) f (k0_off66 k) (by rw [k0_off66_eq]; rfl) (by rw [k0_off66_eq]; rfl) (k0_off66_inb k) _ (pay_ok4 d L m hu ht b1 b3 hfb.1 hfb.2 k f hf 61 (by decide) (k0_off66 k) (by rw [k0_off66_eq]; rfl) (by rw [k0_off66_eq]; rfl) (k0_off66_inb k) _ (Checks.row2_val_7 k) _ Checks.col_val_80 _ _) _ ?_
      refine part_cons4 d L (8 * k.val) 60 (by decide) hlo (OutAt d L m hu ht 0) f (k0_off65 k) (by rw [k0_off65_eq]; rfl) (by rw [k0_off65_eq]; rfl) (k0_off65_inb k) _ (pay_ok4 d L m hu ht b1 b3 hfb.1 hfb.2 k f hf 60 (by decide) (k0_off65 k) (by rw [k0_off65_eq]; rfl) (by rw [k0_off65_eq]; rfl) (k0_off65_inb k) _ (Checks.row2_val_7 k) _ Checks.col_val_64 _ _) _ ?_
      refine part_cons4 d L (8 * k.val) 59 (by decide) hlo (OutAt d L m hu ht 0) f (k0_off64 k) (by rw [k0_off64_eq]; rfl) (by rw [k0_off64_eq]; rfl) (k0_off64_inb k) _ (pay_ok4 d L m hu ht b1 b3 hfb.1 hfb.2 k f hf 59 (by decide) (k0_off64 k) (by rw [k0_off64_eq]; rfl) (by rw [k0_off64_eq]; rfl) (k0_off64_inb k) _ (Checks.row2_val_7 k) _ Checks.col_val_48 _ _) _ ?_
      refine part_cons4 d L (8 * k.val) 58 (by decide) hlo (OutAt d L m hu ht 0) f (k0_off63 k) (by rw [k0_off63_eq]; rfl) (by rw [k0_off63_eq]; rfl) (k0_off63_inb k) _ (pay_ok4 d L m hu ht b1 b3 hfb.1 hfb.2 k f hf 58 (by decide) (k0_off63 k) (by rw [k0_off63_eq]; rfl) (by rw [k0_off63_eq]; rfl) (k0_off63_inb k) _ (Checks.row2_val_7 k) _ Checks.col_val_32 _ _) _ ?_
      refine part_cons4 d L (8 * k.val) 57 (by decide) hlo (OutAt d L m hu ht 0) f (k0_off62 k) (by rw [k0_off62_eq]; rfl) (by rw [k0_off62_eq]; rfl) (k0_off62_inb k) _ (pay_ok4 d L m hu ht b1 b3 hfb.1 hfb.2 k f hf 57 (by decide) (k0_off62 k) (by rw [k0_off62_eq]; rfl) (by rw [k0_off62_eq]; rfl) (k0_off62_inb k) _ (Checks.row2_val_7 k) _ Checks.col_val_16 _ _) _ ?_
      refine part_cons4 d L (8 * k.val) 56 (by decide) hlo (OutAt d L m hu ht 0) f (k0_off61 k) (by rw [k0_off61_eq]; rfl) (by rw [k0_off61_eq]; rfl) (k0_off61_inb k) _ (pay_ok4 d L m hu ht b1 b3 hfb.1 hfb.2 k f hf 56 (by decide) (k0_off61 k) (by rw [k0_off61_eq]; rfl) (by rw [k0_off61_eq]; rfl) (k0_off61_inb k) _ (Checks.row2_val_7 k) _ Checks.col_val_0 _ _) _ ?_
      refine part_cons4 d L (8 * k.val) 55 (by decide) hlo (OutAt d L m hu ht 0) f (k0_off60 k) (by rw [k0_off60_eq]; rfl) (by rw [k0_off60_eq]; rfl) (k0_off60_inb k) _ (pay_ok4 d L m hu ht b1 b3 hfb.1 hfb.2 k f hf 55 (by decide) (k0_off60 k) (by rw [k0_off60_eq]; rfl) (by rw [k0_off60_eq]; rfl) (k0_off60_inb k) _ (Checks.row2_val_6 k) _ Checks.col_val_112 _ _) _ ?_
      refine part_cons4 d L (8 * k.val) 54 (by decide) hlo (OutAt d L m hu ht 0) f (k0_off59 k) (by rw [k0_off59_eq]; rfl) (by rw [k0_off59_eq]; rfl) (k0_off59_inb k) _ (pay_ok4 d L m hu ht b1 b3 hfb.1 hfb.2 k f hf 54 (by decide) (k0_off59 k) (by rw [k0_off59_eq]; rfl) (by rw [k0_off59_eq]; rfl) (k0_off59_inb k) _ (Checks.row2_val_6 k) _ Checks.col_val_96 _ _) _ ?_
      refine part_cons4 d L (8 * k.val) 53 (by decide) hlo (OutAt d L m hu ht 0) f (k0_off58 k) (by rw [k0_off58_eq]; rfl) (by rw [k0_off58_eq]; rfl) (k0_off58_inb k) _ (pay_ok4 d L m hu ht b1 b3 hfb.1 hfb.2 k f hf 53 (by decide) (k0_off58 k) (by rw [k0_off58_eq]; rfl) (by rw [k0_off58_eq]; rfl) (k0_off58_inb k) _ (Checks.row2_val_6 k) _ Checks.col_val_80 _ _) _ ?_
      refine part_cons4 d L (8 * k.val) 52 (by decide) hlo (OutAt d L m hu ht 0) f (k0_off57 k) (by rw [k0_off57_eq]; rfl) (by rw [k0_off57_eq]; rfl) (k0_off57_inb k) _ (pay_ok4 d L m hu ht b1 b3 hfb.1 hfb.2 k f hf 52 (by decide) (k0_off57 k) (by rw [k0_off57_eq]; rfl) (by rw [k0_off57_eq]; rfl) (k0_off57_inb k) _ (Checks.row2_val_6 k) _ Checks.col_val_64 _ _) _ ?_
      refine part_cons4 d L (8 * k.val) 51 (by decide) hlo (OutAt d L m hu ht 0) f (k0_off56 k) (by rw [k0_off56_eq]; rfl) (by rw [k0_off56_eq]; rfl) (k0_off56_inb k) _ (pay_ok4 d L m hu ht b1 b3 hfb.1 hfb.2 k f hf 51 (by decide) (k0_off56 k) (by rw [k0_off56_eq]; rfl) (by rw [k0_off56_eq]; rfl) (k0_off56_inb k) _ (Checks.row2_val_6 k) _ Checks.col_val_48 _ _) _ ?_
      refine part_cons4 d L (8 * k.val) 50 (by decide) hlo (OutAt d L m hu ht 0) f (k0_off55 k) (by rw [k0_off55_eq]; rfl) (by rw [k0_off55_eq]; rfl) (k0_off55_inb k) _ (pay_ok4 d L m hu ht b1 b3 hfb.1 hfb.2 k f hf 50 (by decide) (k0_off55 k) (by rw [k0_off55_eq]; rfl) (by rw [k0_off55_eq]; rfl) (k0_off55_inb k) _ (Checks.row2_val_6 k) _ Checks.col_val_32 _ _) _ ?_
      refine part_cons4 d L (8 * k.val) 49 (by decide) hlo (OutAt d L m hu ht 0) f (k0_off54 k) (by rw [k0_off54_eq]; rfl) (by rw [k0_off54_eq]; rfl) (k0_off54_inb k) _ (pay_ok4 d L m hu ht b1 b3 hfb.1 hfb.2 k f hf 49 (by decide) (k0_off54 k) (by rw [k0_off54_eq]; rfl) (by rw [k0_off54_eq]; rfl) (k0_off54_inb k) _ (Checks.row2_val_6 k) _ Checks.col_val_16 _ _) _ ?_
      refine part_cons4 d L (8 * k.val) 48 (by decide) hlo (OutAt d L m hu ht 0) f (k0_off53 k) (by rw [k0_off53_eq]; rfl) (by rw [k0_off53_eq]; rfl) (k0_off53_inb k) _ (pay_ok4 d L m hu ht b1 b3 hfb.1 hfb.2 k f hf 48 (by decide) (k0_off53 k) (by rw [k0_off53_eq]; rfl) (by rw [k0_off53_eq]; rfl) (k0_off53_inb k) _ (Checks.row2_val_6 k) _ Checks.col_val_0 _ _) _ ?_
      refine part_cons4 d L (8 * k.val) 47 (by decide) hlo (OutAt d L m hu ht 0) f (k0_off52 k) (by rw [k0_off52_eq]; rfl) (by rw [k0_off52_eq]; rfl) (k0_off52_inb k) _ (pay_ok4 d L m hu ht b1 b3 hfb.1 hfb.2 k f hf 47 (by decide) (k0_off52 k) (by rw [k0_off52_eq]; rfl) (by rw [k0_off52_eq]; rfl) (k0_off52_inb k) _ (Checks.row2_val_5 k) _ Checks.col_val_112 _ _) _ ?_
      refine part_cons4 d L (8 * k.val) 46 (by decide) hlo (OutAt d L m hu ht 0) f (k0_off51 k) (by rw [k0_off51_eq]; rfl) (by rw [k0_off51_eq]; rfl) (k0_off51_inb k) _ (pay_ok4 d L m hu ht b1 b3 hfb.1 hfb.2 k f hf 46 (by decide) (k0_off51 k) (by rw [k0_off51_eq]; rfl) (by rw [k0_off51_eq]; rfl) (k0_off51_inb k) _ (Checks.row2_val_5 k) _ Checks.col_val_96 _ _) _ ?_
      refine part_cons4 d L (8 * k.val) 45 (by decide) hlo (OutAt d L m hu ht 0) f (k0_off50 k) (by rw [k0_off50_eq]; rfl) (by rw [k0_off50_eq]; rfl) (k0_off50_inb k) _ (pay_ok4 d L m hu ht b1 b3 hfb.1 hfb.2 k f hf 45 (by decide) (k0_off50 k) (by rw [k0_off50_eq]; rfl) (by rw [k0_off50_eq]; rfl) (k0_off50_inb k) _ (Checks.row2_val_5 k) _ Checks.col_val_80 _ _) _ ?_
      refine part_cons4 d L (8 * k.val) 44 (by decide) hlo (OutAt d L m hu ht 0) f (k0_off49 k) (by rw [k0_off49_eq]; rfl) (by rw [k0_off49_eq]; rfl) (k0_off49_inb k) _ (pay_ok4 d L m hu ht b1 b3 hfb.1 hfb.2 k f hf 44 (by decide) (k0_off49 k) (by rw [k0_off49_eq]; rfl) (by rw [k0_off49_eq]; rfl) (k0_off49_inb k) _ (Checks.row2_val_5 k) _ Checks.col_val_64 _ _) _ ?_
      refine part_cons4 d L (8 * k.val) 43 (by decide) hlo (OutAt d L m hu ht 0) f (k0_off48 k) (by rw [k0_off48_eq]; rfl) (by rw [k0_off48_eq]; rfl) (k0_off48_inb k) _ (pay_ok4 d L m hu ht b1 b3 hfb.1 hfb.2 k f hf 43 (by decide) (k0_off48 k) (by rw [k0_off48_eq]; rfl) (by rw [k0_off48_eq]; rfl) (k0_off48_inb k) _ (Checks.row2_val_5 k) _ Checks.col_val_48 _ _) _ ?_
      refine part_cons4 d L (8 * k.val) 42 (by decide) hlo (OutAt d L m hu ht 0) f (k0_off47 k) (by rw [k0_off47_eq]; rfl) (by rw [k0_off47_eq]; rfl) (k0_off47_inb k) _ (pay_ok4 d L m hu ht b1 b3 hfb.1 hfb.2 k f hf 42 (by decide) (k0_off47 k) (by rw [k0_off47_eq]; rfl) (by rw [k0_off47_eq]; rfl) (k0_off47_inb k) _ (Checks.row2_val_5 k) _ Checks.col_val_32 _ _) _ ?_
      refine part_cons4 d L (8 * k.val) 41 (by decide) hlo (OutAt d L m hu ht 0) f (k0_off46 k) (by rw [k0_off46_eq]; rfl) (by rw [k0_off46_eq]; rfl) (k0_off46_inb k) _ (pay_ok4 d L m hu ht b1 b3 hfb.1 hfb.2 k f hf 41 (by decide) (k0_off46 k) (by rw [k0_off46_eq]; rfl) (by rw [k0_off46_eq]; rfl) (k0_off46_inb k) _ (Checks.row2_val_5 k) _ Checks.col_val_16 _ _) _ ?_
      refine part_cons4 d L (8 * k.val) 40 (by decide) hlo (OutAt d L m hu ht 0) f (k0_off45 k) (by rw [k0_off45_eq]; rfl) (by rw [k0_off45_eq]; rfl) (k0_off45_inb k) _ (pay_ok4 d L m hu ht b1 b3 hfb.1 hfb.2 k f hf 40 (by decide) (k0_off45 k) (by rw [k0_off45_eq]; rfl) (by rw [k0_off45_eq]; rfl) (k0_off45_inb k) _ (Checks.row2_val_5 k) _ Checks.col_val_0 _ _) _ ?_
      refine part_cons4 d L (8 * k.val) 39 (by decide) hlo (OutAt d L m hu ht 0) f (k0_off44 k) (by rw [k0_off44_eq]; rfl) (by rw [k0_off44_eq]; rfl) (k0_off44_inb k) _ (pay_ok4 d L m hu ht b1 b3 hfb.1 hfb.2 k f hf 39 (by decide) (k0_off44 k) (by rw [k0_off44_eq]; rfl) (by rw [k0_off44_eq]; rfl) (k0_off44_inb k) _ (Checks.row2_val_4 k) _ Checks.col_val_112 _ _) _ ?_
      refine part_cons4 d L (8 * k.val) 38 (by decide) hlo (OutAt d L m hu ht 0) f (k0_off43 k) (by rw [k0_off43_eq]; rfl) (by rw [k0_off43_eq]; rfl) (k0_off43_inb k) _ (pay_ok4 d L m hu ht b1 b3 hfb.1 hfb.2 k f hf 38 (by decide) (k0_off43 k) (by rw [k0_off43_eq]; rfl) (by rw [k0_off43_eq]; rfl) (k0_off43_inb k) _ (Checks.row2_val_4 k) _ Checks.col_val_96 _ _) _ ?_
      refine part_cons4 d L (8 * k.val) 37 (by decide) hlo (OutAt d L m hu ht 0) f (k0_off42 k) (by rw [k0_off42_eq]; rfl) (by rw [k0_off42_eq]; rfl) (k0_off42_inb k) _ (pay_ok4 d L m hu ht b1 b3 hfb.1 hfb.2 k f hf 37 (by decide) (k0_off42 k) (by rw [k0_off42_eq]; rfl) (by rw [k0_off42_eq]; rfl) (k0_off42_inb k) _ (Checks.row2_val_4 k) _ Checks.col_val_80 _ _) _ ?_
      refine part_cons4 d L (8 * k.val) 36 (by decide) hlo (OutAt d L m hu ht 0) f (k0_off41 k) (by rw [k0_off41_eq]; rfl) (by rw [k0_off41_eq]; rfl) (k0_off41_inb k) _ (pay_ok4 d L m hu ht b1 b3 hfb.1 hfb.2 k f hf 36 (by decide) (k0_off41 k) (by rw [k0_off41_eq]; rfl) (by rw [k0_off41_eq]; rfl) (k0_off41_inb k) _ (Checks.row2_val_4 k) _ Checks.col_val_64 _ _) _ ?_
      refine part_cons4 d L (8 * k.val) 35 (by decide) hlo (OutAt d L m hu ht 0) f (k0_off40 k) (by rw [k0_off40_eq]; rfl) (by rw [k0_off40_eq]; rfl) (k0_off40_inb k) _ (pay_ok4 d L m hu ht b1 b3 hfb.1 hfb.2 k f hf 35 (by decide) (k0_off40 k) (by rw [k0_off40_eq]; rfl) (by rw [k0_off40_eq]; rfl) (k0_off40_inb k) _ (Checks.row2_val_4 k) _ Checks.col_val_48 _ _) _ ?_
      refine part_cons4 d L (8 * k.val) 34 (by decide) hlo (OutAt d L m hu ht 0) f (k0_off39 k) (by rw [k0_off39_eq]; rfl) (by rw [k0_off39_eq]; rfl) (k0_off39_inb k) _ (pay_ok4 d L m hu ht b1 b3 hfb.1 hfb.2 k f hf 34 (by decide) (k0_off39 k) (by rw [k0_off39_eq]; rfl) (by rw [k0_off39_eq]; rfl) (k0_off39_inb k) _ (Checks.row2_val_4 k) _ Checks.col_val_32 _ _) _ ?_
      refine part_cons4 d L (8 * k.val) 33 (by decide) hlo (OutAt d L m hu ht 0) f (k0_off38 k) (by rw [k0_off38_eq]; rfl) (by rw [k0_off38_eq]; rfl) (k0_off38_inb k) _ (pay_ok4 d L m hu ht b1 b3 hfb.1 hfb.2 k f hf 33 (by decide) (k0_off38 k) (by rw [k0_off38_eq]; rfl) (by rw [k0_off38_eq]; rfl) (k0_off38_inb k) _ (Checks.row2_val_4 k) _ Checks.col_val_16 _ _) _ ?_
      refine part_cons4 d L (8 * k.val) 32 (by decide) hlo (OutAt d L m hu ht 0) f (k0_off37 k) (by rw [k0_off37_eq]; rfl) (by rw [k0_off37_eq]; rfl) (k0_off37_inb k) _ (pay_ok4 d L m hu ht b1 b3 hfb.1 hfb.2 k f hf 32 (by decide) (k0_off37 k) (by rw [k0_off37_eq]; rfl) (by rw [k0_off37_eq]; rfl) (k0_off37_inb k) _ (Checks.row2_val_4 k) _ Checks.col_val_0 _ _) _ ?_
      refine part_cons4 d L (8 * k.val) 31 (by decide) hlo (OutAt d L m hu ht 0) f (k0_off36 k) (by rw [k0_off36_eq]; rfl) (by rw [k0_off36_eq]; rfl) (k0_off36_inb k) _ (pay_ok4 d L m hu ht b1 b3 hfb.1 hfb.2 k f hf 31 (by decide) (k0_off36 k) (by rw [k0_off36_eq]; rfl) (by rw [k0_off36_eq]; rfl) (k0_off36_inb k) _ (Checks.row2_val_3 k) _ Checks.col_val_112 _ _) _ ?_
      refine part_cons4 d L (8 * k.val) 30 (by decide) hlo (OutAt d L m hu ht 0) f (k0_off35 k) (by rw [k0_off35_eq]; rfl) (by rw [k0_off35_eq]; rfl) (k0_off35_inb k) _ (pay_ok4 d L m hu ht b1 b3 hfb.1 hfb.2 k f hf 30 (by decide) (k0_off35 k) (by rw [k0_off35_eq]; rfl) (by rw [k0_off35_eq]; rfl) (k0_off35_inb k) _ (Checks.row2_val_3 k) _ Checks.col_val_96 _ _) _ ?_
      refine part_cons4 d L (8 * k.val) 29 (by decide) hlo (OutAt d L m hu ht 0) f (k0_off34 k) (by rw [k0_off34_eq]; rfl) (by rw [k0_off34_eq]; rfl) (k0_off34_inb k) _ (pay_ok4 d L m hu ht b1 b3 hfb.1 hfb.2 k f hf 29 (by decide) (k0_off34 k) (by rw [k0_off34_eq]; rfl) (by rw [k0_off34_eq]; rfl) (k0_off34_inb k) _ (Checks.row2_val_3 k) _ Checks.col_val_80 _ _) _ ?_
      refine part_cons4 d L (8 * k.val) 28 (by decide) hlo (OutAt d L m hu ht 0) f (k0_off33 k) (by rw [k0_off33_eq]; rfl) (by rw [k0_off33_eq]; rfl) (k0_off33_inb k) _ (pay_ok4 d L m hu ht b1 b3 hfb.1 hfb.2 k f hf 28 (by decide) (k0_off33 k) (by rw [k0_off33_eq]; rfl) (by rw [k0_off33_eq]; rfl) (k0_off33_inb k) _ (Checks.row2_val_3 k) _ Checks.col_val_64 _ _) _ ?_
      refine part_cons4 d L (8 * k.val) 27 (by decide) hlo (OutAt d L m hu ht 0) f (k0_off32 k) (by rw [k0_off32_eq]; rfl) (by rw [k0_off32_eq]; rfl) (k0_off32_inb k) _ (pay_ok4 d L m hu ht b1 b3 hfb.1 hfb.2 k f hf 27 (by decide) (k0_off32 k) (by rw [k0_off32_eq]; rfl) (by rw [k0_off32_eq]; rfl) (k0_off32_inb k) _ (Checks.row2_val_3 k) _ Checks.col_val_48 _ _) _ ?_
      refine part_cons4 d L (8 * k.val) 26 (by decide) hlo (OutAt d L m hu ht 0) f (k0_off31 k) (by rw [k0_off31_eq]; rfl) (by rw [k0_off31_eq]; rfl) (k0_off31_inb k) _ (pay_ok4 d L m hu ht b1 b3 hfb.1 hfb.2 k f hf 26 (by decide) (k0_off31 k) (by rw [k0_off31_eq]; rfl) (by rw [k0_off31_eq]; rfl) (k0_off31_inb k) _ (Checks.row2_val_3 k) _ Checks.col_val_32 _ _) _ ?_
      refine part_cons4 d L (8 * k.val) 25 (by decide) hlo (OutAt d L m hu ht 0) f (k0_off30 k) (by rw [k0_off30_eq]; rfl) (by rw [k0_off30_eq]; rfl) (k0_off30_inb k) _ (pay_ok4 d L m hu ht b1 b3 hfb.1 hfb.2 k f hf 25 (by decide) (k0_off30 k) (by rw [k0_off30_eq]; rfl) (by rw [k0_off30_eq]; rfl) (k0_off30_inb k) _ (Checks.row2_val_3 k) _ Checks.col_val_16 _ _) _ ?_
      refine part_cons4 d L (8 * k.val) 24 (by decide) hlo (OutAt d L m hu ht 0) f (k0_off29 k) (by rw [k0_off29_eq]; rfl) (by rw [k0_off29_eq]; rfl) (k0_off29_inb k) _ (pay_ok4 d L m hu ht b1 b3 hfb.1 hfb.2 k f hf 24 (by decide) (k0_off29 k) (by rw [k0_off29_eq]; rfl) (by rw [k0_off29_eq]; rfl) (k0_off29_inb k) _ (Checks.row2_val_3 k) _ Checks.col_val_0 _ _) _ ?_
      refine part_cons4 d L (8 * k.val) 23 (by decide) hlo (OutAt d L m hu ht 0) f (k0_off28 k) (by rw [k0_off28_eq]; rfl) (by rw [k0_off28_eq]; rfl) (k0_off28_inb k) _ (pay_ok4 d L m hu ht b1 b3 hfb.1 hfb.2 k f hf 23 (by decide) (k0_off28 k) (by rw [k0_off28_eq]; rfl) (by rw [k0_off28_eq]; rfl) (k0_off28_inb k) _ (Checks.row2_val_2 k) _ Checks.col_val_112 _ _) _ ?_
      refine part_cons4 d L (8 * k.val) 22 (by decide) hlo (OutAt d L m hu ht 0) f (k0_off27 k) (by rw [k0_off27_eq]; rfl) (by rw [k0_off27_eq]; rfl) (k0_off27_inb k) _ (pay_ok4 d L m hu ht b1 b3 hfb.1 hfb.2 k f hf 22 (by decide) (k0_off27 k) (by rw [k0_off27_eq]; rfl) (by rw [k0_off27_eq]; rfl) (k0_off27_inb k) _ (Checks.row2_val_2 k) _ Checks.col_val_96 _ _) _ ?_
      refine part_cons4 d L (8 * k.val) 21 (by decide) hlo (OutAt d L m hu ht 0) f (k0_off26 k) (by rw [k0_off26_eq]; rfl) (by rw [k0_off26_eq]; rfl) (k0_off26_inb k) _ (pay_ok4 d L m hu ht b1 b3 hfb.1 hfb.2 k f hf 21 (by decide) (k0_off26 k) (by rw [k0_off26_eq]; rfl) (by rw [k0_off26_eq]; rfl) (k0_off26_inb k) _ (Checks.row2_val_2 k) _ Checks.col_val_80 _ _) _ ?_
      refine part_cons4 d L (8 * k.val) 20 (by decide) hlo (OutAt d L m hu ht 0) f (k0_off25 k) (by rw [k0_off25_eq]; rfl) (by rw [k0_off25_eq]; rfl) (k0_off25_inb k) _ (pay_ok4 d L m hu ht b1 b3 hfb.1 hfb.2 k f hf 20 (by decide) (k0_off25 k) (by rw [k0_off25_eq]; rfl) (by rw [k0_off25_eq]; rfl) (k0_off25_inb k) _ (Checks.row2_val_2 k) _ Checks.col_val_64 _ _) _ ?_
      refine part_cons4 d L (8 * k.val) 19 (by decide) hlo (OutAt d L m hu ht 0) f (k0_off24 k) (by rw [k0_off24_eq]; rfl) (by rw [k0_off24_eq]; rfl) (k0_off24_inb k) _ (pay_ok4 d L m hu ht b1 b3 hfb.1 hfb.2 k f hf 19 (by decide) (k0_off24 k) (by rw [k0_off24_eq]; rfl) (by rw [k0_off24_eq]; rfl) (k0_off24_inb k) _ (Checks.row2_val_2 k) _ Checks.col_val_48 _ _) _ ?_
      refine part_cons4 d L (8 * k.val) 18 (by decide) hlo (OutAt d L m hu ht 0) f (k0_off23 k) (by rw [k0_off23_eq]; rfl) (by rw [k0_off23_eq]; rfl) (k0_off23_inb k) _ (pay_ok4 d L m hu ht b1 b3 hfb.1 hfb.2 k f hf 18 (by decide) (k0_off23 k) (by rw [k0_off23_eq]; rfl) (by rw [k0_off23_eq]; rfl) (k0_off23_inb k) _ (Checks.row2_val_2 k) _ Checks.col_val_32 _ _) _ ?_
      refine part_cons4 d L (8 * k.val) 17 (by decide) hlo (OutAt d L m hu ht 0) f (k0_off22 k) (by rw [k0_off22_eq]; rfl) (by rw [k0_off22_eq]; rfl) (k0_off22_inb k) _ (pay_ok4 d L m hu ht b1 b3 hfb.1 hfb.2 k f hf 17 (by decide) (k0_off22 k) (by rw [k0_off22_eq]; rfl) (by rw [k0_off22_eq]; rfl) (k0_off22_inb k) _ (Checks.row2_val_2 k) _ Checks.col_val_16 _ _) _ ?_
      refine part_cons4 d L (8 * k.val) 16 (by decide) hlo (OutAt d L m hu ht 0) f (k0_off21 k) (by rw [k0_off21_eq]; rfl) (by rw [k0_off21_eq]; rfl) (k0_off21_inb k) _ (pay_ok4 d L m hu ht b1 b3 hfb.1 hfb.2 k f hf 16 (by decide) (k0_off21 k) (by rw [k0_off21_eq]; rfl) (by rw [k0_off21_eq]; rfl) (k0_off21_inb k) _ (Checks.row2_val_2 k) _ Checks.col_val_0 _ _) _ ?_
      refine part_cons4 d L (8 * k.val) 15 (by decide) hlo (OutAt d L m hu ht 0) f (k0_off20 k) (by rw [k0_off20_eq]; rfl) (by rw [k0_off20_eq]; rfl) (k0_off20_inb k) _ (pay_ok4 d L m hu ht b1 b3 hfb.1 hfb.2 k f hf 15 (by decide) (k0_off20 k) (by rw [k0_off20_eq]; rfl) (by rw [k0_off20_eq]; rfl) (k0_off20_inb k) _ (Checks.row2_val_1 k) _ Checks.col_val_112 _ _) _ ?_
      refine part_cons4 d L (8 * k.val) 14 (by decide) hlo (OutAt d L m hu ht 0) f (k0_off19 k) (by rw [k0_off19_eq]; rfl) (by rw [k0_off19_eq]; rfl) (k0_off19_inb k) _ (pay_ok4 d L m hu ht b1 b3 hfb.1 hfb.2 k f hf 14 (by decide) (k0_off19 k) (by rw [k0_off19_eq]; rfl) (by rw [k0_off19_eq]; rfl) (k0_off19_inb k) _ (Checks.row2_val_1 k) _ Checks.col_val_96 _ _) _ ?_
      refine part_cons4 d L (8 * k.val) 13 (by decide) hlo (OutAt d L m hu ht 0) f (k0_off18 k) (by rw [k0_off18_eq]; rfl) (by rw [k0_off18_eq]; rfl) (k0_off18_inb k) _ (pay_ok4 d L m hu ht b1 b3 hfb.1 hfb.2 k f hf 13 (by decide) (k0_off18 k) (by rw [k0_off18_eq]; rfl) (by rw [k0_off18_eq]; rfl) (k0_off18_inb k) _ (Checks.row2_val_1 k) _ Checks.col_val_80 _ _) _ ?_
      refine part_cons4 d L (8 * k.val) 12 (by decide) hlo (OutAt d L m hu ht 0) f (k0_off17 k) (by rw [k0_off17_eq]; rfl) (by rw [k0_off17_eq]; rfl) (k0_off17_inb k) _ (pay_ok4 d L m hu ht b1 b3 hfb.1 hfb.2 k f hf 12 (by decide) (k0_off17 k) (by rw [k0_off17_eq]; rfl) (by rw [k0_off17_eq]; rfl) (k0_off17_inb k) _ (Checks.row2_val_1 k) _ Checks.col_val_64 _ _) _ ?_
      refine part_cons4 d L (8 * k.val) 11 (by decide) hlo (OutAt d L m hu ht 0) f (k0_off16 k) (by rw [k0_off16_eq]; rfl) (by rw [k0_off16_eq]; rfl) (k0_off16_inb k) _ (pay_ok4 d L m hu ht b1 b3 hfb.1 hfb.2 k f hf 11 (by decide) (k0_off16 k) (by rw [k0_off16_eq]; rfl) (by rw [k0_off16_eq]; rfl) (k0_off16_inb k) _ (Checks.row2_val_1 k) _ Checks.col_val_48 _ _) _ ?_
      refine part_cons4 d L (8 * k.val) 10 (by decide) hlo (OutAt d L m hu ht 0) f (k0_off15 k) (by rw [k0_off15_eq]; rfl) (by rw [k0_off15_eq]; rfl) (k0_off15_inb k) _ (pay_ok4 d L m hu ht b1 b3 hfb.1 hfb.2 k f hf 10 (by decide) (k0_off15 k) (by rw [k0_off15_eq]; rfl) (by rw [k0_off15_eq]; rfl) (k0_off15_inb k) _ (Checks.row2_val_1 k) _ Checks.col_val_32 _ _) _ ?_
      refine part_cons4 d L (8 * k.val) 9 (by decide) hlo (OutAt d L m hu ht 0) f (k0_off14 k) (by rw [k0_off14_eq]; rfl) (by rw [k0_off14_eq]; rfl) (k0_off14_inb k) _ (pay_ok4 d L m hu ht b1 b3 hfb.1 hfb.2 k f hf 9 (by decide) (k0_off14 k) (by rw [k0_off14_eq]; rfl) (by rw [k0_off14_eq]; rfl) (k0_off14_inb k) _ (Checks.row2_val_1 k) _ Checks.col_val_16 _ _) _ ?_
      refine part_cons4 d L (8 * k.val) 8 (by decide) hlo (OutAt d L m hu ht 0) f (k0_off13 k) (by rw [k0_off13_eq]; rfl) (by rw [k0_off13_eq]; rfl) (k0_off13_inb k) _ (pay_ok4 d L m hu ht b1 b3 hfb.1 hfb.2 k f hf 8 (by decide) (k0_off13 k) (by rw [k0_off13_eq]; rfl) (by rw [k0_off13_eq]; rfl) (k0_off13_inb k) _ (Checks.row2_val_1 k) _ Checks.col_val_0 _ _) _ ?_
      refine part_cons4 d L (8 * k.val) 7 (by decide) hlo (OutAt d L m hu ht 0) f (k0_off12 k) (by rw [k0_off12_eq]; rfl) (by rw [k0_off12_eq]; rfl) (k0_off12_inb k) _ (pay_ok4 d L m hu ht b1 b3 hfb.1 hfb.2 k f hf 7 (by decide) (k0_off12 k) (by rw [k0_off12_eq]; rfl) (by rw [k0_off12_eq]; rfl) (k0_off12_inb k) _ (Checks.row2_val_0 k) _ Checks.col_val_112 _ _) _ ?_
      refine part_cons4 d L (8 * k.val) 6 (by decide) hlo (OutAt d L m hu ht 0) f (k0_off11 k) (by rw [k0_off11_eq]; rfl) (by rw [k0_off11_eq]; rfl) (k0_off11_inb k) _ (pay_ok4 d L m hu ht b1 b3 hfb.1 hfb.2 k f hf 6 (by decide) (k0_off11 k) (by rw [k0_off11_eq]; rfl) (by rw [k0_off11_eq]; rfl) (k0_off11_inb k) _ (Checks.row2_val_0 k) _ Checks.col_val_96 _ _) _ ?_
      refine part_cons4 d L (8 * k.val) 5 (by decide) hlo (OutAt d L m hu ht 0) f (k0_off10 k) (by rw [k0_off10_eq]; rfl) (by rw [k0_off10_eq]; rfl) (k0_off10_inb k) _ (pay_ok4 d L m hu ht b1 b3 hfb.1 hfb.2 k f hf 5 (by decide) (k0_off10 k) (by rw [k0_off10_eq]; rfl) (by rw [k0_off10_eq]; rfl) (k0_off10_inb k) _ (Checks.row2_val_0 k) _ Checks.col_val_80 _ _) _ ?_
      refine part_cons4 d L (8 * k.val) 4 (by decide) hlo (OutAt d L m hu ht 0) f (k0_off9 k) (by rw [k0_off9_eq]; rfl) (by rw [k0_off9_eq]; rfl) (k0_off9_inb k) _ (pay_ok4 d L m hu ht b1 b3 hfb.1 hfb.2 k f hf 4 (by decide) (k0_off9 k) (by rw [k0_off9_eq]; rfl) (by rw [k0_off9_eq]; rfl) (k0_off9_inb k) _ (Checks.row2_val_0 k) _ Checks.col_val_64 _ _) _ ?_
      refine part_cons4 d L (8 * k.val) 3 (by decide) hlo (OutAt d L m hu ht 0) f (k0_off8 k) (by rw [k0_off8_eq]; rfl) (by rw [k0_off8_eq]; rfl) (k0_off8_inb k) _ (pay_ok4 d L m hu ht b1 b3 hfb.1 hfb.2 k f hf 3 (by decide) (k0_off8 k) (by rw [k0_off8_eq]; rfl) (by rw [k0_off8_eq]; rfl) (k0_off8_inb k) _ (Checks.row2_val_0 k) _ Checks.col_val_48 _ _) _ ?_
      refine part_cons4 d L (8 * k.val) 2 (by decide) hlo (OutAt d L m hu ht 0) f (k0_off7 k) (by rw [k0_off7_eq]; rfl) (by rw [k0_off7_eq]; rfl) (k0_off7_inb k) _ (pay_ok4 d L m hu ht b1 b3 hfb.1 hfb.2 k f hf 2 (by decide) (k0_off7 k) (by rw [k0_off7_eq]; rfl) (by rw [k0_off7_eq]; rfl) (k0_off7_inb k) _ (Checks.row2_val_0 k) _ Checks.col_val_32 _ _) _ ?_
      refine part_cons4 d L (8 * k.val) 1 (by decide) hlo (OutAt d L m hu ht 0) f (k0_off6 k) (by rw [k0_off6_eq]; rfl) (by rw [k0_off6_eq]; rfl) (k0_off6_inb k) _ (pay_ok4 d L m hu ht b1 b3 hfb.1 hfb.2 k f hf 1 (by decide) (k0_off6 k) (by rw [k0_off6_eq]; rfl) (by rw [k0_off6_eq]; rfl) (k0_off6_inb k) _ (Checks.row2_val_0 k) _ Checks.col_val_16 _ _) _ ?_
      refine part_cons4 d L (8 * k.val) 0 (by decide) hlo (OutAt d L m hu ht 0) f (k0_off5 k) (by rw [k0_off5_eq]; rfl) (by rw [k0_off5_eq]; rfl) (k0_off5_inb k) _ (pay_ok4 d L m hu ht b1 b3 hfb.1 hfb.2 k f hf 0 (by decide) (k0_off5 k) (by rw [k0_off5_eq]; rfl) (by rw [k0_off5_eq]; rfl) (k0_off5_inb k) _ (Checks.row2_val_0 k) _ Checks.col_val_0 _ _) _ ?_
      exact part_zero _ _ _
  · unfold inv2
    iexists _, _
    isplitr
    · ipureintro; sl_unfold_run_names; exact ⟨hfa1, fact3_entry d L m f3⟩
    isplitl [Hs1]; · iexact Hs1
    isplitl [Hs3]; · iexact Hs3
    iexists _
    isplitr
    · ipureintro; sl_unfold_run_names; exact low2_zero d L m hu ht 0 _ (in_entry4 d L m f4)
    · iexact Hs4
  iintro %_ HI
  unfold inv2
  icases HI with ⟨%b1, %b3, %hfb2, Hs1, Hs3, %g4, %hg4, Hs4⟩
  sl_exec
  sl_for (inv3 d L m hu ht) $$ [Hs1 Hs3 Hs5]
  case region =>
    intro k _
    unfold inv3
    iintro ⟨%b1', %b3', %hfb, Hb1, Hb3, %f, %hf, Hf⟩
    repeat (sl_exec (disch := first
      | sl_exact Checks.chkB18 _ (Checks.row3_lt_0 k)
      | sl_exact Checks.chkB19 _ (Checks.row3_lt_1 k)
      | sl_exact Checks.chkB20 _ (Checks.row3_lt_2 k)
      | sl_exact Checks.chkB21 _ (Checks.row3_lt_3 k)
      | sl_exact Checks.chkB22 _ (Checks.row3_lt_4 k)
      | sl_exact Checks.chkB23 _ (Checks.row3_lt_5 k)
      | sl_exact Checks.chkB24 _ (Checks.row3_lt_6 k)
      | sl_exact Checks.chkB25 _ (Checks.row3_lt_7 k)
      | sl_exact Checks.chkD26 _ (lt100_of_fact1 d L m hu ht b1' hfb.1 _ _)
      | sl_exact Checks.chkD27 _ (lt100_of_fact1 d L m hu ht b1' hfb.1 _ _)
      | sl_exact Checks.chkD28 _ (lt100_of_fact1 d L m hu ht b1' hfb.1 _ _)
      | sl_exact Checks.chkD29 _ (lt100_of_fact1 d L m hu ht b1' hfb.1 _ _)
      | sl_exact Checks.chkD30 _ (lt100_of_fact1 d L m hu ht b1' hfb.1 _ _)
      | sl_exact Checks.chkD31 _ (lt100_of_fact1 d L m hu ht b1' hfb.1 _ _)
      | sl_exact Checks.chkD32 _ (lt100_of_fact1 d L m hu ht b1' hfb.1 _ _)
      | sl_exact Checks.chkD33 _ (lt100_of_fact1 d L m hu ht b1' hfb.1 _ _)); sl_respell [SparseCore.vectorLoadIdx])
    sl_exec (disch := first
      | sl_exact Checks.chkB18 _ (Checks.row3_lt_0 k)
      | sl_exact Checks.chkB19 _ (Checks.row3_lt_1 k)
      | sl_exact Checks.chkB20 _ (Checks.row3_lt_2 k)
      | sl_exact Checks.chkB21 _ (Checks.row3_lt_3 k)
      | sl_exact Checks.chkB22 _ (Checks.row3_lt_4 k)
      | sl_exact Checks.chkB23 _ (Checks.row3_lt_5 k)
      | sl_exact Checks.chkB24 _ (Checks.row3_lt_6 k)
      | sl_exact Checks.chkB25 _ (Checks.row3_lt_7 k)
      | sl_exact Checks.chkD26 _ (lt100_of_fact1 d L m hu ht b1' hfb.1 _ _)
      | sl_exact Checks.chkD27 _ (lt100_of_fact1 d L m hu ht b1' hfb.1 _ _)
      | sl_exact Checks.chkD28 _ (lt100_of_fact1 d L m hu ht b1' hfb.1 _ _)
      | sl_exact Checks.chkD29 _ (lt100_of_fact1 d L m hu ht b1' hfb.1 _ _)
      | sl_exact Checks.chkD30 _ (lt100_of_fact1 d L m hu ht b1' hfb.1 _ _)
      | sl_exact Checks.chkD31 _ (lt100_of_fact1 d L m hu ht b1' hfb.1 _ _)
      | sl_exact Checks.chkD32 _ (lt100_of_fact1 d L m hu ht b1' hfb.1 _ _)
      | sl_exact Checks.chkD33 _ (lt100_of_fact1 d L m hu ht b1' hfb.1 _ _))
    sl_step
    iexists b1', b3'
    isplitr; · ipureintro; exact hfb
    isplitl [Hb1]; · iexact Hb1
    isplitl [Hb3]; · iexact Hb3
    iexists _
    isplitr
    rotate_left
    · iexact Hf
    · ipureintro
      have hk32 : k.val < 32 := k.isLt
      have hlo : 8 * k.val + 8 ≤ 256 := by omega
      refine low3_of_part d L m hu ht k.val hlo f _ hf ?_
      refine part_cons5 d L (8 * k.val) 63 (by decide) hlo (OutAt d L m hu ht 1) f (k0_off133 k) (by rw [k0_off133_eq]; rfl) (by rw [k0_off133_eq]; rfl) (k0_off133_inb k) _ (pay_ok5 d L m hu ht b1' b3' hfb.1 hfb.2 k f hf 63 (by decide) (k0_off133 k) (by rw [k0_off133_eq]; rfl) (by rw [k0_off133_eq]; rfl) (k0_off133_inb k) _ (Checks.row3_val_7 k) _ Checks.col_val_112 _ _) _ ?_
      refine part_cons5 d L (8 * k.val) 62 (by decide) hlo (OutAt d L m hu ht 1) f (k0_off132 k) (by rw [k0_off132_eq]; rfl) (by rw [k0_off132_eq]; rfl) (k0_off132_inb k) _ (pay_ok5 d L m hu ht b1' b3' hfb.1 hfb.2 k f hf 62 (by decide) (k0_off132 k) (by rw [k0_off132_eq]; rfl) (by rw [k0_off132_eq]; rfl) (k0_off132_inb k) _ (Checks.row3_val_7 k) _ Checks.col_val_96 _ _) _ ?_
      refine part_cons5 d L (8 * k.val) 61 (by decide) hlo (OutAt d L m hu ht 1) f (k0_off131 k) (by rw [k0_off131_eq]; rfl) (by rw [k0_off131_eq]; rfl) (k0_off131_inb k) _ (pay_ok5 d L m hu ht b1' b3' hfb.1 hfb.2 k f hf 61 (by decide) (k0_off131 k) (by rw [k0_off131_eq]; rfl) (by rw [k0_off131_eq]; rfl) (k0_off131_inb k) _ (Checks.row3_val_7 k) _ Checks.col_val_80 _ _) _ ?_
      refine part_cons5 d L (8 * k.val) 60 (by decide) hlo (OutAt d L m hu ht 1) f (k0_off130 k) (by rw [k0_off130_eq]; rfl) (by rw [k0_off130_eq]; rfl) (k0_off130_inb k) _ (pay_ok5 d L m hu ht b1' b3' hfb.1 hfb.2 k f hf 60 (by decide) (k0_off130 k) (by rw [k0_off130_eq]; rfl) (by rw [k0_off130_eq]; rfl) (k0_off130_inb k) _ (Checks.row3_val_7 k) _ Checks.col_val_64 _ _) _ ?_
      refine part_cons5 d L (8 * k.val) 59 (by decide) hlo (OutAt d L m hu ht 1) f (k0_off129 k) (by rw [k0_off129_eq]; rfl) (by rw [k0_off129_eq]; rfl) (k0_off129_inb k) _ (pay_ok5 d L m hu ht b1' b3' hfb.1 hfb.2 k f hf 59 (by decide) (k0_off129 k) (by rw [k0_off129_eq]; rfl) (by rw [k0_off129_eq]; rfl) (k0_off129_inb k) _ (Checks.row3_val_7 k) _ Checks.col_val_48 _ _) _ ?_
      refine part_cons5 d L (8 * k.val) 58 (by decide) hlo (OutAt d L m hu ht 1) f (k0_off128 k) (by rw [k0_off128_eq]; rfl) (by rw [k0_off128_eq]; rfl) (k0_off128_inb k) _ (pay_ok5 d L m hu ht b1' b3' hfb.1 hfb.2 k f hf 58 (by decide) (k0_off128 k) (by rw [k0_off128_eq]; rfl) (by rw [k0_off128_eq]; rfl) (k0_off128_inb k) _ (Checks.row3_val_7 k) _ Checks.col_val_32 _ _) _ ?_
      refine part_cons5 d L (8 * k.val) 57 (by decide) hlo (OutAt d L m hu ht 1) f (k0_off127 k) (by rw [k0_off127_eq]; rfl) (by rw [k0_off127_eq]; rfl) (k0_off127_inb k) _ (pay_ok5 d L m hu ht b1' b3' hfb.1 hfb.2 k f hf 57 (by decide) (k0_off127 k) (by rw [k0_off127_eq]; rfl) (by rw [k0_off127_eq]; rfl) (k0_off127_inb k) _ (Checks.row3_val_7 k) _ Checks.col_val_16 _ _) _ ?_
      refine part_cons5 d L (8 * k.val) 56 (by decide) hlo (OutAt d L m hu ht 1) f (k0_off126 k) (by rw [k0_off126_eq]; rfl) (by rw [k0_off126_eq]; rfl) (k0_off126_inb k) _ (pay_ok5 d L m hu ht b1' b3' hfb.1 hfb.2 k f hf 56 (by decide) (k0_off126 k) (by rw [k0_off126_eq]; rfl) (by rw [k0_off126_eq]; rfl) (k0_off126_inb k) _ (Checks.row3_val_7 k) _ Checks.col_val_0 _ _) _ ?_
      refine part_cons5 d L (8 * k.val) 55 (by decide) hlo (OutAt d L m hu ht 1) f (k0_off125 k) (by rw [k0_off125_eq]; rfl) (by rw [k0_off125_eq]; rfl) (k0_off125_inb k) _ (pay_ok5 d L m hu ht b1' b3' hfb.1 hfb.2 k f hf 55 (by decide) (k0_off125 k) (by rw [k0_off125_eq]; rfl) (by rw [k0_off125_eq]; rfl) (k0_off125_inb k) _ (Checks.row3_val_6 k) _ Checks.col_val_112 _ _) _ ?_
      refine part_cons5 d L (8 * k.val) 54 (by decide) hlo (OutAt d L m hu ht 1) f (k0_off124 k) (by rw [k0_off124_eq]; rfl) (by rw [k0_off124_eq]; rfl) (k0_off124_inb k) _ (pay_ok5 d L m hu ht b1' b3' hfb.1 hfb.2 k f hf 54 (by decide) (k0_off124 k) (by rw [k0_off124_eq]; rfl) (by rw [k0_off124_eq]; rfl) (k0_off124_inb k) _ (Checks.row3_val_6 k) _ Checks.col_val_96 _ _) _ ?_
      refine part_cons5 d L (8 * k.val) 53 (by decide) hlo (OutAt d L m hu ht 1) f (k0_off123 k) (by rw [k0_off123_eq]; rfl) (by rw [k0_off123_eq]; rfl) (k0_off123_inb k) _ (pay_ok5 d L m hu ht b1' b3' hfb.1 hfb.2 k f hf 53 (by decide) (k0_off123 k) (by rw [k0_off123_eq]; rfl) (by rw [k0_off123_eq]; rfl) (k0_off123_inb k) _ (Checks.row3_val_6 k) _ Checks.col_val_80 _ _) _ ?_
      refine part_cons5 d L (8 * k.val) 52 (by decide) hlo (OutAt d L m hu ht 1) f (k0_off122 k) (by rw [k0_off122_eq]; rfl) (by rw [k0_off122_eq]; rfl) (k0_off122_inb k) _ (pay_ok5 d L m hu ht b1' b3' hfb.1 hfb.2 k f hf 52 (by decide) (k0_off122 k) (by rw [k0_off122_eq]; rfl) (by rw [k0_off122_eq]; rfl) (k0_off122_inb k) _ (Checks.row3_val_6 k) _ Checks.col_val_64 _ _) _ ?_
      refine part_cons5 d L (8 * k.val) 51 (by decide) hlo (OutAt d L m hu ht 1) f (k0_off121 k) (by rw [k0_off121_eq]; rfl) (by rw [k0_off121_eq]; rfl) (k0_off121_inb k) _ (pay_ok5 d L m hu ht b1' b3' hfb.1 hfb.2 k f hf 51 (by decide) (k0_off121 k) (by rw [k0_off121_eq]; rfl) (by rw [k0_off121_eq]; rfl) (k0_off121_inb k) _ (Checks.row3_val_6 k) _ Checks.col_val_48 _ _) _ ?_
      refine part_cons5 d L (8 * k.val) 50 (by decide) hlo (OutAt d L m hu ht 1) f (k0_off120 k) (by rw [k0_off120_eq]; rfl) (by rw [k0_off120_eq]; rfl) (k0_off120_inb k) _ (pay_ok5 d L m hu ht b1' b3' hfb.1 hfb.2 k f hf 50 (by decide) (k0_off120 k) (by rw [k0_off120_eq]; rfl) (by rw [k0_off120_eq]; rfl) (k0_off120_inb k) _ (Checks.row3_val_6 k) _ Checks.col_val_32 _ _) _ ?_
      refine part_cons5 d L (8 * k.val) 49 (by decide) hlo (OutAt d L m hu ht 1) f (k0_off119 k) (by rw [k0_off119_eq]; rfl) (by rw [k0_off119_eq]; rfl) (k0_off119_inb k) _ (pay_ok5 d L m hu ht b1' b3' hfb.1 hfb.2 k f hf 49 (by decide) (k0_off119 k) (by rw [k0_off119_eq]; rfl) (by rw [k0_off119_eq]; rfl) (k0_off119_inb k) _ (Checks.row3_val_6 k) _ Checks.col_val_16 _ _) _ ?_
      refine part_cons5 d L (8 * k.val) 48 (by decide) hlo (OutAt d L m hu ht 1) f (k0_off118 k) (by rw [k0_off118_eq]; rfl) (by rw [k0_off118_eq]; rfl) (k0_off118_inb k) _ (pay_ok5 d L m hu ht b1' b3' hfb.1 hfb.2 k f hf 48 (by decide) (k0_off118 k) (by rw [k0_off118_eq]; rfl) (by rw [k0_off118_eq]; rfl) (k0_off118_inb k) _ (Checks.row3_val_6 k) _ Checks.col_val_0 _ _) _ ?_
      refine part_cons5 d L (8 * k.val) 47 (by decide) hlo (OutAt d L m hu ht 1) f (k0_off117 k) (by rw [k0_off117_eq]; rfl) (by rw [k0_off117_eq]; rfl) (k0_off117_inb k) _ (pay_ok5 d L m hu ht b1' b3' hfb.1 hfb.2 k f hf 47 (by decide) (k0_off117 k) (by rw [k0_off117_eq]; rfl) (by rw [k0_off117_eq]; rfl) (k0_off117_inb k) _ (Checks.row3_val_5 k) _ Checks.col_val_112 _ _) _ ?_
      refine part_cons5 d L (8 * k.val) 46 (by decide) hlo (OutAt d L m hu ht 1) f (k0_off116 k) (by rw [k0_off116_eq]; rfl) (by rw [k0_off116_eq]; rfl) (k0_off116_inb k) _ (pay_ok5 d L m hu ht b1' b3' hfb.1 hfb.2 k f hf 46 (by decide) (k0_off116 k) (by rw [k0_off116_eq]; rfl) (by rw [k0_off116_eq]; rfl) (k0_off116_inb k) _ (Checks.row3_val_5 k) _ Checks.col_val_96 _ _) _ ?_
      refine part_cons5 d L (8 * k.val) 45 (by decide) hlo (OutAt d L m hu ht 1) f (k0_off115 k) (by rw [k0_off115_eq]; rfl) (by rw [k0_off115_eq]; rfl) (k0_off115_inb k) _ (pay_ok5 d L m hu ht b1' b3' hfb.1 hfb.2 k f hf 45 (by decide) (k0_off115 k) (by rw [k0_off115_eq]; rfl) (by rw [k0_off115_eq]; rfl) (k0_off115_inb k) _ (Checks.row3_val_5 k) _ Checks.col_val_80 _ _) _ ?_
      refine part_cons5 d L (8 * k.val) 44 (by decide) hlo (OutAt d L m hu ht 1) f (k0_off114 k) (by rw [k0_off114_eq]; rfl) (by rw [k0_off114_eq]; rfl) (k0_off114_inb k) _ (pay_ok5 d L m hu ht b1' b3' hfb.1 hfb.2 k f hf 44 (by decide) (k0_off114 k) (by rw [k0_off114_eq]; rfl) (by rw [k0_off114_eq]; rfl) (k0_off114_inb k) _ (Checks.row3_val_5 k) _ Checks.col_val_64 _ _) _ ?_
      refine part_cons5 d L (8 * k.val) 43 (by decide) hlo (OutAt d L m hu ht 1) f (k0_off113 k) (by rw [k0_off113_eq]; rfl) (by rw [k0_off113_eq]; rfl) (k0_off113_inb k) _ (pay_ok5 d L m hu ht b1' b3' hfb.1 hfb.2 k f hf 43 (by decide) (k0_off113 k) (by rw [k0_off113_eq]; rfl) (by rw [k0_off113_eq]; rfl) (k0_off113_inb k) _ (Checks.row3_val_5 k) _ Checks.col_val_48 _ _) _ ?_
      refine part_cons5 d L (8 * k.val) 42 (by decide) hlo (OutAt d L m hu ht 1) f (k0_off112 k) (by rw [k0_off112_eq]; rfl) (by rw [k0_off112_eq]; rfl) (k0_off112_inb k) _ (pay_ok5 d L m hu ht b1' b3' hfb.1 hfb.2 k f hf 42 (by decide) (k0_off112 k) (by rw [k0_off112_eq]; rfl) (by rw [k0_off112_eq]; rfl) (k0_off112_inb k) _ (Checks.row3_val_5 k) _ Checks.col_val_32 _ _) _ ?_
      refine part_cons5 d L (8 * k.val) 41 (by decide) hlo (OutAt d L m hu ht 1) f (k0_off111 k) (by rw [k0_off111_eq]; rfl) (by rw [k0_off111_eq]; rfl) (k0_off111_inb k) _ (pay_ok5 d L m hu ht b1' b3' hfb.1 hfb.2 k f hf 41 (by decide) (k0_off111 k) (by rw [k0_off111_eq]; rfl) (by rw [k0_off111_eq]; rfl) (k0_off111_inb k) _ (Checks.row3_val_5 k) _ Checks.col_val_16 _ _) _ ?_
      refine part_cons5 d L (8 * k.val) 40 (by decide) hlo (OutAt d L m hu ht 1) f (k0_off110 k) (by rw [k0_off110_eq]; rfl) (by rw [k0_off110_eq]; rfl) (k0_off110_inb k) _ (pay_ok5 d L m hu ht b1' b3' hfb.1 hfb.2 k f hf 40 (by decide) (k0_off110 k) (by rw [k0_off110_eq]; rfl) (by rw [k0_off110_eq]; rfl) (k0_off110_inb k) _ (Checks.row3_val_5 k) _ Checks.col_val_0 _ _) _ ?_
      refine part_cons5 d L (8 * k.val) 39 (by decide) hlo (OutAt d L m hu ht 1) f (k0_off109 k) (by rw [k0_off109_eq]; rfl) (by rw [k0_off109_eq]; rfl) (k0_off109_inb k) _ (pay_ok5 d L m hu ht b1' b3' hfb.1 hfb.2 k f hf 39 (by decide) (k0_off109 k) (by rw [k0_off109_eq]; rfl) (by rw [k0_off109_eq]; rfl) (k0_off109_inb k) _ (Checks.row3_val_4 k) _ Checks.col_val_112 _ _) _ ?_
      refine part_cons5 d L (8 * k.val) 38 (by decide) hlo (OutAt d L m hu ht 1) f (k0_off108 k) (by rw [k0_off108_eq]; rfl) (by rw [k0_off108_eq]; rfl) (k0_off108_inb k) _ (pay_ok5 d L m hu ht b1' b3' hfb.1 hfb.2 k f hf 38 (by decide) (k0_off108 k) (by rw [k0_off108_eq]; rfl) (by rw [k0_off108_eq]; rfl) (k0_off108_inb k) _ (Checks.row3_val_4 k) _ Checks.col_val_96 _ _) _ ?_
      refine part_cons5 d L (8 * k.val) 37 (by decide) hlo (OutAt d L m hu ht 1) f (k0_off107 k) (by rw [k0_off107_eq]; rfl) (by rw [k0_off107_eq]; rfl) (k0_off107_inb k) _ (pay_ok5 d L m hu ht b1' b3' hfb.1 hfb.2 k f hf 37 (by decide) (k0_off107 k) (by rw [k0_off107_eq]; rfl) (by rw [k0_off107_eq]; rfl) (k0_off107_inb k) _ (Checks.row3_val_4 k) _ Checks.col_val_80 _ _) _ ?_
      refine part_cons5 d L (8 * k.val) 36 (by decide) hlo (OutAt d L m hu ht 1) f (k0_off106 k) (by rw [k0_off106_eq]; rfl) (by rw [k0_off106_eq]; rfl) (k0_off106_inb k) _ (pay_ok5 d L m hu ht b1' b3' hfb.1 hfb.2 k f hf 36 (by decide) (k0_off106 k) (by rw [k0_off106_eq]; rfl) (by rw [k0_off106_eq]; rfl) (k0_off106_inb k) _ (Checks.row3_val_4 k) _ Checks.col_val_64 _ _) _ ?_
      refine part_cons5 d L (8 * k.val) 35 (by decide) hlo (OutAt d L m hu ht 1) f (k0_off105 k) (by rw [k0_off105_eq]; rfl) (by rw [k0_off105_eq]; rfl) (k0_off105_inb k) _ (pay_ok5 d L m hu ht b1' b3' hfb.1 hfb.2 k f hf 35 (by decide) (k0_off105 k) (by rw [k0_off105_eq]; rfl) (by rw [k0_off105_eq]; rfl) (k0_off105_inb k) _ (Checks.row3_val_4 k) _ Checks.col_val_48 _ _) _ ?_
      refine part_cons5 d L (8 * k.val) 34 (by decide) hlo (OutAt d L m hu ht 1) f (k0_off104 k) (by rw [k0_off104_eq]; rfl) (by rw [k0_off104_eq]; rfl) (k0_off104_inb k) _ (pay_ok5 d L m hu ht b1' b3' hfb.1 hfb.2 k f hf 34 (by decide) (k0_off104 k) (by rw [k0_off104_eq]; rfl) (by rw [k0_off104_eq]; rfl) (k0_off104_inb k) _ (Checks.row3_val_4 k) _ Checks.col_val_32 _ _) _ ?_
      refine part_cons5 d L (8 * k.val) 33 (by decide) hlo (OutAt d L m hu ht 1) f (k0_off103 k) (by rw [k0_off103_eq]; rfl) (by rw [k0_off103_eq]; rfl) (k0_off103_inb k) _ (pay_ok5 d L m hu ht b1' b3' hfb.1 hfb.2 k f hf 33 (by decide) (k0_off103 k) (by rw [k0_off103_eq]; rfl) (by rw [k0_off103_eq]; rfl) (k0_off103_inb k) _ (Checks.row3_val_4 k) _ Checks.col_val_16 _ _) _ ?_
      refine part_cons5 d L (8 * k.val) 32 (by decide) hlo (OutAt d L m hu ht 1) f (k0_off102 k) (by rw [k0_off102_eq]; rfl) (by rw [k0_off102_eq]; rfl) (k0_off102_inb k) _ (pay_ok5 d L m hu ht b1' b3' hfb.1 hfb.2 k f hf 32 (by decide) (k0_off102 k) (by rw [k0_off102_eq]; rfl) (by rw [k0_off102_eq]; rfl) (k0_off102_inb k) _ (Checks.row3_val_4 k) _ Checks.col_val_0 _ _) _ ?_
      refine part_cons5 d L (8 * k.val) 31 (by decide) hlo (OutAt d L m hu ht 1) f (k0_off101 k) (by rw [k0_off101_eq]; rfl) (by rw [k0_off101_eq]; rfl) (k0_off101_inb k) _ (pay_ok5 d L m hu ht b1' b3' hfb.1 hfb.2 k f hf 31 (by decide) (k0_off101 k) (by rw [k0_off101_eq]; rfl) (by rw [k0_off101_eq]; rfl) (k0_off101_inb k) _ (Checks.row3_val_3 k) _ Checks.col_val_112 _ _) _ ?_
      refine part_cons5 d L (8 * k.val) 30 (by decide) hlo (OutAt d L m hu ht 1) f (k0_off100 k) (by rw [k0_off100_eq]; rfl) (by rw [k0_off100_eq]; rfl) (k0_off100_inb k) _ (pay_ok5 d L m hu ht b1' b3' hfb.1 hfb.2 k f hf 30 (by decide) (k0_off100 k) (by rw [k0_off100_eq]; rfl) (by rw [k0_off100_eq]; rfl) (k0_off100_inb k) _ (Checks.row3_val_3 k) _ Checks.col_val_96 _ _) _ ?_
      refine part_cons5 d L (8 * k.val) 29 (by decide) hlo (OutAt d L m hu ht 1) f (k0_off99 k) (by rw [k0_off99_eq]; rfl) (by rw [k0_off99_eq]; rfl) (k0_off99_inb k) _ (pay_ok5 d L m hu ht b1' b3' hfb.1 hfb.2 k f hf 29 (by decide) (k0_off99 k) (by rw [k0_off99_eq]; rfl) (by rw [k0_off99_eq]; rfl) (k0_off99_inb k) _ (Checks.row3_val_3 k) _ Checks.col_val_80 _ _) _ ?_
      refine part_cons5 d L (8 * k.val) 28 (by decide) hlo (OutAt d L m hu ht 1) f (k0_off98 k) (by rw [k0_off98_eq]; rfl) (by rw [k0_off98_eq]; rfl) (k0_off98_inb k) _ (pay_ok5 d L m hu ht b1' b3' hfb.1 hfb.2 k f hf 28 (by decide) (k0_off98 k) (by rw [k0_off98_eq]; rfl) (by rw [k0_off98_eq]; rfl) (k0_off98_inb k) _ (Checks.row3_val_3 k) _ Checks.col_val_64 _ _) _ ?_
      refine part_cons5 d L (8 * k.val) 27 (by decide) hlo (OutAt d L m hu ht 1) f (k0_off97 k) (by rw [k0_off97_eq]; rfl) (by rw [k0_off97_eq]; rfl) (k0_off97_inb k) _ (pay_ok5 d L m hu ht b1' b3' hfb.1 hfb.2 k f hf 27 (by decide) (k0_off97 k) (by rw [k0_off97_eq]; rfl) (by rw [k0_off97_eq]; rfl) (k0_off97_inb k) _ (Checks.row3_val_3 k) _ Checks.col_val_48 _ _) _ ?_
      refine part_cons5 d L (8 * k.val) 26 (by decide) hlo (OutAt d L m hu ht 1) f (k0_off96 k) (by rw [k0_off96_eq]; rfl) (by rw [k0_off96_eq]; rfl) (k0_off96_inb k) _ (pay_ok5 d L m hu ht b1' b3' hfb.1 hfb.2 k f hf 26 (by decide) (k0_off96 k) (by rw [k0_off96_eq]; rfl) (by rw [k0_off96_eq]; rfl) (k0_off96_inb k) _ (Checks.row3_val_3 k) _ Checks.col_val_32 _ _) _ ?_
      refine part_cons5 d L (8 * k.val) 25 (by decide) hlo (OutAt d L m hu ht 1) f (k0_off95 k) (by rw [k0_off95_eq]; rfl) (by rw [k0_off95_eq]; rfl) (k0_off95_inb k) _ (pay_ok5 d L m hu ht b1' b3' hfb.1 hfb.2 k f hf 25 (by decide) (k0_off95 k) (by rw [k0_off95_eq]; rfl) (by rw [k0_off95_eq]; rfl) (k0_off95_inb k) _ (Checks.row3_val_3 k) _ Checks.col_val_16 _ _) _ ?_
      refine part_cons5 d L (8 * k.val) 24 (by decide) hlo (OutAt d L m hu ht 1) f (k0_off94 k) (by rw [k0_off94_eq]; rfl) (by rw [k0_off94_eq]; rfl) (k0_off94_inb k) _ (pay_ok5 d L m hu ht b1' b3' hfb.1 hfb.2 k f hf 24 (by decide) (k0_off94 k) (by rw [k0_off94_eq]; rfl) (by rw [k0_off94_eq]; rfl) (k0_off94_inb k) _ (Checks.row3_val_3 k) _ Checks.col_val_0 _ _) _ ?_
      refine part_cons5 d L (8 * k.val) 23 (by decide) hlo (OutAt d L m hu ht 1) f (k0_off93 k) (by rw [k0_off93_eq]; rfl) (by rw [k0_off93_eq]; rfl) (k0_off93_inb k) _ (pay_ok5 d L m hu ht b1' b3' hfb.1 hfb.2 k f hf 23 (by decide) (k0_off93 k) (by rw [k0_off93_eq]; rfl) (by rw [k0_off93_eq]; rfl) (k0_off93_inb k) _ (Checks.row3_val_2 k) _ Checks.col_val_112 _ _) _ ?_
      refine part_cons5 d L (8 * k.val) 22 (by decide) hlo (OutAt d L m hu ht 1) f (k0_off92 k) (by rw [k0_off92_eq]; rfl) (by rw [k0_off92_eq]; rfl) (k0_off92_inb k) _ (pay_ok5 d L m hu ht b1' b3' hfb.1 hfb.2 k f hf 22 (by decide) (k0_off92 k) (by rw [k0_off92_eq]; rfl) (by rw [k0_off92_eq]; rfl) (k0_off92_inb k) _ (Checks.row3_val_2 k) _ Checks.col_val_96 _ _) _ ?_
      refine part_cons5 d L (8 * k.val) 21 (by decide) hlo (OutAt d L m hu ht 1) f (k0_off91 k) (by rw [k0_off91_eq]; rfl) (by rw [k0_off91_eq]; rfl) (k0_off91_inb k) _ (pay_ok5 d L m hu ht b1' b3' hfb.1 hfb.2 k f hf 21 (by decide) (k0_off91 k) (by rw [k0_off91_eq]; rfl) (by rw [k0_off91_eq]; rfl) (k0_off91_inb k) _ (Checks.row3_val_2 k) _ Checks.col_val_80 _ _) _ ?_
      refine part_cons5 d L (8 * k.val) 20 (by decide) hlo (OutAt d L m hu ht 1) f (k0_off90 k) (by rw [k0_off90_eq]; rfl) (by rw [k0_off90_eq]; rfl) (k0_off90_inb k) _ (pay_ok5 d L m hu ht b1' b3' hfb.1 hfb.2 k f hf 20 (by decide) (k0_off90 k) (by rw [k0_off90_eq]; rfl) (by rw [k0_off90_eq]; rfl) (k0_off90_inb k) _ (Checks.row3_val_2 k) _ Checks.col_val_64 _ _) _ ?_
      refine part_cons5 d L (8 * k.val) 19 (by decide) hlo (OutAt d L m hu ht 1) f (k0_off89 k) (by rw [k0_off89_eq]; rfl) (by rw [k0_off89_eq]; rfl) (k0_off89_inb k) _ (pay_ok5 d L m hu ht b1' b3' hfb.1 hfb.2 k f hf 19 (by decide) (k0_off89 k) (by rw [k0_off89_eq]; rfl) (by rw [k0_off89_eq]; rfl) (k0_off89_inb k) _ (Checks.row3_val_2 k) _ Checks.col_val_48 _ _) _ ?_
      refine part_cons5 d L (8 * k.val) 18 (by decide) hlo (OutAt d L m hu ht 1) f (k0_off88 k) (by rw [k0_off88_eq]; rfl) (by rw [k0_off88_eq]; rfl) (k0_off88_inb k) _ (pay_ok5 d L m hu ht b1' b3' hfb.1 hfb.2 k f hf 18 (by decide) (k0_off88 k) (by rw [k0_off88_eq]; rfl) (by rw [k0_off88_eq]; rfl) (k0_off88_inb k) _ (Checks.row3_val_2 k) _ Checks.col_val_32 _ _) _ ?_
      refine part_cons5 d L (8 * k.val) 17 (by decide) hlo (OutAt d L m hu ht 1) f (k0_off87 k) (by rw [k0_off87_eq]; rfl) (by rw [k0_off87_eq]; rfl) (k0_off87_inb k) _ (pay_ok5 d L m hu ht b1' b3' hfb.1 hfb.2 k f hf 17 (by decide) (k0_off87 k) (by rw [k0_off87_eq]; rfl) (by rw [k0_off87_eq]; rfl) (k0_off87_inb k) _ (Checks.row3_val_2 k) _ Checks.col_val_16 _ _) _ ?_
      refine part_cons5 d L (8 * k.val) 16 (by decide) hlo (OutAt d L m hu ht 1) f (k0_off86 k) (by rw [k0_off86_eq]; rfl) (by rw [k0_off86_eq]; rfl) (k0_off86_inb k) _ (pay_ok5 d L m hu ht b1' b3' hfb.1 hfb.2 k f hf 16 (by decide) (k0_off86 k) (by rw [k0_off86_eq]; rfl) (by rw [k0_off86_eq]; rfl) (k0_off86_inb k) _ (Checks.row3_val_2 k) _ Checks.col_val_0 _ _) _ ?_
      refine part_cons5 d L (8 * k.val) 15 (by decide) hlo (OutAt d L m hu ht 1) f (k0_off85 k) (by rw [k0_off85_eq]; rfl) (by rw [k0_off85_eq]; rfl) (k0_off85_inb k) _ (pay_ok5 d L m hu ht b1' b3' hfb.1 hfb.2 k f hf 15 (by decide) (k0_off85 k) (by rw [k0_off85_eq]; rfl) (by rw [k0_off85_eq]; rfl) (k0_off85_inb k) _ (Checks.row3_val_1 k) _ Checks.col_val_112 _ _) _ ?_
      refine part_cons5 d L (8 * k.val) 14 (by decide) hlo (OutAt d L m hu ht 1) f (k0_off84 k) (by rw [k0_off84_eq]; rfl) (by rw [k0_off84_eq]; rfl) (k0_off84_inb k) _ (pay_ok5 d L m hu ht b1' b3' hfb.1 hfb.2 k f hf 14 (by decide) (k0_off84 k) (by rw [k0_off84_eq]; rfl) (by rw [k0_off84_eq]; rfl) (k0_off84_inb k) _ (Checks.row3_val_1 k) _ Checks.col_val_96 _ _) _ ?_
      refine part_cons5 d L (8 * k.val) 13 (by decide) hlo (OutAt d L m hu ht 1) f (k0_off83 k) (by rw [k0_off83_eq]; rfl) (by rw [k0_off83_eq]; rfl) (k0_off83_inb k) _ (pay_ok5 d L m hu ht b1' b3' hfb.1 hfb.2 k f hf 13 (by decide) (k0_off83 k) (by rw [k0_off83_eq]; rfl) (by rw [k0_off83_eq]; rfl) (k0_off83_inb k) _ (Checks.row3_val_1 k) _ Checks.col_val_80 _ _) _ ?_
      refine part_cons5 d L (8 * k.val) 12 (by decide) hlo (OutAt d L m hu ht 1) f (k0_off82 k) (by rw [k0_off82_eq]; rfl) (by rw [k0_off82_eq]; rfl) (k0_off82_inb k) _ (pay_ok5 d L m hu ht b1' b3' hfb.1 hfb.2 k f hf 12 (by decide) (k0_off82 k) (by rw [k0_off82_eq]; rfl) (by rw [k0_off82_eq]; rfl) (k0_off82_inb k) _ (Checks.row3_val_1 k) _ Checks.col_val_64 _ _) _ ?_
      refine part_cons5 d L (8 * k.val) 11 (by decide) hlo (OutAt d L m hu ht 1) f (k0_off81 k) (by rw [k0_off81_eq]; rfl) (by rw [k0_off81_eq]; rfl) (k0_off81_inb k) _ (pay_ok5 d L m hu ht b1' b3' hfb.1 hfb.2 k f hf 11 (by decide) (k0_off81 k) (by rw [k0_off81_eq]; rfl) (by rw [k0_off81_eq]; rfl) (k0_off81_inb k) _ (Checks.row3_val_1 k) _ Checks.col_val_48 _ _) _ ?_
      refine part_cons5 d L (8 * k.val) 10 (by decide) hlo (OutAt d L m hu ht 1) f (k0_off80 k) (by rw [k0_off80_eq]; rfl) (by rw [k0_off80_eq]; rfl) (k0_off80_inb k) _ (pay_ok5 d L m hu ht b1' b3' hfb.1 hfb.2 k f hf 10 (by decide) (k0_off80 k) (by rw [k0_off80_eq]; rfl) (by rw [k0_off80_eq]; rfl) (k0_off80_inb k) _ (Checks.row3_val_1 k) _ Checks.col_val_32 _ _) _ ?_
      refine part_cons5 d L (8 * k.val) 9 (by decide) hlo (OutAt d L m hu ht 1) f (k0_off79 k) (by rw [k0_off79_eq]; rfl) (by rw [k0_off79_eq]; rfl) (k0_off79_inb k) _ (pay_ok5 d L m hu ht b1' b3' hfb.1 hfb.2 k f hf 9 (by decide) (k0_off79 k) (by rw [k0_off79_eq]; rfl) (by rw [k0_off79_eq]; rfl) (k0_off79_inb k) _ (Checks.row3_val_1 k) _ Checks.col_val_16 _ _) _ ?_
      refine part_cons5 d L (8 * k.val) 8 (by decide) hlo (OutAt d L m hu ht 1) f (k0_off78 k) (by rw [k0_off78_eq]; rfl) (by rw [k0_off78_eq]; rfl) (k0_off78_inb k) _ (pay_ok5 d L m hu ht b1' b3' hfb.1 hfb.2 k f hf 8 (by decide) (k0_off78 k) (by rw [k0_off78_eq]; rfl) (by rw [k0_off78_eq]; rfl) (k0_off78_inb k) _ (Checks.row3_val_1 k) _ Checks.col_val_0 _ _) _ ?_
      refine part_cons5 d L (8 * k.val) 7 (by decide) hlo (OutAt d L m hu ht 1) f (k0_off77 k) (by rw [k0_off77_eq]; rfl) (by rw [k0_off77_eq]; rfl) (k0_off77_inb k) _ (pay_ok5 d L m hu ht b1' b3' hfb.1 hfb.2 k f hf 7 (by decide) (k0_off77 k) (by rw [k0_off77_eq]; rfl) (by rw [k0_off77_eq]; rfl) (k0_off77_inb k) _ (Checks.row3_val_0 k) _ Checks.col_val_112 _ _) _ ?_
      refine part_cons5 d L (8 * k.val) 6 (by decide) hlo (OutAt d L m hu ht 1) f (k0_off76 k) (by rw [k0_off76_eq]; rfl) (by rw [k0_off76_eq]; rfl) (k0_off76_inb k) _ (pay_ok5 d L m hu ht b1' b3' hfb.1 hfb.2 k f hf 6 (by decide) (k0_off76 k) (by rw [k0_off76_eq]; rfl) (by rw [k0_off76_eq]; rfl) (k0_off76_inb k) _ (Checks.row3_val_0 k) _ Checks.col_val_96 _ _) _ ?_
      refine part_cons5 d L (8 * k.val) 5 (by decide) hlo (OutAt d L m hu ht 1) f (k0_off75 k) (by rw [k0_off75_eq]; rfl) (by rw [k0_off75_eq]; rfl) (k0_off75_inb k) _ (pay_ok5 d L m hu ht b1' b3' hfb.1 hfb.2 k f hf 5 (by decide) (k0_off75 k) (by rw [k0_off75_eq]; rfl) (by rw [k0_off75_eq]; rfl) (k0_off75_inb k) _ (Checks.row3_val_0 k) _ Checks.col_val_80 _ _) _ ?_
      refine part_cons5 d L (8 * k.val) 4 (by decide) hlo (OutAt d L m hu ht 1) f (k0_off74 k) (by rw [k0_off74_eq]; rfl) (by rw [k0_off74_eq]; rfl) (k0_off74_inb k) _ (pay_ok5 d L m hu ht b1' b3' hfb.1 hfb.2 k f hf 4 (by decide) (k0_off74 k) (by rw [k0_off74_eq]; rfl) (by rw [k0_off74_eq]; rfl) (k0_off74_inb k) _ (Checks.row3_val_0 k) _ Checks.col_val_64 _ _) _ ?_
      refine part_cons5 d L (8 * k.val) 3 (by decide) hlo (OutAt d L m hu ht 1) f (k0_off73 k) (by rw [k0_off73_eq]; rfl) (by rw [k0_off73_eq]; rfl) (k0_off73_inb k) _ (pay_ok5 d L m hu ht b1' b3' hfb.1 hfb.2 k f hf 3 (by decide) (k0_off73 k) (by rw [k0_off73_eq]; rfl) (by rw [k0_off73_eq]; rfl) (k0_off73_inb k) _ (Checks.row3_val_0 k) _ Checks.col_val_48 _ _) _ ?_
      refine part_cons5 d L (8 * k.val) 2 (by decide) hlo (OutAt d L m hu ht 1) f (k0_off72 k) (by rw [k0_off72_eq]; rfl) (by rw [k0_off72_eq]; rfl) (k0_off72_inb k) _ (pay_ok5 d L m hu ht b1' b3' hfb.1 hfb.2 k f hf 2 (by decide) (k0_off72 k) (by rw [k0_off72_eq]; rfl) (by rw [k0_off72_eq]; rfl) (k0_off72_inb k) _ (Checks.row3_val_0 k) _ Checks.col_val_32 _ _) _ ?_
      refine part_cons5 d L (8 * k.val) 1 (by decide) hlo (OutAt d L m hu ht 1) f (k0_off71 k) (by rw [k0_off71_eq]; rfl) (by rw [k0_off71_eq]; rfl) (k0_off71_inb k) _ (pay_ok5 d L m hu ht b1' b3' hfb.1 hfb.2 k f hf 1 (by decide) (k0_off71 k) (by rw [k0_off71_eq]; rfl) (by rw [k0_off71_eq]; rfl) (k0_off71_inb k) _ (Checks.row3_val_0 k) _ Checks.col_val_16 _ _) _ ?_
      refine part_cons5 d L (8 * k.val) 0 (by decide) hlo (OutAt d L m hu ht 1) f (k0_off70 k) (by rw [k0_off70_eq]; rfl) (by rw [k0_off70_eq]; rfl) (k0_off70_inb k) _ (pay_ok5 d L m hu ht b1' b3' hfb.1 hfb.2 k f hf 0 (by decide) (k0_off70 k) (by rw [k0_off70_eq]; rfl) (by rw [k0_off70_eq]; rfl) (k0_off70_inb k) _ (Checks.row3_val_0 k) _ Checks.col_val_0 _ _) _ ?_
      exact part_zero _ _ _
  · unfold inv3
    iexists _, _
    isplitr
    · ipureintro; exact hfb2
    isplitl [Hs1]; · iexact Hs1
    isplitl [Hs3]; · iexact Hs3
    iexists _
    isplitr
    · ipureintro; sl_unfold_run_names; exact low3_zero d L m hu ht _ (in_entry5 d L m f5)
    · iexact Hs5
  iintro %_ HI
  unfold inv3
  icases HI with ⟨%c1, %c3, %hfc, Hs1, Hs3, %g5, %hg5, Hs5⟩
  sl_exec
  sl_step
  have h32a : Scf.trips k0_t2_loop.lb k0_t2_loop.ub k0_t2_loop.st = 32 := by decide +kernel
  have h32b : Scf.trips k0_t3_loop.lb k0_t3_loop.ub k0_t3_loop.st = 32 := by decide +kernel
  rw [h32a] at hg4
  rw [h32b] at hg5
  sl_unfold_run_names
  ihave Ho0 := (Entails.of_eq ((pts_o0 (F := F) d L _).trans (pointsTo_congr (out_block0' d L m hu ht fo0 g4 hg4 (ReadAs.same.apply (View.read (Elt F) (Memref.whole cc0_scratch4).view g4)) (fun _ => rfl))))) $$ Ho0
  ihave Ho1 := (Entails.of_eq ((pts_o1 (F := F) d L _).trans (pointsTo_congr (out_block1' d L m hu ht fo1 g5 hg5 (ReadAs.same.apply (View.read (Elt F) (Memref.whole cc0_scratch5).view g5)) (fun _ => rfl))))) $$ Ho1
  isplitl [Hx0 Hx1 Hu Ht Hd Ho0 Ho1]
  · isplitl [Hx0 Hx1 Hu Ht Hd]
    · isplitl [Hx0]; · iapply (Entails.of_eq (pts_x0 (F := F) d L _)); iexact Hx0
      isplitl [Hx1]; · iapply (Entails.of_eq (pts_x1 (F := F) d L _)); iexact Hx1
      isplitl [Hu]; · iapply (Entails.of_eq (pts_u (F := F) d L _)); iexact Hu
      isplitl [Ht]; · iapply (Entails.of_eq (pts_t (F := F) d L q _)); iexact Ht
      iapply (Entails.of_eq (pts_d (F := F) d L q _)); iexact Hd
    isplitl [Ho0]; · iexact Ho0
    iexact Ho1
  isplitl [Hs0 Hs1 Hs2 Hs3 Hs4 Hs5 Hbufs]
  ·
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexact Hbufs
  isplitl [Hc6 Hc7 Hc8 Hc9 Hc10 Hc11 Hc12 Hsems]
  ·
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    iexact Hsems
  iexists _
  isplitr
  rotate_left
  · iexact HO
  · ipureintro
    intro p hp
    simp only [Finset.mem_insert] at hp
    rcases hp with rfl | rfl | rfl | rfl | rfl | rfl | rfl | hp
    all_goals first | exact .inr rfl | exact .inl hp

end Cert.KernelIdeal.Body

end
-- ==== Proof.lean ====
/- The proof of `Cert.Claim`.

   Both printed kernels run 32 tasks, one per vector subcore; each task leaves in its 512 rows of the result the input
   rows plus the delta rows its user indices select through the index table (`Cert.Spec.outFn`). The launch theorem turns
   the task's proof into the run of the whole device, with the result array the specified function of the arguments and
   the arguments unchanged: that run is each kernel's frame, and at the ideal instance the kernel's half of the
   algebraic claim. The reference's run ends with the composed term of its operations, which under the precondition's
   range facts is the same specified function of its own arguments; the arguments agree, so the results do. -/
import proofs.«202775_g10411000725526_cont_sun_m_1212_8_alg».proof.Defs
import proofs.«202775_g10411000725526_cont_sun_m_1212_8_alg».proof.Proof.Gen.Kernel
import proofs.«202775_g10411000725526_cont_sun_m_1212_8_alg».proof.Proof.SkeletonKernelP
import proofs.«202775_g10411000725526_cont_sun_m_1212_8_alg».proof.Proof.Gen.KernelIdeal
import proofs.«202775_g10411000725526_cont_sun_m_1212_8_alg».proof.Proof.SkeletonKernelIdealP
import proofs.«202775_g10411000725526_cont_sun_m_1212_8_alg».proof.Proof.Gen.ReferenceIdeal
import proofs.«202775_g10411000725526_cont_sun_m_1212_8_alg».proof.Proof.Gen.Pre_input_domain
import Idealize.ShloMosaic.Adequacy
import Idealize.ShloMosaic.Init
import proofs.«202775_g10411000725526_cont_sun_m_1212_8_alg».proof.Proof.FrameKernel
import proofs.«202775_g10411000725526_cont_sun_m_1212_8_alg».proof.Proof.FrameKernelIdeal
import proofs.«202775_g10411000725526_cont_sun_m_1212_8_alg».proof.Proof.TileOblKernel
import proofs.«202775_g10411000725526_cont_sun_m_1212_8_alg».proof.Proof.TileOblKernelIdeal
import proofs.«202775_g10411000725526_cont_sun_m_1212_8_alg».proof.Proof.RefFrame
import proofs.«202775_g10411000725526_cont_sun_m_1212_8_alg».proof.Proof.RefValue
import proofs.«202775_g10411000725526_cont_sun_m_1212_8_alg».proof.Proof.PreRanges
import proofs.«202775_g10411000725526_cont_sun_m_1212_8_alg».proof.Proof.BodyKernel
import proofs.«202775_g10411000725526_cont_sun_m_1212_8_alg».proof.Proof.BodyKernelIdeal

noncomputable section

namespace Cert.Proof

open Idealize.ShloMosaic Idealize.SL.Sem

/-- The precondition gives the two range facts, of the word-level program's memory -/
theorem rangesK (m : (ℓ : Loc Cert.Kernel.nD Cert.Kernel.τ Cert.Kernel.sig) → Buf (Elt Bits) ℓ) (hpre : Cert.Pre_Kernel m) :
    (∀ d, Cert.Spec.UOk (m (Cert.Kernel.Iface.uLoc d))) ∧ (∀ d, Cert.Spec.TOk (m (Cert.Kernel.Iface.tLoc d))) :=
  ⟨fun d => (Cert.PreRanges.ranges_of_pre _ _ _ _ (hpre d)).1, fun d => (Cert.PreRanges.ranges_of_pre _ _ _ _ (hpre d)).2⟩

/-- and of the idealized program's. -/
theorem rangesKI (m : (ℓ : Loc Cert.KernelIdeal.nD Cert.KernelIdeal.τ Cert.KernelIdeal.sig) → Buf (Elt Ideal) ℓ) (hpre : Cert.Pre_KernelIdeal m) :
    (∀ d, Cert.Spec.UOk (m (Cert.KernelIdeal.Iface.uLoc d))) ∧ (∀ d, Cert.Spec.TOk (m (Cert.KernelIdeal.Iface.tLoc d))) :=
  ⟨fun d => (Cert.PreRanges.ranges_of_pre _ _ _ _ (hpre d)).1, fun d => (Cert.PreRanges.ranges_of_pre _ _ _ _ (hpre d)).2⟩

/-- The tasks' obligation of each program's launch, from its body's proof. -/
theorem htileK (m : (ℓ : Loc Cert.Kernel.nD Cert.Kernel.τ Cert.Kernel.sig) → Buf (Elt Bits) ℓ)
    (hu : ∀ d, Cert.Spec.UOk (m (Cert.Kernel.Iface.uLoc d))) (ht : ∀ d, Cert.Spec.TOk (m (Cert.Kernel.Iface.tLoc d))) :
    (Cert.Kernel.Iface.K (F := Bits)).TileObl (Cert.Kernel.Iface.D (F := Bits)) Cert.Kernel.Iface.𝒱 (Cert.Kernel.Iface.P m hu ht) Cert.Kernel.Iface.v₀ 0 :=
  Cert.Kernel.Body.tileObl_of_body m hu ht fun d L q O W hO => Cert.Kernel.Body.tile_body d L m hu ht Cert.Kernel.Launch.facts q O W hO

theorem htileKI (m : (ℓ : Loc Cert.KernelIdeal.nD Cert.KernelIdeal.τ Cert.KernelIdeal.sig) → Buf (Elt Ideal) ℓ)
    (hu : ∀ d, Cert.Spec.UOk (m (Cert.KernelIdeal.Iface.uLoc d))) (ht : ∀ d, Cert.Spec.TOk (m (Cert.KernelIdeal.Iface.tLoc d))) :
    (Cert.KernelIdeal.Iface.K (F := Ideal)).TileObl (Cert.KernelIdeal.Iface.D (F := Ideal)) Cert.KernelIdeal.Iface.𝒱 (Cert.KernelIdeal.Iface.P m hu ht) Cert.KernelIdeal.Iface.v₀ 0 :=
  Cert.KernelIdeal.Body.tileObl_of_body m hu ht fun d L q O W hO => Cert.KernelIdeal.Body.tile_body d L m hu ht Cert.KernelIdeal.Launch.facts q O W hO

/-- The two idealized programs agree: the kernel leaves the specified function of its arguments, the reference's term is
    that function of ITS arguments, and the arguments agree. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.KernelIdeal.Iface.G m (rangesKI m hpre).1 (rangesKI m hpre).2 c, ?_, ?_⟩
  · exact Cert.KernelIdeal.Launch.algebraic_kernel_of_tile rangesKI htileKI m g hpre
  · have key : ∀ c : Dev Cert.ReferenceIdeal.nD,
        Cert.ReferenceIdeal.RefRun.refOut
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
          = Cert.KernelIdeal.Iface.G m (rangesKI m hpre).1 (rangesKI m hpre).2 c := by
      intro c
      obtain ⟨e0, e1, e2, e3⟩ := hagree c
      rw [e0, e1, e2, e3]
      exact Cert.ReferenceIdeal.RefValue.refOut_eq _ _ _ _ ((rangesKI m hpre).1 c) ((rangesKI m hpre).2 c)
    exact (θ_run (Cert.ReferenceIdeal.defs (F := Ideal)) _ _).mono (fun _ h c => ⟨(h c).1.trans (key c), (h c).2⟩)
      (Cert.ReferenceIdeal.RefRun.run m' g')

theorem claim : Cert.Claim :=
  ⟨Cert.Kernel.Gen.facts, Cert.KernelIdeal.Gen.facts, Cert.ReferenceIdeal.Gen.facts, Cert.Pre_input_domain.Gen.facts,
    Cert.Kernel.Launch.frame_of_tile rangesK htileK,
    Cert.KernelIdeal.Launch.frame_of_tile rangesKI htileKI,
    Cert.ReferenceIdeal.RefFrame.frame_ri,
    trivial,
    algebraic⟩

end Cert.Proof

end
